-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v277)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v277) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x32x32 : Shape := ⟨4, ![512, 16, 32, 32]⟩
abbrev S16x16x1x1 : Shape := ⟨4, ![16, 16, 1, 1]⟩
abbrev S16 : Shape := ⟨1, ![16]⟩
abbrev S16x16x3x3 : Shape := ⟨4, ![16, 16, 3, 3]⟩
abbrev S4x16 : Shape := ⟨2, ![4, 16]⟩
abbrev S4 : Shape := ⟨1, ![4]⟩
abbrev S16x4 : Shape := ⟨2, ![16, 4]⟩
abbrev S_ : Shape := ⟨0, ![]⟩

class Facts : Prop where
  bcast_S_S512x16x32x32 : S_.BroadcastsInDim S512x16x32x32 (![] : Fin 0 → Fin S512x16x32x32.rank)
  reducesTo_S512x16x32x32_S_d0_1_2_3 : S512x16x32x32.ReducesTo [0, 1, 2, 3] S_
  h_S_ : 0 < S_.numel
  bcast_S_S16x16x1x1 : S_.BroadcastsInDim S16x16x1x1 (![] : Fin 0 → Fin S16x16x1x1.rank)
  reducesTo_S16x16x1x1_S_d0_1_2_3 : S16x16x1x1.ReducesTo [0, 1, 2, 3] S_
  bcast_S_S16 : S_.BroadcastsInDim S16 (![] : Fin 0 → Fin S16.rank)
  reducesTo_S16_S_d0 : S16.ReducesTo [0] S_
  bcast_S_S16x16x3x3 : S_.BroadcastsInDim S16x16x3x3 (![] : Fin 0 → Fin S16x16x3x3.rank)
  reducesTo_S16x16x3x3_S_d0_1_2_3 : S16x16x3x3.ReducesTo [0, 1, 2, 3] S_
  bcast_S_S4x16 : S_.BroadcastsInDim S4x16 (![] : Fin 0 → Fin S4x16.rank)
  reducesTo_S4x16_S_d0_1 : S4x16.ReducesTo [0, 1] S_
  bcast_S_S4 : S_.BroadcastsInDim S4 (![] : Fin 0 → Fin S4.rank)
  reducesTo_S4_S_d0 : S4.ReducesTo [0] S_
  bcast_S_S16x4 : S_.BroadcastsInDim S16x4 (![] : Fin 0 → Fin S16x4.rank)
  reducesTo_S16x4_S_d0_1 : S16x4.ReducesTo [0, 1] S_

variable [Facts]

def fn_part4 {F : FTy → Type} [FloatOps F] (main_arg14 : FVec F S16 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg11 : FVec F S16x4 .f32) (main_arg12 : FVec F S16 .f32) (main_arg13 : FVec F S16 .f32) (main_arg14 : FVec F S16 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S16x4 .f32 := Host.absf main_arg11
  let main_cst_20 : FVec F S_ .f32 := constant S_ .f32 0x7F800000#32
  let main_v55 : FVec F S16x4 .f32 := broadcastInDim S16x4 ![] bcast_S_S16x4 main_cst_20
  let main_v56 : IVec S16x4 1 := cmpf .olt main_v54 main_v55
  let main_c_21 : IVec S_ 1 := constantI S_ 1 1#1
  let main_v57 : IVec S_ 1 := (fun x v => Host.reduce IntOp.andi x v reducesTo_S16x4_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_v63 main_v67

def fn_part2 {F : FTy → Type} [FloatOps F] (main_arg7 : FVec F S16x16x3x3 .f32) (main_arg8 : FVec F S16 .f32) (main_arg9 : FVec F S4x16 .f32) (main_arg10 : FVec F S4 .f32) (main_arg11 : FVec F S16x4 .f32) (main_arg12 : FVec F S16 .f32) (main_arg13 : FVec F S16 .f32) (main_arg14 : FVec F S16 .f32) (main_v33 : IVec S_ 1) : IVec S_ 1 :=
  let main_v34 : FVec F S16x16x3x3 .f32 := Host.absf main_arg7
  let main_cst_12 : FVec F S_ .f32 := constant S_ .f32 0x7F800000#32
  let main_v35 : FVec F S16x16x3x3 .f32 := broadcastInDim S16x16x3x3 ![] bcast_S_S16x16x3x3 main_cst_12
  let main_v36 : IVec S16x16x3x3 1 := cmpf .olt main_v34 main_v35
  let main_c_13 : IVec S_ 1 := constantI S_ 1 1#1
  let main_v37 : IVec S_ 1 := (fun x v => Host.reduce IntOp.andi x v reducesTo_S16x16x3x3_S_d0_1_2_3 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S4x16 .f32 := Host.absf main_arg9
  let main_cst_16 : FVec F S_ .f32 := constant S_ .f32 0x7F800000#32
  let main_v45 : FVec F S4x16 .f32 := broadcastInDim S4x16 ![] bcast_S_S4x16 main_cst_16
  let main_v46 : IVec S4x16 1 := cmpf .olt main_v44 main_v45
  let main_c_17 : IVec S_ 1 := constantI S_ 1 1#1
  let main_v47 : IVec S_ 1 := (fun x v => Host.reduce IntOp.andi x v reducesTo_S4x16_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_v48 main_v49 main_v50

def fn_part1 {F : FTy → Type} [FloatOps F] (main_arg4 : FVec F S16 .f32) (main_arg5 : FVec F S16x16x3x3 .f32) (main_arg6 : FVec F S16 .f32) (main_arg7 : FVec F S16x16x3x3 .f32) (main_arg8 : FVec F S16 .f32) (main_arg9 : FVec F S4x16 .f32) (main_arg10 : FVec F S4 .f32) (main_arg11 : FVec F S16x4 .f32) (main_arg12 : FVec F S16 .f32) (main_arg13 : FVec F S16 .f32) (main_arg14 : FVec F S16 .f32) (main_v13 : IVec S_ 1) (main_v16 : IVec S16x16x3x3 1) : IVec S_ 1 :=
  let main_c_5 : IVec S_ 1 := constantI S_ 1 1#1
  let main_v17 : IVec S_ 1 := (fun x v => Host.reduce IntOp.andi x v reducesTo_S16x16x3x3_S_d0_1_2_3 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16x3x3 .f32 := Host.absf main_arg5
  let main_cst_8 : FVec F S_ .f32 := constant S_ .f32 0x7F800000#32
  let main_v25 : FVec F S16x16x3x3 .f32 := broadcastInDim S16x16x3x3 ![] bcast_S_S16x16x3x3 main_cst_8
  let main_v26 : IVec S16x16x3x3 1 := cmpf .olt main_v24 main_v25
  let main_c_9 : IVec S_ 1 := constantI S_ 1 1#1
  let main_v27 : IVec S_ 1 := (fun x v => Host.reduce IntOp.andi x v reducesTo_S16x16x3x3_S_d0_1_2_3 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S512x16x32x32 .f32) (main_arg1 : FVec F S16x16x1x1 .f32) (main_arg2 : FVec F S16 .f32) (main_arg3 : FVec F S16x16x3x3 .f32) (main_arg4 : FVec F S16 .f32) (main_arg5 : FVec F S16x16x3x3 .f32) (main_arg6 : FVec F S16 .f32) (main_arg7 : FVec F S16x16x3x3 .f32) (main_arg8 : FVec F S16 .f32) (main_arg9 : FVec F S4x16 .f32) (main_arg10 : FVec F S4 .f32) (main_arg11 : FVec F S16x4 .f32) (main_arg12 : FVec F S16 .f32) (main_arg13 : FVec F S16 .f32) (main_arg14 : FVec F S16 .f32) : IVec S_ 1 :=
  let main_v0 : FVec F S512x16x32x32 .f32 := Host.absf main_arg0
  let main_cst : FVec F S_ .f32 := constant S_ .f32 0x7F800000#32
  let main_v1 : FVec F S512x16x32x32 .f32 := broadcastInDim S512x16x32x32 ![] bcast_S_S512x16x32x32 main_cst
  let main_v2 : IVec S512x16x32x32 1 := cmpf .olt main_v0 main_v1
  let main_c : IVec S_ 1 := constantI S_ 1 1#1
  let main_v3 : IVec S_ 1 := (fun x v => Host.reduce IntOp.andi x v reducesTo_S512x16x32x32_S_d0_1_2_3 h_S_) main_v2 main_c
  let main_v4 : FVec F S16x16x1x1 .f32 := Host.absf main_arg1
  let main_cst_0 : FVec F S_ .f32 := constant S_ .f32 0x7F800000#32
  let main_v5 : FVec F S16x16x1x1 .f32 := broadcastInDim S16x16x1x1 ![] bcast_S_S16x16x1x1 main_cst_0
  let main_v6 : IVec S16x16x1x1 1 := cmpf .olt main_v4 main_v5
  let main_c_1 : IVec S_ 1 := constantI S_ 1 1#1
  let main_v7 : IVec S_ 1 := (fun x v => Host.reduce IntOp.andi x v reducesTo_S16x16x1x1_S_d0_1_2_3 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16x3x3 .f32 := Host.absf main_arg3
  let main_cst_4 : FVec F S_ .f32 := constant S_ .f32 0x7F800000#32
  let main_v15 : FVec F S16x16x3x3 .f32 := broadcastInDim S16x16x3x3 ![] bcast_S_S16x16x3x3 main_cst_4
  let main_v16 : IVec S16x16x3x3 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512x16x32x32 : Shape := ⟨4, ![512, 16, 32, 32]⟩
abbrev S16x16x1x1 : Shape := ⟨4, ![16, 16, 1, 1]⟩
abbrev S16 : Shape := ⟨1, ![16]⟩
abbrev S16x16x3x3 : Shape := ⟨4, ![16, 16, 3, 3]⟩
abbrev S4x16 : Shape := ⟨2, ![4, 16]⟩
abbrev S4 : Shape := ⟨1, ![4]⟩
abbrev S16x4 : Shape := ⟨2, ![16, 4]⟩
abbrev S32x32 : Shape := ⟨2, ![32, 32]⟩
abbrev S1x32x32x1x1 : Shape := ⟨5, ![1, 32, 32, 1, 1]⟩
abbrev S_ : Shape := ⟨0, ![]⟩
abbrev S7x9x16x16 : Shape := ⟨4, ![7, 9, 16, 16]⟩
abbrev S16x16 : Shape := ⟨2, ![16, 16]⟩
abbrev S1 : Shape := ⟨1, ![1]⟩
abbrev S2 : Shape := ⟨1, ![2]⟩
abbrev S32x32x1 : Shape := ⟨3, ![32, 32, 1]⟩
abbrev S7x32x32x16x16 : Shape := ⟨5, ![7, 32, 32, 16, 16]⟩
abbrev S7x32x16x32x16 : Shape := ⟨5, ![7, 32, 16, 32, 16]⟩
abbrev S7x512x512 : Shape := ⟨3, ![7, 512, 512]⟩
abbrev S1x16 : Shape := ⟨2, ![1, 16]⟩
abbrev S32x16 : Shape := ⟨2, ![32, 16]⟩
abbrev S512 : Shape := ⟨1, ![512]⟩
abbrev S1x512 : Shape := ⟨2, ![1, 512]⟩
abbrev S512x32x32x16 : Shape := ⟨4, ![512, 32, 32, 16]⟩
abbrev S512x40x32x16 : Shape := ⟨4, ![512, 40, 32, 16]⟩
abbrev S512x40x512 : Shape := ⟨3, ![512, 40, 512]⟩
abbrev S512x32x512 : Shape := ⟨3, ![512, 32, 512]⟩
abbrev S512x2x512 : Shape := ⟨3, ![512, 2, 512]⟩
abbrev S8x40x512 : Shape := ⟨3, ![8, 40, 512]⟩
abbrev S8x32x512 : Shape := ⟨3, ![8, 32, 512]⟩
abbrev S8x2x512 : Shape := ⟨3, ![8, 2, 512]⟩
abbrev S256x512 : Shape := ⟨2, ![256, 512]⟩
abbrev S256x128 : Shape := ⟨2, ![256, 128]⟩
abbrev S256x256 : Shape := ⟨2, ![256, 256]⟩
abbrev S1x256x128 : Shape := ⟨3, ![1, 256, 128]⟩
abbrev S256x384 : Shape := ⟨2, ![256, 384]⟩
abbrev S1x384x128 : Shape := ⟨3, ![1, 384, 128]⟩
abbrev S384x128 : Shape := ⟨2, ![384, 128]⟩
abbrev S8x512 : Shape := ⟨2, ![8, 512]⟩
abbrev S8x1x512 : Shape := ⟨3, ![8, 1, 512]⟩
abbrev S512x1x512 : Shape := ⟨3, ![512, 1, 512]⟩
abbrev S512x512 : Shape := ⟨2, ![512, 512]⟩
abbrev S512x32x16 : Shape := ⟨3, ![512, 32, 16]⟩
abbrev S512x16 : Shape := ⟨2, ![512, 16]⟩
abbrev S512x4 : Shape := ⟨2, ![512, 4]⟩
abbrev S1x4 : Shape := ⟨2, ![1, 4]⟩
abbrev S1x512x1x16 : Shape := ⟨4, ![1, 512, 1, 16]⟩
abbrev S1x512x32x16 : Shape := ⟨4, ![1, 512, 32, 16]⟩
abbrev S1x1x512 : Shape := ⟨3, ![1, 1, 512]⟩
abbrev S16x32x512 : Shape := ⟨3, ![16, 32, 512]⟩
abbrev S16x1x512 : Shape := ⟨3, ![16, 1, 512]⟩

abbrev nBuf : Space → Nat
  | .hbm => 370
  | .vmem => 15
  | .smem => 0
  | _ => 0

abbrev hbmTy0_0 (i : Nat) : BufTy := match i % 128 with
  | 0 => ⟨S512x16x32x32, .f32⟩
  | 1 => ⟨S16x16x1x1, .f32⟩
  | 2 => ⟨S16, .f32⟩
  | 3 => ⟨S16x16x3x3, .f32⟩
  | 4 => ⟨S16, .f32⟩
  | 5 => ⟨S16x16x3x3, .f32⟩
  | 6 => ⟨S16, .f32⟩
  | 7 => ⟨S16x16x3x3, .f32⟩
  | 8 => ⟨S16, .f32⟩
  | 9 => ⟨S4x16, .f32⟩
  | 10 => ⟨S4, .f32⟩
  | 11 => ⟨S16x4, .f32⟩
  | 12 => ⟨S16, .f32⟩
  | 13 => ⟨S16, .f32⟩
  | 14 => ⟨S16, .f32⟩
  | 15 => ⟨S32x32, .i32⟩
  | 16 => ⟨S32x32, .i1⟩
  | 17 => ⟨S32x32, .f32⟩
  | 18 => ⟨S1x32x32x1x1, .f32⟩
  | 19 => ⟨S_, .f32⟩
  | 20 => ⟨S7x9x16x16, .f32⟩
  | 21 => ⟨S16x16, .f32⟩
  | 22 => ⟨S16x16, .f32⟩
  | 23 => ⟨S_, .i32⟩
  | 24 => ⟨S1, .i32⟩
  | 25 => ⟨S_, .i32⟩
  | 26 => ⟨S1, .i32⟩
  | 27 => ⟨S2, .i32⟩
  | 28 => ⟨S7x9x16x16, .f32⟩
  | 29 => ⟨S16x16x1x1, .f32⟩
  | 30 => ⟨S16x16, .f32⟩
  | 31 => ⟨S16x16, .f32⟩
  | 32 => ⟨S_, .i32⟩
  | 33 => ⟨S1, .i32⟩
  | 34 => ⟨S_, .i32⟩
  | 35 => ⟨S1, .i32⟩
  | 36 => ⟨S2, .i32⟩
  | 37 => ⟨S7x9x16x16, .f32⟩
  | 38 => ⟨S16x16x1x1, .f32⟩
  | 39 => ⟨S16x16, .f32⟩
  | 40 => ⟨S16x16, .f32⟩
  | 41 => ⟨S_, .i32⟩
  | 42 => ⟨S1, .i32⟩
  | 43 => ⟨S_, .i32⟩
  | 44 => ⟨S1, .i32⟩
  | 45 => ⟨S2, .i32⟩
  | 46 => ⟨S7x9x16x16, .f32⟩
  | 47 => ⟨S16x16x1x1, .f32⟩
  | 48 => ⟨S16x16, .f32⟩
  | 49 => ⟨S16x16, .f32⟩
  | 50 => ⟨S_, .i32⟩
  | 51 => ⟨S1, .i32⟩
  | 52 => ⟨S_, .i32⟩
  | 53 => ⟨S1, .i32⟩
  | 54 => ⟨S2, .i32⟩
  | 55 => ⟨S7x9x16x16, .f32⟩
  | 56 => ⟨S16x16x1x1, .f32⟩
  | 57 => ⟨S16x16, .f32⟩
  | 58 => ⟨S16x16, .f32⟩
  | 59 => ⟨S_, .i32⟩
  | 60 => ⟨S1, .i32⟩
  | 61 => ⟨S_, .i32⟩
  | 62 => ⟨S1, .i32⟩
  | 63 => ⟨S2, .i32⟩
  | 64 => ⟨S7x9x16x16, .f32⟩
  | 65 => ⟨S16x16x1x1, .f32⟩
  | 66 => ⟨S16x16, .f32⟩
  | 67 => ⟨S16x16, .f32⟩
  | 68 => ⟨S_, .i32⟩
  | 69 => ⟨S1, .i32⟩
  | 70 => ⟨S_, .i32⟩
  | 71 => ⟨S1, .i32⟩
  | 72 => ⟨S2, .i32⟩
  | 73 => ⟨S7x9x16x16, .f32⟩
  | 74 => ⟨S16x16x1x1, .f32⟩
  | 75 => ⟨S16x16, .f32⟩
  | 76 => ⟨S16x16, .f32⟩
  | 77 => ⟨S_, .i32⟩
  | 78 => ⟨S1, .i32⟩
  | 79 => ⟨S_, .i32⟩
  | 80 => ⟨S1, .i32⟩
  | 81 => ⟨S2, .i32⟩
  | 82 => ⟨S7x9x16x16, .f32⟩
  | 83 => ⟨S16x16x1x1, .f32⟩
  | 84 => ⟨S16x16, .f32⟩
  | 85 => ⟨S16x16, .f32⟩
  | 86 => ⟨S_, .i32⟩
  | 87 => ⟨S1, .i32⟩
  | 88 => ⟨S_, .i32⟩
  | 89 => ⟨S1, .i32⟩
  | 90 => ⟨S2, .i32⟩
  | 91 => ⟨S7x9x16x16, .f32⟩
  | 92 => ⟨S16x16x1x1, .f32⟩
  | 93 => ⟨S16x16, .f32⟩
  | 94 => ⟨S16x16, .f32⟩
  | 95 => ⟨S_, .i32⟩
  | 96 => ⟨S1, .i32⟩
  | 97 => ⟨S_, .i32⟩
  | 98 => ⟨S1, .i32⟩
  | 99 => ⟨S2, .i32⟩
  | 100 => ⟨S7x9x16x16, .f32⟩
  | 101 => ⟨S16x16x1x1, .f32⟩
  | 102 => ⟨S16x16, .f32⟩
  | 103 => ⟨S16x16, .f32⟩
  | 104 => ⟨S_, .i32⟩
  | 105 => ⟨S1, .i32⟩
  | 106 => ⟨S_, .i32⟩
  | 107 => ⟨S1, .i32⟩
  | 108 => ⟨S2, .i32⟩
  | 109 => ⟨S7x9x16x16, .f32⟩
  | 110 => ⟨S16x16x1x1, .f32⟩
  | 111 => ⟨S16x16, .f32⟩
  | 112 => ⟨S16x16, .f32⟩
  | 113 => ⟨S_, .i32⟩
  | 114 => ⟨S1, .i32⟩
  | 115 => ⟨S_, .i32⟩
  | 116 => ⟨S1, .i32⟩
  | 117 => ⟨S2, .i32⟩
  | 118 => ⟨S7x9x16x16, .f32⟩
  | 119 => ⟨S16x16x1x1, .f32⟩
  | 120 => ⟨S16x16, .f32⟩
  | 121 => ⟨S16x16, .f32⟩
  | 122 => ⟨S_, .i32⟩
  | 123 => ⟨S1, .i32⟩
  | 124 => ⟨S_, .i32⟩
  | 125 => ⟨S1, .i32⟩
  | 126 => ⟨S2, .i32⟩
  | 127 => ⟨S7x9x16x16, .f32⟩
  | _ => ⟨S512x16x32x32, .f32⟩

abbrev hbmTy0_1 (i : Nat) : BufTy := match i % 128 with
  | 0 => ⟨S16x16x1x1, .f32⟩
  | 1 => ⟨S16x16, .f32⟩
  | 2 => ⟨S16x16, .f32⟩
  | 3 => ⟨S_, .i32⟩
  | 4 => ⟨S1, .i32⟩
  | 5 => ⟨S_, .i32⟩
  | 6 => ⟨S1, .i32⟩
  | 7 => ⟨S2, .i32⟩
  | 8 => ⟨S7x9x16x16, .f32⟩
  | 9 => ⟨S16x16x1x1, .f32⟩
  | 10 => ⟨S16x16, .f32⟩
  | 11 => ⟨S16x16, .f32⟩
  | 12 => ⟨S_, .i32⟩
  | 13 => ⟨S1, .i32⟩
  | 14 => ⟨S_, .i32⟩
  | 15 => ⟨S1, .i32⟩
  | 16 => ⟨S2, .i32⟩
  | 17 => ⟨S7x9x16x16, .f32⟩
  | 18 => ⟨S16x16x1x1, .f32⟩
  | 19 => ⟨S16x16, .f32⟩
  | 20 => ⟨S16x16, .f32⟩
  | 21 => ⟨S_, .i32⟩
  | 22 => ⟨S1, .i32⟩
  | 23 => ⟨S_, .i32⟩
  | 24 => ⟨S1, .i32⟩
  | 25 => ⟨S2, .i32⟩
  | 26 => ⟨S7x9x16x16, .f32⟩
  | 27 => ⟨S16x16x1x1, .f32⟩
  | 28 => ⟨S16x16, .f32⟩
  | 29 => ⟨S16x16, .f32⟩
  | 30 => ⟨S_, .i32⟩
  | 31 => ⟨S1, .i32⟩
  | 32 => ⟨S_, .i32⟩
  | 33 => ⟨S1, .i32⟩
  | 34 => ⟨S2, .i32⟩
  | 35 => ⟨S7x9x16x16, .f32⟩
  | 36 => ⟨S16x16x1x1, .f32⟩
  | 37 => ⟨S16x16, .f32⟩
  | 38 => ⟨S16x16, .f32⟩
  | 39 => ⟨S_, .i32⟩
  | 40 => ⟨S1, .i32⟩
  | 41 => ⟨S_, .i32⟩
  | 42 => ⟨S1, .i32⟩
  | 43 => ⟨S2, .i32⟩
  | 44 => ⟨S7x9x16x16, .f32⟩
  | 45 => ⟨S16x16x1x1, .f32⟩
  | 46 => ⟨S16x16, .f32⟩
  | 47 => ⟨S16x16, .f32⟩
  | 48 => ⟨S_, .i32⟩
  | 49 => ⟨S1, .i32⟩
  | 50 => ⟨S_, .i32⟩
  | 51 => ⟨S1, .i32⟩
  | 52 => ⟨S2, .i32⟩
  | 53 => ⟨S7x9x16x16, .f32⟩
  | 54 => ⟨S16x16x1x1, .f32⟩
  | 55 => ⟨S16x16, .f32⟩
  | 56 => ⟨S16x16, .f32⟩
  | 57 => ⟨S_, .i32⟩
  | 58 => ⟨S1, .i32⟩
  | 59 => ⟨S_, .i32⟩
  | 60 => ⟨S1, .i32⟩
  | 61 => ⟨S2, .i32⟩
  | 62 => ⟨S7x9x16x16, .f32⟩
  | 63 => ⟨S16x16x1x1, .f32⟩
  | 64 => ⟨S16x16, .f32⟩
  | 65 => ⟨S16x16, .f32⟩
  | 66 => ⟨S_, .i32⟩
  | 67 => ⟨S1, .i32⟩
  | 68 => ⟨S_, .i32⟩
  | 69 => ⟨S1, .i32⟩
  | 70 => ⟨S2, .i32⟩
  | 71 => ⟨S7x9x16x16, .f32⟩
  | 72 => ⟨S16x16x1x1, .f32⟩
  | 73 => ⟨S16x16, .f32⟩
  | 74 => ⟨S16x16, .f32⟩
  | 75 => ⟨S_, .i32⟩
  | 76 => ⟨S1, .i32⟩
  | 77 => ⟨S_, .i32⟩
  | 78 => ⟨S1, .i32⟩
  | 79 => ⟨S2, .i32⟩
  | 80 => ⟨S7x9x16x16, .f32⟩
  | 81 => ⟨S16x16x1x1, .f32⟩
  | 82 => ⟨S16x16, .f32⟩
  | 83 => ⟨S16x16, .f32⟩
  | 84 => ⟨S_, .i32⟩
  | 85 => ⟨S1, .i32⟩
  | 86 => ⟨S_, .i32⟩
  | 87 => ⟨S1, .i32⟩
  | 88 => ⟨S2, .i32⟩
  | 89 => ⟨S7x9x16x16, .f32⟩
  | 90 => ⟨S16x16x1x1, .f32⟩
  | 91 => ⟨S16x16, .f32⟩
  | 92 => ⟨S16x16, .f32⟩
  | 93 => ⟨S_, .i32⟩
  | 94 => ⟨S1, .i32⟩
  | 95 => ⟨S_, .i32⟩
  | 96 => ⟨S1, .i32⟩
  | 97 => ⟨S2, .i32⟩
  | 98 => ⟨S7x9x16x16, .f32⟩
  | 99 => ⟨S16x16x1x1, .f32⟩
  | 100 => ⟨S16x16, .f32⟩
  | 101 => ⟨S16x16, .f32⟩
  | 102 => ⟨S_, .i32⟩
  | 103 => ⟨S1, .i32⟩
  | 104 => ⟨S_, .i32⟩
  | 105 => ⟨S1, .i32⟩
  | 106 => ⟨S2, .i32⟩
  | 107 => ⟨S7x9x16x16, .f32⟩
  | 108 => ⟨S16x16x1x1, .f32⟩
  | 109 => ⟨S16x16, .f32⟩
  | 110 => ⟨S16x16, .f32⟩
  | 111 => ⟨S_, .i32⟩
  | 112 => ⟨S1, .i32⟩
  | 113 => ⟨S_, .i32⟩
  | 114 => ⟨S1, .i32⟩
  | 115 => ⟨S2, .i32⟩
  | 116 => ⟨S7x9x16x16, .f32⟩
  | 117 => ⟨S16x16x1x1, .f32⟩
  | 118 => ⟨S16x16, .f32⟩
  | 119 => ⟨S16x16, .f32⟩
  | 120 => ⟨S_, .i32⟩
  | 121 => ⟨S1, .i32⟩
  | 122 => ⟨S_, .i32⟩
  | 123 => ⟨S1, .i32⟩
  | 124 => ⟨S2, .i32⟩
  | 125 => ⟨S7x9x16x16, .f32⟩
  | 126 => ⟨S16x16x1x1, .f32⟩
  | 127 => ⟨S16x16, .f32⟩
  | _ => ⟨S512x16x32x32, .f32⟩

abbrev hbmTy0_2 (i : Nat) : BufTy := match i % 128 with
  | 0 => ⟨S16x16, .f32⟩
  | 1 => ⟨S_, .i32⟩
  | 2 => ⟨S1, .i32⟩
  | 3 => ⟨S_, .i32⟩
  | 4 => ⟨S1, .i32⟩
  | 5 => ⟨S2, .i32⟩
  | 6 => ⟨S7x9x16x16, .f32⟩
  | 7 => ⟨S16x16x1x1, .f32⟩
  | 8 => ⟨S16x16, .f32⟩
  | 9 => ⟨S16x16, .f32⟩
  | 10 => ⟨S_, .i32⟩
  | 11 => ⟨S1, .i32⟩
  | 12 => ⟨S_, .i32⟩
  | 13 => ⟨S1, .i32⟩
  | 14 => ⟨S2, .i32⟩
  | 15 => ⟨S7x9x16x16, .f32⟩
  | 16 => ⟨S_, .i32⟩
  | 17 => ⟨S32x32, .i32⟩
  | 18 => ⟨S32x32, .i32⟩
  | 19 => ⟨S32x32, .i32⟩
  | 20 => ⟨S32x32x1, .i32⟩
  | 21 => ⟨S7x32x32x16x16, .f32⟩
  | 22 => ⟨S7x32x32x16x16, .f32⟩
  | 23 => ⟨S7x32x32x16x16, .f32⟩
  | 24 => ⟨S7x32x16x32x16, .f32⟩
  | 25 => ⟨S7x512x512, .f32⟩
  | 26 => ⟨S7x512x512, .bf16⟩
  | 27 => ⟨S16, .f32⟩
  | 28 => ⟨S16, .f32⟩
  | 29 => ⟨S16, .f32⟩
  | 30 => ⟨S1x16, .f32⟩
  | 31 => ⟨S32x16, .f32⟩
  | 32 => ⟨S512, .f32⟩
  | 33 => ⟨S1x512, .f32⟩
  | 34 => ⟨S512x32x32x16, .f32⟩
  | 35 => ⟨S_, .i32⟩
  | 36 => ⟨S_, .f32⟩
  | 37 => ⟨S512x40x32x16, .f32⟩
  | 38 => ⟨S512x40x512, .f32⟩
  | 39 => ⟨S512x32x512, .f32⟩
  | 40 => ⟨S512x2x512, .f32⟩
  | 41 => ⟨S512x1x512, .f32⟩
  | 42 => ⟨S512x512, .f32⟩
  | 43 => ⟨S512x32x16, .f32⟩
  | 44 => ⟨S_, .f32⟩
  | 45 => ⟨S512x16, .f32⟩
  | 46 => ⟨S512x1x512, .f32⟩
  | 47 => ⟨S512x512, .f32⟩
  | 48 => ⟨S512x32x16, .f32⟩
  | 49 => ⟨S_, .f32⟩
  | 50 => ⟨S512x16, .f32⟩
  | 51 => ⟨S16x4, .f32⟩
  | 52 => ⟨S_, .f32⟩
  | 53 => ⟨S16x4, .f32⟩
  | 54 => ⟨S16x4, .f32⟩
  | 55 => ⟨S512x4, .f32⟩
  | 56 => ⟨S1x4, .f32⟩
  | 57 => ⟨S512x4, .f32⟩
  | 58 => ⟨S512x4, .f32⟩
  | 59 => ⟨S_, .f32⟩
  | 60 => ⟨S512x4, .f32⟩
  | 61 => ⟨S512x4, .f32⟩
  | 62 => ⟨S4x16, .f32⟩
  | 63 => ⟨S512x16, .f32⟩
  | 64 => ⟨S1x16, .f32⟩
  | 65 => ⟨S512x16, .f32⟩
  | 66 => ⟨S512x16, .f32⟩
  | 67 => ⟨S512x16, .f32⟩
  | 68 => ⟨S512x16, .f32⟩
  | 69 => ⟨S_, .f32⟩
  | 70 => ⟨S512x16, .f32⟩
  | 71 => ⟨S512x16, .f32⟩
  | 72 => ⟨S_, .f32⟩
  | 73 => ⟨S512x16, .f32⟩
  | 74 => ⟨S512x16, .f32⟩
  | 75 => ⟨S512x16, .f32⟩
  | 76 => ⟨S_, .f32⟩
  | 77 => ⟨S16, .f32⟩
  | 78 => ⟨S_, .f32⟩
  | 79 => ⟨S16, .f32⟩
  | 80 => ⟨S16, .f32⟩
  | 81 => ⟨S512x16, .f32⟩
  | 82 => ⟨S512x16, .f32⟩
  | 83 => ⟨S_, .f32⟩
  | 84 => ⟨S16, .f32⟩
  | 85 => ⟨S_, .f32⟩
  | 86 => ⟨S16, .f32⟩
  | 87 => ⟨S16, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S16, .f32⟩
  | 98 => ⟨S1x16, .f32⟩
  | 99 => ⟨S512x16, .f32⟩
  | 100 => ⟨S512x16, .f32⟩
  | 101 => ⟨S1x512x1x16, .f32⟩
  | 102 => ⟨S1x512x32x16, .f32⟩
  | 103 => ⟨S512x512, .f32⟩
  | 104 => ⟨S512x1x512, .f32⟩
  | 105 => ⟨S16, .f32⟩
  | 106 => ⟨S16, .f32⟩
  | 107 => ⟨S1x16, .f32⟩
  | 108 => ⟨S32x16, .f32⟩
  | 109 => ⟨S512, .f32⟩
  | 110 => ⟨S1x1x512, .f32⟩
  | 111 => ⟨S512x32x512, .f32⟩
  | 112 => ⟨S512x32x32x16, .f32⟩
  | 113 => ⟨S512x16x32x32, .f32⟩
  | _ => ⟨S512x16x32x32, .f32⟩

abbrev hbmTy (i : Nat) : BufTy := match i / 128 with
  | 0 => hbmTy0_0 i
  | 1 => hbmTy0_1 i
  | 2 => hbmTy0_2 i
  | _ => ⟨S512x16x32x32, .f32⟩

abbrev bufTy : (tb : Table) → Fin (tcTables nBuf tb) → BufTy
  | .hbm, ⟨i, _⟩ => hbmTy i
  | .local _ .vmem, ⟨0, _⟩ => ⟨S8x40x512, .f32⟩
  | .local _ .vmem, ⟨1, _⟩ => ⟨S8x40x512, .f32⟩
  | .local _ .vmem, ⟨2, _⟩ => ⟨S7x512x512, .bf16⟩
  | .local _ .vmem, ⟨3, _⟩ => ⟨S1x512, .f32⟩
  | .local _ .vmem, ⟨4, _⟩ => ⟨S8x32x512, .f32⟩
  | .local _ .vmem, ⟨5, _⟩ => ⟨S8x32x512, .f32⟩
  | .local _ .vmem, ⟨6, _⟩ => ⟨S8x2x512, .f32⟩
  | .local _ .vmem, ⟨7, _⟩ => ⟨S8x2x512, .f32⟩
  | .local _ .vmem, ⟨8, _⟩ => ⟨S16x32x512, .f32⟩
  | .local _ .vmem, ⟨9, _⟩ => ⟨S16x32x512, .f32⟩
  | .local _ .vmem, ⟨10, _⟩ => ⟨S16x1x512, .f32⟩
  | .local _ .vmem, ⟨11, _⟩ => ⟨S16x1x512, .f32⟩
  | .local _ .vmem, ⟨12, _⟩ => ⟨S1x1x512, .f32⟩
  | .local _ .vmem, ⟨13, _⟩ => ⟨S16x32x512, .f32⟩
  | .local _ .vmem, ⟨14, _⟩ => ⟨S16x32x512, .f32⟩
  | _, _ => ⟨S512x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_cst : Ref sig .tc := ⟨.hbm, 17, rfl⟩
abbrev main_v0 : Ref sig .tc := ⟨.hbm, 18, rfl⟩
abbrev main_cst_1 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_2 : Ref sig .tc := ⟨.hbm, 23, rfl⟩
abbrev main_v4 : Ref sig .tc := ⟨.hbm, 24, rfl⟩
abbrev main_c_3 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_4 : Ref sig .tc := ⟨.hbm, 32, rfl⟩
abbrev main_v11 : Ref sig .tc := ⟨.hbm, 33, rfl⟩
abbrev main_c_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_c_7 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_c_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_10 : Ref sig .tc := ⟨.hbm, 59, rfl⟩
abbrev main_v32 : Ref sig .tc := ⟨.hbm, 60, rfl⟩
abbrev main_c_11 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_12 : Ref sig .tc := ⟨.hbm, 68, rfl⟩
abbrev main_v39 : Ref sig .tc := ⟨.hbm, 69, rfl⟩
abbrev main_c_13 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_14 : Ref sig .tc := ⟨.hbm, 77, rfl⟩
abbrev main_v46 : Ref sig .tc := ⟨.hbm, 78, rfl⟩
abbrev main_c_15 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_16 : Ref sig .tc := ⟨.hbm, 86, rfl⟩
abbrev main_v53 : Ref sig .tc := ⟨.hbm, 87, rfl⟩
abbrev main_c_17 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_18 : Ref sig .tc := ⟨.hbm, 95, rfl⟩
abbrev main_v60 : Ref sig .tc := ⟨.hbm, 96, rfl⟩
abbrev main_c_19 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_20 : Ref sig .tc := ⟨.hbm, 104, rfl⟩
abbrev main_v67 : Ref sig .tc := ⟨.hbm, 105, rfl⟩
abbrev main_c_21 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_22 : Ref sig .tc := ⟨.hbm, 113, rfl⟩
abbrev main_v74 : Ref sig .tc := ⟨.hbm, 114, rfl⟩
abbrev main_c_23 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_24 : Ref sig .tc := ⟨.hbm, 122, rfl⟩
abbrev main_v81 : Ref sig .tc := ⟨.hbm, 123, rfl⟩
abbrev main_c_25 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_26 : Ref sig .tc := ⟨.hbm, 131, rfl⟩
abbrev main_v88 : Ref sig .tc := ⟨.hbm, 132, rfl⟩
abbrev main_c_27 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_c_28 : Ref sig .tc := ⟨.hbm, 140, rfl⟩
abbrev main_v95 : Ref sig .tc := ⟨.hbm, 141, rfl⟩
abbrev main_c_29 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_30 : Ref sig .tc := ⟨.hbm, 149, rfl⟩
abbrev main_v102 : Ref sig .tc := ⟨.hbm, 150, rfl⟩
abbrev main_c_31 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_32 : Ref sig .tc := ⟨.hbm, 158, rfl⟩
abbrev main_v109 : Ref sig .tc := ⟨.hbm, 159, rfl⟩
abbrev main_c_33 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_34 : Ref sig .tc := ⟨.hbm, 167, rfl⟩
abbrev main_v116 : Ref sig .tc := ⟨.hbm, 168, rfl⟩
abbrev main_c_35 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_36 : Ref sig .tc := ⟨.hbm, 176, rfl⟩
abbrev main_v123 : Ref sig .tc := ⟨.hbm, 177, rfl⟩
abbrev main_c_37 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_38 : Ref sig .tc := ⟨.hbm, 185, rfl⟩
abbrev main_v130 : Ref sig .tc := ⟨.hbm, 186, rfl⟩
abbrev main_c_39 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_c_40 : Ref sig .tc := ⟨.hbm, 194, rfl⟩
abbrev main_v137 : Ref sig .tc := ⟨.hbm, 195, rfl⟩
abbrev main_c_41 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_c_42 : Ref sig .tc := ⟨.hbm, 203, rfl⟩
abbrev main_v144 : Ref sig .tc := ⟨.hbm, 204, rfl⟩
abbrev main_c_43 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_c_44 : Ref sig .tc := ⟨.hbm, 212, rfl⟩
abbrev main_v151 : Ref sig .tc := ⟨.hbm, 213, rfl⟩
abbrev main_c_45 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_c_46 : Ref sig .tc := ⟨.hbm, 221, rfl⟩
abbrev main_v158 : Ref sig .tc := ⟨.hbm, 222, rfl⟩
abbrev main_c_47 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_c_48 : Ref sig .tc := ⟨.hbm, 230, rfl⟩
abbrev main_v165 : Ref sig .tc := ⟨.hbm, 231, rfl⟩
abbrev main_c_49 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_c_50 : Ref sig .tc := ⟨.hbm, 239, rfl⟩
abbrev main_v172 : Ref sig .tc := ⟨.hbm, 240, rfl⟩
abbrev main_c_51 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_c_52 : Ref sig .tc := ⟨.hbm, 248, rfl⟩
abbrev main_v179 : Ref sig .tc := ⟨.hbm, 249, rfl⟩
abbrev main_c_53 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_c_54 : Ref sig .tc := ⟨.hbm, 257, rfl⟩
abbrev main_v186 : Ref sig .tc := ⟨.hbm, 258, rfl⟩
abbrev main_c_55 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_c_56 : Ref sig .tc := ⟨.hbm, 266, rfl⟩
abbrev main_v193 : Ref sig .tc := ⟨.hbm, 267, rfl⟩
abbrev main_c_57 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_c_58 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_c_59 : Ref sig .tc := ⟨.hbm, 291, rfl⟩
abbrev main_call0_v0 : Ref sig .tc := ⟨.hbm, 292, rfl⟩
abbrev main_v215 : Ref sig .tc := ⟨.hbm, 293, rfl⟩
abbrev main_v216 : Ref sig .tc := ⟨.hbm, 294, rfl⟩
abbrev main_v217_0 : Ref sig .tc := ⟨.hbm, 295, rfl⟩
abbrev main_v217_1 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_cst_60 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_cst_61 : Ref sig .tc := ⟨.hbm, 305, rfl⟩
abbrev main_v225 : Ref sig .tc := ⟨.hbm, 306, rfl⟩
abbrev main_v226 : Ref sig .tc := ⟨.hbm, 307, rfl⟩
abbrev main_cst_62 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_call1_cst : Ref sig .tc := ⟨.hbm, 315, rfl⟩
abbrev main_call1_v0 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_cst_63 : Ref sig .tc := ⟨.hbm, 325, rfl⟩
abbrev main_v241 : Ref sig .tc := ⟨.hbm, 326, rfl⟩
abbrev main_v242 : Ref sig .tc := ⟨.hbm, 327, rfl⟩
abbrev main_cst_64 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_cst_65 : Ref sig .tc := ⟨.hbm, 332, rfl⟩
abbrev main_v246 : Ref sig .tc := ⟨.hbm, 333, rfl⟩
abbrev main_cst_66 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_cst_67 : Ref sig .tc := ⟨.hbm, 339, rfl⟩
abbrev main_v251 : Ref sig .tc := ⟨.hbm, 340, rfl⟩
abbrev main_cst_68 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_cst_69 : Ref sig .tc := ⟨.hbm, 346, rfl⟩
abbrev main_v256 : Ref sig .tc := ⟨.hbm, 347, rfl⟩
abbrev main_v257 : Ref sig .tc := ⟨.hbm, 348, rfl⟩
abbrev main_cst_70 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S32x32_S1x32x32x1x1_1_2 : S32x32.BroadcastsInDim S1x32x32x1x1 (![1, 2] : Fin 2 → Fin S1x32x32x1x1.rank)
  bcast_S_S7x9x16x16 : S_.BroadcastsInDim S7x9x16x16 (![] : Fin 0 → Fin S7x9x16x16.rank)
  shapeCasts_S16x16x1x1_S16x16 : S16x16x1x1.ShapeCasts S16x16
  transposes_S16x16_S16x16_1_0 : S16x16.Transposes [1, 0] S16x16
  bcast_S_S1 : S_.BroadcastsInDim S1 (![] : Fin 0 → Fin S1.rank)
  concatenates_S1_S1_S2_d0 : Shape.Concatenates [S1, S1] S2 0
  slices_S16x16x3x3_S16x16x1x1_0_0_0_0 : S16x16x3x3.Slices ![0, 0, 0, 0] S16x16x1x1
  slices_S16x16x3x3_S16x16x1x1_0_0_0_1 : S16x16x3x3.Slices ![0, 0, 0, 1] S16x16x1x1
  slices_S16x16x3x3_S16x16x1x1_0_0_0_2 : S16x16x3x3.Slices ![0, 0, 0, 2] S16x16x1x1
  slices_S16x16x3x3_S16x16x1x1_0_0_1_0 : S16x16x3x3.Slices ![0, 0, 1, 0] S16x16x1x1
  slices_S16x16x3x3_S16x16x1x1_0_0_1_1 : S16x16x3x3.Slices ![0, 0, 1, 1] S16x16x1x1
  slices_S16x16x3x3_S16x16x1x1_0_0_1_2 : S16x16x3x3.Slices ![0, 0, 1, 2] S16x16x1x1
  slices_S16x16x3x3_S16x16x1x1_0_0_2_0 : S16x16x3x3.Slices ![0, 0, 2, 0] S16x16x1x1
  slices_S16x16x3x3_S16x16x1x1_0_0_2_1 : S16x16x3x3.Slices ![0, 0, 2, 1] S16x16x1x1
  slices_S16x16x3x3_S16x16x1x1_0_0_2_2 : S16x16x3x3.Slices ![0, 0, 2, 2] S16x16x1x1
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S1x32x32x1x1_S7x32x32x16x16_0_1_2_3_4 : S1x32x32x1x1.BroadcastsInDim S7x32x32x16x16 (![0, 1, 2, 3, 4] : Fin 5 → Fin S7x32x32x16x16.rank)
  transposes_S7x32x32x16x16_S7x32x16x32x16_0_1_3_2_4 : S7x32x32x16x16.Transposes [0, 1, 3, 2, 4] S7x32x16x32x16
  shapeCasts_S7x32x16x32x16_S7x512x512 : S7x32x16x32x16.ShapeCasts S7x512x512
  bitsLt_bf16_f32 : FTy.bits .bf16 < FTy.bits .f32
  shapeCasts_S16_S1x16 : S16.ShapeCasts S1x16
  bcast_S1x16_S32x16_0_1 : S1x16.BroadcastsInDim S32x16 (![0, 1] : Fin 2 → Fin S32x16.rank)
  shapeCasts_S32x16_S512 : S32x16.ShapeCasts S512
  shapeCasts_S512_S1x512 : S512.ShapeCasts S1x512
  transposes_S512x16x32x32_S512x32x32x16_0_2_3_1 : S512x16x32x32.Transposes [0, 2, 3, 1] S512x32x32x16
  pads_S512x32x32x16_S512x40x32x16_000_440_000_000 : S512x32x32x16.Pads (![0, 4, 0, 0] : Fin 4 → Nat) ![0, 4, 0, 0] ![0, 0, 0, 0] S512x40x32x16
  h_S_ : 0 < S_.numel
  shapeCasts_S512x40x32x16_S512x40x512 : S512x40x32x16.ShapeCasts S512x40x512
  inb_S8x40x512_S8x40x512_0_0_0 : ∀ a, (![0, 0, 0] : Fin 3 → Nat) a + S8x40x512.size a ≤ S8x40x512.size a
  h_S8x40x512 : 0 < S8x40x512.numel
  shapeCasts_S8x40x512_S8x40x512 : S8x40x512.ShapeCasts S8x40x512
  slices_S8x40x512_o0_0_0_S8x32x512 : S8x40x512.Slices ![0, 0, 0] S8x32x512
  shapeCasts_S8x32x512_S256x512 : S8x32x512.ShapeCasts S256x512
  slices_S8x40x512_o0_2_0_S8x32x512 : S8x40x512.Slices ![0, 2, 0] S8x32x512
  slices_S8x40x512_o0_3_0_S8x32x512 : S8x40x512.Slices ![0, 3, 0] S8x32x512
  slices_S8x40x512_o0_4_0_S8x32x512 : S8x40x512.Slices ![0, 4, 0] S8x32x512
  slices_S8x40x512_o0_5_0_S8x32x512 : S8x40x512.Slices ![0, 5, 0] S8x32x512
  slices_S8x40x512_o0_6_0_S8x32x512 : S8x40x512.Slices ![0, 6, 0] S8x32x512
  slices_S8x40x512_o0_8_0_S8x32x512 : S8x40x512.Slices ![0, 8, 0] S8x32x512
  slices_S256x512_o0_0_S256x256 : S256x512.Slices ![0, 0] S256x256
  inb_S7x512x512_S1x256x128_0_0_0 : ∀ a, (![0, 0, 0] : Fin 3 → Nat) a + S1x256x128.size a ≤ S7x512x512.size a
  h_S1x256x128 : 0 < S1x256x128.numel
  shapeCasts_S1x256x128_S256x128 : S1x256x128.ShapeCasts S256x128
  inb_S7x512x512_S1x256x128_1_0_0 : ∀ a, (![1, 0, 0] : Fin 3 → Nat) a + S1x256x128.size a ≤ S7x512x512.size a
  inb_S7x512x512_S1x256x128_2_0_0 : ∀ a, (![2, 0, 0] : Fin 3 → Nat) a + S1x256x128.size a ≤ S7x512x512.size a
  inb_S7x512x512_S1x256x128_3_0_0 : ∀ a, (![3, 0, 0] : Fin 3 → Nat) a + S1x256x128.size a ≤ S7x512x512.size a
  inb_S7x512x512_S1x256x128_4_0_0 : ∀ a, (![4, 0, 0] : Fin 3 → Nat) a + S1x256x128.size a ≤ S7x512x512.size a
  inb_S7x512x512_S1x256x128_5_0_0 : ∀ a, (![5, 0, 0] : Fin 3 → Nat) a + S1x256x128.size a ≤ S7x512x512.size a
  inb_S7x512x512_S1x256x128_6_0_0 : ∀ a, (![6, 0, 0] : Fin 3 → Nat) a + S1x256x128.size a ≤ S7x512x512.size a
  slices_S256x512_o0_0_S256x384 : S256x512.Slices ![0, 0] S256x384
  inb_S7x512x512_S1x384x128_0_0_128 : ∀ a, (![0, 0, 128] : Fin 3 → Nat) a + S1x384x128.size a ≤ S7x512x512.size a
  h_S1x384x128 : 0 < S1x384x128.numel
  shapeCasts_S1x384x128_S384x128 : S1x384x128.ShapeCasts S384x128
  inb_S7x512x512_S1x384x128_1_0_128 : ∀ a, (![1, 0, 128] : Fin 3 → Nat) a + S1x384x128.size a ≤ S7x512x512.size a
  inb_S7x512x512_S1x384x128_2_0_128 : ∀ a, (![2, 0, 128] : Fin 3 → Nat) a + S1x384x128.size a ≤ S7x512x512.size a
  inb_S7x512x512_S1x384x128_3_0_128 : ∀ a, (![3, 0, 128] : Fin 3 → Nat) a + S1x384x128.size a ≤ S7x512x512.size a
  inb_S7x512x512_S1x384x128_4_0_128 : ∀ a, (![4, 0, 128] : Fin 3 → Nat) a + S1x384x128.size a ≤ S7x512x512.size a
  inb_S7x512x512_S1x384x128_5_0_128 : ∀ a, (![5, 0, 128] : Fin 3 → Nat) a + S1x384x128.size a ≤ S7x512x512.size a
  inb_S7x512x512_S1x384x128_6_0_128 : ∀ a, (![6, 0, 128] : Fin 3 → Nat) a + S1x384x128.size a ≤ S7x512x512.size a
  slices_S256x512_o0_128_S256x384 : S256x512.Slices ![0, 128] S256x384
  inb_S7x512x512_S1x384x128_0_128_256 : ∀ a, (![0, 128, 256] : Fin 3 → Nat) a + S1x384x128.size a ≤ S7x512x512.size a
  inb_S7x512x512_S1x384x128_1_128_256 : ∀ a, (![1, 128, 256] : Fin 3 → Nat) a + S1x384x128.size a ≤ S7x512x512.size a
  inb_S7x512x512_S1x384x128_2_128_256 : ∀ a, (![2, 128, 256] : Fin 3 → Nat) a + S1x384x128.size a ≤ S7x512x512.size a
  inb_S7x512x512_S1x384x128_3_128_256 : ∀ a, (![3, 128, 256] : Fin 3 → Nat) a + S1x384x128.size a ≤ S7x512x512.size a
  inb_S7x512x512_S1x384x128_4_128_256 : ∀ a, (![4, 128, 256] : Fin 3 → Nat) a + S1x384x128.size a ≤ S7x512x512.size a
  inb_S7x512x512_S1x384x128_5_128_256 : ∀ a, (![5, 128, 256] : Fin 3 → Nat) a + S1x384x128.size a ≤ S7x512x512.size a
  inb_S7x512x512_S1x384x128_6_128_256 : ∀ a, (![6, 128, 256] : Fin 3 → Nat) a + S1x384x128.size a ≤ S7x512x512.size a
  slices_S256x512_o0_256_S256x256 : S256x512.Slices ![0, 256] S256x256
  inb_S7x512x512_S1x256x128_0_256_384 : ∀ a, (![0, 256, 384] : Fin 3 → Nat) a + S1x256x128.size a ≤ S7x512x512.size a
  inb_S7x512x512_S1x256x128_1_256_384 : ∀ a, (![1, 256, 384] : Fin 3 → Nat) a + S1x256x128.size a ≤ S7x512x512.size a
  inb_S7x512x512_S1x256x128_2_256_384 : ∀ a, (![2, 256, 384] : Fin 3 → Nat) a + S1x256x128.size a ≤ S7x512x512.size a
  inb_S7x512x512_S1x256x128_3_256_384 : ∀ a, (![3, 256, 384] : Fin 3 → Nat) a + S1x256x128.size a ≤ S7x512x512.size a
  inb_S7x512x512_S1x256x128_4_256_384 : ∀ a, (![4, 256, 384] : Fin 3 → Nat) a + S1x256x128.size a ≤ S7x512x512.size a
  inb_S7x512x512_S1x256x128_5_256_384 : ∀ a, (![5, 256, 384] : Fin 3 → Nat) a + S1x256x128.size a ≤ S7x512x512.size a
  inb_S7x512x512_S1x256x128_6_256_384 : ∀ a, (![6, 256, 384] : Fin 3 → Nat) a + S1x256x128.size a ≤ S7x512x512.size a
  concatenates_S256x128_S256x128_S256x128_S256x128_S256x512_d1 : Shape.Concatenates [S256x128, S256x128, S256x128, S256x128] S256x512 1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S8x32x512 : S256x512.ShapeCasts S8x32x512
  inb_S8x32x512_S8x32x512_0_0_0 : ∀ a, (![0, 0, 0] : Fin 3 → Nat) a + S8x32x512.size a ≤ S8x32x512.size a
  h_S8x32x512 : 0 < S8x32x512.numel
  reduces_S8x32x512_S8x512 : S8x32x512.Reduces [1] S8x512
  shapeCasts_S8x512_S8x1x512 : S8x512.ShapeCasts S8x1x512
  concatenates_S8x1x512_S8x1x512_S8x2x512_d1 : Shape.Concatenates [S8x1x512, S8x1x512] S8x2x512 1
  inb_S8x2x512_S8x2x512_0_0_0 : ∀ a, (![0, 0, 0] : Fin 3 → Nat) a + S8x2x512.size a ≤ S8x2x512.size a
  h_S8x2x512 : 0 < S8x2x512.numel
  slices_S512x2x512_S512x1x512_0_0_0 : S512x2x512.Slices ![0, 0, 0] S512x1x512
  shapeCasts_S512x1x512_S512x512 : S512x1x512.ShapeCasts S512x512
  shapeCasts_S512x512_S512x32x16 : S512x512.ShapeCasts S512x32x16
  reducesTo_S512x32x16_S512x16_d1 : S512x32x16.ReducesTo [1] S512x16
  slices_S512x2x512_S512x1x512_0_1_0 : S512x2x512.Slices ![0, 1, 0] S512x1x512
  transposes_S4x16_S16x4_1_0 : S4x16.Transposes [1, 0] S16x4
  bcast_S_S16x4 : S_.BroadcastsInDim S16x4 (![] : Fin 0 → Fin S16x4.rank)
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  bcast_S_S512x4 : S_.BroadcastsInDim S512x4 (![] : Fin 0 → Fin S512x4.rank)
  transposes_S16x4_S4x16_1_0 : S16x4.Transposes [1, 0] S4x16
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  reducesTo_S512x16_S16_d0 : S512x16.ReducesTo [0] S16
  bcast_S_S16 : S_.BroadcastsInDim S16 (![] : Fin 0 → Fin S16.rank)
  shapeCasts_S512x16_S1x512x1x16 : S512x16.ShapeCasts S1x512x1x16
  bcast_S1x512x1x16_S1x512x32x16_0_1_2_3 : S1x512x1x16.BroadcastsInDim S1x512x32x16 (![0, 1, 2, 3] : Fin 4 → Fin S1x512x32x16.rank)
  shapeCasts_S1x512x32x16_S512x512 : S1x512x32x16.ShapeCasts S512x512
  shapeCasts_S512x512_S512x1x512 : S512x512.ShapeCasts S512x1x512
  shapeCasts_S512_S1x1x512 : S512.ShapeCasts S1x1x512
  inb_S16x32x512_S16x32x512_0_0_0 : ∀ a, (![0, 0, 0] : Fin 3 → Nat) a + S16x32x512.size a ≤ S16x32x512.size a
  h_S16x32x512 : 0 < S16x32x512.numel
  shapeCasts_S16x32x512_S16x32x512 : S16x32x512.ShapeCasts S16x32x512
  inb_S16x1x512_S16x1x512_0_0_0 : ∀ a, (![0, 0, 0] : Fin 3 → Nat) a + S16x1x512.size a ≤ S16x1x512.size a
  h_S16x1x512 : 0 < S16x1x512.numel
  shapeCasts_S16x1x512_S16x1x512 : S16x1x512.ShapeCasts S16x1x512
  broadcasts_S16x1x512_S16x32x512 : S16x1x512.Broadcasts S16x32x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S16x32x512 : S1x1x512.Broadcasts S16x32x512
  shapeCasts_S512x32x512_S512x32x32x16 : S512x32x512.ShapeCasts S512x32x32x16
  transposes_S512x32x32x16_S512x16x32x32_0_3_1_2 : S512x32x32x16.Transposes [0, 3, 1, 2] S512x16x32x32
  scatter_S7x9x16x16_S2_S16x16_01_01_01_0_wf : ScatterDims.WF S7x9x16x16 S2 S16x16 [0, 1] [0, 1] [0, 1] 0
  gather_S7x9x16x16_S32x32x1_S7x32x32x16x16_034_1_n_n_1_2_711616_wf : GatherDims.WF S7x9x16x16 S32x32x1 S7x32x32x16x16 [0, 3, 4] [1] [] [1] [] 2 ![7, 1, 16, 16]
  dot_S256x256_S256x128_S256x128_1_0_0_1_n_n_wf : DotDims.WF S256x256 S256x128 S256x128 [1] [0] [0] [1] [] []
  dot_S256x384_S384x128_S256x128_1_0_0_1_n_n_wf : DotDims.WF S256x384 S384x128 S256x128 [1] [0] [0] [1] [] []
  dot_S512x16_S16x4_S512x4_1_0_0_1_n_n_wf : DotDims.WF S512x16 S16x4 S512x4 [1] [0] [0] [1] [] []
  dot_S512x4_S4x16_S512x16_1_0_0_1_n_n_wf : DotDims.WF S512x4 S4x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x40x512.size a ≤ S512x40x512.size a
  hwx0_0 : ∀ i : grid0.Coords, EltTy.bits .f32 = 32 ∨ (Rect.block (s := S512x40x512) S8x40x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x512x512.size a ≤ S7x512x512.size a
  hwx0_1 : ∀ i : grid0.Coords, EltTy.bits .bf16 = 32 ∨ (Rect.block (s := S7x512x512) S7x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x512.size a ≤ S512x32x512.size a
  hwx0_3 : ∀ i : grid0.Coords, EltTy.bits .f32 = 32 ∨ (Rect.block (s := S512x32x512) S8x32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2x512.size a ≤ S512x2x512.size a
  hwx0_4 : ∀ i : grid0.Coords, EltTy.bits .f32 = 32 ∨ (Rect.block (s := S512x2x512) S8x2x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32x512.size a ≤ S512x32x512.size a
  hwx1_0 : ∀ i : grid1.Coords, EltTy.bits .f32 = 32 ∨ (Rect.block (s := S512x32x512) S16x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1x512.size a ≤ S512x1x512.size a
  hwx1_1 : ∀ i : grid1.Coords, EltTy.bits .f32 = 32 ∨ (Rect.block (s := S512x1x512) S16x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S1x1x512.size a
  hwx1_2 : ∀ i : grid1.Coords, EltTy.bits .f32 = 32 ∨ (Rect.block (s := S1x1x512) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x32x512.size a ≤ S512x32x512.size a
  hwx1_3 : ∀ i : grid1.Coords, EltTy.bits .f32 = 32 ∨ (Rect.block (s := S512x32x512) S16x32x512.size (cc1_transform_3 i) (hinb1_3 i)).WholeWords (EltTy.packing .f32)

variable [Facts₀]

def scatter_S7x9x16x16_S2_S16x16_01_01_01_0 : ScatterDims S7x9x16x16 S2 S16x16 where
  updateWindowDims := [0, 1]
  insertedWindowDims := [0, 1]
  scatterDimsToOperandDims := [0, 1]
  indexVectorDim := 0
  wf := scatter_S7x9x16x16_S2_S16x16_01_01_01_0_wf
def gather_S7x9x16x16_S32x32x1_S7x32x32x16x16_034_1_n_n_1_2_711616 : GatherDims S7x9x16x16 S32x32x1 S7x32x32x16x16 where
  offsetDims := [0, 3, 4]
  collapsedSliceDims := [1]
  operandBatchingDims := []
  startIndicesBatchingDims := []
  startIndexMap := [1]
  indexVectorDim := 2
  sliceSizes := ![7, 1, 16, 16]
  wf := gather_S7x9x16x16_S32x32x1_S7x32x32x16x16_034_1_n_n_1_2_711616_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf
def dot_S512x16_S16x4_S512x4_1_0_0_1_n_n : DotDims S512x16 S16x4 S512x4 where
  lhsContracting := [1]
  rhsContracting := [0]
  lhsNonContracting := [0]
  rhsNonContracting := [1]
  lhsBatch := []
  rhsBatch := []
  wf := dot_S512x16_S16x4_S512x4_1_0_0_1_n_n_wf
def dot_S512x4_S4x16_S512x16_1_0_0_1_n_n : DotDims S512x4 S4x16 S512x16 where
  lhsContracting := [1]
  rhsContracting := [0]
  lhsNonContracting := [0]
  rhsNonContracting := [1]
  lhsBatch := []
  rhsBatch := []
  wf := dot_S512x4_S4x16_S512x16_1_0_0_1_n_n_wf

abbrev win0_0 : Pipeline.Window sig grid0 :=
  Pipeline.Window.ofSpec (Memref.whole main_v216) S8x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v206) S7x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v213) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v217_0) S8x32x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v217_1) S8x2x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v217_0) S16x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v268) S16x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v274) S1x1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v275) S16x32x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x16x32x32 : Shape := ⟨4, ![512, 16, 32, 32]⟩
abbrev S16x16x1x1 : Shape := ⟨4, ![16, 16, 1, 1]⟩
abbrev S16 : Shape := ⟨1, ![16]⟩
abbrev S16x16x3x3 : Shape := ⟨4, ![16, 16, 3, 3]⟩
abbrev S4x16 : Shape := ⟨2, ![4, 16]⟩
abbrev S4 : Shape := ⟨1, ![4]⟩
abbrev S16x4 : Shape := ⟨2, ![16, 4]⟩
abbrev S32x32 : Shape := ⟨2, ![32, 32]⟩
abbrev S16x16 : Shape := ⟨2, ![16, 16]⟩
abbrev S_ : Shape := ⟨0, ![]⟩
abbrev S512x512 : Shape := ⟨2, ![512, 512]⟩
abbrev S32x1x32x1 : Shape := ⟨4, ![32, 1, 32, 1]⟩
abbrev S1x16x1x16 : Shape := ⟨4, ![1, 16, 1, 16]⟩
abbrev S32x16x32x16 : Shape := ⟨4, ![32, 16, 32, 16]⟩
abbrev S1x512x512 : Shape := ⟨3, ![1, 512, 512]⟩
abbrev S7x512x512 : Shape := ⟨3, ![7, 512, 512]⟩
abbrev S1x16 : Shape := ⟨2, ![1, 16]⟩
abbrev S32x16 : Shape := ⟨2, ![32, 16]⟩
abbrev S512 : Shape := ⟨1, ![512]⟩
abbrev S1x512 : Shape := ⟨2, ![1, 512]⟩
abbrev S512x32x32x16 : Shape := ⟨4, ![512, 32, 32, 16]⟩
abbrev S512x40x32x16 : Shape := ⟨4, ![512, 40, 32, 16]⟩
abbrev S512x40x512 : Shape := ⟨3, ![512, 40, 512]⟩
abbrev S512x32x512 : Shape := ⟨3, ![512, 32, 512]⟩
abbrev S512x2x512 : Shape := ⟨3, ![512, 2, 512]⟩
abbrev S8x40x512 : Shape := ⟨3, ![8, 40, 512]⟩
abbrev S8x32x512 : Shape := ⟨3, ![8, 32, 512]⟩
abbrev S8x2x512 : Shape := ⟨3, ![8, 2, 512]⟩
abbrev S256x512 : Shape := ⟨2, ![256, 512]⟩
abbrev S8x512 : Shape := ⟨2, ![8, 512]⟩
abbrev S8x1x512 : Shape := ⟨3, ![8, 1, 512]⟩
abbrev S512x1x512 : Shape := ⟨3, ![512, 1, 512]⟩
abbrev S512x32x16 : Shape := ⟨3, ![512, 32, 16]⟩
abbrev S512x16 : Shape := ⟨2, ![512, 16]⟩
abbrev S512x4 : Shape := ⟨2, ![512, 4]⟩
abbrev S1x4 : Shape := ⟨2, ![1, 4]⟩
abbrev S1x512x1x16 : Shape := ⟨4, ![1, 512, 1, 16]⟩
abbrev S1x512x32x16 : Shape := ⟨4, ![1, 512, 32, 16]⟩
abbrev S1x1x512 : Shape := ⟨3, ![1, 1, 512]⟩
abbrev S32x32x512 : Shape := ⟨3, ![32, 32, 512]⟩
abbrev S32x1x512 : Shape := ⟨3, ![32, 1, 512]⟩

abbrev nBuf : Space → Nat
  | .hbm => 485
  | .vmem => 15
  | .smem => 0
  | _ => 0

abbrev hbmTy0_0 (i : Nat) : BufTy := match i % 128 with
  | 0 => ⟨S512x16x32x32, .f32⟩
  | 1 => ⟨S16x16x1x1, .f32⟩
  | 2 => ⟨S16, .f32⟩
  | 3 => ⟨S16x16x3x3, .f32⟩
  | 4 => ⟨S16, .f32⟩
  | 5 => ⟨S16x16x3x3, .f32⟩
  | 6 => ⟨S16, .f32⟩
  | 7 => ⟨S16x16x3x3, .f32⟩
  | 8 => ⟨S16, .f32⟩
  | 9 => ⟨S4x16, .f32⟩
  | 10 => ⟨S4, .f32⟩
  | 11 => ⟨S16x4, .f32⟩
  | 12 => ⟨S16, .f32⟩
  | 13 => ⟨S16, .f32⟩
  | 14 => ⟨S16, .f32⟩
  | 15 => ⟨S32x32, .f32⟩
  | 16 => ⟨S32x32, .f32⟩
  | 17 => ⟨S32x32, .f32⟩
  | 18 => ⟨S32x32, .f32⟩
  | 19 => ⟨S32x32, .f32⟩
  | 20 => ⟨S32x32, .f32⟩
  | 21 => ⟨S32x32, .f32⟩
  | 22 => ⟨S32x32, .f32⟩
  | 23 => ⟨S32x32, .f32⟩
  | 24 => ⟨S32x32, .f32⟩
  | 25 => ⟨S32x32, .f32⟩
  | 26 => ⟨S32x32, .f32⟩
  | 27 => ⟨S32x32, .f32⟩
  | 28 => ⟨S32x32, .f32⟩
  | 29 => ⟨S32x32, .f32⟩
  | 30 => ⟨S32x32, .f32⟩
  | 31 => ⟨S32x32, .f32⟩
  | 32 => ⟨S32x32, .f32⟩
  | 33 => ⟨S32x32, .f32⟩
  | 34 => ⟨S32x32, .f32⟩
  | 35 => ⟨S32x32, .f32⟩
  | 36 => ⟨S32x32, .f32⟩
  | 37 => ⟨S32x32, .f32⟩
  | 38 => ⟨S32x32, .f32⟩
  | 39 => ⟨S32x32, .f32⟩
  | 40 => ⟨S16x16, .f32⟩
  | 41 => ⟨S16x16, .f32⟩
  | 42 => ⟨S_, .f32⟩
  | 43 => ⟨S16x16, .f32⟩
  | 44 => ⟨S16x16, .f32⟩
  | 45 => ⟨S16x16x1x1, .f32⟩
  | 46 => ⟨S16x16, .f32⟩
  | 47 => ⟨S16x16, .f32⟩
  | 48 => ⟨S_, .f32⟩
  | 49 => ⟨S16x16, .f32⟩
  | 50 => ⟨S16x16, .f32⟩
  | 51 => ⟨S16x16x1x1, .f32⟩
  | 52 => ⟨S16x16, .f32⟩
  | 53 => ⟨S16x16, .f32⟩
  | 54 => ⟨S_, .f32⟩
  | 55 => ⟨S16x16, .f32⟩
  | 56 => ⟨S16x16, .f32⟩
  | 57 => ⟨S16x16x1x1, .f32⟩
  | 58 => ⟨S16x16, .f32⟩
  | 59 => ⟨S16x16, .f32⟩
  | 60 => ⟨S_, .f32⟩
  | 61 => ⟨S16x16, .f32⟩
  | 62 => ⟨S16x16, .f32⟩
  | 63 => ⟨S16x16x1x1, .f32⟩
  | 64 => ⟨S16x16, .f32⟩
  | 65 => ⟨S16x16, .f32⟩
  | 66 => ⟨S_, .f32⟩
  | 67 => ⟨S16x16, .f32⟩
  | 68 => ⟨S16x16, .f32⟩
  | 69 => ⟨S16x16x1x1, .f32⟩
  | 70 => ⟨S16x16, .f32⟩
  | 71 => ⟨S16x16, .f32⟩
  | 72 => ⟨S16x16, .f32⟩
  | 73 => ⟨S16x16x1x1, .f32⟩
  | 74 => ⟨S16x16, .f32⟩
  | 75 => ⟨S16x16, .f32⟩
  | 76 => ⟨S_, .f32⟩
  | 77 => ⟨S16x16, .f32⟩
  | 78 => ⟨S16x16, .f32⟩
  | 79 => ⟨S16x16x1x1, .f32⟩
  | 80 => ⟨S16x16, .f32⟩
  | 81 => ⟨S16x16, .f32⟩
  | 82 => ⟨S_, .f32⟩
  | 83 => ⟨S16x16, .f32⟩
  | 84 => ⟨S16x16, .f32⟩
  | 85 => ⟨S16x16x1x1, .f32⟩
  | 86 => ⟨S16x16, .f32⟩
  | 87 => ⟨S16x16, .f32⟩
  | 88 => ⟨S_, .f32⟩
  | 89 => ⟨S16x16, .f32⟩
  | 90 => ⟨S16x16, .f32⟩
  | 91 => ⟨S16x16x1x1, .f32⟩
  | 92 => ⟨S16x16, .f32⟩
  | 93 => ⟨S16x16, .f32⟩
  | 94 => ⟨S_, .f32⟩
  | 95 => ⟨S16x16, .f32⟩
  | 96 => ⟨S16x16, .f32⟩
  | 97 => ⟨S16x16x1x1, .f32⟩
  | 98 => ⟨S16x16, .f32⟩
  | 99 => ⟨S16x16, .f32⟩
  | 100 => ⟨S_, .f32⟩
  | 101 => ⟨S16x16, .f32⟩
  | 102 => ⟨S16x16, .f32⟩
  | 103 => ⟨S16x16x1x1, .f32⟩
  | 104 => ⟨S16x16, .f32⟩
  | 105 => ⟨S16x16, .f32⟩
  | 106 => ⟨S_, .f32⟩
  | 107 => ⟨S16x16, .f32⟩
  | 108 => ⟨S16x16, .f32⟩
  | 109 => ⟨S16x16x1x1, .f32⟩
  | 110 => ⟨S16x16, .f32⟩
  | 111 => ⟨S16x16, .f32⟩
  | 112 => ⟨S_, .f32⟩
  | 113 => ⟨S16x16, .f32⟩
  | 114 => ⟨S16x16, .f32⟩
  | 115 => ⟨S16x16x1x1, .f32⟩
  | 116 => ⟨S16x16, .f32⟩
  | 117 => ⟨S16x16, .f32⟩
  | 118 => ⟨S_, .f32⟩
  | 119 => ⟨S16x16, .f32⟩
  | 120 => ⟨S16x16, .f32⟩
  | 121 => ⟨S16x16x1x1, .f32⟩
  | 122 => ⟨S16x16, .f32⟩
  | 123 => ⟨S16x16, .f32⟩
  | 124 => ⟨S16x16, .f32⟩
  | 125 => ⟨S16x16x1x1, .f32⟩
  | 126 => ⟨S16x16, .f32⟩
  | 127 => ⟨S16x16, .f32⟩
  | _ => ⟨S512x16x32x32, .f32⟩

abbrev hbmTy0_1 (i : Nat) : BufTy := match i % 128 with
  | 0 => ⟨S_, .f32⟩
  | 1 => ⟨S16x16, .f32⟩
  | 2 => ⟨S16x16, .f32⟩
  | 3 => ⟨S16x16x1x1, .f32⟩
  | 4 => ⟨S16x16, .f32⟩
  | 5 => ⟨S16x16, .f32⟩
  | 6 => ⟨S_, .f32⟩
  | 7 => ⟨S16x16, .f32⟩
  | 8 => ⟨S16x16, .f32⟩
  | 9 => ⟨S16x16x1x1, .f32⟩
  | 10 => ⟨S16x16, .f32⟩
  | 11 => ⟨S16x16, .f32⟩
  | 12 => ⟨S_, .f32⟩
  | 13 => ⟨S16x16, .f32⟩
  | 14 => ⟨S16x16, .f32⟩
  | 15 => ⟨S16x16x1x1, .f32⟩
  | 16 => ⟨S16x16, .f32⟩
  | 17 => ⟨S16x16, .f32⟩
  | 18 => ⟨S_, .f32⟩
  | 19 => ⟨S16x16, .f32⟩
  | 20 => ⟨S16x16, .f32⟩
  | 21 => ⟨S16x16x1x1, .f32⟩
  | 22 => ⟨S16x16, .f32⟩
  | 23 => ⟨S16x16, .f32⟩
  | 24 => ⟨S_, .f32⟩
  | 25 => ⟨S16x16, .f32⟩
  | 26 => ⟨S16x16, .f32⟩
  | 27 => ⟨S16x16x1x1, .f32⟩
  | 28 => ⟨S16x16, .f32⟩
  | 29 => ⟨S16x16, .f32⟩
  | 30 => ⟨S_, .f32⟩
  | 31 => ⟨S16x16, .f32⟩
  | 32 => ⟨S16x16, .f32⟩
  | 33 => ⟨S16x16x1x1, .f32⟩
  | 34 => ⟨S16x16, .f32⟩
  | 35 => ⟨S16x16, .f32⟩
  | 36 => ⟨S_, .f32⟩
  | 37 => ⟨S16x16, .f32⟩
  | 38 => ⟨S16x16, .f32⟩
  | 39 => ⟨S16x16x1x1, .f32⟩
  | 40 => ⟨S16x16, .f32⟩
  | 41 => ⟨S16x16, .f32⟩
  | 42 => ⟨S_, .f32⟩
  | 43 => ⟨S16x16, .f32⟩
  | 44 => ⟨S16x16, .f32⟩
  | 45 => ⟨S16x16x1x1, .f32⟩
  | 46 => ⟨S16x16, .f32⟩
  | 47 => ⟨S16x16, .f32⟩
  | 48 => ⟨S16x16, .f32⟩
  | 49 => ⟨S16x16x1x1, .f32⟩
  | 50 => ⟨S16x16, .f32⟩
  | 51 => ⟨S16x16, .f32⟩
  | 52 => ⟨S_, .f32⟩
  | 53 => ⟨S16x16, .f32⟩
  | 54 => ⟨S16x16, .f32⟩
  | 55 => ⟨S16x16x1x1, .f32⟩
  | 56 => ⟨S16x16, .f32⟩
  | 57 => ⟨S16x16, .f32⟩
  | 58 => ⟨S_, .f32⟩
  | 59 => ⟨S16x16, .f32⟩
  | 60 => ⟨S16x16, .f32⟩
  | 61 => ⟨S16x16x1x1, .f32⟩
  | 62 => ⟨S16x16, .f32⟩
  | 63 => ⟨S16x16, .f32⟩
  | 64 => ⟨S_, .f32⟩
  | 65 => ⟨S16x16, .f32⟩
  | 66 => ⟨S16x16, .f32⟩
  | 67 => ⟨S16x16x1x1, .f32⟩
  | 68 => ⟨S16x16, .f32⟩
  | 69 => ⟨S16x16, .f32⟩
  | 70 => ⟨S_, .f32⟩
  | 71 => ⟨S16x16, .f32⟩
  | 72 => ⟨S16x16, .f32⟩
  | 73 => ⟨S_, .f32⟩
  | 74 => ⟨S512x512, .f32⟩
  | 75 => ⟨S32x1x32x1, .f32⟩
  | 76 => ⟨S1x16x1x16, .f32⟩
  | 77 => ⟨S32x16x32x16, .f32⟩
  | 78 => ⟨S32x16x32x16, .f32⟩
  | 79 => ⟨S32x16x32x16, .f32⟩
  | 80 => ⟨S512x512, .f32⟩
  | 81 => ⟨S512x512, .f32⟩
  | 82 => ⟨S32x1x32x1, .f32⟩
  | 83 => ⟨S1x16x1x16, .f32⟩
  | 84 => ⟨S32x16x32x16, .f32⟩
  | 85 => ⟨S32x16x32x16, .f32⟩
  | 86 => ⟨S32x16x32x16, .f32⟩
  | 87 => ⟨S512x512, .f32⟩
  | 88 => ⟨S512x512, .f32⟩
  | 89 => ⟨S32x1x32x1, .f32⟩
  | 90 => ⟨S1x16x1x16, .f32⟩
  | 91 => ⟨S32x16x32x16, .f32⟩
  | 92 => ⟨S32x16x32x16, .f32⟩
  | 93 => ⟨S32x16x32x16, .f32⟩
  | 94 => ⟨S512x512, .f32⟩
  | 95 => ⟨S512x512, .f32⟩
  | 96 => ⟨S_, .f32⟩
  | 97 => ⟨S512x512, .f32⟩
  | 98 => ⟨S32x1x32x1, .f32⟩
  | 99 => ⟨S1x16x1x16, .f32⟩
  | 100 => ⟨S32x16x32x16, .f32⟩
  | 101 => ⟨S32x16x32x16, .f32⟩
  | 102 => ⟨S32x16x32x16, .f32⟩
  | 103 => ⟨S512x512, .f32⟩
  | 104 => ⟨S512x512, .f32⟩
  | 105 => ⟨S32x1x32x1, .f32⟩
  | 106 => ⟨S1x16x1x16, .f32⟩
  | 107 => ⟨S32x16x32x16, .f32⟩
  | 108 => ⟨S32x16x32x16, .f32⟩
  | 109 => ⟨S32x16x32x16, .f32⟩
  | 110 => ⟨S512x512, .f32⟩
  | 111 => ⟨S512x512, .f32⟩
  | 112 => ⟨S32x1x32x1, .f32⟩
  | 113 => ⟨S1x16x1x16, .f32⟩
  | 114 => ⟨S32x16x32x16, .f32⟩
  | 115 => ⟨S32x16x32x16, .f32⟩
  | 116 => ⟨S32x16x32x16, .f32⟩
  | 117 => ⟨S512x512, .f32⟩
  | 118 => ⟨S512x512, .f32⟩
  | 119 => ⟨S_, .f32⟩
  | 120 => ⟨S512x512, .f32⟩
  | 121 => ⟨S32x1x32x1, .f32⟩
  | 122 => ⟨S1x16x1x16, .f32⟩
  | 123 => ⟨S32x16x32x16, .f32⟩
  | 124 => ⟨S32x16x32x16, .f32⟩
  | 125 => ⟨S32x16x32x16, .f32⟩
  | 126 => ⟨S512x512, .f32⟩
  | 127 => ⟨S512x512, .f32⟩
  | _ => ⟨S512x16x32x32, .f32⟩

abbrev hbmTy0_2 (i : Nat) : BufTy := match i % 128 with
  | 0 => ⟨S32x1x32x1, .f32⟩
  | 1 => ⟨S1x16x1x16, .f32⟩
  | 2 => ⟨S32x16x32x16, .f32⟩
  | 3 => ⟨S32x16x32x16, .f32⟩
  | 4 => ⟨S32x16x32x16, .f32⟩
  | 5 => ⟨S512x512, .f32⟩
  | 6 => ⟨S512x512, .f32⟩
  | 7 => ⟨S32x1x32x1, .f32⟩
  | 8 => ⟨S1x16x1x16, .f32⟩
  | 9 => ⟨S32x16x32x16, .f32⟩
  | 10 => ⟨S32x16x32x16, .f32⟩
  | 11 => ⟨S32x16x32x16, .f32⟩
  | 12 => ⟨S512x512, .f32⟩
  | 13 => ⟨S512x512, .f32⟩
  | 14 => ⟨S_, .f32⟩
  | 15 => ⟨S512x512, .f32⟩
  | 16 => ⟨S32x1x32x1, .f32⟩
  | 17 => ⟨S1x16x1x16, .f32⟩
  | 18 => ⟨S32x16x32x16, .f32⟩
  | 19 => ⟨S32x16x32x16, .f32⟩
  | 20 => ⟨S32x16x32x16, .f32⟩
  | 21 => ⟨S512x512, .f32⟩
  | 22 => ⟨S512x512, .f32⟩
  | 23 => ⟨S32x1x32x1, .f32⟩
  | 24 => ⟨S1x16x1x16, .f32⟩
  | 25 => ⟨S32x16x32x16, .f32⟩
  | 26 => ⟨S32x16x32x16, .f32⟩
  | 27 => ⟨S32x16x32x16, .f32⟩
  | 28 => ⟨S512x512, .f32⟩
  | 29 => ⟨S512x512, .f32⟩
  | 30 => ⟨S32x1x32x1, .f32⟩
  | 31 => ⟨S1x16x1x16, .f32⟩
  | 32 => ⟨S32x16x32x16, .f32⟩
  | 33 => ⟨S32x16x32x16, .f32⟩
  | 34 => ⟨S32x16x32x16, .f32⟩
  | 35 => ⟨S512x512, .f32⟩
  | 36 => ⟨S512x512, .f32⟩
  | 37 => ⟨S32x1x32x1, .f32⟩
  | 38 => ⟨S1x16x1x16, .f32⟩
  | 39 => ⟨S32x16x32x16, .f32⟩
  | 40 => ⟨S32x16x32x16, .f32⟩
  | 41 => ⟨S32x16x32x16, .f32⟩
  | 42 => ⟨S512x512, .f32⟩
  | 43 => ⟨S512x512, .f32⟩
  | 44 => ⟨S32x1x32x1, .f32⟩
  | 45 => ⟨S1x16x1x16, .f32⟩
  | 46 => ⟨S32x16x32x16, .f32⟩
  | 47 => ⟨S32x16x32x16, .f32⟩
  | 48 => ⟨S32x16x32x16, .f32⟩
  | 49 => ⟨S512x512, .f32⟩
  | 50 => ⟨S512x512, .f32⟩
  | 51 => ⟨S32x1x32x1, .f32⟩
  | 52 => ⟨S1x16x1x16, .f32⟩
  | 53 => ⟨S32x16x32x16, .f32⟩
  | 54 => ⟨S32x16x32x16, .f32⟩
  | 55 => ⟨S32x16x32x16, .f32⟩
  | 56 => ⟨S512x512, .f32⟩
  | 57 => ⟨S512x512, .f32⟩
  | 58 => ⟨S32x1x32x1, .f32⟩
  | 59 => ⟨S1x16x1x16, .f32⟩
  | 60 => ⟨S32x16x32x16, .f32⟩
  | 61 => ⟨S32x16x32x16, .f32⟩
  | 62 => ⟨S32x16x32x16, .f32⟩
  | 63 => ⟨S512x512, .f32⟩
  | 64 => ⟨S512x512, .f32⟩
  | 65 => ⟨S_, .f32⟩
  | 66 => ⟨S512x512, .f32⟩
  | 67 => ⟨S32x1x32x1, .f32⟩
  | 68 => ⟨S1x16x1x16, .f32⟩
  | 69 => ⟨S32x16x32x16, .f32⟩
  | 70 => ⟨S32x16x32x16, .f32⟩
  | 71 => ⟨S32x16x32x16, .f32⟩
  | 72 => ⟨S512x512, .f32⟩
  | 73 => ⟨S512x512, .f32⟩
  | 74 => ⟨S32x1x32x1, .f32⟩
  | 75 => ⟨S1x16x1x16, .f32⟩
  | 76 => ⟨S32x16x32x16, .f32⟩
  | 77 => ⟨S32x16x32x16, .f32⟩
  | 78 => ⟨S32x16x32x16, .f32⟩
  | 79 => ⟨S512x512, .f32⟩
  | 80 => ⟨S512x512, .f32⟩
  | 81 => ⟨S32x1x32x1, .f32⟩
  | 82 => ⟨S1x16x1x16, .f32⟩
  | 83 => ⟨S32x16x32x16, .f32⟩
  | 84 => ⟨S32x16x32x16, .f32⟩
  | 85 => ⟨S32x16x32x16, .f32⟩
  | 86 => ⟨S512x512, .f32⟩
  | 87 => ⟨S512x512, .f32⟩
  | 88 => ⟨S_, .f32⟩
  | 89 => ⟨S512x512, .f32⟩
  | 90 => ⟨S32x1x32x1, .f32⟩
  | 91 => ⟨S1x16x1x16, .f32⟩
  | 92 => ⟨S32x16x32x16, .f32⟩
  | 93 => ⟨S32x16x32x16, .f32⟩
  | 94 => ⟨S32x16x32x16, .f32⟩
  | 95 => ⟨S512x512, .f32⟩
  | 96 => ⟨S512x512, .f32⟩
  | 97 => ⟨S32x1x32x1, .f32⟩
  | 98 => ⟨S1x16x1x16, .f32⟩
  | 99 => ⟨S32x16x32x16, .f32⟩
  | 100 => ⟨S32x16x32x16, .f32⟩
  | 101 => ⟨S32x16x32x16, .f32⟩
  | 102 => ⟨S512x512, .f32⟩
  | 103 => ⟨S512x512, .f32⟩
  | 104 => ⟨S32x1x32x1, .f32⟩
  | 105 => ⟨S1x16x1x16, .f32⟩
  | 106 => ⟨S32x16x32x16, .f32⟩
  | 107 => ⟨S32x16x32x16, .f32⟩
  | 108 => ⟨S32x16x32x16, .f32⟩
  | 109 => ⟨S512x512, .f32⟩
  | 110 => ⟨S512x512, .f32⟩
  | 111 => ⟨S_, .f32⟩
  | 112 => ⟨S512x512, .f32⟩
  | 113 => ⟨S32x1x32x1, .f32⟩
  | 114 => ⟨S1x16x1x16, .f32⟩
  | 115 => ⟨S32x16x32x16, .f32⟩
  | 116 => ⟨S32x16x32x16, .f32⟩
  | 117 => ⟨S32x16x32x16, .f32⟩
  | 118 => ⟨S512x512, .f32⟩
  | 119 => ⟨S512x512, .f32⟩
  | 120 => ⟨S32x1x32x1, .f32⟩
  | 121 => ⟨S1x16x1x16, .f32⟩
  | 122 => ⟨S32x16x32x16, .f32⟩
  | 123 => ⟨S32x16x32x16, .f32⟩
  | 124 => ⟨S32x16x32x16, .f32⟩
  | 125 => ⟨S512x512, .f32⟩
  | 126 => ⟨S512x512, .f32⟩
  | 127 => ⟨S32x1x32x1, .f32⟩
  | _ => ⟨S512x16x32x32, .f32⟩

abbrev hbmTy0_3 (i : Nat) : BufTy := match i % 128 with
  | 0 => ⟨S1x16x1x16, .f32⟩
  | 1 => ⟨S32x16x32x16, .f32⟩
  | 2 => ⟨S32x16x32x16, .f32⟩
  | 3 => ⟨S32x16x32x16, .f32⟩
  | 4 => ⟨S512x512, .f32⟩
  | 5 => ⟨S512x512, .f32⟩
  | 6 => ⟨S1x512x512, .f32⟩
  | 7 => ⟨S1x512x512, .f32⟩
  | 8 => ⟨S1x512x512, .f32⟩
  | 9 => ⟨S1x512x512, .f32⟩
  | 10 => ⟨S1x512x512, .f32⟩
  | 11 => ⟨S1x512x512, .f32⟩
  | 12 => ⟨S1x512x512, .f32⟩
  | 13 => ⟨S7x512x512, .f32⟩
  | 14 => ⟨S16, .f32⟩
  | 15 => ⟨S16, .f32⟩
  | 16 => ⟨S16, .f32⟩
  | 17 => ⟨S1x16, .f32⟩
  | 18 => ⟨S32x16, .f32⟩
  | 19 => ⟨S512, .f32⟩
  | 20 => ⟨S1x512, .f32⟩
  | 21 => ⟨S512x32x32x16, .f32⟩
  | 22 => ⟨S_, .i32⟩
  | 23 => ⟨S_, .f32⟩
  | 24 => ⟨S512x40x32x16, .f32⟩
  | 25 => ⟨S512x40x512, .f32⟩
  | 26 => ⟨S512x32x512, .f32⟩
  | 27 => ⟨S512x2x512, .f32⟩
  | 28 => ⟨S512x1x512, .f32⟩
  | 29 => ⟨S512x512, .f32⟩
  | 30 => ⟨S512x32x16, .f32⟩
  | 31 => ⟨S_, .f32⟩
  | 32 => ⟨S512x16, .f32⟩
  | 33 => ⟨S512x1x512, .f32⟩
  | 34 => ⟨S512x512, .f32⟩
  | 35 => ⟨S512x32x16, .f32⟩
  | 36 => ⟨S_, .f32⟩
  | 37 => ⟨S512x16, .f32⟩
  | 38 => ⟨S_, .f32⟩
  | 39 => ⟨S512x16, .f32⟩
  | 40 => ⟨S512x16, .f32⟩
  | 41 => ⟨S16x4, .f32⟩
  | 42 => ⟨S512x4, .f32⟩
  | 43 => ⟨S1x4, .f32⟩
  | 44 => ⟨S512x4, .f32⟩
  | 45 => ⟨S512x4, .f32⟩
  | 46 => ⟨S_, .f32⟩
  | 47 => ⟨S512x4, .f32⟩
  | 48 => ⟨S512x4, .f32⟩
  | 49 => ⟨S4x16, .f32⟩
  | 50 => ⟨S512x16, .f32⟩
  | 51 => ⟨S1x16, .f32⟩
  | 52 => ⟨S512x16, .f32⟩
  | 53 => ⟨S512x16, .f32⟩
  | 54 => ⟨S512x16, .f32⟩
  | 55 => ⟨S512x16, .f32⟩
  | 56 => ⟨S_, .f32⟩
  | 57 => ⟨S512x16, .f32⟩
  | 58 => ⟨S512x16, .f32⟩
  | 59 => ⟨S_, .f32⟩
  | 60 => ⟨S512x16, .f32⟩
  | 61 => ⟨S512x16, .f32⟩
  | 62 => ⟨S512x16, .f32⟩
  | 63 => ⟨S_, .f32⟩
  | 64 => ⟨S16, .f32⟩
  | 65 => ⟨S_, .f32⟩
  | 66 => ⟨S16, .f32⟩
  | 67 => ⟨S16, .f32⟩
  | 68 => ⟨S512x16, .f32⟩
  | 69 => ⟨S512x16, .f32⟩
  | 70 => ⟨S_, .f32⟩
  | 71 => ⟨S16, .f32⟩
  | 72 => ⟨S_, .f32⟩
  | 73 => ⟨S16, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S16, .f32⟩
  | 84 => ⟨S16, .f32⟩
  | 85 => ⟨S1x16, .f32⟩
  | 86 => ⟨S512x16, .f32⟩
  | 87 => ⟨S512x16, .f32⟩
  | 88 => ⟨S16, .f32⟩
  | 89 => ⟨S16, .f32⟩
  | 90 => ⟨S1x512x1x16, .f32⟩
  | 91 => ⟨S1x512x32x16, .f32⟩
  | 92 => ⟨S512x512, .f32⟩
  | 93 => ⟨S512x1x512, .f32⟩
  | 94 => ⟨S1x16, .f32⟩
  | 95 => ⟨S32x16, .f32⟩
  | 96 => ⟨S512, .f32⟩
  | 97 => ⟨S1x1x512, .f32⟩
  | 98 => ⟨S512x32x512, .f32⟩
  | 99 => ⟨S512x32x32x16, .f32⟩
  | 100 => ⟨S512x16x32x32, .f32⟩
  | _ => ⟨S512x16x32x32, .f32⟩

abbrev hbmTy (i : Nat) : BufTy := match i / 128 with
  | 0 => hbmTy0_0 i
  | 1 => hbmTy0_1 i
  | 2 => hbmTy0_2 i
  | 3 => hbmTy0_3 i
  | _ => ⟨S512x16x32x32, .f32⟩

abbrev bufTy : (tb : Table) → Fin (tcTables nBuf tb) → BufTy
  | .hbm, ⟨i, _⟩ => hbmTy i
  | .local _ .vmem, ⟨0, _⟩ => ⟨S8x40x512, .f32⟩
  | .local _ .vmem, ⟨1, _⟩ => ⟨S8x40x512, .f32⟩
  | .local _ .vmem, ⟨2, _⟩ => ⟨S7x512x512, .f32⟩
  | .local _ .vmem, ⟨3, _⟩ => ⟨S1x512, .f32⟩
  | .local _ .vmem, ⟨4, _⟩ => ⟨S8x32x512, .f32⟩
  | .local _ .vmem, ⟨5, _⟩ => ⟨S8x32x512, .f32⟩
  | .local _ .vmem, ⟨6, _⟩ => ⟨S8x2x512, .f32⟩
  | .local _ .vmem, ⟨7, _⟩ => ⟨S8x2x512, .f32⟩
  | .local _ .vmem, ⟨8, _⟩ => ⟨S32x32x512, .f32⟩
  | .local _ .vmem, ⟨9, _⟩ => ⟨S32x32x512, .f32⟩
  | .local _ .vmem, ⟨10, _⟩ => ⟨S32x1x512, .f32⟩
  | .local _ .vmem, ⟨11, _⟩ => ⟨S32x1x512, .f32⟩
  | .local _ .vmem, ⟨12, _⟩ => ⟨S1x1x512, .f32⟩
  | .local _ .vmem, ⟨13, _⟩ => ⟨S32x32x512, .f32⟩
  | .local _ .vmem, ⟨14, _⟩ => ⟨S32x32x512, .f32⟩
  | _, _ => ⟨S512x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_cst_1 : Ref sig .tc := ⟨.hbm, 17, rfl⟩
abbrev main_cst_2 : Ref sig .tc := ⟨.hbm, 18, rfl⟩
abbrev main_cst_3 : Ref sig .tc := ⟨.hbm, 19, rfl⟩
abbrev main_cst_4 : Ref sig .tc := ⟨.hbm, 20, rfl⟩
abbrev main_cst_5 : Ref sig .tc := ⟨.hbm, 21, rfl⟩
abbrev main_cst_6 : Ref sig .tc := ⟨.hbm, 22, rfl⟩
abbrev main_cst_7 : Ref sig .tc := ⟨.hbm, 23, rfl⟩
abbrev main_cst_8 : Ref sig .tc := ⟨.hbm, 24, rfl⟩
abbrev main_cst_9 : Ref sig .tc := ⟨.hbm, 25, rfl⟩
abbrev main_cst_10 : Ref sig .tc := ⟨.hbm, 26, rfl⟩
abbrev main_cst_11 : Ref sig .tc := ⟨.hbm, 27, rfl⟩
abbrev main_cst_12 : Ref sig .tc := ⟨.hbm, 28, rfl⟩
abbrev main_cst_13 : Ref sig .tc := ⟨.hbm, 29, rfl⟩
abbrev main_cst_14 : Ref sig .tc := ⟨.hbm, 30, rfl⟩
abbrev main_cst_15 : Ref sig .tc := ⟨.hbm, 31, rfl⟩
abbrev main_cst_16 : Ref sig .tc := ⟨.hbm, 32, rfl⟩
abbrev main_cst_17 : Ref sig .tc := ⟨.hbm, 33, rfl⟩
abbrev main_cst_18 : Ref sig .tc := ⟨.hbm, 34, rfl⟩
abbrev main_cst_19 : Ref sig .tc := ⟨.hbm, 35, rfl⟩
abbrev main_cst_20 : Ref sig .tc := ⟨.hbm, 36, rfl⟩
abbrev main_cst_21 : Ref sig .tc := ⟨.hbm, 37, rfl⟩
abbrev main_cst_22 : Ref sig .tc := ⟨.hbm, 38, rfl⟩
abbrev main_cst_23 : Ref sig .tc := ⟨.hbm, 39, rfl⟩
abbrev main_v0 : Ref sig .tc := ⟨.hbm, 40, rfl⟩
abbrev main_v1 : Ref sig .tc := ⟨.hbm, 41, rfl⟩
abbrev main_cst_24 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst_25 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_26 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_27 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_28 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_29 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_30 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_31 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_32 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_33 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_34 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_35 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_36 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_37 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_38 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_39 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_40 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_41 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_42 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_43 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_44 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_45 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_46 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_47 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_48 : Ref sig .tc := ⟨.hbm, 198, rfl⟩
abbrev main_v134 : Ref sig .tc := ⟨.hbm, 199, rfl⟩
abbrev main_v135 : Ref sig .tc := ⟨.hbm, 200, rfl⟩
abbrev main_cst_49 : Ref sig .tc := ⟨.hbm, 201, rfl⟩
abbrev main_v136 : Ref sig .tc := ⟨.hbm, 202, rfl⟩
abbrev main_call0_v0 : Ref sig .tc := ⟨.hbm, 203, rfl⟩
abbrev main_call0_v1 : Ref sig .tc := ⟨.hbm, 204, rfl⟩
abbrev main_call0_v2 : Ref sig .tc := ⟨.hbm, 205, rfl⟩
abbrev main_call0_v3 : Ref sig .tc := ⟨.hbm, 206, rfl⟩
abbrev main_call0_v4 : Ref sig .tc := ⟨.hbm, 207, rfl⟩
abbrev main_v137 : Ref sig .tc := ⟨.hbm, 208, rfl⟩
abbrev main_v138 : Ref sig .tc := ⟨.hbm, 209, rfl⟩
abbrev main_call1_v0 : Ref sig .tc := ⟨.hbm, 210, rfl⟩
abbrev main_call1_v1 : Ref sig .tc := ⟨.hbm, 211, rfl⟩
abbrev main_call1_v2 : Ref sig .tc := ⟨.hbm, 212, rfl⟩
abbrev main_call1_v3 : Ref sig .tc := ⟨.hbm, 213, rfl⟩
abbrev main_call1_v4 : Ref sig .tc := ⟨.hbm, 214, rfl⟩
abbrev main_v139 : Ref sig .tc := ⟨.hbm, 215, rfl⟩
abbrev main_v140 : Ref sig .tc := ⟨.hbm, 216, rfl⟩
abbrev main_call2_v0 : Ref sig .tc := ⟨.hbm, 217, rfl⟩
abbrev main_call2_v1 : Ref sig .tc := ⟨.hbm, 218, rfl⟩
abbrev main_call2_v2 : Ref sig .tc := ⟨.hbm, 219, rfl⟩
abbrev main_call2_v3 : Ref sig .tc := ⟨.hbm, 220, rfl⟩
abbrev main_call2_v4 : Ref sig .tc := ⟨.hbm, 221, rfl⟩
abbrev main_v141 : Ref sig .tc := ⟨.hbm, 222, rfl⟩
abbrev main_v142 : Ref sig .tc := ⟨.hbm, 223, rfl⟩
abbrev main_cst_50 : Ref sig .tc := ⟨.hbm, 224, rfl⟩
abbrev main_v143 : Ref sig .tc := ⟨.hbm, 225, rfl⟩
abbrev main_call3_v0 : Ref sig .tc := ⟨.hbm, 226, rfl⟩
abbrev main_call3_v1 : Ref sig .tc := ⟨.hbm, 227, rfl⟩
abbrev main_call3_v2 : Ref sig .tc := ⟨.hbm, 228, rfl⟩
abbrev main_call3_v3 : Ref sig .tc := ⟨.hbm, 229, rfl⟩
abbrev main_call3_v4 : Ref sig .tc := ⟨.hbm, 230, rfl⟩
abbrev main_v144 : Ref sig .tc := ⟨.hbm, 231, rfl⟩
abbrev main_v145 : Ref sig .tc := ⟨.hbm, 232, rfl⟩
abbrev main_call4_v0 : Ref sig .tc := ⟨.hbm, 233, rfl⟩
abbrev main_call4_v1 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_v146 : Ref sig .tc := ⟨.hbm, 238, rfl⟩
abbrev main_v147 : Ref sig .tc := ⟨.hbm, 239, rfl⟩
abbrev main_call5_v0 : Ref sig .tc := ⟨.hbm, 240, rfl⟩
abbrev main_call5_v1 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_v148 : Ref sig .tc := ⟨.hbm, 245, rfl⟩
abbrev main_v149 : Ref sig .tc := ⟨.hbm, 246, rfl⟩
abbrev main_cst_51 : Ref sig .tc := ⟨.hbm, 247, rfl⟩
abbrev main_v150 : Ref sig .tc := ⟨.hbm, 248, rfl⟩
abbrev main_call6_v0 : Ref sig .tc := ⟨.hbm, 249, rfl⟩
abbrev main_call6_v1 : Ref sig .tc := ⟨.hbm, 250, rfl⟩
abbrev main_call6_v2 : Ref sig .tc := ⟨.hbm, 251, rfl⟩
abbrev main_call6_v3 : Ref sig .tc := ⟨.hbm, 252, rfl⟩
abbrev main_call6_v4 : Ref sig .tc := ⟨.hbm, 253, rfl⟩
abbrev main_v151 : Ref sig .tc := ⟨.hbm, 254, rfl⟩
abbrev main_v152 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_v153 : Ref sig .tc := ⟨.hbm, 261, rfl⟩
abbrev main_v154 : Ref sig .tc := ⟨.hbm, 262, rfl⟩
abbrev main_call8_v0 : Ref sig .tc := ⟨.hbm, 263, rfl⟩
abbrev main_call8_v1 : Ref sig .tc := ⟨.hbm, 264, rfl⟩
abbrev main_call8_v2 : Ref sig .tc := ⟨.hbm, 265, rfl⟩
abbrev main_call8_v3 : Ref sig .tc := ⟨.hbm, 266, rfl⟩
abbrev main_call8_v4 : Ref sig .tc := ⟨.hbm, 267, rfl⟩
abbrev main_v155 : Ref sig .tc := ⟨.hbm, 268, rfl⟩
abbrev main_v156 : Ref sig .tc := ⟨.hbm, 269, rfl⟩
abbrev main_cst_52 : Ref sig .tc := ⟨.hbm, 270, rfl⟩
abbrev main_v157 : Ref sig .tc := ⟨.hbm, 271, rfl⟩
abbrev main_call9_v0 : Ref sig .tc := ⟨.hbm, 272, rfl⟩
abbrev main_call9_v1 : Ref sig .tc := ⟨.hbm, 273, rfl⟩
abbrev main_call9_v2 : Ref sig .tc := ⟨.hbm, 274, rfl⟩
abbrev main_call9_v3 : Ref sig .tc := ⟨.hbm, 275, rfl⟩
abbrev main_call9_v4 : Ref sig .tc := ⟨.hbm, 276, rfl⟩
abbrev main_v158 : Ref sig .tc := ⟨.hbm, 277, rfl⟩
abbrev main_v159 : Ref sig .tc := ⟨.hbm, 278, rfl⟩
abbrev main_call10_v0 : Ref sig .tc := ⟨.hbm, 279, rfl⟩
abbrev main_call10_v1 : Ref sig .tc := ⟨.hbm, 280, rfl⟩
abbrev main_call10_v2 : Ref sig .tc := ⟨.hbm, 281, rfl⟩
abbrev main_call10_v3 : Ref sig .tc := ⟨.hbm, 282, rfl⟩
abbrev main_call10_v4 : Ref sig .tc := ⟨.hbm, 283, rfl⟩
abbrev main_v160 : Ref sig .tc := ⟨.hbm, 284, rfl⟩
abbrev main_v161 : Ref sig .tc := ⟨.hbm, 285, rfl⟩
abbrev main_call11_v0 : Ref sig .tc := ⟨.hbm, 286, rfl⟩
abbrev main_call11_v1 : Ref sig .tc := ⟨.hbm, 287, rfl⟩
abbrev main_call11_v2 : Ref sig .tc := ⟨.hbm, 288, rfl⟩
abbrev main_call11_v3 : Ref sig .tc := ⟨.hbm, 289, rfl⟩
abbrev main_call11_v4 : Ref sig .tc := ⟨.hbm, 290, rfl⟩
abbrev main_v162 : Ref sig .tc := ⟨.hbm, 291, rfl⟩
abbrev main_v163 : Ref sig .tc := ⟨.hbm, 292, rfl⟩
abbrev main_call12_v0 : Ref sig .tc := ⟨.hbm, 293, rfl⟩
abbrev main_call12_v1 : Ref sig .tc := ⟨.hbm, 294, rfl⟩
abbrev main_call12_v2 : Ref sig .tc := ⟨.hbm, 295, rfl⟩
abbrev main_call12_v3 : Ref sig .tc := ⟨.hbm, 296, rfl⟩
abbrev main_call12_v4 : Ref sig .tc := ⟨.hbm, 297, rfl⟩
abbrev main_v164 : Ref sig .tc := ⟨.hbm, 298, rfl⟩
abbrev main_v165 : Ref sig .tc := ⟨.hbm, 299, rfl⟩
abbrev main_call13_v0 : Ref sig .tc := ⟨.hbm, 300, rfl⟩
abbrev main_call13_v1 : Ref sig .tc := ⟨.hbm, 301, rfl⟩
abbrev main_call13_v2 : Ref sig .tc := ⟨.hbm, 302, rfl⟩
abbrev main_call13_v3 : Ref sig .tc := ⟨.hbm, 303, rfl⟩
abbrev main_call13_v4 : Ref sig .tc := ⟨.hbm, 304, rfl⟩
abbrev main_v166 : Ref sig .tc := ⟨.hbm, 305, rfl⟩
abbrev main_v167 : Ref sig .tc := ⟨.hbm, 306, rfl⟩
abbrev main_call14_v0 : Ref sig .tc := ⟨.hbm, 307, rfl⟩
abbrev main_call14_v1 : Ref sig .tc := ⟨.hbm, 308, rfl⟩
abbrev main_call14_v2 : Ref sig .tc := ⟨.hbm, 309, rfl⟩
abbrev main_call14_v3 : Ref sig .tc := ⟨.hbm, 310, rfl⟩
abbrev main_call14_v4 : Ref sig .tc := ⟨.hbm, 311, rfl⟩
abbrev main_v168 : Ref sig .tc := ⟨.hbm, 312, rfl⟩
abbrev main_v169 : Ref sig .tc := ⟨.hbm, 313, rfl⟩
abbrev main_call15_v0 : Ref sig .tc := ⟨.hbm, 314, rfl⟩
abbrev main_call15_v1 : Ref sig .tc := ⟨.hbm, 315, rfl⟩
abbrev main_call15_v2 : Ref sig .tc := ⟨.hbm, 316, rfl⟩
abbrev main_call15_v3 : Ref sig .tc := ⟨.hbm, 317, rfl⟩
abbrev main_call15_v4 : Ref sig .tc := ⟨.hbm, 318, rfl⟩
abbrev main_v170 : Ref sig .tc := ⟨.hbm, 319, rfl⟩
abbrev main_v171 : Ref sig .tc := ⟨.hbm, 320, rfl⟩
abbrev main_cst_53 : Ref sig .tc := ⟨.hbm, 321, rfl⟩
abbrev main_v172 : Ref sig .tc := ⟨.hbm, 322, rfl⟩
abbrev main_call16_v0 : Ref sig .tc := ⟨.hbm, 323, rfl⟩
abbrev main_call16_v1 : Ref sig .tc := ⟨.hbm, 324, rfl⟩
abbrev main_call16_v2 : Ref sig .tc := ⟨.hbm, 325, rfl⟩
abbrev main_call16_v3 : Ref sig .tc := ⟨.hbm, 326, rfl⟩
abbrev main_call16_v4 : Ref sig .tc := ⟨.hbm, 327, rfl⟩
abbrev main_v173 : Ref sig .tc := ⟨.hbm, 328, rfl⟩
abbrev main_v174 : Ref sig .tc := ⟨.hbm, 329, rfl⟩
abbrev main_call17_v0 : Ref sig .tc := ⟨.hbm, 330, rfl⟩
abbrev main_call17_v1 : Ref sig .tc := ⟨.hbm, 331, rfl⟩
abbrev main_call17_v2 : Ref sig .tc := ⟨.hbm, 332, rfl⟩
abbrev main_call17_v3 : Ref sig .tc := ⟨.hbm, 333, rfl⟩
abbrev main_call17_v4 : Ref sig .tc := ⟨.hbm, 334, rfl⟩
abbrev main_v175 : Ref sig .tc := ⟨.hbm, 335, rfl⟩
abbrev main_v176 : Ref sig .tc := ⟨.hbm, 336, rfl⟩
abbrev main_call18_v0 : Ref sig .tc := ⟨.hbm, 337, rfl⟩
abbrev main_call18_v1 : Ref sig .tc := ⟨.hbm, 338, rfl⟩
abbrev main_call18_v2 : Ref sig .tc := ⟨.hbm, 339, rfl⟩
abbrev main_call18_v3 : Ref sig .tc := ⟨.hbm, 340, rfl⟩
abbrev main_call18_v4 : Ref sig .tc := ⟨.hbm, 341, rfl⟩
abbrev main_v177 : Ref sig .tc := ⟨.hbm, 342, rfl⟩
abbrev main_v178 : Ref sig .tc := ⟨.hbm, 343, rfl⟩
abbrev main_cst_54 : Ref sig .tc := ⟨.hbm, 344, rfl⟩
abbrev main_v179 : Ref sig .tc := ⟨.hbm, 345, rfl⟩
abbrev main_call19_v0 : Ref sig .tc := ⟨.hbm, 346, rfl⟩
abbrev main_call19_v1 : Ref sig .tc := ⟨.hbm, 347, rfl⟩
abbrev main_call19_v2 : Ref sig .tc := ⟨.hbm, 348, rfl⟩
abbrev main_call19_v3 : Ref sig .tc := ⟨.hbm, 349, rfl⟩
abbrev main_call19_v4 : Ref sig .tc := ⟨.hbm, 350, rfl⟩
abbrev main_v180 : Ref sig .tc := ⟨.hbm, 351, rfl⟩
abbrev main_v181 : Ref sig .tc := ⟨.hbm, 352, rfl⟩
abbrev main_call20_v0 : Ref sig .tc := ⟨.hbm, 353, rfl⟩
abbrev main_call20_v1 : Ref sig .tc := ⟨.hbm, 354, rfl⟩
abbrev main_call20_v2 : Ref sig .tc := ⟨.hbm, 355, rfl⟩
abbrev main_call20_v3 : Ref sig .tc := ⟨.hbm, 356, rfl⟩
abbrev main_call20_v4 : Ref sig .tc := ⟨.hbm, 357, rfl⟩
abbrev main_v182 : Ref sig .tc := ⟨.hbm, 358, rfl⟩
abbrev main_v183 : Ref sig .tc := ⟨.hbm, 359, rfl⟩
abbrev main_call21_v0 : Ref sig .tc := ⟨.hbm, 360, rfl⟩
abbrev main_call21_v1 : Ref sig .tc := ⟨.hbm, 361, rfl⟩
abbrev main_call21_v2 : Ref sig .tc := ⟨.hbm, 362, rfl⟩
abbrev main_call21_v3 : Ref sig .tc := ⟨.hbm, 363, rfl⟩
abbrev main_call21_v4 : Ref sig .tc := ⟨.hbm, 364, rfl⟩
abbrev main_v184 : Ref sig .tc := ⟨.hbm, 365, rfl⟩
abbrev main_v185 : Ref sig .tc := ⟨.hbm, 366, rfl⟩
abbrev main_cst_55 : Ref sig .tc := ⟨.hbm, 367, rfl⟩
abbrev main_v186 : Ref sig .tc := ⟨.hbm, 368, rfl⟩
abbrev main_call22_v0 : Ref sig .tc := ⟨.hbm, 369, rfl⟩
abbrev main_call22_v1 : Ref sig .tc := ⟨.hbm, 370, rfl⟩
abbrev main_call22_v2 : Ref sig .tc := ⟨.hbm, 371, rfl⟩
abbrev main_call22_v3 : Ref sig .tc := ⟨.hbm, 372, rfl⟩
abbrev main_call22_v4 : Ref sig .tc := ⟨.hbm, 373, rfl⟩
abbrev main_v187 : Ref sig .tc := ⟨.hbm, 374, rfl⟩
abbrev main_v188 : Ref sig .tc := ⟨.hbm, 375, rfl⟩
abbrev main_call23_v0 : Ref sig .tc := ⟨.hbm, 376, rfl⟩
abbrev main_call23_v1 : Ref sig .tc := ⟨.hbm, 377, rfl⟩
abbrev main_call23_v2 : Ref sig .tc := ⟨.hbm, 378, rfl⟩
abbrev main_call23_v3 : Ref sig .tc := ⟨.hbm, 379, rfl⟩
abbrev main_call23_v4 : Ref sig .tc := ⟨.hbm, 380, rfl⟩
abbrev main_v189 : Ref sig .tc := ⟨.hbm, 381, rfl⟩
abbrev main_v190 : Ref sig .tc := ⟨.hbm, 382, rfl⟩
abbrev main_call24_v0 : Ref sig .tc := ⟨.hbm, 383, rfl⟩
abbrev main_call24_v1 : Ref sig .tc := ⟨.hbm, 384, rfl⟩
abbrev main_call24_v2 : Ref sig .tc := ⟨.hbm, 385, rfl⟩
abbrev main_call24_v3 : Ref sig .tc := ⟨.hbm, 386, rfl⟩
abbrev main_call24_v4 : Ref sig .tc := ⟨.hbm, 387, rfl⟩
abbrev main_v191 : Ref sig .tc := ⟨.hbm, 388, rfl⟩
abbrev main_v192 : Ref sig .tc := ⟨.hbm, 389, rfl⟩
abbrev main_v193 : Ref sig .tc := ⟨.hbm, 390, rfl⟩
abbrev main_v194 : Ref sig .tc := ⟨.hbm, 391, rfl⟩
abbrev main_v195 : Ref sig .tc := ⟨.hbm, 392, rfl⟩
abbrev main_v196 : Ref sig .tc := ⟨.hbm, 393, rfl⟩
abbrev main_v197 : Ref sig .tc := ⟨.hbm, 394, rfl⟩
abbrev main_v198 : Ref sig .tc := ⟨.hbm, 395, rfl⟩
abbrev main_v199 : Ref sig .tc := ⟨.hbm, 396, rfl⟩
abbrev main_v200 : Ref sig .tc := ⟨.hbm, 397, rfl⟩
abbrev main_v201 : Ref sig .tc := ⟨.hbm, 398, rfl⟩
abbrev main_v202 : Ref sig .tc := ⟨.hbm, 399, rfl⟩
abbrev main_v203 : Ref sig .tc := ⟨.hbm, 400, rfl⟩
abbrev main_v204 : Ref sig .tc := ⟨.hbm, 401, rfl⟩
abbrev main_v205 : Ref sig .tc := ⟨.hbm, 402, rfl⟩
abbrev main_v206 : Ref sig .tc := ⟨.hbm, 403, rfl⟩
abbrev main_v207 : Ref sig .tc := ⟨.hbm, 404, rfl⟩
abbrev main_v208 : Ref sig .tc := ⟨.hbm, 405, rfl⟩
abbrev main_c : Ref sig .tc := ⟨.hbm, 406, rfl⟩
abbrev main_call25_v0 : Ref sig .tc := ⟨.hbm, 407, rfl⟩
abbrev main_v209 : Ref sig .tc := ⟨.hbm, 408, rfl⟩
abbrev main_v210 : Ref sig .tc := ⟨.hbm, 409, rfl⟩
abbrev main_v211_0 : Ref sig .tc := ⟨.hbm, 410, rfl⟩
abbrev main_v211_1 : Ref sig .tc := ⟨.hbm, 411, rfl⟩
abbrev main_v212 : Ref sig .tc := ⟨.hbm, 412, rfl⟩
abbrev main_v213 : Ref sig .tc := ⟨.hbm, 413, rfl⟩
abbrev main_v214 : Ref sig .tc := ⟨.hbm, 414, rfl⟩
abbrev main_cst_56 : Ref sig .tc := ⟨.hbm, 415, rfl⟩
abbrev main_v215 : Ref sig .tc := ⟨.hbm, 416, rfl⟩
abbrev main_v216 : Ref sig .tc := ⟨.hbm, 417, rfl⟩
abbrev main_v217 : Ref sig .tc := ⟨.hbm, 418, rfl⟩
abbrev main_v218 : Ref sig .tc := ⟨.hbm, 419, rfl⟩
abbrev main_cst_57 : Ref sig .tc := ⟨.hbm, 420, rfl⟩
abbrev main_v219 : Ref sig .tc := ⟨.hbm, 421, rfl⟩
abbrev main_cst_58 : Ref sig .tc := ⟨.hbm, 422, rfl⟩
abbrev main_v220 : Ref sig .tc := ⟨.hbm, 423, rfl⟩
abbrev main_v221 : Ref sig .tc := ⟨.hbm, 424, rfl⟩
abbrev main_v222 : Ref sig .tc := ⟨.hbm, 425, rfl⟩
abbrev main_v223 : Ref sig .tc := ⟨.hbm, 426, rfl⟩
abbrev main_v224 : Ref sig .tc := ⟨.hbm, 427, rfl⟩
abbrev main_v225 : Ref sig .tc := ⟨.hbm, 428, rfl⟩
abbrev main_v226 : Ref sig .tc := ⟨.hbm, 429, rfl⟩
abbrev main_call26_cst : Ref sig .tc := ⟨.hbm, 430, rfl⟩
abbrev main_call26_v0 : Ref sig .tc := ⟨.hbm, 431, rfl⟩
abbrev main_v227 : Ref sig .tc := ⟨.hbm, 432, rfl⟩
abbrev main_v228 : Ref sig .tc := ⟨.hbm, 433, rfl⟩
abbrev main_v229 : Ref sig .tc := ⟨.hbm, 434, rfl⟩
abbrev main_v230 : Ref sig .tc := ⟨.hbm, 435, rfl⟩
abbrev main_v231 : Ref sig .tc := ⟨.hbm, 436, rfl⟩
abbrev main_v232 : Ref sig .tc := ⟨.hbm, 437, rfl⟩
abbrev main_v233 : Ref sig .tc := ⟨.hbm, 438, rfl⟩
abbrev main_v234 : Ref sig .tc := ⟨.hbm, 439, rfl⟩
abbrev main_cst_59 : Ref sig .tc := ⟨.hbm, 440, rfl⟩
abbrev main_v235 : Ref sig .tc := ⟨.hbm, 441, rfl⟩
abbrev main_v236 : Ref sig .tc := ⟨.hbm, 442, rfl⟩
abbrev main_cst_60 : Ref sig .tc := ⟨.hbm, 443, rfl⟩
abbrev main_v237 : Ref sig .tc := ⟨.hbm, 444, rfl⟩
abbrev main_v238 : Ref sig .tc := ⟨.hbm, 445, rfl⟩
abbrev main_v239 : Ref sig .tc := ⟨.hbm, 446, rfl⟩
abbrev main_cst_61 : Ref sig .tc := ⟨.hbm, 447, rfl⟩
abbrev main_v240 : Ref sig .tc := ⟨.hbm, 448, rfl⟩
abbrev main_cst_62 : Ref sig .tc := ⟨.hbm, 449, rfl⟩
abbrev main_v241 : Ref sig .tc := ⟨.hbm, 450, rfl⟩
abbrev main_v242 : Ref sig .tc := ⟨.hbm, 451, rfl⟩
abbrev main_v243 : Ref sig .tc := ⟨.hbm, 452, rfl⟩
abbrev main_v244 : Ref sig .tc := ⟨.hbm, 453, rfl⟩
abbrev main_cst_63 : Ref sig .tc := ⟨.hbm, 454, rfl⟩
abbrev main_v245 : Ref sig .tc := ⟨.hbm, 455, rfl⟩
abbrev main_cst_64 : Ref sig .tc := ⟨.hbm, 456, rfl⟩
abbrev main_v246 : Ref sig .tc := ⟨.hbm, 457, rfl⟩
abbrev main_v247 : Ref sig .tc := ⟨.hbm, 458, rfl⟩
abbrev main_v248 : Ref sig .tc := ⟨.hbm, 459, rfl⟩
abbrev main_v249 : Ref sig .tc := ⟨.hbm, 460, rfl⟩
abbrev main_cst_65 : Ref sig .tc := ⟨.hbm, 461, rfl⟩
abbrev main_v250 : Ref sig .tc := ⟨.hbm, 462, rfl⟩
abbrev main_v251 : Ref sig .tc := ⟨.hbm, 463, rfl⟩
abbrev main_cst_66 : Ref sig .tc := ⟨.hbm, 464, rfl⟩
abbrev main_v252 : Ref sig .tc := ⟨.hbm, 465, rfl⟩
abbrev main_v253 : Ref sig .tc := ⟨.hbm, 466, rfl⟩
abbrev main_v254 : Ref sig .tc := ⟨.hbm, 467, rfl⟩
abbrev main_v255 : Ref sig .tc := ⟨.hbm, 468, rfl⟩
abbrev main_v256 : Ref sig .tc := ⟨.hbm, 469, rfl⟩
abbrev main_v257 : Ref sig .tc := ⟨.hbm, 470, rfl⟩
abbrev main_v258 : Ref sig .tc := ⟨.hbm, 471, rfl⟩
abbrev main_v259 : Ref sig .tc := ⟨.hbm, 472, rfl⟩
abbrev main_v260 : Ref sig .tc := ⟨.hbm, 473, rfl⟩
abbrev main_v261 : Ref sig .tc := ⟨.hbm, 474, rfl⟩
abbrev main_v262 : Ref sig .tc := ⟨.hbm, 475, rfl⟩
abbrev main_v263 : Ref sig .tc := ⟨.hbm, 476, rfl⟩
abbrev main_v264 : Ref sig .tc := ⟨.hbm, 477, rfl⟩
abbrev main_v265 : Ref sig .tc := ⟨.hbm, 478, rfl⟩
abbrev main_v266 : Ref sig .tc := ⟨.hbm, 479, rfl⟩
abbrev main_v267 : Ref sig .tc := ⟨.hbm, 480, rfl⟩
abbrev main_v268 : Ref sig .tc := ⟨.hbm, 481, rfl⟩
abbrev main_v269 : Ref sig .tc := ⟨.hbm, 482, rfl⟩
abbrev main_v270 : Ref sig .tc := ⟨.hbm, 483, rfl⟩
abbrev main_v271 : Ref sig .tc := ⟨.hbm, 484, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S32x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S32x32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x16x1x1_S16x16 : S16x16x1x1.ShapeCasts S16x16
  transposes_S16x16_S16x16_1_0 : S16x16.Transposes [1, 0] S16x16
  bcast_S_S16x16 : S_.BroadcastsInDim S16x16 (![] : Fin 0 → Fin S16x16.rank)
  slices_S16x16x3x3_S16x16x1x1_0_0_0_0 : S16x16x3x3.Slices ![0, 0, 0, 0] S16x16x1x1
  slices_S16x16x3x3_S16x16x1x1_0_0_0_1 : S16x16x3x3.Slices ![0, 0, 0, 1] S16x16x1x1
  slices_S16x16x3x3_S16x16x1x1_0_0_0_2 : S16x16x3x3.Slices ![0, 0, 0, 2] S16x16x1x1
  slices_S16x16x3x3_S16x16x1x1_0_0_1_0 : S16x16x3x3.Slices ![0, 0, 1, 0] S16x16x1x1
  slices_S16x16x3x3_S16x16x1x1_0_0_1_1 : S16x16x3x3.Slices ![0, 0, 1, 1] S16x16x1x1
  slices_S16x16x3x3_S16x16x1x1_0_0_1_2 : S16x16x3x3.Slices ![0, 0, 1, 2] S16x16x1x1
  slices_S16x16x3x3_S16x16x1x1_0_0_2_0 : S16x16x3x3.Slices ![0, 0, 2, 0] S16x16x1x1
  slices_S16x16x3x3_S16x16x1x1_0_0_2_1 : S16x16x3x3.Slices ![0, 0, 2, 1] S16x16x1x1
  slices_S16x16x3x3_S16x16x1x1_0_0_2_2 : S16x16x3x3.Slices ![0, 0, 2, 2] S16x16x1x1
  bcast_S_S512x512 : S_.BroadcastsInDim S512x512 (![] : Fin 0 → Fin S512x512.rank)
  bcast_S32x32_S32x1x32x1_0_2 : S32x32.BroadcastsInDim S32x1x32x1 (![0, 2] : Fin 2 → Fin S32x1x32x1.rank)
  bcast_S16x16_S1x16x1x16_1_3 : S16x16.BroadcastsInDim S1x16x1x16 (![1, 3] : Fin 2 → Fin S1x16x1x16.rank)
  bcast_S32x1x32x1_S32x16x32x16_0_1_2_3 : S32x1x32x1.BroadcastsInDim S32x16x32x16 (![0, 1, 2, 3] : Fin 4 → Fin S32x16x32x16.rank)
  bcast_S1x16x1x16_S32x16x32x16_0_1_2_3 : S1x16x1x16.BroadcastsInDim S32x16x32x16 (![0, 1, 2, 3] : Fin 4 → Fin S32x16x32x16.rank)
  shapeCasts_S32x16x32x16_S512x512 : S32x16x32x16.ShapeCasts S512x512
  bcast_S512x512_S1x512x512_1_2 : S512x512.BroadcastsInDim S1x512x512 (![1, 2] : Fin 2 → Fin S1x512x512.rank)
  concatenates_S1x512x512_S1x512x512_S1x512x512_S1x512x512_S1x512x512_S1x512x512_S1x512x512_S7x512x512_d0 : Shape.Concatenates [S1x512x512, S1x512x512, S1x512x512, S1x512x512, S1x512x512, S1x512x512, S1x512x512] S7x512x512 0
  shapeCasts_S16_S1x16 : S16.ShapeCasts S1x16
  bcast_S1x16_S32x16_0_1 : S1x16.BroadcastsInDim S32x16 (![0, 1] : Fin 2 → Fin S32x16.rank)
  shapeCasts_S32x16_S512 : S32x16.ShapeCasts S512
  shapeCasts_S512_S1x512 : S512.ShapeCasts S1x512
  transposes_S512x16x32x32_S512x32x32x16_0_2_3_1 : S512x16x32x32.Transposes [0, 2, 3, 1] S512x32x32x16
  pads_S512x32x32x16_S512x40x32x16_000_440_000_000 : S512x32x32x16.Pads (![0, 4, 0, 0] : Fin 4 → Nat) ![0, 4, 0, 0] ![0, 0, 0, 0] S512x40x32x16
  h_S_ : 0 < S_.numel
  shapeCasts_S512x40x32x16_S512x40x512 : S512x40x32x16.ShapeCasts S512x40x512
  inb_S8x40x512_S8x32x512_0_0_0 : ∀ a, (![0, 0, 0] : Fin 3 → Nat) a + S8x32x512.size a ≤ S8x40x512.size a
  h_S8x32x512 : 0 < S8x32x512.numel
  shapeCasts_S8x32x512_S8x32x512 : S8x32x512.ShapeCasts S8x32x512
  shapeCasts_S8x32x512_S256x512 : S8x32x512.ShapeCasts S256x512
  inb_S7x512x512_S1x512x512_0_0_0 : ∀ a, (![0, 0, 0] : Fin 3 → Nat) a + S1x512x512.size a ≤ S7x512x512.size a
  h_S1x512x512 : 0 < S1x512x512.numel
  shapeCasts_S1x512x512_S512x512 : S1x512x512.ShapeCasts S512x512
  inb_S8x40x512_S8x32x512_0_2_0 : ∀ a, (![0, 2, 0] : Fin 3 → Nat) a + S8x32x512.size a ≤ S8x40x512.size a
  inb_S7x512x512_S1x512x512_1_0_0 : ∀ a, (![1, 0, 0] : Fin 3 → Nat) a + S1x512x512.size a ≤ S7x512x512.size a
  inb_S8x40x512_S8x32x512_0_3_0 : ∀ a, (![0, 3, 0] : Fin 3 → Nat) a + S8x32x512.size a ≤ S8x40x512.size a
  inb_S7x512x512_S1x512x512_2_0_0 : ∀ a, (![2, 0, 0] : Fin 3 → Nat) a + S1x512x512.size a ≤ S7x512x512.size a
  inb_S8x40x512_S8x32x512_0_4_0 : ∀ a, (![0, 4, 0] : Fin 3 → Nat) a + S8x32x512.size a ≤ S8x40x512.size a
  inb_S7x512x512_S1x512x512_3_0_0 : ∀ a, (![3, 0, 0] : Fin 3 → Nat) a + S1x512x512.size a ≤ S7x512x512.size a
  inb_S8x40x512_S8x32x512_0_5_0 : ∀ a, (![0, 5, 0] : Fin 3 → Nat) a + S8x32x512.size a ≤ S8x40x512.size a
  inb_S7x512x512_S1x512x512_4_0_0 : ∀ a, (![4, 0, 0] : Fin 3 → Nat) a + S1x512x512.size a ≤ S7x512x512.size a
  inb_S8x40x512_S8x32x512_0_6_0 : ∀ a, (![0, 6, 0] : Fin 3 → Nat) a + S8x32x512.size a ≤ S8x40x512.size a
  inb_S7x512x512_S1x512x512_5_0_0 : ∀ a, (![5, 0, 0] : Fin 3 → Nat) a + S1x512x512.size a ≤ S7x512x512.size a
  inb_S8x40x512_S8x32x512_0_8_0 : ∀ a, (![0, 8, 0] : Fin 3 → Nat) a + S8x32x512.size a ≤ S8x40x512.size a
  inb_S7x512x512_S1x512x512_6_0_0 : ∀ a, (![6, 0, 0] : Fin 3 → Nat) a + S1x512x512.size a ≤ S7x512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S8x32x512 : S256x512.ShapeCasts S8x32x512
  inb_S8x32x512_S8x32x512_0_0_0 : ∀ a, (![0, 0, 0] : Fin 3 → Nat) a + S8x32x512.size a ≤ S8x32x512.size a
  reduces_S8x32x512_S8x512 : S8x32x512.Reduces [1] S8x512
  shapeCasts_S8x512_S8x1x512 : S8x512.ShapeCasts S8x1x512
  concatenates_S8x1x512_S8x1x512_S8x2x512_d1 : Shape.Concatenates [S8x1x512, S8x1x512] S8x2x512 1
  inb_S8x2x512_S8x2x512_0_0_0 : ∀ a, (![0, 0, 0] : Fin 3 → Nat) a + S8x2x512.size a ≤ S8x2x512.size a
  h_S8x2x512 : 0 < S8x2x512.numel
  slices_S512x2x512_S512x1x512_0_0_0 : S512x2x512.Slices ![0, 0, 0] S512x1x512
  shapeCasts_S512x1x512_S512x512 : S512x1x512.ShapeCasts S512x512
  shapeCasts_S512x512_S512x32x16 : S512x512.ShapeCasts S512x32x16
  reducesTo_S512x32x16_S512x16_d1 : S512x32x16.ReducesTo [1] S512x16
  slices_S512x2x512_S512x1x512_0_1_0 : S512x2x512.Slices ![0, 1, 0] S512x1x512
  bcast_S_S512x16 : S_.BroadcastsInDim S512x16 (![] : Fin 0 → Fin S512x16.rank)
  transposes_S4x16_S16x4_1_0 : S4x16.Transposes [1, 0] S16x4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  bcast_S_S512x4 : S_.BroadcastsInDim S512x4 (![] : Fin 0 → Fin S512x4.rank)
  transposes_S16x4_S4x16_1_0 : S16x4.Transposes [1, 0] S4x16
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  reducesTo_S512x16_S16_d0 : S512x16.ReducesTo [0] S16
  bcast_S_S16 : S_.BroadcastsInDim S16 (![] : Fin 0 → Fin S16.rank)
  shapeCasts_S512x16_S1x512x1x16 : S512x16.ShapeCasts S1x512x1x16
  bcast_S1x512x1x16_S1x512x32x16_0_1_2_3 : S1x512x1x16.BroadcastsInDim S1x512x32x16 (![0, 1, 2, 3] : Fin 4 → Fin S1x512x32x16.rank)
  shapeCasts_S1x512x32x16_S512x512 : S1x512x32x16.ShapeCasts S512x512
  shapeCasts_S512x512_S512x1x512 : S512x512.ShapeCasts S512x1x512
  shapeCasts_S512_S1x1x512 : S512.ShapeCasts S1x1x512
  inb_S32x32x512_S32x32x512_0_0_0 : ∀ a, (![0, 0, 0] : Fin 3 → Nat) a + S32x32x512.size a ≤ S32x32x512.size a
  h_S32x32x512 : 0 < S32x32x512.numel
  shapeCasts_S32x32x512_S32x32x512 : S32x32x512.ShapeCasts S32x32x512
  inb_S32x1x512_S32x1x512_0_0_0 : ∀ a, (![0, 0, 0] : Fin 3 → Nat) a + S32x1x512.size a ≤ S32x1x512.size a
  h_S32x1x512 : 0 < S32x1x512.numel
  shapeCasts_S32x1x512_S32x1x512 : S32x1x512.ShapeCasts S32x1x512
  broadcasts_S32x1x512_S32x32x512 : S32x1x512.Broadcasts S32x32x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S32x32x512 : S1x1x512.Broadcasts S32x32x512
  shapeCasts_S512x32x512_S512x32x32x16 : S512x32x512.ShapeCasts S512x32x32x16
  transposes_S512x32x32x16_S512x16x32x32_0_3_1_2 : S512x32x32x16.Transposes [0, 3, 1, 2] S512x16x32x32
  dot_S256x512_S512x512_S256x512_1_0_0_1_n_n_wf : DotDims.WF S256x512 S512x512 S256x512 [1] [0] [0] [1] [] []
  dot_S512x16_S16x4_S512x4_1_0_0_1_n_n_wf : DotDims.WF S512x16 S16x4 S512x4 [1] [0] [0] [1] [] []
  dot_S512x4_S4x16_S512x16_1_0_0_1_n_n_wf : DotDims.WF S512x4 S4x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x40x512.size a ≤ S512x40x512.size a
  hwx0_0 : ∀ i : grid0.Coords, EltTy.bits .f32 = 32 ∨ (Rect.block (s := S512x40x512) S8x40x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x512x512.size a ≤ S7x512x512.size a
  hwx0_1 : ∀ i : grid0.Coords, EltTy.bits .f32 = 32 ∨ (Rect.block (s := S7x512x512) S7x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32x512.size a ≤ S512x32x512.size a
  hwx0_3 : ∀ i : grid0.Coords, EltTy.bits .f32 = 32 ∨ (Rect.block (s := S512x32x512) S8x32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x2x512.size a ≤ S512x2x512.size a
  hwx0_4 : ∀ i : grid0.Coords, EltTy.bits .f32 = 32 ∨ (Rect.block (s := S512x2x512) S8x2x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32x512.size a ≤ S512x32x512.size a
  hwx1_0 : ∀ i : grid1.Coords, EltTy.bits .f32 = 32 ∨ (Rect.block (s := S512x32x512) S32x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x512.size a ≤ S512x1x512.size a
  hwx1_1 : ∀ i : grid1.Coords, EltTy.bits .f32 = 32 ∨ (Rect.block (s := S512x1x512) S32x1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S1x1x512.size a
  hwx1_2 : ∀ i : grid1.Coords, EltTy.bits .f32 = 32 ∨ (Rect.block (s := S1x1x512) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x32x512.size a ≤ S512x32x512.size a
  hwx1_3 : ∀ i : grid1.Coords, EltTy.bits .f32 = 32 ∨ (Rect.block (s := S512x32x512) S32x32x512.size (cc1_transform_3 i) (hinb1_3 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S512x16_S16x4_S512x4_1_0_0_1_n_n : DotDims S512x16 S16x4 S512x4 where
  lhsContracting := [1]
  rhsContracting := [0]
  lhsNonContracting := [0]
  rhsNonContracting := [1]
  lhsBatch := []
  rhsBatch := []
  wf := dot_S512x16_S16x4_S512x4_1_0_0_1_n_n_wf
def dot_S512x4_S4x16_S512x16_1_0_0_1_n_n : DotDims S512x4 S4x16 S512x16 where
  lhsContracting := [1]
  rhsContracting := [0]
  lhsNonContracting := [0]
  rhsNonContracting := [1]
  lhsBatch := []
  rhsBatch := []
  wf := dot_S512x4_S4x16_S512x16_1_0_0_1_n_n_wf

abbrev win0_0 : Pipeline.Window sig grid0 :=
  Pipeline.Window.ofSpec (Memref.whole main_v210) S8x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v200) S7x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v207) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v211_0) S8x32x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v211_1) S8x2x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v211_0) S32x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v264) S32x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v268) S1x1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v269) S32x32x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelRun.lean ====
/-
  The idealized kernel's run with its final buffer contents NAMED.

  @main is nine segments: three stretches of host operations (the weight fold, the bias tile, the halo pad), the
  convolution region, three stretches (the channel-attention gate and the batch statistics), the scale-shift-ReLU region,
  and the closing reshape/transpose.  The generated frame runs these segments and keeps, of the last boundary's contents
  `W9`, only that the argument arrays are as launched.  Here the same launch is read with the whole last boundary kept:
  after every weakly fair execution each unscoped buffer `b` of a core holds `W9 m ρ c b` — the fold of the host
  stretches' results and the two regions' written-back arrays from the launch memory.  The result array and the
  arguments are then instances of one statement.
-/
import proofs.«179230_g2000505885998750_pallasbulk_270_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every unscoped buffer of
    every core holds the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The result array after the run is the last boundary's contents of `main_v277`. -/
theorem run_result : θ_run defs (onTc (τ := τ) (main (F := F))) ⟨m, fun _ => 0, ρ⟩ (fun r => ∀ c : Dev nD,
      r.2.mem ((c.tc : Thread nD τ).loc main_v277) = W9 m ρ c (Proc.devRef .tc main_v277)) :=
  (θ_run defs _ _).mono (fun r h c => h c _ (mem_uc main_v277 (by decide))) (run_all m ρ)

/-- The run as the equality of the two programs needs it: the result array at the last boundary's contents, and every
    argument array as launched (no host operation and no region writes an argument). -/
theorem run_named : θ_run defs (onTc (τ := τ) (main (F := F))) ⟨m, fun _ => 0, ρ⟩ (fun r => ∀ c : Dev nD,
      r.2.mem ((c.tc : Thread nD τ).loc main_v277) = W9 m ρ c (Proc.devRef .tc main_v277)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v277 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c),
     (h c _ (mem_uc main_arg12 (by decide))).trans (W9_main_arg12 m ρ c),
     (h c _ (mem_uc main_arg13 (by decide))).trans (W9_main_arg13 m ρ c),
     (h c _ (mem_uc main_arg14 (by decide))).trans (W9_main_arg14 m ρ c)⟩) (run_all m ρ)

end Cert.KernelIdeal.Named

end
-- ==== Proof.LibSumLaws.lean ====
/-
  Three laws of sums of extended reals that join the two programs' convolutions and gates.  None needs finiteness:
  on the extended reals `x * 0 = 0` also at the infinities, and `+`, `*` are commutative and associative.

  * A contraction `∑ k, x k * w k` may leave out every `k` at which the weight is zero (`sum_mul_of_support`), and a
    sum supported on a window `lo ≤ k < lo + len` of `Fin n` is the sum over the window re-indexed from `0`
    (`sum_window`).  Together: a banded matrix product, contracted only over the tiles that meet the band, is the
    full product.
  * Dividing by a nonzero real constant is multiplying by its reciprocal, which moves across a product:
    `(a * r) * w = a * (w * r)` (`scale_left_right`), hence termwise under a sum (`sum_scale_left_right`): the mean
    taken before or after the contraction with the gate's first layer is the same number.
-/
import Mathlib.Data.EReal.Inv
import Mathlib.Algebra.BigOperators.Fin
import Mathlib.Algebra.BigOperators.Group.Finset.Basic

namespace Cert.SumLaws

open scoped BigOperators

/-- A contraction leaves out the indices where the weight vanishes. -/
theorem sum_mul_of_support {ι : Type*} [Fintype ι] (p : ι → Prop) [DecidablePred p] (x w : ι → EReal)
    (hw : ∀ k, ¬ p k → w k = 0) :
    ∑ k, x k * w k = ∑ k ∈ Finset.univ.filter p, x k * w k := by
  symm
  refine Finset.sum_subset (Finset.filter_subset _ _) (fun k _ hk => ?_)
  have hp : ¬ p k := fun h => hk (Finset.mem_filter.mpr ⟨Finset.mem_univ k, h⟩)
  rw [hw k hp, mul_zero]

/-- A sum over `Fin n` of a function vanishing outside the window `[lo, lo + len)` is the sum over the window,
    re-indexed from its start. -/
theorem sum_window {n : ℕ} (lo len : ℕ) (h : lo + len ≤ n) (f : Fin n → EReal)
    (hz : ∀ k : Fin n, ¬ (lo ≤ k.val ∧ k.val < lo + len) → f k = 0) :
    ∑ k : Fin n, f k = ∑ j : Fin len, f ⟨lo + j.val, by omega⟩ := by
  let e : Fin len ↪ Fin n := ⟨fun j => ⟨lo + j.val, by omega⟩, fun a b hab => by
    have := congrArg Fin.val hab
    exact Fin.ext (by simpa using this)⟩
  have hsub : ∑ k ∈ Finset.univ.map e, f k = ∑ k : Fin n, f k := by
    refine Finset.sum_subset (Finset.subset_univ _) (fun k _ hk => hz k ?_)
    rintro ⟨h1, h2⟩
    refine hk (Finset.mem_map.mpr ⟨⟨k.val - lo, by omega⟩, Finset.mem_univ _, ?_⟩)
    exact Fin.ext (by show lo + (k.val - lo) = k.val; omega)
  rw [← hsub, Finset.sum_map]
  rfl

/-- A banded contraction: when the weight vanishes outside the window, the full contraction is the contraction over the
    window. -/
theorem sum_mul_window {n : ℕ} (lo len : ℕ) (h : lo + len ≤ n) (x w : Fin n → EReal)
    (hw : ∀ k : Fin n, ¬ (lo ≤ k.val ∧ k.val < lo + len) → w k = 0) :
    ∑ k : Fin n, x k * w k = ∑ j : Fin len, x ⟨lo + j.val, by omega⟩ * w ⟨lo + j.val, by omega⟩ :=
  sum_window lo len h (fun k => x k * w k) (fun k hk => by rw [hw k hk, mul_zero])

/-- A constant factor on the left operand of a product is a constant factor on the right one. -/
theorem scale_left_right (a w r : EReal) : (a * r) * w = a * (w * r) := by
  rw [mul_assoc, mul_comm r w]

/-- The same under a sum: scaling every left operand is scaling every right operand. -/
theorem sum_scale_left_right {ι : Type*} [Fintype ι] (a w : ι → EReal) (r : EReal) :
    ∑ k, (a k * r) * w k = ∑ k, a k * (w k * r) :=
  Finset.sum_congr rfl (fun k _ => scale_left_right (a k) (w k) r)

end Cert.SumLaws
-- ==== Proof.RefConv.lean ====
/-
  The reference's convolution region, at the buffer contents `V` the region is entered with.

  A grid point takes 8 images: a block of 8 x 40 x 512 of the halo-padded input, the whole stack of seven 512 x 512
  row-shift matrices, and the bias row.  The body reads the seven windows of 32 rows of the input block that start at rows
  0, 2, 3, 4, 5, 6, 8 (row offset + 4), multiplies each, flattened to 256 x 512, by its matrix, adds the products to a
  zero accumulator in that order, adds the bias row, and stores the result as the 8 x 32 x 512 feature block; it then
  stores, as one 8 x 2 x 512 block, the sums over the 32 rows of the features and of their squares.  Each output buffer
  is written by ONE store covering it, so after the body it holds exactly that store's value — a function of the three
  input blocks, written below over the skeleton's named values (`feat`, `stats`).
-/
import proofs.«179230_g2000505885998750_pallasbulk_270_2_alg».proof.Proof.Gen.ReferenceIdeal.Launch
import proofs.«179230_g2000505885998750_pallasbulk_270_2_alg».proof.Proof.Gen.ReferenceIdeal.Skeleton
import proofs.«179230_g2000505885998750_pallasbulk_270_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (an unfetched window's block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rx0 : Rect S8x40x512 := Rect.unit (s := S8x40x512) ![0, 0, 0] S8x32x512.size inb_S8x40x512_S8x32x512_0_0_0
abbrev rx1 : Rect S8x40x512 := Rect.unit (s := S8x40x512) ![0, 2, 0] S8x32x512.size inb_S8x40x512_S8x32x512_0_2_0
abbrev rx2 : Rect S8x40x512 := Rect.unit (s := S8x40x512) ![0, 3, 0] S8x32x512.size inb_S8x40x512_S8x32x512_0_3_0
abbrev rx3 : Rect S8x40x512 := Rect.unit (s := S8x40x512) ![0, 4, 0] S8x32x512.size inb_S8x40x512_S8x32x512_0_4_0
abbrev rx4 : Rect S8x40x512 := Rect.unit (s := S8x40x512) ![0, 5, 0] S8x32x512.size inb_S8x40x512_S8x32x512_0_5_0
abbrev rx5 : Rect S8x40x512 := Rect.unit (s := S8x40x512) ![0, 6, 0] S8x32x512.size inb_S8x40x512_S8x32x512_0_6_0
abbrev rx6 : Rect S8x40x512 := Rect.unit (s := S8x40x512) ![0, 8, 0] S8x32x512.size inb_S8x40x512_S8x32x512_0_8_0
abbrev rw0 : Rect S7x512x512 := Rect.unit (s := S7x512x512) ![0, 0, 0] S1x512x512.size inb_S7x512x512_S1x512x512_0_0_0
abbrev rw1 : Rect S7x512x512 := Rect.unit (s := S7x512x512) ![1, 0, 0] S1x512x512.size inb_S7x512x512_S1x512x512_1_0_0
abbrev rw2 : Rect S7x512x512 := Rect.unit (s := S7x512x512) ![2, 0, 0] S1x512x512.size inb_S7x512x512_S1x512x512_2_0_0
abbrev rw3 : Rect S7x512x512 := Rect.unit (s := S7x512x512) ![3, 0, 0] S1x512x512.size inb_S7x512x512_S1x512x512_3_0_0
abbrev rw4 : Rect S7x512x512 := Rect.unit (s := S7x512x512) ![4, 0, 0] S1x512x512.size inb_S7x512x512_S1x512x512_4_0_0
abbrev rw5 : Rect S7x512x512 := Rect.unit (s := S7x512x512) ![5, 0, 0] S1x512x512.size inb_S7x512x512_S1x512x512_5_0_0
abbrev rw6 : Rect S7x512x512 := Rect.unit (s := S7x512x512) ![6, 0, 0] S1x512x512.size inb_S7x512x512_S1x512x512_6_0_0
abbrev rb : Rect S1x512 := Rect.unit (s := S1x512) ![0, 0] S1x512.size inb_S1x512_S1x512_0_0
abbrev rfeat : Rect S8x32x512 := Rect.unit (s := S8x32x512) ![0, 0, 0] S8x32x512.size inb_S8x32x512_S8x32x512_0_0_0
abbrev rstat : Rect S8x2x512 := Rect.unit (s := S8x2x512) ![0, 0, 0] S8x2x512.size inb_S8x2x512_S8x2x512_0_0_0

/-! ## What the body leaves in the two output buffers -/

/-- The stored features: bias + the seven products, of the input blocks. -/
def featVal (x0 : Vec F S8x40x512 .f32) (x1 : Vec F S7x512x512 .f32) (x2 : Vec F S1x512 .f32) : FVec F S8x32x512 .f32 :=
  k0_pay3 (k0_pay2 (View.ld x0 rx0) (View.ld x1 rw0) (View.ld x0 rx1) (View.ld x1 rw1) (View.ld x0 rx2) (View.ld x1 rw2) (View.ld x0 rx3) (View.ld x1 rw3)) (View.ld x0 rx4) (View.ld x1 rw4) (View.ld x0 rx5) (View.ld x1 rw5) (View.ld x0 rx6) (View.ld x1 rw6) (View.ld x2 rb)

/-- The feature buffer after the body: its one store, which covers it. -/
def feat (x0 : Vec F S8x40x512 .f32) (x1 : Vec F S7x512x512 .f32) (x2 : Vec F S1x512 .f32) : Vec F S8x32x512 .f32 :=
  View.canon [⟨rfeat, featVal x0 x1 x2⟩]

theorem cover_feat (p0 : Vec F S8x32x512 .f32) (y : S8x32x512.Idx) :
    ∃ pc ∈ ([⟨rfeat, p0⟩] : List (View.Piece (Elt F) S8x32x512 .f32)), y ∈ pc.1.set :=
  View.cover_of_tiled [⟨rfeat, p0⟩] S8x32x512.size (by rfl) y

/-- The stored statistics: the row sums of the features and of their squares, side by side. -/
def statsVal (x0 : Vec F S8x40x512 .f32) (x1 : Vec F S7x512x512 .f32) (x2 : Vec F S1x512 .f32) : FVec F S8x2x512 .f32 :=
  k0_pay1 (k0_pay4 (k0_pay2 (View.ld x0 rx0) (View.ld x1 rw0) (View.ld x0 rx1) (View.ld x1 rw1) (View.ld x0 rx2) (View.ld x1 rw2) (View.ld x0 rx3) (View.ld x1 rw3)) (View.ld x0 rx4) (View.ld x1 rw4) (View.ld x0 rx5) (View.ld x1 rw5) (View.ld x0 rx6) (View.ld x1 rw6) (View.ld x2 rb)) (k0_pay5 (k0_pay2 (View.ld x0 rx0) (View.ld x1 rw0) (View.ld x0 rx1) (View.ld x1 rw1) (View.ld x0 rx2) (View.ld x1 rw2) (View.ld x0 rx3) (View.ld x1 rw3)) (View.ld x0 rx4) (View.ld x1 rw4) (View.ld x0 rx5) (View.ld x1 rw5) (View.ld x0 rx6) (View.ld x1 rw6) (View.ld x2 rb))

/-- The statistics buffer after the body: its one store, which covers it. -/
def stats (x0 : Vec F S8x40x512 .f32) (x1 : Vec F S7x512x512 .f32) (x2 : Vec F S1x512 .f32) : Vec F S8x2x512 .f32 :=
  View.canon [⟨rstat, statsVal x0 x1 x2⟩]

theorem cover_stats (p0 : Vec F S8x2x512 .f32) (y : S8x2x512.Idx) :
    ∃ pc ∈ ([⟨rstat, p0⟩] : List (View.Piece (Elt F) S8x2x512 .f32)), y ∈ pc.1.set :=
  View.cover_of_tiled [⟨rstat, p0⟩] S8x2x512.size (by rfl) y

/-! ## The body's triple -/

set_option maxHeartbeats 1000000 in
/-- On whole staging memrefs, the inputs' at `x0 x1 x2` and the outputs' at anything, the body runs to a state with the
    inputs' as they were and the outputs' at `feat` and `stats` of the inputs'. -/
theorem sound_conv (c : Dev nD) (E : Set ℕ) (i : grid0.Coords) (arg1 : Memref sig .tc .vmem S8x40x512 .f32) (harg1 : arg1.IsWhole) (arg2 : Memref sig .tc .vmem S7x512x512 .f32) (harg2 : arg2.IsWhole) (arg3 : Memref sig .tc .vmem S1x512 .f32) (harg3 : arg3.IsWhole) (arg4 : Memref sig .tc .vmem S8x32x512 .f32) (harg4 : arg4.IsWhole) (arg5 : Memref sig .tc .vmem S8x2x512 .f32) (harg5 : arg5.IsWhole)
    (x0 : Vec F S8x40x512 .f32) (x1 : Vec F S7x512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (feat x0 x1 x2) ∗ owns (c : Thread nD τ) arg5 fullShare (stats x0 x1 x2)) -∗ K ⟨⟩))
      ⊢ wp frame (wpE (defs₀ (F := F)) Variants.none c none) E (cc0__kernel_body i arg1 harg1 arg2 harg2 arg3 harg3 arg4 harg4 arg5 harg5) K := by
  simp only [cc0__kernel_body_eq_skeleton]; unfold cc0__kernel_body_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover_feat _)
  iexists _; isplitr
  swap; · iexact H4
  ipureintro
  try dsimp only
  exact View.read_writes_eq_canon _ _ _ (cover_stats _)

/-! ## The region's proof data -/

/-- The arrays as the region finds them; after the body at point `t` each input's buffer at its block, the feature and
    statistics buffers at `feat` and `stats` of the point's input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => feat (iblk0 V c 0 t) (iblk0 V c 1 t) (iblk0 V c 2 t)
    | ⟨4, _⟩ => stats (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = feat (iblk0 V c 0 t) (iblk0 V c 1 t) (iblk0 V c 2 t) := by dsimp only [dat0]
theorem after0_4 (c : Dev nD) (t : Fin cfg0.N) : (dat0 V c).after 4 t = stats (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_conv` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_conv c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RefTail.lean ====
/-
  The reference's second region, at the buffer contents `V` it is entered with: a grid point takes 32 images — the
  32 x 32 x 512 block of features, the 32 x 1 x 512 block of per-image scales and the one shift row — and stores
  `max (features * scale + shift) 0`, scale and shift broadcast along the rows, as the 32 x 32 x 512 output block:
  one store covering the buffer.
-/
import proofs.«179230_g2000505885998750_pallasbulk_270_2_alg».proof.Proof.Gen.ReferenceIdeal.Launch
import proofs.«179230_g2000505885998750_pallasbulk_270_2_alg».proof.Proof.Gen.ReferenceIdeal.Skeleton
import proofs.«179230_g2000505885998750_pallasbulk_270_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes -/

abbrev rf : Rect S32x32x512 := Rect.unit (s := S32x32x512) ![0, 0, 0] S32x32x512.size inb_S32x32x512_S32x32x512_0_0_0
abbrev rsc : Rect S32x1x512 := Rect.unit (s := S32x1x512) ![0, 0, 0] S32x1x512.size inb_S32x1x512_S32x1x512_0_0_0
abbrev rsh : Rect S1x1x512 := Rect.unit (s := S1x1x512) ![0, 0, 0] S1x1x512.size inb_S1x1x512_S1x1x512_0_0_0

/-! ## What the body leaves in the output buffer -/

/-- The output buffer after the body: its one store, which covers it. -/
def tailOut (x0 : Vec F S32x32x512 .f32) (x1 : Vec F S32x1x512 .f32) (x2 : Vec F S1x1x512 .f32) : Vec F S32x32x512 .f32 :=
  View.canon [⟨rf, k1_pay1 (View.ld x0 rf) (View.ld x1 rsc) (View.ld x2 rsh)⟩]

theorem cover_tail (p0 : Vec F S32x32x512 .f32) (y : S32x32x512.Idx) :
    ∃ pc ∈ ([⟨rf, p0⟩] : List (View.Piece (Elt F) S32x32x512 .f32)), y ∈ pc.1.set :=
  View.cover_of_tiled [⟨rf, p0⟩] S32x32x512.size (by rfl) y

/-! ## The body's triple -/

set_option maxHeartbeats 1000000 in
theorem sound_tail (c : Dev nD) (E : Set ℕ) (i : grid1.Coords) (arg2 : Memref sig .tc .vmem S32x32x512 .f32) (harg2 : arg2.IsWhole) (arg3 : Memref sig .tc .vmem S32x1x512 .f32) (harg3 : arg3.IsWhole) (arg4 : Memref sig .tc .vmem S1x1x512 .f32) (harg4 : arg4.IsWhole) (arg5 : Memref sig .tc .vmem S32x32x512 .f32) (harg5 : arg5.IsWhole)
    (x0 : Vec F S32x32x512 .f32) (x1 : Vec F S32x1x512 .f32) (x2 : Vec F S1x1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (tailOut x0 x1 x2)) -∗ K ⟨⟩))
      ⊢ wp frame (wpE (defs₀ (F := F)) Variants.none c none) E (cc1__scale_shift_relu_kernel i arg2 harg2 arg3 harg3 arg4 harg4 arg5 harg5) K := by
  simp only [cc1__scale_shift_relu_kernel_eq_skeleton]; unfold cc1__scale_shift_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_tail _)

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tailOut (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = tailOut (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_tail c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RefFold.lean ====
/-
  The reference's buffer contents at each boundary of @main, as a fold from the launch memory.

  @main is 53 stretches of host operations (the seven row-shift matrices, each a zero matrix plus Kronecker products of
  a 0/1 column-shift matrix with a summed tap; the bias row; the transpose, halo pad and flattening of the input), the
  convolution region, three stretches (the per-channel sums, the gate, the batch statistics, the scale and shift rows),
  the scale-shift-ReLU region, and the closing reshape and transpose.  `W j` is what the TensorCore's buffers hold after
  `j` of these 59 segments: a stretch applies its operations' results (`StableHlo.after`), a region puts its arrays at
  what its write-backs leave and keeps every other buffer.

  No operation of any stretch writes an argument array (each writes its own result buffer, which is no argument), and
  the regions' arrays are no arguments either: read at an argument, the fold walks back to the launch memory
  (`W59_arg`).
-/
import proofs.«179230_g2000505885998750_pallasbulk_270_2_alg».proof.Proof.RefConv
import proofs.«179230_g2000505885998750_pallasbulk_270_2_alg».proof.Proof.RefTail

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The argument arrays, and that a stretch keeps them -/

/-- The fifteen argument arrays. -/
def argRefs : List (Ref sig .tc) :=
  [main_arg0, main_arg1, main_arg2, main_arg3, main_arg4, main_arg5, main_arg6, main_arg7, main_arg8, main_arg9,
   main_arg10, main_arg11, main_arg12, main_arg13, main_arg14]

/-- An argument is not a buffer outside the list of arguments. -/
theorem ne_of_arg {a y : Ref sig .tc} (ha : a ∈ argRefs) (hy : y ∉ argRefs) : a ≠ y := fun e => hy (e ▸ ha)

/-- No array of the convolution region is an argument, nor of the second region. -/
theorem arrRef0_ne_arg (a : Ref sig .tc) (ha : a ∈ argRefs) : ∀ w, Pipeline.arrRef spec0 w ≠ a :=
  fun w e => (by decide : ∀ w : Fin 5, Pipeline.arrRef spec0 w ∉ argRefs) w (e ▸ ha)
theorem arrRef1_ne_arg (a : Ref sig .tc) (ha : a ∈ argRefs) : ∀ w, Pipeline.arrRef spec1 w ≠ a :=
  fun w e => (by decide : ∀ w : Fin 4, Pipeline.arrRef spec1 w ∉ argRefs) w (e ▸ ha)

/-- A stretch none of whose operations writes an argument leaves every argument as it was: each operation writes its
    result buffer only, and that buffer is decided not to be among the arguments. -/
macro "stretch_keeps " ops:ident ha:ident : tactic => `(tactic| (
  refine StableHlo.after_of_forall_not_mem _ _ (List.forall_iff_forall_mem.mp ?_)
  simp only [$ops:ident, StableHlo.TRef.nullary, StableHlo.TRef.unary, StableHlo.TRef.binary, StableHlo.TRef.ternary,
    StableHlo.TRef.quaternary, StableHlo.TRef.reshape, StableHlo.TRef.nary, StableHlo.TRef.unaryIndexed, StableHlo.TRef.binaryIndexed,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (ne_of_arg $ha (by decide))))

theorem hostOps0_keeps (a : Ref sig .tc) (ha : a ∈ argRefs) (W : Valuation τ sig (Elt F)) :
    StableHlo.after (hostOps0 (F := F)) W (Proc.devRef .tc a) = W (Proc.devRef .tc a) := by
  stretch_keeps hostOps0 ha
theorem hostOps0_1_keeps (a : Ref sig .tc) (ha : a ∈ argRefs) (W : Valuation τ sig (Elt F)) :
    StableHlo.after (hostOps0_1 (F := F)) W (Proc.devRef .tc a) = W (Proc.devRef .tc a) := by
  stretch_keeps hostOps0_1 ha
theorem hostOps0_2_keeps (a : Ref sig .tc) (ha : a ∈ argRefs) (W : Valuation τ sig (Elt F)) :
    StableHlo.after (hostOps0_2 (F := F)) W (Proc.devRef .tc a) = W (Proc.devRef .tc a) := by
  stretch_keeps hostOps0_2 ha
theorem hostOps0_3_keeps (a : Ref sig .tc) (ha : a ∈ argRefs) (W : Valuation τ sig (Elt F)) :
    StableHlo.after (hostOps0_3 (F := F)) W (Proc.devRef .tc a) = W (Proc.devRef .tc a) := by
  stretch_keeps hostOps0_3 ha
theorem hostOps0_4_keeps (a : Ref sig .tc) (ha : a ∈ argRefs) (W : Valuation τ sig (Elt F)) :
    StableHlo.after (hostOps0_4 (F := F)) W (Proc.devRef .tc a) = W (Proc.devRef .tc a) := by
  stretch_keeps hostOps0_4 ha
theorem hostOps0_5_keeps (a : Ref sig .tc) (ha : a ∈ argRefs) (W : Valuation τ sig (Elt F)) :
    StableHlo.after (hostOps0_5 (F := F)) W (Proc.devRef .tc a) = W (Proc.devRef .tc a) := by
  stretch_keeps hostOps0_5 ha
theorem hostOps0_6_keeps (a : Ref sig .tc) (ha : a ∈ argRefs) (W : Valuation τ sig (Elt F)) :
    StableHlo.after (hostOps0_6 (F := F)) W (Proc.devRef .tc a) = W (Proc.devRef .tc a) := by
  stretch_keeps hostOps0_6 ha
theorem hostOps0_7_keeps (a : Ref sig .tc) (ha : a ∈ argRefs) (W : Valuation τ sig (Elt F)) :
    StableHlo.after (hostOps0_7 (F := F)) W (Proc.devRef .tc a) = W (Proc.devRef .tc a) := by
  stretch_keeps hostOps0_7 ha
theorem hostOps0_8_keeps (a : Ref sig .tc) (ha : a ∈ argRefs) (W : Valuation τ sig (Elt F)) :
    StableHlo.after (hostOps0_8 (F := F)) W (Proc.devRef .tc a) = W (Proc.devRef .tc a) := by
  stretch_keeps hostOps0_8 ha
theorem hostOps0_9_keeps (a : Ref sig .tc) (ha : a ∈ argRefs) (W : Valuation τ sig (Elt F)) :
    StableHlo.after (hostOps0_9 (F := F)) W (Proc.devRef .tc a) = W (Proc.devRef .tc a) := by
  stretch_keeps hostOps0_9 ha
theorem hostOps0_10_keeps (a : Ref sig .tc) (ha : a ∈ argRefs) (W : Valuation τ sig (Elt F)) :
    StableHlo.after (hostOps0_10 (F := F)) W (Proc.devRef .tc a) = W (Proc.devRef .tc a) := by
  stretch_keeps hostOps0_10 ha
theorem hostOps0_11_keeps (a : Ref sig .tc) (ha : a ∈ argRefs) (W : Valuation τ sig (Elt F)) :
    StableHlo.after (hostOps0_11 (F := F)) W (Proc.devRef .tc a) = W (Proc.devRef .tc a) := by
  stretch_keeps hostOps0_11 ha
theorem hostOps0_12_keeps (a : Ref sig .tc) (ha : a ∈ argRefs) (W : Valuation τ sig (Elt F)) :
    StableHlo.after (hostOps0_12 (F := F)) W (Proc.devRef .tc a) = W (Proc.devRef .tc a) := by
  stretch_keeps hostOps0_12 ha
theorem hostOps0_13_keeps (a : Ref sig .tc) (ha : a ∈ argRefs) (W : Valuation τ sig (Elt F)) :
    StableHlo.after (hostOps0_13 (F := F)) W (Proc.devRef .tc a) = W (Proc.devRef .tc a) := by
  stretch_keeps hostOps0_13 ha
theorem hostOps0_14_keeps (a : Ref sig .tc) (ha : a ∈ argRefs) (W : Valuation τ sig (Elt F)) :
    StableHlo.after (hostOps0_14 (F := F)) W (Proc.devRef .tc a) = W (Proc.devRef .tc a) := by
  stretch_keeps hostOps0_14 ha
theorem hostOps0_15_keeps (a : Ref sig .tc) (ha : a ∈ argRefs) (W : Valuation τ sig (Elt F)) :
    StableHlo.after (hostOps0_15 (F := F)) W (Proc.devRef .tc a) = W (Proc.devRef .tc a) := by
  stretch_keeps hostOps0_15 ha
theorem hostOps0_16_keeps (a : Ref sig .tc) (ha : a ∈ argRefs) (W : Valuation τ sig (Elt F)) :
    StableHlo.after (hostOps0_16 (F := F)) W (Proc.devRef .tc a) = W (Proc.devRef .tc a) := by
  stretch_keeps hostOps0_16 ha
theorem hostOps0_17_keeps (a : Ref sig .tc) (ha : a ∈ argRefs) (W : Valuation τ sig (Elt F)) :
    StableHlo.after (hostOps0_17 (F := F)) W (Proc.devRef .tc a) = W (Proc.devRef .tc a) := by
  stretch_keeps hostOps0_17 ha
theorem hostOps0_18_keeps (a : Ref sig .tc) (ha : a ∈ argRefs) (W : Valuation τ sig (Elt F)) :
    StableHlo.after (hostOps0_18 (F := F)) W (Proc.devRef .tc a) = W (Proc.devRef .tc a) := by
  stretch_keeps hostOps0_18 ha
theorem hostOps0_19_keeps (a : Ref sig .tc) (ha : a ∈ argRefs) (W : Valuation τ sig (Elt F)) :
    StableHlo.after (hostOps0_19 (F := F)) W (Proc.devRef .tc a) = W (Proc.devRef .tc a) := by
  stretch_keeps hostOps0_19 ha
theorem hostOps0_20_keeps (a : Ref sig .tc) (ha : a ∈ argRefs) (W : Valuation τ sig (Elt F)) :
    StableHlo.after (hostOps0_20 (F := F)) W (Proc.devRef .tc a) = W (Proc.devRef .tc a) := by
  stretch_keeps hostOps0_20 ha
theorem hostOps0_21_keeps (a : Ref sig .tc) (ha : a ∈ argRefs) (W : Valuation τ sig (Elt F)) :
    StableHlo.after (hostOps0_21 (F := F)) W (Proc.devRef .tc a) = W (Proc.devRef .tc a) := by
  stretch_keeps hostOps0_21 ha
theorem hostOps0_22_keeps (a : Ref sig .tc) (ha : a ∈ argRefs) (W : Valuation τ sig (Elt F)) :
    StableHlo.after (hostOps0_22 (F := F)) W (Proc.devRef .tc a) = W (Proc.devRef .tc a) := by
  stretch_keeps hostOps0_22 ha
theorem hostOps0_23_keeps (a : Ref sig .tc) (ha : a ∈ argRefs) (W : Valuation τ sig (Elt F)) :
    StableHlo.after (hostOps0_23 (F := F)) W (Proc.devRef .tc a) = W (Proc.devRef .tc a) := by
  stretch_keeps hostOps0_23 ha
theorem hostOps0_24_keeps (a : Ref sig .tc) (ha : a ∈ argRefs) (W : Valuation τ sig (Elt F)) :
    StableHlo.after (hostOps0_24 (F := F)) W (Proc.devRef .tc a) = W (Proc.devRef .tc a) := by
  stretch_keeps hostOps0_24 ha
theorem hostOps0_25_keeps (a : Ref sig .tc) (ha : a ∈ argRefs) (W : Valuation τ sig (Elt F)) :
    StableHlo.after (hostOps0_25 (F := F)) W (Proc.devRef .tc a) = W (Proc.devRef .tc a) := by
  stretch_keeps hostOps0_25 ha
theorem hostOps0_26_keeps (a : Ref sig .tc) (ha : a ∈ argRefs) (W : Valuation τ sig (Elt F)) :
    StableHlo.after (hostOps0_26 (F := F)) W (Proc.devRef .tc a) = W (Proc.devRef .tc a) := by
  stretch_keeps hostOps0_26 ha
theorem hostOps0_27_keeps (a : Ref sig .tc) (ha : a ∈ argRefs) (W : Valuation τ sig (Elt F)) :
    StableHlo.after (hostOps0_27 (F := F)) W (Proc.devRef .tc a) = W (Proc.devRef .tc a) := by
  stretch_keeps hostOps0_27 ha
theorem hostOps0_28_keeps (a : Ref sig .tc) (ha : a ∈ argRefs) (W : Valuation τ sig (Elt F)) :
    StableHlo.after (hostOps0_28 (F := F)) W (Proc.devRef .tc a) = W (Proc.devRef .tc a) := by
  stretch_keeps hostOps0_28 ha
theorem hostOps0_29_keeps (a : Ref sig .tc) (ha : a ∈ argRefs) (W : Valuation τ sig (Elt F)) :
    StableHlo.after (hostOps0_29 (F := F)) W (Proc.devRef .tc a) = W (Proc.devRef .tc a) := by
  stretch_keeps hostOps0_29 ha
theorem hostOps0_30_keeps (a : Ref sig .tc) (ha : a ∈ argRefs) (W : Valuation τ sig (Elt F)) :
    StableHlo.after (hostOps0_30 (F := F)) W (Proc.devRef .tc a) = W (Proc.devRef .tc a) := by
  stretch_keeps hostOps0_30 ha
theorem hostOps0_31_keeps (a : Ref sig .tc) (ha : a ∈ argRefs) (W : Valuation τ sig (Elt F)) :
    StableHlo.after (hostOps0_31 (F := F)) W (Proc.devRef .tc a) = W (Proc.devRef .tc a) := by
  stretch_keeps hostOps0_31 ha
theorem hostOps0_32_keeps (a : Ref sig .tc) (ha : a ∈ argRefs) (W : Valuation τ sig (Elt F)) :
    StableHlo.after (hostOps0_32 (F := F)) W (Proc.devRef .tc a) = W (Proc.devRef .tc a) := by
  stretch_keeps hostOps0_32 ha
theorem hostOps0_33_keeps (a : Ref sig .tc) (ha : a ∈ argRefs) (W : Valuation τ sig (Elt F)) :
    StableHlo.after (hostOps0_33 (F := F)) W (Proc.devRef .tc a) = W (Proc.devRef .tc a) := by
  stretch_keeps hostOps0_33 ha
theorem hostOps0_34_keeps (a : Ref sig .tc) (ha : a ∈ argRefs) (W : Valuation τ sig (Elt F)) :
    StableHlo.after (hostOps0_34 (F := F)) W (Proc.devRef .tc a) = W (Proc.devRef .tc a) := by
  stretch_keeps hostOps0_34 ha
theorem hostOps0_35_keeps (a : Ref sig .tc) (ha : a ∈ argRefs) (W : Valuation τ sig (Elt F)) :
    StableHlo.after (hostOps0_35 (F := F)) W (Proc.devRef .tc a) = W (Proc.devRef .tc a) := by
  stretch_keeps hostOps0_35 ha
theorem hostOps0_36_keeps (a : Ref sig .tc) (ha : a ∈ argRefs) (W : Valuation τ sig (Elt F)) :
    StableHlo.after (hostOps0_36 (F := F)) W (Proc.devRef .tc a) = W (Proc.devRef .tc a) := by
  stretch_keeps hostOps0_36 ha
theorem hostOps0_37_keeps (a : Ref sig .tc) (ha : a ∈ argRefs) (W : Valuation τ sig (Elt F)) :
    StableHlo.after (hostOps0_37 (F := F)) W (Proc.devRef .tc a) = W (Proc.devRef .tc a) := by
  stretch_keeps hostOps0_37 ha
theorem hostOps0_38_keeps (a : Ref sig .tc) (ha : a ∈ argRefs) (W : Valuation τ sig (Elt F)) :
    StableHlo.after (hostOps0_38 (F := F)) W (Proc.devRef .tc a) = W (Proc.devRef .tc a) := by
  stretch_keeps hostOps0_38 ha
theorem hostOps0_39_keeps (a : Ref sig .tc) (ha : a ∈ argRefs) (W : Valuation τ sig (Elt F)) :
    StableHlo.after (hostOps0_39 (F := F)) W (Proc.devRef .tc a) = W (Proc.devRef .tc a) := by
  stretch_keeps hostOps0_39 ha
theorem hostOps0_40_keeps (a : Ref sig .tc) (ha : a ∈ argRefs) (W : Valuation τ sig (Elt F)) :
    StableHlo.after (hostOps0_40 (F := F)) W (Proc.devRef .tc a) = W (Proc.devRef .tc a) := by
  stretch_keeps hostOps0_40 ha
theorem hostOps0_41_keeps (a : Ref sig .tc) (ha : a ∈ argRefs) (W : Valuation τ sig (Elt F)) :
    StableHlo.after (hostOps0_41 (F := F)) W (Proc.devRef .tc a) = W (Proc.devRef .tc a) := by
  stretch_keeps hostOps0_41 ha
theorem hostOps0_42_keeps (a : Ref sig .tc) (ha : a ∈ argRefs) (W : Valuation τ sig (Elt F)) :
    StableHlo.after (hostOps0_42 (F := F)) W (Proc.devRef .tc a) = W (Proc.devRef .tc a) := by
  stretch_keeps hostOps0_42 ha
theorem hostOps0_43_keeps (a : Ref sig .tc) (ha : a ∈ argRefs) (W : Valuation τ sig (Elt F)) :
    StableHlo.after (hostOps0_43 (F := F)) W (Proc.devRef .tc a) = W (Proc.devRef .tc a) := by
  stretch_keeps hostOps0_43 ha
theorem hostOps0_44_keeps (a : Ref sig .tc) (ha : a ∈ argRefs) (W : Valuation τ sig (Elt F)) :
    StableHlo.after (hostOps0_44 (F := F)) W (Proc.devRef .tc a) = W (Proc.devRef .tc a) := by
  stretch_keeps hostOps0_44 ha
theorem hostOps0_45_keeps (a : Ref sig .tc) (ha : a ∈ argRefs) (W : Valuation τ sig (Elt F)) :
    StableHlo.after (hostOps0_45 (F := F)) W (Proc.devRef .tc a) = W (Proc.devRef .tc a) := by
  stretch_keeps hostOps0_45 ha
theorem hostOps0_46_keeps (a : Ref sig .tc) (ha : a ∈ argRefs) (W : Valuation τ sig (Elt F)) :
    StableHlo.after (hostOps0_46 (F := F)) W (Proc.devRef .tc a) = W (Proc.devRef .tc a) := by
  stretch_keeps hostOps0_46 ha
theorem hostOps0_47_keeps (a : Ref sig .tc) (ha : a ∈ argRefs) (W : Valuation τ sig (Elt F)) :
    StableHlo.after (hostOps0_47 (F := F)) W (Proc.devRef .tc a) = W (Proc.devRef .tc a) := by
  stretch_keeps hostOps0_47 ha
theorem hostOps0_48_keeps (a : Ref sig .tc) (ha : a ∈ argRefs) (W : Valuation τ sig (Elt F)) :
    StableHlo.after (hostOps0_48 (F := F)) W (Proc.devRef .tc a) = W (Proc.devRef .tc a) := by
  stretch_keeps hostOps0_48 ha
theorem hostOps0_49_keeps (a : Ref sig .tc) (ha : a ∈ argRefs) (W : Valuation τ sig (Elt F)) :
    StableHlo.after (hostOps0_49 (F := F)) W (Proc.devRef .tc a) = W (Proc.devRef .tc a) := by
  stretch_keeps hostOps0_49 ha
theorem hostOps0_50_keeps (a : Ref sig .tc) (ha : a ∈ argRefs) (W : Valuation τ sig (Elt F)) :
    StableHlo.after (hostOps0_50 (F := F)) W (Proc.devRef .tc a) = W (Proc.devRef .tc a) := by
  stretch_keeps hostOps0_50 ha
theorem hostOps0_51_keeps (a : Ref sig .tc) (ha : a ∈ argRefs) (W : Valuation τ sig (Elt F)) :
    StableHlo.after (hostOps0_51 (F := F)) W (Proc.devRef .tc a) = W (Proc.devRef .tc a) := by
  stretch_keeps hostOps0_51 ha
theorem hostOps0_52_keeps (a : Ref sig .tc) (ha : a ∈ argRefs) (W : Valuation τ sig (Elt F)) :
    StableHlo.after (hostOps0_52 (F := F)) W (Proc.devRef .tc a) = W (Proc.devRef .tc a) := by
  stretch_keeps hostOps0_52 ha
theorem hostOps1_keeps (a : Ref sig .tc) (ha : a ∈ argRefs) (W : Valuation τ sig (Elt F)) :
    StableHlo.after (hostOps1 (F := F)) W (Proc.devRef .tc a) = W (Proc.devRef .tc a) := by
  stretch_keeps hostOps1 ha
theorem hostOps1_1_keeps (a : Ref sig .tc) (ha : a ∈ argRefs) (W : Valuation τ sig (Elt F)) :
    StableHlo.after (hostOps1_1 (F := F)) W (Proc.devRef .tc a) = W (Proc.devRef .tc a) := by
  stretch_keeps hostOps1_1 ha
theorem hostOps1_2_keeps (a : Ref sig .tc) (ha : a ∈ argRefs) (W : Valuation τ sig (Elt F)) :
    StableHlo.after (hostOps1_2 (F := F)) W (Proc.devRef .tc a) = W (Proc.devRef .tc a) := by
  stretch_keeps hostOps1_2 ha
theorem hostOps2_keeps (a : Ref sig .tc) (ha : a ∈ argRefs) (W : Valuation τ sig (Elt F)) :
    StableHlo.after (hostOps2 (F := F)) W (Proc.devRef .tc a) = W (Proc.devRef .tc a) := by
  stretch_keeps hostOps2 ha

/-! ## No stretch allocates a buffer -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-! ## The fold -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)
abbrev W18 : Dev nD → Valuation τ sig (Elt F) := fun c => StableHlo.after hostOps0_17 (W17 m ρ c)
abbrev W19 : Dev nD → Valuation τ sig (Elt F) := fun c => StableHlo.after hostOps0_18 (W18 m ρ c)
abbrev W20 : Dev nD → Valuation τ sig (Elt F) := fun c => StableHlo.after hostOps0_19 (W19 m ρ c)
abbrev W21 : Dev nD → Valuation τ sig (Elt F) := fun c => StableHlo.after hostOps0_20 (W20 m ρ c)
abbrev W22 : Dev nD → Valuation τ sig (Elt F) := fun c => StableHlo.after hostOps0_21 (W21 m ρ c)
abbrev W23 : Dev nD → Valuation τ sig (Elt F) := fun c => StableHlo.after hostOps0_22 (W22 m ρ c)
abbrev W24 : Dev nD → Valuation τ sig (Elt F) := fun c => StableHlo.after hostOps0_23 (W23 m ρ c)
abbrev W25 : Dev nD → Valuation τ sig (Elt F) := fun c => StableHlo.after hostOps0_24 (W24 m ρ c)
abbrev W26 : Dev nD → Valuation τ sig (Elt F) := fun c => StableHlo.after hostOps0_25 (W25 m ρ c)
abbrev W27 : Dev nD → Valuation τ sig (Elt F) := fun c => StableHlo.after hostOps0_26 (W26 m ρ c)
abbrev W28 : Dev nD → Valuation τ sig (Elt F) := fun c => StableHlo.after hostOps0_27 (W27 m ρ c)
abbrev W29 : Dev nD → Valuation τ sig (Elt F) := fun c => StableHlo.after hostOps0_28 (W28 m ρ c)
abbrev W30 : Dev nD → Valuation τ sig (Elt F) := fun c => StableHlo.after hostOps0_29 (W29 m ρ c)
abbrev W31 : Dev nD → Valuation τ sig (Elt F) := fun c => StableHlo.after hostOps0_30 (W30 m ρ c)
abbrev W32 : Dev nD → Valuation τ sig (Elt F) := fun c => StableHlo.after hostOps0_31 (W31 m ρ c)
abbrev W33 : Dev nD → Valuation τ sig (Elt F) := fun c => StableHlo.after hostOps0_32 (W32 m ρ c)
abbrev W34 : Dev nD → Valuation τ sig (Elt F) := fun c => StableHlo.after hostOps0_33 (W33 m ρ c)
abbrev W35 : Dev nD → Valuation τ sig (Elt F) := fun c => StableHlo.after hostOps0_34 (W34 m ρ c)
abbrev W36 : Dev nD → Valuation τ sig (Elt F) := fun c => StableHlo.after hostOps0_35 (W35 m ρ c)
abbrev W37 : Dev nD → Valuation τ sig (Elt F) := fun c => StableHlo.after hostOps0_36 (W36 m ρ c)
abbrev W38 : Dev nD → Valuation τ sig (Elt F) := fun c => StableHlo.after hostOps0_37 (W37 m ρ c)
abbrev W39 : Dev nD → Valuation τ sig (Elt F) := fun c => StableHlo.after hostOps0_38 (W38 m ρ c)
abbrev W40 : Dev nD → Valuation τ sig (Elt F) := fun c => StableHlo.after hostOps0_39 (W39 m ρ c)
abbrev W41 : Dev nD → Valuation τ sig (Elt F) := fun c => StableHlo.after hostOps0_40 (W40 m ρ c)
abbrev W42 : Dev nD → Valuation τ sig (Elt F) := fun c => StableHlo.after hostOps0_41 (W41 m ρ c)
abbrev W43 : Dev nD → Valuation τ sig (Elt F) := fun c => StableHlo.after hostOps0_42 (W42 m ρ c)
abbrev W44 : Dev nD → Valuation τ sig (Elt F) := fun c => StableHlo.after hostOps0_43 (W43 m ρ c)
abbrev W45 : Dev nD → Valuation τ sig (Elt F) := fun c => StableHlo.after hostOps0_44 (W44 m ρ c)
abbrev W46 : Dev nD → Valuation τ sig (Elt F) := fun c => StableHlo.after hostOps0_45 (W45 m ρ c)
abbrev W47 : Dev nD → Valuation τ sig (Elt F) := fun c => StableHlo.after hostOps0_46 (W46 m ρ c)
abbrev W48 : Dev nD → Valuation τ sig (Elt F) := fun c => StableHlo.after hostOps0_47 (W47 m ρ c)
abbrev W49 : Dev nD → Valuation τ sig (Elt F) := fun c => StableHlo.after hostOps0_48 (W48 m ρ c)
abbrev W50 : Dev nD → Valuation τ sig (Elt F) := fun c => StableHlo.after hostOps0_49 (W49 m ρ c)
abbrev W51 : Dev nD → Valuation τ sig (Elt F) := fun c => StableHlo.after hostOps0_50 (W50 m ρ c)
abbrev W52 : Dev nD → Valuation τ sig (Elt F) := fun c => StableHlo.after hostOps0_51 (W51 m ρ c)
abbrev W53 : Dev nD → Valuation τ sig (Elt F) := fun c => StableHlo.after hostOps0_52 (W52 m ρ c)
/-- The convolution region's entry contents, read at the TensorCore's references. -/
abbrev V53 : (c : Dev nD) → (b : Ref sig .tc) → Buf (Elt F) ((c : Thread nD τ).loc b) := fun c b => W53 m ρ c b
/-- At the convolution region's exit: its arrays at what the pipeline leaves (the inputs as entered, each output's
    write-backs folded), every other buffer as entered. -/
def W54 (c : Dev nD) : Valuation τ sig (Elt F) :=
  Pipeline.withArrays spec0 c (W53 m ρ c) fun w => (dat0 (V53 m ρ) c).arrAt w cfg0.N
theorem W54_arr (c : Dev nD) (w : Fin cfg0.W) :
    W54 m ρ c (Proc.devRef .tc (Pipeline.arrRef spec0 w)) = (dat0 (V53 m ρ) c).arrAt w cfg0.N := by
  unfold W54; exact Pipeline.withArrays_arr spec0 launch0.win.arr_inj c _ _ w
theorem W54_of_ne (c : Dev nD) (b : Ref sig .tc) (hb : ∀ w, Pipeline.arrRef spec0 w ≠ b) :
    W54 m ρ c (Proc.devRef .tc b) = W53 m ρ c (Proc.devRef .tc b) := by
  unfold W54; exact Pipeline.withArrays_of_ne spec0 c _ _ b hb
abbrev V54 : (c : Dev nD) → (b : Ref sig .tc) → Buf (Elt F) ((c : Thread nD τ).loc b) := fun c b => W54 m ρ c b
theorem hF0 (c : Dev nD) (w : Fin cfg0.W) : (dat0 (V53 m ρ) c).arrAt w cfg0.N = V54 m ρ c (Pipeline.arrRef spec0 w) :=
  (W54_arr m ρ c w).symm
theorem hrest0 (c : Dev nD) : ∀ b, b ∉ Finset.univ.image (Pipeline.arrRef spec0) → V54 m ρ c b = V53 m ρ c b :=
  fun b hb => W54_of_ne m ρ c b fun w e => hb (Finset.mem_image.mpr ⟨w, Finset.mem_univ _, e⟩)
abbrev W55 : Dev nD → Valuation τ sig (Elt F) := fun c => StableHlo.after hostOps1 (W54 m ρ c)
abbrev W56 : Dev nD → Valuation τ sig (Elt F) := fun c => StableHlo.after hostOps1_1 (W55 m ρ c)
abbrev W57 : Dev nD → Valuation τ sig (Elt F) := fun c => StableHlo.after hostOps1_2 (W56 m ρ c)
/-- The second region's entry contents. -/
abbrev V57 : (c : Dev nD) → (b : Ref sig .tc) → Buf (Elt F) ((c : Thread nD τ).loc b) := fun c b => W57 m ρ c b
def W58 (c : Dev nD) : Valuation τ sig (Elt F) :=
  Pipeline.withArrays spec1 c (W57 m ρ c) fun w => (dat1 (V57 m ρ) c).arrAt w cfg1.N
theorem W58_arr (c : Dev nD) (w : Fin cfg1.W) :
    W58 m ρ c (Proc.devRef .tc (Pipeline.arrRef spec1 w)) = (dat1 (V57 m ρ) c).arrAt w cfg1.N := by
  unfold W58; exact Pipeline.withArrays_arr spec1 launch1.win.arr_inj c _ _ w
theorem W58_of_ne (c : Dev nD) (b : Ref sig .tc) (hb : ∀ w, Pipeline.arrRef spec1 w ≠ b) :
    W58 m ρ c (Proc.devRef .tc b) = W57 m ρ c (Proc.devRef .tc b) := by
  unfold W58; exact Pipeline.withArrays_of_ne spec1 c _ _ b hb
abbrev V58 : (c : Dev nD) → (b : Ref sig .tc) → Buf (Elt F) ((c : Thread nD τ).loc b) := fun c b => W58 m ρ c b
theorem hF1 (c : Dev nD) (w : Fin cfg1.W) : (dat1 (V57 m ρ) c).arrAt w cfg1.N = V58 m ρ c (Pipeline.arrRef spec1 w) :=
  (W58_arr m ρ c w).symm
theorem hrest1 (c : Dev nD) : ∀ b, b ∉ Finset.univ.image (Pipeline.arrRef spec1) → V58 m ρ c b = V57 m ρ c b :=
  fun b hb => W58_of_ne m ρ c b fun w e => hb (Finset.mem_image.mpr ⟨w, Finset.mem_univ _, e⟩)
/-- After the closing reshape and transpose: the contents the run ends with. -/
abbrev W59 : Dev nD → Valuation τ sig (Elt F) := fun c => StableHlo.after hostOps2 (W58 m ρ c)

/-! ## The arguments end as launched -/

theorem W59_arg (a : Ref sig .tc) (ha : a ∈ argRefs) (c : Dev nD) :
    W59 m ρ c (Proc.devRef .tc a) = m ((c : Thread nD τ).loc a) :=
  calc W59 m ρ c (Proc.devRef .tc a)
    _ = W58 m ρ c (Proc.devRef .tc a) := hostOps2_keeps a ha _
    _ = W57 m ρ c (Proc.devRef .tc a) := W58_of_ne m ρ c a (arrRef1_ne_arg a ha)
    _ = W56 m ρ c (Proc.devRef .tc a) := hostOps1_2_keeps a ha _
    _ = W55 m ρ c (Proc.devRef .tc a) := hostOps1_1_keeps a ha _
    _ = W54 m ρ c (Proc.devRef .tc a) := hostOps1_keeps a ha _
    _ = W53 m ρ c (Proc.devRef .tc a) := W54_of_ne m ρ c a (arrRef0_ne_arg a ha)
    _ = W52 m ρ c (Proc.devRef .tc a) := hostOps0_52_keeps a ha _
    _ = W51 m ρ c (Proc.devRef .tc a) := hostOps0_51_keeps a ha _
    _ = W50 m ρ c (Proc.devRef .tc a) := hostOps0_50_keeps a ha _
    _ = W49 m ρ c (Proc.devRef .tc a) := hostOps0_49_keeps a ha _
    _ = W48 m ρ c (Proc.devRef .tc a) := hostOps0_48_keeps a ha _
    _ = W47 m ρ c (Proc.devRef .tc a) := hostOps0_47_keeps a ha _
    _ = W46 m ρ c (Proc.devRef .tc a) := hostOps0_46_keeps a ha _
    _ = W45 m ρ c (Proc.devRef .tc a) := hostOps0_45_keeps a ha _
    _ = W44 m ρ c (Proc.devRef .tc a) := hostOps0_44_keeps a ha _
    _ = W43 m ρ c (Proc.devRef .tc a) := hostOps0_43_keeps a ha _
    _ = W42 m ρ c (Proc.devRef .tc a) := hostOps0_42_keeps a ha _
    _ = W41 m ρ c (Proc.devRef .tc a) := hostOps0_41_keeps a ha _
    _ = W40 m ρ c (Proc.devRef .tc a) := hostOps0_40_keeps a ha _
    _ = W39 m ρ c (Proc.devRef .tc a) := hostOps0_39_keeps a ha _
    _ = W38 m ρ c (Proc.devRef .tc a) := hostOps0_38_keeps a ha _
    _ = W37 m ρ c (Proc.devRef .tc a) := hostOps0_37_keeps a ha _
    _ = W36 m ρ c (Proc.devRef .tc a) := hostOps0_36_keeps a ha _
    _ = W35 m ρ c (Proc.devRef .tc a) := hostOps0_35_keeps a ha _
    _ = W34 m ρ c (Proc.devRef .tc a) := hostOps0_34_keeps a ha _
    _ = W33 m ρ c (Proc.devRef .tc a) := hostOps0_33_keeps a ha _
    _ = W32 m ρ c (Proc.devRef .tc a) := hostOps0_32_keeps a ha _
    _ = W31 m ρ c (Proc.devRef .tc a) := hostOps0_31_keeps a ha _
    _ = W30 m ρ c (Proc.devRef .tc a) := hostOps0_30_keeps a ha _
    _ = W29 m ρ c (Proc.devRef .tc a) := hostOps0_29_keeps a ha _
    _ = W28 m ρ c (Proc.devRef .tc a) := hostOps0_28_keeps a ha _
    _ = W27 m ρ c (Proc.devRef .tc a) := hostOps0_27_keeps a ha _
    _ = W26 m ρ c (Proc.devRef .tc a) := hostOps0_26_keeps a ha _
    _ = W25 m ρ c (Proc.devRef .tc a) := hostOps0_25_keeps a ha _
    _ = W24 m ρ c (Proc.devRef .tc a) := hostOps0_24_keeps a ha _
    _ = W23 m ρ c (Proc.devRef .tc a) := hostOps0_23_keeps a ha _
    _ = W22 m ρ c (Proc.devRef .tc a) := hostOps0_22_keeps a ha _
    _ = W21 m ρ c (Proc.devRef .tc a) := hostOps0_21_keeps a ha _
    _ = W20 m ρ c (Proc.devRef .tc a) := hostOps0_20_keeps a ha _
    _ = W19 m ρ c (Proc.devRef .tc a) := hostOps0_19_keeps a ha _
    _ = W18 m ρ c (Proc.devRef .tc a) := hostOps0_18_keeps a ha _
    _ = W17 m ρ c (Proc.devRef .tc a) := hostOps0_17_keeps a ha _
    _ = W16 m ρ c (Proc.devRef .tc a) := hostOps0_16_keeps a ha _
    _ = W15 m ρ c (Proc.devRef .tc a) := hostOps0_15_keeps a ha _
    _ = W14 m ρ c (Proc.devRef .tc a) := hostOps0_14_keeps a ha _
    _ = W13 m ρ c (Proc.devRef .tc a) := hostOps0_13_keeps a ha _
    _ = W12 m ρ c (Proc.devRef .tc a) := hostOps0_12_keeps a ha _
    _ = W11 m ρ c (Proc.devRef .tc a) := hostOps0_11_keeps a ha _
    _ = W10 m ρ c (Proc.devRef .tc a) := hostOps0_10_keeps a ha _
    _ = W9 m ρ c (Proc.devRef .tc a) := hostOps0_9_keeps a ha _
    _ = W8 m ρ c (Proc.devRef .tc a) := hostOps0_8_keeps a ha _
    _ = W7 m ρ c (Proc.devRef .tc a) := hostOps0_7_keeps a ha _
    _ = W6 m ρ c (Proc.devRef .tc a) := hostOps0_6_keeps a ha _
    _ = W5 m ρ c (Proc.devRef .tc a) := hostOps0_5_keeps a ha _
    _ = W4 m ρ c (Proc.devRef .tc a) := hostOps0_4_keeps a ha _
    _ = W3 m ρ c (Proc.devRef .tc a) := hostOps0_3_keeps a ha _
    _ = W2 m ρ c (Proc.devRef .tc a) := hostOps0_2_keeps a ha _
    _ = W1 m ρ c (Proc.devRef .tc a) := hostOps0_1_keeps a ha _
    _ = W0 m ρ c (Proc.devRef .tc a) := hostOps0_keeps a ha _
    _ = m ((c : Thread nD τ).loc a) := rfl

end Cert.ReferenceIdeal.Hand

end
-- ==== Proof.RefRun.lean ====
/-
  The reference's run: @main as its 59 segments, launched once, with the whole last boundary kept.

  Each stretch of host operations is a segment from its boundary's contents to the next; each region a segment that
  splits its arrays out of the unscoped buffers, runs the pipeline on the region's proof data (the body obligations of
  RefConv and RefTail), and puts the arrays back at what the write-backs leave.  @main IS the run of these segments (the
  generated chain of its items, then a definitional check), so every weakly fair execution terminates without a fault in a
  state whose unscoped buffers hold `W59` (`run_all`).  The frame and the run with the result array named are two
  readings of that one statement.
-/
import proofs.«179230_g2000505885998750_pallasbulk_270_2_alg».proof.Proof.RefFold

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V53 m ρ) c
  | ⟨1, _⟩ => fun c => dat1 (V57 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W59`, the generator register at some state. -/
abbrev Tₙ (c : Dev nD) : sProp 𝕄 := iprop(StableHlo.held (c : Thread nD τ) (Pipeline.ucRefs τ sig) (W59 m ρ c) ∗ ∃ r, prngReg c r)

/-! ## The regions as segments -/

set_option backward.isDefEq.respectTransparency.types false in
/-- The convolution region: entered from every unscoped buffer at `W53`, left at `W54`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V53 m ρ) c).loose
  hwaits := Pipeline.hwaits_of_owed_zero _ _ _ _ L lv 0 fun _ _ => rfl
  pre c := iprop(StableHlo.held (c : Thread nD τ) (Pipeline.ucRefs τ sig) (W53 m ρ c) ∗ R c)
  post c := iprop(StableHlo.held (c : Thread nD τ) (Pipeline.ucRefs τ sig) (W54 m ρ c) ∗ R c)
  X c := iprop(∃ r, prngReg c r)
  Y c := iprop(∃ r, prngReg c r)
  Z c := Pipeline.unscopedRest (Ix := Unit) (Name := ℕ) (U := UR sig nD τ) (Lvl := ℕ) spec0 c (V53 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V53 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V53 m ρ c) (V54 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scale-shift-ReLU region: entered at `W57`, left at `W58`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V57 m ρ) c).loose
  hwaits := Pipeline.hwaits_of_owed_zero _ _ _ _ L lv 1 fun _ _ => rfl
  pre c := iprop(StableHlo.held (c : Thread nD τ) (Pipeline.ucRefs τ sig) (W57 m ρ c) ∗ R c)
  post c := iprop(StableHlo.held (c : Thread nD τ) (Pipeline.ucRefs τ sig) (W58 m ρ c) ∗ R c)
  X c := iprop(∃ r, prngReg c r)
  Y c := iprop(∃ r, prngReg c r)
  Z c := Pipeline.unscopedRest (Ix := Unit) (Name := ℕ) (U := UR sig nD τ) (Lvl := ℕ) spec1 c (V57 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V57 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V57 m ρ c) (V58 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 59 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .host (hseg hostOps0_25 hostOps0_25_sub hostOps0_25_fresh (W25 m ρ)),
    .host (hseg hostOps0_26 hostOps0_26_sub hostOps0_26_fresh (W26 m ρ)),
    .host (hseg hostOps0_27 hostOps0_27_sub hostOps0_27_fresh (W27 m ρ)),
    .host (hseg hostOps0_28 hostOps0_28_sub hostOps0_28_fresh (W28 m ρ)),
    .host (hseg hostOps0_29 hostOps0_29_sub hostOps0_29_fresh (W29 m ρ)),
    .host (hseg hostOps0_30 hostOps0_30_sub hostOps0_30_fresh (W30 m ρ)),
    .host (hseg hostOps0_31 hostOps0_31_sub hostOps0_31_fresh (W31 m ρ)),
    .host (hseg hostOps0_32 hostOps0_32_sub hostOps0_32_fresh (W32 m ρ)),
    .host (hseg hostOps0_33 hostOps0_33_sub hostOps0_33_fresh (W33 m ρ)),
    .host (hseg hostOps0_34 hostOps0_34_sub hostOps0_34_fresh (W34 m ρ)),
    .host (hseg hostOps0_35 hostOps0_35_sub hostOps0_35_fresh (W35 m ρ)),
    .host (hseg hostOps0_36 hostOps0_36_sub hostOps0_36_fresh (W36 m ρ)),
    .host (hseg hostOps0_37 hostOps0_37_sub hostOps0_37_fresh (W37 m ρ)),
    .host (hseg hostOps0_38 hostOps0_38_sub hostOps0_38_fresh (W38 m ρ)),
    .host (hseg hostOps0_39 hostOps0_39_sub hostOps0_39_fresh (W39 m ρ)),
    .host (hseg hostOps0_40 hostOps0_40_sub hostOps0_40_fresh (W40 m ρ)),
    .host (hseg hostOps0_41 hostOps0_41_sub hostOps0_41_fresh (W41 m ρ)),
    .host (hseg hostOps0_42 hostOps0_42_sub hostOps0_42_fresh (W42 m ρ)),
    .host (hseg hostOps0_43 hostOps0_43_sub hostOps0_43_fresh (W43 m ρ)),
    .host (hseg hostOps0_44 hostOps0_44_sub hostOps0_44_fresh (W44 m ρ)),
    .host (hseg hostOps0_45 hostOps0_45_sub hostOps0_45_fresh (W45 m ρ)),
    .host (hseg hostOps0_46 hostOps0_46_sub hostOps0_46_fresh (W46 m ρ)),
    .host (hseg hostOps0_47 hostOps0_47_sub hostOps0_47_fresh (W47 m ρ)),
    .host (hseg hostOps0_48 hostOps0_48_sub hostOps0_48_fresh (W48 m ρ)),
    .host (hseg hostOps0_49 hostOps0_49_sub hostOps0_49_fresh (W49 m ρ)),
    .host (hseg hostOps0_50 hostOps0_50_sub hostOps0_50_fresh (W50 m ρ)),
    .host (hseg hostOps0_51 hostOps0_51_sub hostOps0_51_fresh (W51 m ρ)),
    .host (hseg hostOps0_52 hostOps0_52_sub hostOps0_52_fresh (W52 m ρ)),
    .region (reg0 m ρ),
    .host (hseg hostOps1 hostOps1_sub hostOps1_fresh (W54 m ρ)),
    .host (hseg hostOps1_1 hostOps1_1_sub hostOps1_1_fresh (W55 m ρ)),
    .host (hseg hostOps1_2 hostOps1_2_sub hostOps1_2_fresh (W56 m ρ)),
    .region (reg1 m ρ),
    .host (hseg hostOps2 hostOps2_sub hostOps2_fresh (W58 m ρ)) ]

set_option maxHeartbeats 4000000 in
/-- @main is the run of the segments. -/
theorem main_run (c : Dev nD) : main (F := F) c = Pipeline.Seg.run (segs m ρ) := (main_chain c).trans (by chain_rfl)

set_option maxHeartbeats 4000000 in
set_option backward.isDefEq.respectTransparency.types false in
/-- Every weakly fair execution of @main terminates without a fault, and in its final state every unscoped buffer of
    every core holds the last boundary's contents `W59`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W59 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W59 m ρ c b)
    (hfin := fun c s' => by
      iintro ⟨⟨Hh, -⟩, HSI⟩
      unfold StableHlo.held
      imodintro
      iapply (pointsTo_read_all (Pipeline.ucRefs τ sig) (fun b => (((c : Thread nD τ)).1, b)) (W59 m ρ c) s')
      isplitl [Hh] <;> iassumption)
    (hQ := fun s h c => h c)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W59_arg m ρ main_arg0 (by decide) c),
     (h c _ (mem_uc main_arg1 (by decide))).trans (W59_arg m ρ main_arg1 (by decide) c),
     (h c _ (mem_uc main_arg2 (by decide))).trans (W59_arg m ρ main_arg2 (by decide) c),
     (h c _ (mem_uc main_arg3 (by decide))).trans (W59_arg m ρ main_arg3 (by decide) c),
     (h c _ (mem_uc main_arg4 (by decide))).trans (W59_arg m ρ main_arg4 (by decide) c),
     (h c _ (mem_uc main_arg5 (by decide))).trans (W59_arg m ρ main_arg5 (by decide) c),
     (h c _ (mem_uc main_arg6 (by decide))).trans (W59_arg m ρ main_arg6 (by decide) c),
     (h c _ (mem_uc main_arg7 (by decide))).trans (W59_arg m ρ main_arg7 (by decide) c),
     (h c _ (mem_uc main_arg8 (by decide))).trans (W59_arg m ρ main_arg8 (by decide) c),
     (h c _ (mem_uc main_arg9 (by decide))).trans (W59_arg m ρ main_arg9 (by decide) c),
     (h c _ (mem_uc main_arg10 (by decide))).trans (W59_arg m ρ main_arg10 (by decide) c),
     (h c _ (mem_uc main_arg11 (by decide))).trans (W59_arg m ρ main_arg11 (by decide) c),
     (h c _ (mem_uc main_arg12 (by decide))).trans (W59_arg m ρ main_arg12 (by decide) c),
     (h c _ (mem_uc main_arg13 (by decide))).trans (W59_arg m ρ main_arg13 (by decide) c),
     (h c _ (mem_uc main_arg14 (by decide))).trans (W59_arg m ρ main_arg14 (by decide) c)⟩) (run_all m ρ)

/-- The run as the equality of the two programs needs it: the result array at the last boundary's contents, and every
    argument array as launched. -/
theorem run_named : θ_run defs (onTc (τ := τ) (main (F := F))) ⟨m, fun _ => 0, ρ⟩ (fun r => ∀ c : Dev nD,
      r.2.mem ((c.tc : Thread nD τ).loc main_v271) = W59 m ρ c (Proc.devRef .tc main_v271)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v271 (by decide)),
     (h c _ (mem_uc main_arg0 (by decide))).trans (W59_arg m ρ main_arg0 (by decide) c),
     (h c _ (mem_uc main_arg1 (by decide))).trans (W59_arg m ρ main_arg1 (by decide) c),
     (h c _ (mem_uc main_arg2 (by decide))).trans (W59_arg m ρ main_arg2 (by decide) c),
     (h c _ (mem_uc main_arg3 (by decide))).trans (W59_arg m ρ main_arg3 (by decide) c),
     (h c _ (mem_uc main_arg4 (by decide))).trans (W59_arg m ρ main_arg4 (by decide) c),
     (h c _ (mem_uc main_arg5 (by decide))).trans (W59_arg m ρ main_arg5 (by decide) c),
     (h c _ (mem_uc main_arg6 (by decide))).trans (W59_arg m ρ main_arg6 (by decide) c),
     (h c _ (mem_uc main_arg7 (by decide))).trans (W59_arg m ρ main_arg7 (by decide) c),
     (h c _ (mem_uc main_arg8 (by decide))).trans (W59_arg m ρ main_arg8 (by decide) c),
     (h c _ (mem_uc main_arg9 (by decide))).trans (W59_arg m ρ main_arg9 (by decide) c),
     (h c _ (mem_uc main_arg10 (by decide))).trans (W59_arg m ρ main_arg10 (by decide) c),
     (h c _ (mem_uc main_arg11 (by decide))).trans (W59_arg m ρ main_arg11 (by decide) c),
     (h c _ (mem_uc main_arg12 (by decide))).trans (W59_arg m ρ main_arg12 (by decide) c),
     (h c _ (mem_uc main_arg13 (by decide))).trans (W59_arg m ρ main_arg13 (by decide) c),
     (h c _ (mem_uc main_arg14 (by decide))).trans (W59_arg m ρ main_arg14 (by decide) c)⟩) (run_all m ρ)

end Cert.ReferenceIdeal.Hand

end
-- ==== Proof.Closing.lean ====
/-
  Both programs end with the same two operations on the second region's 512 x 32 x 512 output: a reshape to
  512 x 32 x 32 x 16 (lane `w * 16 + c` split into `w` and `c`) and the transpose to 512 x 16 x 32 x 32.  So the two
  results are equal as soon as the two second-region output arrays are.
-/
import proofs.«179230_g2000505885998750_pallasbulk_270_2_alg».proof.Proof.KernelRun
import proofs.«179230_g2000505885998750_pallasbulk_270_2_alg».proof.Proof.RefRun

set_option maxRecDepth 16384

noncomputable section

namespace Cert.Bridge

open Idealize.ShloMosaic Idealize.ShloMosaic.TcCoe Idealize.SL.Sem

variable {F : FTy → Type} [FloatOps F]

/-- Equal second-region outputs give equal results. -/
theorem result_of_out
    (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg) (c : Dev Cert.KernelIdeal.nD)
    (h : Cert.ReferenceIdeal.Hand.W58 (F := F) m' ρ' c (Proc.devRef .tc Cert.ReferenceIdeal.main_v269)
          = Cert.KernelIdeal.Gen.W8 (F := F) m ρ c (Proc.devRef .tc Cert.KernelIdeal.main_v275)) :
    Cert.ReferenceIdeal.Hand.W59 (F := F) m' ρ' c (Proc.devRef .tc Cert.ReferenceIdeal.main_v271)
      = Cert.KernelIdeal.Gen.W9 (F := F) m ρ c (Proc.devRef .tc Cert.KernelIdeal.main_v277) := by
  show StableHlo.after Cert.ReferenceIdeal.Gen.hostOps2 (Cert.ReferenceIdeal.Hand.W58 m' ρ' c) (Proc.devRef .tc Cert.ReferenceIdeal.main_v271)
      = StableHlo.after Cert.KernelIdeal.Gen.hostOps2 (Cert.KernelIdeal.Gen.W8 m ρ c) (Proc.devRef .tc Cert.KernelIdeal.main_v277)
  after_results
  rw [h]
  rfl

end Cert.Bridge

end
-- ==== Proof.TailSpec.lean ====
/-
  The second pass as one function of whole arrays: at image `b`, row `h`, lane `l`,
      out[b, h, l] = max (feat[b, h, l] * scale[b, 0, l] + shift[0, 0, l]) 0.
  The scale is per image and lane, the shift per lane; neither depends on the row.
-/
import Idealize.ShloMosaic.Lib.ValueIdx

noncomputable section

namespace Cert.Spec

open Idealize.ShloMosaic Idealize.ShloMosaic.ValueIdx

variable {F : FTy → Type} [FloatOps F]

/-- Scale, shift and clamp at zero, index by index. -/
def tailFn (feat : (⟨3, ![512, 32, 512]⟩ : Shape).Idx → F .f32) (scale : (⟨3, ![512, 1, 512]⟩ : Shape).Idx → F .f32)
    (shift : (⟨3, ![1, 1, 512]⟩ : Shape).Idx → F .f32) : (⟨3, ![512, 32, 512]⟩ : Shape).Idx → F .f32 :=
  fun i => FloatOps.maximumf
    (FloatOps.addf (FloatOps.mulf (feat i) (scale (ix3 (n0 := 512) (n1 := 1) (n2 := 512) (i 0) 0 (i 2))))
      (shift (ix3 (n0 := 1) (n1 := 1) (n2 := 512) 0 0 (i 2))))
    (Scalar.ofBits .f32 0x00000000#32)

end Cert.Spec

end
-- ==== Proof.KTail.lean ====
/-
  The idealized kernel's second region as a function of whole arrays.  A grid point takes 16 images; its body's one store is the pointwise
  `max (x * scale + shift) 0` of the point's blocks, the scale block broadcast along the 32 rows and the shift row along
  images and rows.  The feature, scale and output windows move together along the image axis and the shift window stays,
  so what point `t` writes back is block `t` of ONE whole-array function (`Cert.Spec.tailFn`) of the region's entry
  arrays; the 32 blocks of 16 images tile the output, so the array ends holding that function.
-/
import proofs.«179230_g2000505885998750_pallasbulk_270_2_alg».proof.Proof.Gen.KernelIdeal.Frame
import proofs.«179230_g2000505885998750_pallasbulk_270_2_alg».proof.Proof.TailSpec
import Idealize.ShloMosaic.Lib.Pipeline.Value
import Idealize.ShloMosaic.Lib.ValueIdx

set_option maxRecDepth 16384

noncomputable section

namespace Cert.KernelIdeal.TailValue

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-- The body's stored value at an index of the block: the three loaded blocks combined pointwise, the scale read at
    the index's image and lane, the shift at its lane. -/
theorem pay_apply (x0 : Vec F S16x32x512 .f32) (x1 : Vec F S16x1x512 .f32) (x2 : Vec F S1x1x512 .f32) (j : S16x32x512.Idx) :
    k1_pay1 (F := F) x0 x1 x2 j
      = FloatOps.maximumf (FloatOps.addf (FloatOps.mulf (x0 j) (x1 (ix3 (n0 := 16) (n1 := 1) (n2 := 512) (j 0) 0 (j 2))))
          (x2 (ix3 (n0 := 1) (n1 := 1) (n2 := 512) 0 0 (j 2)))) (Scalar.ofBits .f32 0x00000000#32) := by
  unfold k1_pay1
  simp only [shapeCast_self]
  show FloatOps.maximumf (FloatOps.addf (FloatOps.mulf (x0 j) (broadcastTo S16x32x512 x1 broadcasts_S16x1x512_S16x32x512 j))
      (broadcastTo S16x32x512 x2 broadcasts_S1x1x512_S16x32x512 j)) _ = _
  rw [broadcastTo_apply x1 _ j (ix3 (n0 := 16) (n1 := 1) (n2 := 512) (j 0) 0 (j 2))
        (fun a => by match a with | ⟨0, _⟩ => rfl | ⟨1, _⟩ => rfl | ⟨2, _⟩ => rfl),
      broadcastTo_apply x2 _ j (ix3 (n0 := 1) (n1 := 1) (n2 := 512) 0 0 (j 2))
        (fun a => by match a with | ⟨0, _⟩ => rfl | ⟨1, _⟩ => rfl | ⟨2, _⟩ => rfl)]
  rfl

variable (V : (c : Dev nD) → (b : Ref sig .tc) → Buf (Elt F) ((c : Thread nD τ).loc b))

theorem hz3 : (![0, 0, 0] : Fin 3 → Nat) = fun _ => 0 := funext fun a => by fin_cases a <;> rfl

/-- The printed index maps over the grid: point `t` takes image block `t` of the features, the scales and the output,
    block 0 on the other axes, and the one shift block. -/
theorem idx_facts : ∀ t : Fin cfg1.N,
    win1_3.index t (0 : Fin 3) = t.val ∧ win1_3.index t (1 : Fin 3) = 0 ∧ win1_3.index t (2 : Fin 3) = 0
    ∧ win1_0.index t (0 : Fin 3) = win1_3.index t (0 : Fin 3) ∧ win1_0.index t (1 : Fin 3) = 0 ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0 :=
  (by decide +kernel : ∀ t : Fin grid1.N, _)

/-- What point `t` writes back is block `t` of `tailFn` of the arrays as the region finds them. -/
theorem flushed_eq (c : Dev nD) (t : Fin cfg1.N) :
    (dat1 V c).flushed 3 t = ((cfg1.win 3).blk t).view.read (Elt F)
      (Cert.Spec.tailFn (V c main_v217_0) (V c main_v268) (V c main_v274)) := by
  show (cfg1.win 3).cut (grid1.coords t) ((dat1 V c).after 3 t) = _
  rw [after1_3]
  unfold out1_3
  rw [View.canon_unit_zero hz3]
  simp only [View.ld_unit_zero (S := S16x32x512) hz3, View.ld_unit_zero (S := S16x1x512) hz3, View.ld_unit_zero (S := S1x1x512) hz3]
  obtain ⟨e0, e1, e2, e3, e4, e5, e6, e7, e8, e9, e10, e11⟩ := idx_facts t
  funext j
  refine (pay_apply (iblk1 V c 0 t) (iblk1 V c 1 t) (iblk1 V c 2 t) j).trans ?_
  unfold Cert.Spec.tailFn
  show FloatOps.maximumf (FloatOps.addf (FloatOps.mulf (V c main_v217_0 (((cfg1.win 0).blk t).view.emb j))
        (V c main_v268 (((cfg1.win 1).blk t).view.emb (ix3 (n0 := 16) (n1 := 1) (n2 := 512) (j 0) 0 (j 2)))))
        (V c main_v274 (((cfg1.win 2).blk t).view.emb (ix3 (n0 := 1) (n1 := 1) (n2 := 512) 0 0 (j 2))))) _
      = FloatOps.maximumf (FloatOps.addf (FloatOps.mulf (V c main_v217_0 (((cfg1.win 3).blk t).view.emb j))
        (V c main_v268 (ix3 (n0 := 512) (n1 := 1) (n2 := 512) ((((cfg1.win 3).blk t).view.emb j) 0) 0 ((((cfg1.win 3).blk t).view.emb j) 2))))
        (V c main_v274 (ix3 (n0 := 1) (n1 := 1) (n2 := 512) 0 0 ((((cfg1.win 3).blk t).view.emb j) 2)))) _
  have h0 : ((cfg1.win 0).blk t).view.emb j = ((cfg1.win 3).blk t).view.emb j := by
    funext a; apply Fin.ext
    match a with
    | ⟨0, _⟩ => show win1_0.index t (0 : Fin 3) * 16 + 1 * (j 0).val = win1_3.index t (0 : Fin 3) * 16 + 1 * (j 0).val; omega
    | ⟨1, _⟩ => show win1_0.index t (1 : Fin 3) * 32 + 1 * (j 1).val = win1_3.index t (1 : Fin 3) * 32 + 1 * (j 1).val; omega
    | ⟨2, _⟩ => show win1_0.index t (2 : Fin 3) * 512 + 1 * (j 2).val = win1_3.index t (2 : Fin 3) * 512 + 1 * (j 2).val; omega
  have h1 : ((cfg1.win 1).blk t).view.emb (ix3 (n0 := 16) (n1 := 1) (n2 := 512) (j 0) 0 (j 2))
      = ix3 (n0 := 512) (n1 := 1) (n2 := 512) ((((cfg1.win 3).blk t).view.emb j) 0) 0 ((((cfg1.win 3).blk t).view.emb j) 2) := by
    funext a; apply Fin.ext
    match a with
    | ⟨0, _⟩ => show win1_1.index t (0 : Fin 3) * 16 + 1 * (j 0).val = win1_3.index t (0 : Fin 3) * 16 + 1 * (j 0).val; omega
    | ⟨1, _⟩ => show win1_1.index t (1 : Fin 3) * 1 + 1 * 0 = 0; omega
    | ⟨2, _⟩ => show win1_1.index t (2 : Fin 3) * 512 + 1 * (j 2).val = win1_3.index t (2 : Fin 3) * 512 + 1 * (j 2).val; omega
  have h2 : ((cfg1.win 2).blk t).view.emb (ix3 (n0 := 1) (n1 := 1) (n2 := 512) 0 0 (j 2))
      = ix3 (n0 := 1) (n1 := 1) (n2 := 512) 0 0 ((((cfg1.win 3).blk t).view.emb j) 2) := by
    funext a; apply Fin.ext
    match a with
    | ⟨0, _⟩ => show win1_2.index t (0 : Fin 3) * 1 + 1 * 0 = 0; omega
    | ⟨1, _⟩ => show win1_2.index t (1 : Fin 3) * 1 + 1 * 0 = 0; omega
    | ⟨2, _⟩ => show win1_2.index t (2 : Fin 3) * 512 + 1 * (j 2).val = win1_3.index t (2 : Fin 3) * 512 + 1 * (j 2).val; omega
  rw [h0, h1, h2]

/-- An index of the output array is in point `t`'s block iff each coordinate is in the block's range on its axis. -/
theorem mem_blk (t : Fin cfg1.N) (i : S512x32x512.Idx) :
    i ∈ ((cfg1.win 3).blk t).view.set ↔ ∀ a : Fin 3, win1_3.index t a * S16x32x512.size a ≤ (i a).val ∧ (i a).val < win1_3.index t a * S16x32x512.size a + S16x32x512.size a := by
  show i ∈ ((View.whole main_v275).slice (win1_3.rect t)).set ↔ _
  rw [View.set_slice_whole, Rect.mem_set_unit]
  exact Iff.rfl

/-- Every index of the output is in the block of the point that takes its image. -/
theorem cover (i : S512x32x512.Idx) : ∃ t : Fin cfg1.N, (cfg1.win 3).flush t = true ∧ i ∈ ((cfg1.win 3).blk t).view.set := by
  have hi0 : (i 0).val < 512 := (i 0).isLt
  have hi1 : (i 1).val < 32 := (i 1).isLt
  have hi2 : (i 2).val < 512 := (i 2).isLt
  have hN : cfg1.N = 32 := N_1
  let t : Fin cfg1.N := ⟨(i 0).val / 16, by omega⟩
  obtain ⟨e0, e1, e2, -⟩ := idx_facts t
  have ht : t.val = (i 0).val / 16 := rfl
  refine ⟨t, flush1_3 t, ?_⟩
  rw [mem_blk]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 32 ≤ (i 1).val ∧ (i 1).val < win1_3.index t (1 : Fin 3) * 32 + 32; omega
  | ⟨2, _⟩ => show win1_3.index t (2 : Fin 3) * 512 ≤ (i 2).val ∧ (i 2).val < win1_3.index t (2 : Fin 3) * 512 + 512; omega

/-- The output array after the region: `tailFn` of the region's entry arrays. -/
theorem final (c : Dev nD) : (dat1 V c).arrAt 3 cfg1.N
    = Cert.Spec.tailFn (V c main_v217_0) (V c main_v268) (V c main_v274) :=
  (dat1 V c).arrAt_eq_of_cover 3 _ (fun t _ => flushed_eq V c t) cover

end Cert.KernelIdeal.TailValue

end
-- ==== Proof.RTail.lean ====
/-
  The reference's second region as a function of whole arrays.  A grid point takes 32 images; its body's one store is the pointwise
  `max (x * scale + shift) 0` of the point's blocks, the scale block broadcast along the 32 rows and the shift row along
  images and rows.  The feature, scale and output windows move together along the image axis and the shift window stays,
  so what point `t` writes back is block `t` of ONE whole-array function (`Cert.Spec.tailFn`) of the region's entry
  arrays; the 16 blocks of 32 images tile the output, so the array ends holding that function.
-/
import proofs.«179230_g2000505885998750_pallasbulk_270_2_alg».proof.Proof.RefTail
import proofs.«179230_g2000505885998750_pallasbulk_270_2_alg».proof.Proof.TailSpec
import Idealize.ShloMosaic.Lib.Pipeline.Value
import Idealize.ShloMosaic.Lib.ValueIdx

set_option maxRecDepth 16384

noncomputable section

namespace Cert.ReferenceIdeal.TailValue

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Hand

variable {F : FTy → Type} [FloatOps F]

/-- The body's stored value at an index of the block: the three loaded blocks combined pointwise, the scale read at
    the index's image and lane, the shift at its lane. -/
theorem pay_apply (x0 : Vec F S32x32x512 .f32) (x1 : Vec F S32x1x512 .f32) (x2 : Vec F S1x1x512 .f32) (j : S32x32x512.Idx) :
    k1_pay1 (F := F) x0 x1 x2 j
      = FloatOps.maximumf (FloatOps.addf (FloatOps.mulf (x0 j) (x1 (ix3 (n0 := 32) (n1 := 1) (n2 := 512) (j 0) 0 (j 2))))
          (x2 (ix3 (n0 := 1) (n1 := 1) (n2 := 512) 0 0 (j 2)))) (Scalar.ofBits .f32 0x00000000#32) := by
  unfold k1_pay1
  simp only [shapeCast_self]
  show FloatOps.maximumf (FloatOps.addf (FloatOps.mulf (x0 j) (broadcastTo S32x32x512 x1 broadcasts_S32x1x512_S32x32x512 j))
      (broadcastTo S32x32x512 x2 broadcasts_S1x1x512_S32x32x512 j)) _ = _
  rw [broadcastTo_apply x1 _ j (ix3 (n0 := 32) (n1 := 1) (n2 := 512) (j 0) 0 (j 2))
        (fun a => by match a with | ⟨0, _⟩ => rfl | ⟨1, _⟩ => rfl | ⟨2, _⟩ => rfl),
      broadcastTo_apply x2 _ j (ix3 (n0 := 1) (n1 := 1) (n2 := 512) 0 0 (j 2))
        (fun a => by match a with | ⟨0, _⟩ => rfl | ⟨1, _⟩ => rfl | ⟨2, _⟩ => rfl)]
  rfl

variable (V : (c : Dev nD) → (b : Ref sig .tc) → Buf (Elt F) ((c : Thread nD τ).loc b))

theorem hz3 : (![0, 0, 0] : Fin 3 → Nat) = fun _ => 0 := funext fun a => by fin_cases a <;> rfl

/-- The printed index maps over the grid: point `t` takes image block `t` of the features, the scales and the output,
    block 0 on the other axes, and the one shift block. -/
theorem idx_facts : ∀ t : Fin cfg1.N,
    win1_3.index t (0 : Fin 3) = t.val ∧ win1_3.index t (1 : Fin 3) = 0 ∧ win1_3.index t (2 : Fin 3) = 0
    ∧ win1_0.index t (0 : Fin 3) = win1_3.index t (0 : Fin 3) ∧ win1_0.index t (1 : Fin 3) = 0 ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0 :=
  (by decide +kernel : ∀ t : Fin grid1.N, _)

/-- What point `t` writes back is block `t` of `tailFn` of the arrays as the region finds them. -/
theorem flushed_eq (c : Dev nD) (t : Fin cfg1.N) :
    (dat1 V c).flushed 3 t = ((cfg1.win 3).blk t).view.read (Elt F)
      (Cert.Spec.tailFn (V c main_v211_0) (V c main_v264) (V c main_v268)) := by
  show (cfg1.win 3).cut (grid1.coords t) ((dat1 V c).after 3 t) = _
  rw [after1_3]
  unfold tailOut
  dsimp only [rf, rsc, rsh]
  rw [View.canon_unit_zero hz3]
  simp only [View.ld_unit_zero (S := S32x32x512) hz3, View.ld_unit_zero (S := S32x1x512) hz3, View.ld_unit_zero (S := S1x1x512) hz3]
  obtain ⟨e0, e1, e2, e3, e4, e5, e6, e7, e8, e9, e10, e11⟩ := idx_facts t
  funext j
  refine (pay_apply (iblk1 V c 0 t) (iblk1 V c 1 t) (iblk1 V c 2 t) j).trans ?_
  unfold Cert.Spec.tailFn
  show FloatOps.maximumf (FloatOps.addf (FloatOps.mulf (V c main_v211_0 (((cfg1.win 0).blk t).view.emb j))
        (V c main_v264 (((cfg1.win 1).blk t).view.emb (ix3 (n0 := 32) (n1 := 1) (n2 := 512) (j 0) 0 (j 2)))))
        (V c main_v268 (((cfg1.win 2).blk t).view.emb (ix3 (n0 := 1) (n1 := 1) (n2 := 512) 0 0 (j 2))))) _
      = FloatOps.maximumf (FloatOps.addf (FloatOps.mulf (V c main_v211_0 (((cfg1.win 3).blk t).view.emb j))
        (V c main_v264 (ix3 (n0 := 512) (n1 := 1) (n2 := 512) ((((cfg1.win 3).blk t).view.emb j) 0) 0 ((((cfg1.win 3).blk t).view.emb j) 2))))
        (V c main_v268 (ix3 (n0 := 1) (n1 := 1) (n2 := 512) 0 0 ((((cfg1.win 3).blk t).view.emb j) 2)))) _
  have h0 : ((cfg1.win 0).blk t).view.emb j = ((cfg1.win 3).blk t).view.emb j := by
    funext a; apply Fin.ext
    match a with
    | ⟨0, _⟩ => show win1_0.index t (0 : Fin 3) * 32 + 1 * (j 0).val = win1_3.index t (0 : Fin 3) * 32 + 1 * (j 0).val; omega
    | ⟨1, _⟩ => show win1_0.index t (1 : Fin 3) * 32 + 1 * (j 1).val = win1_3.index t (1 : Fin 3) * 32 + 1 * (j 1).val; omega
    | ⟨2, _⟩ => show win1_0.index t (2 : Fin 3) * 512 + 1 * (j 2).val = win1_3.index t (2 : Fin 3) * 512 + 1 * (j 2).val; omega
  have h1 : ((cfg1.win 1).blk t).view.emb (ix3 (n0 := 32) (n1 := 1) (n2 := 512) (j 0) 0 (j 2))
      = ix3 (n0 := 512) (n1 := 1) (n2 := 512) ((((cfg1.win 3).blk t).view.emb j) 0) 0 ((((cfg1.win 3).blk t).view.emb j) 2) := by
    funext a; apply Fin.ext
    match a with
    | ⟨0, _⟩ => show win1_1.index t (0 : Fin 3) * 32 + 1 * (j 0).val = win1_3.index t (0 : Fin 3) * 32 + 1 * (j 0).val; omega
    | ⟨1, _⟩ => show win1_1.index t (1 : Fin 3) * 1 + 1 * 0 = 0; omega
    | ⟨2, _⟩ => show win1_1.index t (2 : Fin 3) * 512 + 1 * (j 2).val = win1_3.index t (2 : Fin 3) * 512 + 1 * (j 2).val; omega
  have h2 : ((cfg1.win 2).blk t).view.emb (ix3 (n0 := 1) (n1 := 1) (n2 := 512) 0 0 (j 2))
      = ix3 (n0 := 1) (n1 := 1) (n2 := 512) 0 0 ((((cfg1.win 3).blk t).view.emb j) 2) := by
    funext a; apply Fin.ext
    match a with
    | ⟨0, _⟩ => show win1_2.index t (0 : Fin 3) * 1 + 1 * 0 = 0; omega
    | ⟨1, _⟩ => show win1_2.index t (1 : Fin 3) * 1 + 1 * 0 = 0; omega
    | ⟨2, _⟩ => show win1_2.index t (2 : Fin 3) * 512 + 1 * (j 2).val = win1_3.index t (2 : Fin 3) * 512 + 1 * (j 2).val; omega
  rw [h0, h1, h2]

/-- An index of the output array is in point `t`'s block iff each coordinate is in the block's range on its axis. -/
theorem mem_blk (t : Fin cfg1.N) (i : S512x32x512.Idx) :
    i ∈ ((cfg1.win 3).blk t).view.set ↔ ∀ a : Fin 3, win1_3.index t a * S32x32x512.size a ≤ (i a).val ∧ (i a).val < win1_3.index t a * S32x32x512.size a + S32x32x512.size a := by
  show i ∈ ((View.whole main_v269).slice (win1_3.rect t)).set ↔ _
  rw [View.set_slice_whole, Rect.mem_set_unit]
  exact Iff.rfl

/-- Every index of the output is in the block of the point that takes its image. -/
theorem cover (i : S512x32x512.Idx) : ∃ t : Fin cfg1.N, (cfg1.win 3).flush t = true ∧ i ∈ ((cfg1.win 3).blk t).view.set := by
  have hi0 : (i 0).val < 512 := (i 0).isLt
  have hi1 : (i 1).val < 32 := (i 1).isLt
  have hi2 : (i 2).val < 512 := (i 2).isLt
  have hN : cfg1.N = 16 := N_1
  let t : Fin cfg1.N := ⟨(i 0).val / 32, by omega⟩
  obtain ⟨e0, e1, e2, -⟩ := idx_facts t
  have ht : t.val = (i 0).val / 32 := rfl
  refine ⟨t, flush1_3 t, ?_⟩
  rw [mem_blk]
  intro a
  match a with
  | ⟨0, _⟩ => show win1_3.index t (0 : Fin 3) * 32 ≤ (i 0).val ∧ (i 0).val < win1_3.index t (0 : Fin 3) * 32 + 32; omega
  | ⟨1, _⟩ => show win1_3.index t (1 : Fin 3) * 32 ≤ (i 1).val ∧ (i 1).val < win1_3.index t (1 : Fin 3) * 32 + 32; omega
  | ⟨2, _⟩ => show win1_3.index t (2 : Fin 3) * 512 ≤ (i 2).val ∧ (i 2).val < win1_3.index t (2 : Fin 3) * 512 + 512; omega

/-- The output array after the region: `tailFn` of the region's entry arrays. -/
theorem final (c : Dev nD) : (dat1 V c).arrAt 3 cfg1.N
    = Cert.Spec.tailFn (V c main_v211_0) (V c main_v264) (V c main_v268) :=
  (dat1 V c).arrAt_eq_of_cover 3 _ (fun t _ => flushed_eq V c t) cover

end Cert.ReferenceIdeal.TailValue

end
-- ==== Proof.OutEq.lean ====
/-
  The two second regions compute one function (`Cert.Spec.tailFn`) of their entry arrays, whatever their tiling: equal
  features, scales and shifts at the two regions' entries give equal output arrays.
-/
import proofs.«179230_g2000505885998750_pallasbulk_270_2_alg».proof.Proof.KTail
import proofs.«179230_g2000505885998750_pallasbulk_270_2_alg».proof.Proof.RTail
import proofs.«179230_g2000505885998750_pallasbulk_270_2_alg».proof.Proof.RefFold

set_option maxRecDepth 16384

noncomputable section

namespace Cert.Bridge

open Idealize.ShloMosaic Idealize.ShloMosaic.TcCoe Idealize.SL.Sem

variable {F : FTy → Type} [FloatOps F]

/-- Equal entry arrays of the second region give equal outputs. -/
theorem out_of_entry
    (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg) (c : Dev Cert.KernelIdeal.nD)
    (hf : Cert.ReferenceIdeal.Hand.V57 (F := F) m' ρ' c Cert.ReferenceIdeal.main_v211_0 = Cert.KernelIdeal.Gen.V7 (F := F) m ρ c Cert.KernelIdeal.main_v217_0)
    (hs : Cert.ReferenceIdeal.Hand.V57 (F := F) m' ρ' c Cert.ReferenceIdeal.main_v264 = Cert.KernelIdeal.Gen.V7 (F := F) m ρ c Cert.KernelIdeal.main_v268)
    (ht : Cert.ReferenceIdeal.Hand.V57 (F := F) m' ρ' c Cert.ReferenceIdeal.main_v268 = Cert.KernelIdeal.Gen.V7 (F := F) m ρ c Cert.KernelIdeal.main_v274) :
    Cert.ReferenceIdeal.Hand.W58 (F := F) m' ρ' c (Proc.devRef .tc Cert.ReferenceIdeal.main_v269)
      = Cert.KernelIdeal.Gen.W8 (F := F) m ρ c (Proc.devRef .tc Cert.KernelIdeal.main_v275) := by
  have hK : Cert.KernelIdeal.Gen.W8 (F := F) m ρ c (Proc.devRef .tc Cert.KernelIdeal.main_v275)
      = Cert.Spec.tailFn (Cert.KernelIdeal.Gen.V7 m ρ c Cert.KernelIdeal.main_v217_0) (Cert.KernelIdeal.Gen.V7 m ρ c Cert.KernelIdeal.main_v268) (Cert.KernelIdeal.Gen.V7 m ρ c Cert.KernelIdeal.main_v274) :=
    (Cert.KernelIdeal.Gen.W8_arr m ρ c 3).trans (Cert.KernelIdeal.TailValue.final (Cert.KernelIdeal.Gen.V7 m ρ) c)
  have hR : Cert.ReferenceIdeal.Hand.W58 (F := F) m' ρ' c (Proc.devRef .tc Cert.ReferenceIdeal.main_v269)
      = Cert.Spec.tailFn (Cert.ReferenceIdeal.Hand.V57 m' ρ' c Cert.ReferenceIdeal.main_v211_0) (Cert.ReferenceIdeal.Hand.V57 m' ρ' c Cert.ReferenceIdeal.main_v264) (Cert.ReferenceIdeal.Hand.V57 m' ρ' c Cert.ReferenceIdeal.main_v268) :=
    (Cert.ReferenceIdeal.Hand.W58_arr m' ρ' c 3).trans (Cert.ReferenceIdeal.TailValue.final (Cert.ReferenceIdeal.Hand.V57 m' ρ') c)
  rw [hK, hR, hf, hs, ht]

end Cert.Bridge

end
-- ==== Proof.LibGateLaw.lean ====
/-
  The gate's first layer, two ways: contracting the channel sums with the first-layer weights divided by `H * W = 1024`, or
  contracting the sums divided by 1024 with the weights.  At the extended reals dividing by the real 1024 is multiplying by
  1/1024 (at the infinities too), and a constant factor moves from one operand of every product of the sum to the other.
-/
import Idealize.ShloMosaic.PureOps.Ideal
import Idealize.ShloMosaic.PureOps.Ideal.Laws
import Idealize.ShloMosaic.PureOps.Contract
import proofs.«179230_g2000505885998750_pallasbulk_270_2_alg».proof.Proof.LibSumLaws

noncomputable section

namespace Cert.GateLaw

open Idealize.ShloMosaic

/-- The word `0x44800000` denotes the real 1024. -/
theorem ofBits_1024 : Ideal.ofBits .f32 0x44800000#32 = ((1024 : ℝ) : EReal) := by
  simp [Ideal.ofBits, Ideal.ieee, -EReal.coe_mul]; norm_num

/-- A host contraction with the right operand divided by a nonzero real constant is the contraction with the left operand
    divided by it. -/
theorem dot_div_const {sl sr so : Shape} (d : DotDims sl sr so) (prec : Option ContractPrecision)
    (s : FVec Ideal sl .f32) (w : FVec Ideal sr .f32) (y : ℝ) (hy : y ≠ 0)
    (cl : FVec Ideal sl .f32) (cr : FVec Ideal sr .f32) (hcl : ∀ i, cl i = (y : EReal)) (hcr : ∀ i, cr i = (y : EReal)) :
    Host.dotGeneral d prec s (Host.divf w cr) = Host.dotGeneral d prec (Host.divf s cl) w := by
  funext j
  simp only [Host.dotGeneral]
  rw [Ideal.dotGeneral_apply, Ideal.dotGeneral_apply]
  refine Finset.sum_congr rfl fun k _ => ?_
  show s (d.lhsIdx j k) * Ideal.div (w (d.rhsIdx j k)) (cr (d.rhsIdx j k))
      = Ideal.div (s (d.lhsIdx j k)) (cl (d.lhsIdx j k)) * w (d.rhsIdx j k)
  rw [hcr, hcl, Ideal.div_coe hy, Ideal.div_coe hy]
  exact (Cert.SumLaws.scale_left_right _ _ _).symm

end Cert.GateLaw

end
-- ==== Proof.Glue.lean ====
/-
  Between the two regions both programs run the same operations on the convolution's statistics and the gate's
  parameters — the channel sums of the lane sums and of the lane sums of squares, the two-layer gate with its sigmoid, the
  gated batch mean and variance, `gamma * rsqrt (var + eps)`, and the scale and shift rows laid out over the lanes —
  except for the gate's first layer, where the kernel divides the weights by 1024 and the reference the sums
  (Cert.GateLaw.dot_div_const).  So equal features, statistics and parameters when the convolution regions are left give
  equal features, scales and shifts when the second regions are entered.
-/
import proofs.«179230_g2000505885998750_pallasbulk_270_2_alg».proof.Proof.OutEq
import proofs.«179230_g2000505885998750_pallasbulk_270_2_alg».proof.Proof.LibGateLaw
import Idealize.ShloMosaic.PureOps.Ideal

set_option maxRecDepth 16384

noncomputable section

namespace Cert.Bridge

open Idealize.ShloMosaic Idealize.ShloMosaic.TcCoe Idealize.SL.Sem Idealize.ShloMosaic.StableHlo

/-- No operation between the regions writes the feature array. -/
theorem feat_entry (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (hfeat : Cert.ReferenceIdeal.Hand.W54 (F := Ideal) m' ρ' c (Proc.devRef .tc Cert.ReferenceIdeal.main_v211_0) = Cert.KernelIdeal.Gen.W4 (F := Ideal) m ρ c (Proc.devRef .tc Cert.KernelIdeal.main_v217_0)) :
    Cert.ReferenceIdeal.Hand.V57 (F := Ideal) m' ρ' c Cert.ReferenceIdeal.main_v211_0 = Cert.KernelIdeal.Gen.V7 (F := Ideal) m ρ c Cert.KernelIdeal.main_v217_0 := by
  show StableHlo.after Cert.ReferenceIdeal.Gen.hostOps1_2 (StableHlo.after Cert.ReferenceIdeal.Gen.hostOps1_1 (StableHlo.after Cert.ReferenceIdeal.Gen.hostOps1 (Cert.ReferenceIdeal.Hand.W54 m' ρ' c))) (Proc.devRef .tc Cert.ReferenceIdeal.main_v211_0)
      = StableHlo.after Cert.KernelIdeal.Gen.hostOps1_2 (StableHlo.after Cert.KernelIdeal.Gen.hostOps1_1 (StableHlo.after Cert.KernelIdeal.Gen.hostOps1 (Cert.KernelIdeal.Gen.W4 m ρ c))) (Proc.devRef .tc Cert.KernelIdeal.main_v217_0)
  after_results_simp
  exact hfeat

set_option maxHeartbeats 2000000 in
/-- The scale rows. -/
theorem scale_entry (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (hst : Cert.ReferenceIdeal.Hand.W54 (F := Ideal) m' ρ' c (Proc.devRef .tc Cert.ReferenceIdeal.main_v211_1) = Cert.KernelIdeal.Gen.W4 (F := Ideal) m ρ c (Proc.devRef .tc Cert.KernelIdeal.main_v217_1))
    (h9 : Cert.ReferenceIdeal.Hand.W54 (F := Ideal) m' ρ' c (Proc.devRef .tc Cert.ReferenceIdeal.main_arg9) = Cert.KernelIdeal.Gen.W4 (F := Ideal) m ρ c (Proc.devRef .tc Cert.KernelIdeal.main_arg9))
    (h10 : Cert.ReferenceIdeal.Hand.W54 (F := Ideal) m' ρ' c (Proc.devRef .tc Cert.ReferenceIdeal.main_arg10) = Cert.KernelIdeal.Gen.W4 (F := Ideal) m ρ c (Proc.devRef .tc Cert.KernelIdeal.main_arg10))
    (h11 : Cert.ReferenceIdeal.Hand.W54 (F := Ideal) m' ρ' c (Proc.devRef .tc Cert.ReferenceIdeal.main_arg11) = Cert.KernelIdeal.Gen.W4 (F := Ideal) m ρ c (Proc.devRef .tc Cert.KernelIdeal.main_arg11))
    (h12 : Cert.ReferenceIdeal.Hand.W54 (F := Ideal) m' ρ' c (Proc.devRef .tc Cert.ReferenceIdeal.main_arg12) = Cert.KernelIdeal.Gen.W4 (F := Ideal) m ρ c (Proc.devRef .tc Cert.KernelIdeal.main_arg12))
    (h13 : Cert.ReferenceIdeal.Hand.W54 (F := Ideal) m' ρ' c (Proc.devRef .tc Cert.ReferenceIdeal.main_arg13) = Cert.KernelIdeal.Gen.W4 (F := Ideal) m ρ c (Proc.devRef .tc Cert.KernelIdeal.main_arg13)) :
    Cert.ReferenceIdeal.Hand.V57 (F := Ideal) m' ρ' c Cert.ReferenceIdeal.main_v264 = Cert.KernelIdeal.Gen.V7 (F := Ideal) m ρ c Cert.KernelIdeal.main_v268 := by
  show StableHlo.after Cert.ReferenceIdeal.Gen.hostOps1_2 (StableHlo.after Cert.ReferenceIdeal.Gen.hostOps1_1 (StableHlo.after Cert.ReferenceIdeal.Gen.hostOps1 (Cert.ReferenceIdeal.Hand.W54 m' ρ' c))) (Proc.devRef .tc Cert.ReferenceIdeal.main_v264)
      = StableHlo.after Cert.KernelIdeal.Gen.hostOps1_2 (StableHlo.after Cert.KernelIdeal.Gen.hostOps1_1 (StableHlo.after Cert.KernelIdeal.Gen.hostOps1 (Cert.KernelIdeal.Gen.W4 m ρ c))) (Proc.devRef .tc Cert.KernelIdeal.main_v268)
  after_results_simp
  rw [hst, h9, h10, h11, h12, h13]
  rw [Cert.GateLaw.dot_div_const Cert.KernelIdeal.dot_S512x16_S16x4_S512x4_1_0_0_1_n_n none _ _ 1024 (by norm_num)
        (broadcastInDim Cert.ReferenceIdeal.S512x16 ![] Cert.ReferenceIdeal.Gen.bcast_S_S512x16 (constant Cert.ReferenceIdeal.S_ .f32 0x44800000#32))
        (broadcastInDim Cert.KernelIdeal.S16x4 ![] Cert.KernelIdeal.Gen.bcast_S_S16x4 (constant Cert.KernelIdeal.S_ .f32 0x44800000#32))
        (fun _ => Cert.GateLaw.ofBits_1024) (fun _ => Cert.GateLaw.ofBits_1024)]
  rfl

set_option maxHeartbeats 2000000 in
/-- The shift row. -/
theorem shift_entry (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (hst : Cert.ReferenceIdeal.Hand.W54 (F := Ideal) m' ρ' c (Proc.devRef .tc Cert.ReferenceIdeal.main_v211_1) = Cert.KernelIdeal.Gen.W4 (F := Ideal) m ρ c (Proc.devRef .tc Cert.KernelIdeal.main_v217_1))
    (h9 : Cert.ReferenceIdeal.Hand.W54 (F := Ideal) m' ρ' c (Proc.devRef .tc Cert.ReferenceIdeal.main_arg9) = Cert.KernelIdeal.Gen.W4 (F := Ideal) m ρ c (Proc.devRef .tc Cert.KernelIdeal.main_arg9))
    (h10 : Cert.ReferenceIdeal.Hand.W54 (F := Ideal) m' ρ' c (Proc.devRef .tc Cert.ReferenceIdeal.main_arg10) = Cert.KernelIdeal.Gen.W4 (F := Ideal) m ρ c (Proc.devRef .tc Cert.KernelIdeal.main_arg10))
    (h11 : Cert.ReferenceIdeal.Hand.W54 (F := Ideal) m' ρ' c (Proc.devRef .tc Cert.ReferenceIdeal.main_arg11) = Cert.KernelIdeal.Gen.W4 (F := Ideal) m ρ c (Proc.devRef .tc Cert.KernelIdeal.main_arg11))
    (h12 : Cert.ReferenceIdeal.Hand.W54 (F := Ideal) m' ρ' c (Proc.devRef .tc Cert.ReferenceIdeal.main_arg12) = Cert.KernelIdeal.Gen.W4 (F := Ideal) m ρ c (Proc.devRef .tc Cert.KernelIdeal.main_arg12))
    (h13 : Cert.ReferenceIdeal.Hand.W54 (F := Ideal) m' ρ' c (Proc.devRef .tc Cert.ReferenceIdeal.main_arg13) = Cert.KernelIdeal.Gen.W4 (F := Ideal) m ρ c (Proc.devRef .tc Cert.KernelIdeal.main_arg13))
    (h14 : Cert.ReferenceIdeal.Hand.W54 (F := Ideal) m' ρ' c (Proc.devRef .tc Cert.ReferenceIdeal.main_arg14) = Cert.KernelIdeal.Gen.W4 (F := Ideal) m ρ c (Proc.devRef .tc Cert.KernelIdeal.main_arg14)) :
    Cert.ReferenceIdeal.Hand.V57 (F := Ideal) m' ρ' c Cert.ReferenceIdeal.main_v268 = Cert.KernelIdeal.Gen.V7 (F := Ideal) m ρ c Cert.KernelIdeal.main_v274 := by
  show StableHlo.after Cert.ReferenceIdeal.Gen.hostOps1_2 (StableHlo.after Cert.ReferenceIdeal.Gen.hostOps1_1 (StableHlo.after Cert.ReferenceIdeal.Gen.hostOps1 (Cert.ReferenceIdeal.Hand.W54 m' ρ' c))) (Proc.devRef .tc Cert.ReferenceIdeal.main_v268)
      = StableHlo.after Cert.KernelIdeal.Gen.hostOps1_2 (StableHlo.after Cert.KernelIdeal.Gen.hostOps1_1 (StableHlo.after Cert.KernelIdeal.Gen.hostOps1 (Cert.KernelIdeal.Gen.W4 m ρ c))) (Proc.devRef .tc Cert.KernelIdeal.main_v274)
  after_results_simp
  rw [hst, h9, h10, h11, h12, h13, h14]
  rw [Cert.GateLaw.dot_div_const Cert.KernelIdeal.dot_S512x16_S16x4_S512x4_1_0_0_1_n_n none _ _ 1024 (by norm_num)
        (broadcastInDim Cert.ReferenceIdeal.S512x16 ![] Cert.ReferenceIdeal.Gen.bcast_S_S512x16 (constant Cert.ReferenceIdeal.S_ .f32 0x44800000#32))
        (broadcastInDim Cert.KernelIdeal.S16x4 ![] Cert.KernelIdeal.Gen.bcast_S_S16x4 (constant Cert.KernelIdeal.S_ .f32 0x44800000#32))
        (fun _ => Cert.GateLaw.ofBits_1024) (fun _ => Cert.GateLaw.ofBits_1024)]
  rfl

end Cert.Bridge

end
-- ==== Proof.KArgs.lean ====
/-
  When the idealized kernel's convolution region is left, every argument array still holds its launch contents: no operation
  of the three opening stretches (the weight fold, the bias row, the padded input) writes an argument, and the region's arrays
  are no arguments.
-/
import proofs.«179230_g2000505885998750_pallasbulk_270_2_alg».proof.Proof.Gen.KernelIdeal.Frame

set_option maxRecDepth 16384

noncomputable section

namespace Cert.KernelIdeal.Args

open Idealize.ShloMosaic Idealize.ShloMosaic.TcCoe Idealize.SL.Sem
open Cert.KernelIdeal Cert.KernelIdeal.Gen

variable {F : FTy → Type} [FloatOps F]

/-- The fifteen argument arrays. -/
def argRefs : List (Ref sig .tc) :=
  [main_arg0, main_arg1, main_arg2, main_arg3, main_arg4, main_arg5, main_arg6, main_arg7, main_arg8, main_arg9,
   main_arg10, main_arg11, main_arg12, main_arg13, main_arg14]

theorem ne_of_arg {a y : Ref sig .tc} (ha : a ∈ argRefs) (hy : y ∉ argRefs) : a ≠ y := fun e => hy (e ▸ ha)

theorem arrRef0_ne_arg (a : Ref sig .tc) (ha : a ∈ argRefs) : ∀ w, Pipeline.arrRef spec0 w ≠ a :=
  fun w e => (by decide : ∀ w : Fin 5, Pipeline.arrRef spec0 w ∉ argRefs) w (e ▸ ha)

/-- A stretch none of whose operations writes an argument leaves every argument as it was. -/
macro "stretch_keeps " ops:ident ha:ident : tactic => `(tactic| (
  refine StableHlo.after_of_forall_not_mem _ _ (List.forall_iff_forall_mem.mp ?_)
  simp only [$ops:ident, StableHlo.TRef.nullary, StableHlo.TRef.unary, StableHlo.TRef.binary, StableHlo.TRef.ternary,
    StableHlo.TRef.quaternary, StableHlo.TRef.reshape, StableHlo.TRef.nary, StableHlo.TRef.unaryIndexed, StableHlo.TRef.binaryIndexed,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (ne_of_arg $ha (by decide))))

theorem hostOps0_keeps (a : Ref sig .tc) (ha : a ∈ argRefs) (W : Valuation τ sig (Elt F)) :
    StableHlo.after (hostOps0 (F := F)) W (Proc.devRef .tc a) = W (Proc.devRef .tc a) := by
  stretch_keeps hostOps0 ha
theorem hostOps0_1_keeps (a : Ref sig .tc) (ha : a ∈ argRefs) (W : Valuation τ sig (Elt F)) :
    StableHlo.after (hostOps0_1 (F := F)) W (Proc.devRef .tc a) = W (Proc.devRef .tc a) := by
  stretch_keeps hostOps0_1 ha
theorem hostOps0_2_keeps (a : Ref sig .tc) (ha : a ∈ argRefs) (W : Valuation τ sig (Elt F)) :
    StableHlo.after (hostOps0_2 (F := F)) W (Proc.devRef .tc a) = W (Proc.devRef .tc a) := by
  stretch_keeps hostOps0_2 ha

variable (m : (ℓ : Loc nD τ sig) → Buf (Elt F) ℓ) (ρ : Dev nD → PrngReg)

theorem W3_arg (a : Ref sig .tc) (ha : a ∈ argRefs) (c : Dev nD) :
    W3 m ρ c (Proc.devRef .tc a) = m ((c : Thread nD τ).loc a) :=
  calc W3 m ρ c (Proc.devRef .tc a)
    _ = W2 m ρ c (Proc.devRef .tc a) := hostOps0_2_keeps a ha _
    _ = W1 m ρ c (Proc.devRef .tc a) := hostOps0_1_keeps a ha _
    _ = W0 m ρ c (Proc.devRef .tc a) := hostOps0_keeps a ha _
    _ = m ((c : Thread nD τ).loc a) := rfl

theorem W4_arg (a : Ref sig .tc) (ha : a ∈ argRefs) (c : Dev nD) :
    W4 m ρ c (Proc.devRef .tc a) = m ((c : Thread nD τ).loc a) :=
  (W4_of_ne m ρ c a (arrRef0_ne_arg a ha)).trans (W3_arg m ρ a ha c)

end Cert.KernelIdeal.Args

end
-- ==== Proof.RefArgs.lean ====
/-
  When the reference's convolution region is left, every argument array still holds its launch contents: the fold read at an
  argument walks back through the region (whose arrays are no arguments) and the 53 stretches before it.
-/
import proofs.«179230_g2000505885998750_pallasbulk_270_2_alg».proof.Proof.RefFold

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

theorem W54_arg (a : Ref sig .tc) (ha : a ∈ argRefs) (c : Dev nD) :
    W54 m ρ c (Proc.devRef .tc a) = m ((c : Thread nD τ).loc a) :=
  calc W54 m ρ c (Proc.devRef .tc a)
    _ = W53 m ρ c (Proc.devRef .tc a) := W54_of_ne m ρ c a (arrRef0_ne_arg a ha)
    _ = W52 m ρ c (Proc.devRef .tc a) := hostOps0_52_keeps a ha _
    _ = W51 m ρ c (Proc.devRef .tc a) := hostOps0_51_keeps a ha _
    _ = W50 m ρ c (Proc.devRef .tc a) := hostOps0_50_keeps a ha _
    _ = W49 m ρ c (Proc.devRef .tc a) := hostOps0_49_keeps a ha _
    _ = W48 m ρ c (Proc.devRef .tc a) := hostOps0_48_keeps a ha _
    _ = W47 m ρ c (Proc.devRef .tc a) := hostOps0_47_keeps a ha _
    _ = W46 m ρ c (Proc.devRef .tc a) := hostOps0_46_keeps a ha _
    _ = W45 m ρ c (Proc.devRef .tc a) := hostOps0_45_keeps a ha _
    _ = W44 m ρ c (Proc.devRef .tc a) := hostOps0_44_keeps a ha _
    _ = W43 m ρ c (Proc.devRef .tc a) := hostOps0_43_keeps a ha _
    _ = W42 m ρ c (Proc.devRef .tc a) := hostOps0_42_keeps a ha _
    _ = W41 m ρ c (Proc.devRef .tc a) := hostOps0_41_keeps a ha _
    _ = W40 m ρ c (Proc.devRef .tc a) := hostOps0_40_keeps a ha _
    _ = W39 m ρ c (Proc.devRef .tc a) := hostOps0_39_keeps a ha _
    _ = W38 m ρ c (Proc.devRef .tc a) := hostOps0_38_keeps a ha _
    _ = W37 m ρ c (Proc.devRef .tc a) := hostOps0_37_keeps a ha _
    _ = W36 m ρ c (Proc.devRef .tc a) := hostOps0_36_keeps a ha _
    _ = W35 m ρ c (Proc.devRef .tc a) := hostOps0_35_keeps a ha _
    _ = W34 m ρ c (Proc.devRef .tc a) := hostOps0_34_keeps a ha _
    _ = W33 m ρ c (Proc.devRef .tc a) := hostOps0_33_keeps a ha _
    _ = W32 m ρ c (Proc.devRef .tc a) := hostOps0_32_keeps a ha _
    _ = W31 m ρ c (Proc.devRef .tc a) := hostOps0_31_keeps a ha _
    _ = W30 m ρ c (Proc.devRef .tc a) := hostOps0_30_keeps a ha _
    _ = W29 m ρ c (Proc.devRef .tc a) := hostOps0_29_keeps a ha _
    _ = W28 m ρ c (Proc.devRef .tc a) := hostOps0_28_keeps a ha _
    _ = W27 m ρ c (Proc.devRef .tc a) := hostOps0_27_keeps a ha _
    _ = W26 m ρ c (Proc.devRef .tc a) := hostOps0_26_keeps a ha _
    _ = W25 m ρ c (Proc.devRef .tc a) := hostOps0_25_keeps a ha _
    _ = W24 m ρ c (Proc.devRef .tc a) := hostOps0_24_keeps a ha _
    _ = W23 m ρ c (Proc.devRef .tc a) := hostOps0_23_keeps a ha _
    _ = W22 m ρ c (Proc.devRef .tc a) := hostOps0_22_keeps a ha _
    _ = W21 m ρ c (Proc.devRef .tc a) := hostOps0_21_keeps a ha _
    _ = W20 m ρ c (Proc.devRef .tc a) := hostOps0_20_keeps a ha _
    _ = W19 m ρ c (Proc.devRef .tc a) := hostOps0_19_keeps a ha _
    _ = W18 m ρ c (Proc.devRef .tc a) := hostOps0_18_keeps a ha _
    _ = W17 m ρ c (Proc.devRef .tc a) := hostOps0_17_keeps a ha _
    _ = W16 m ρ c (Proc.devRef .tc a) := hostOps0_16_keeps a ha _
    _ = W15 m ρ c (Proc.devRef .tc a) := hostOps0_15_keeps a ha _
    _ = W14 m ρ c (Proc.devRef .tc a) := hostOps0_14_keeps a ha _
    _ = W13 m ρ c (Proc.devRef .tc a) := hostOps0_13_keeps a ha _
    _ = W12 m ρ c (Proc.devRef .tc a) := hostOps0_12_keeps a ha _
    _ = W11 m ρ c (Proc.devRef .tc a) := hostOps0_11_keeps a ha _
    _ = W10 m ρ c (Proc.devRef .tc a) := hostOps0_10_keeps a ha _
    _ = W9 m ρ c (Proc.devRef .tc a) := hostOps0_9_keeps a ha _
    _ = W8 m ρ c (Proc.devRef .tc a) := hostOps0_8_keeps a ha _
    _ = W7 m ρ c (Proc.devRef .tc a) := hostOps0_7_keeps a ha _
    _ = W6 m ρ c (Proc.devRef .tc a) := hostOps0_6_keeps a ha _
    _ = W5 m ρ c (Proc.devRef .tc a) := hostOps0_5_keeps a ha _
    _ = W4 m ρ c (Proc.devRef .tc a) := hostOps0_4_keeps a ha _
    _ = W3 m ρ c (Proc.devRef .tc a) := hostOps0_3_keeps a ha _
    _ = W2 m ρ c (Proc.devRef .tc a) := hostOps0_2_keeps a ha _
    _ = W1 m ρ c (Proc.devRef .tc a) := hostOps0_1_keeps a ha _
    _ = W0 m ρ c (Proc.devRef .tc a) := hostOps0_keeps a ha _
    _ = m ((c : Thread nD τ).loc a) := rfl

/-- The same at the region's entry. -/
theorem W53_arg (a : Ref sig .tc) (ha : a ∈ argRefs) (c : Dev nD) :
    W53 m ρ c (Proc.devRef .tc a) = m ((c : Thread nD τ).loc a) :=
  (W54_of_ne m ρ c a (arrRef0_ne_arg a ha)).symm.trans (W54_arg m ρ a ha c)

end Cert.ReferenceIdeal.Hand

end
-- ==== Proof.RefArgs50.lean ====
/-
  After the first fifty stretches of the reference's @main (the seven row-shift matrices) every argument array still holds its
  launch contents: the stretch that computes the bias row and transposes the input reads the arguments there.
-/
import proofs.«179230_g2000505885998750_pallasbulk_270_2_alg».proof.Proof.RefFold

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

theorem W50_arg (a : Ref sig .tc) (ha : a ∈ argRefs) (c : Dev nD) :
    W50 m ρ c (Proc.devRef .tc a) = m ((c : Thread nD τ).loc a) :=
  calc W50 m ρ c (Proc.devRef .tc a)
    _ = W49 m ρ c (Proc.devRef .tc a) := hostOps0_49_keeps a ha _
    _ = W48 m ρ c (Proc.devRef .tc a) := hostOps0_48_keeps a ha _
    _ = W47 m ρ c (Proc.devRef .tc a) := hostOps0_47_keeps a ha _
    _ = W46 m ρ c (Proc.devRef .tc a) := hostOps0_46_keeps a ha _
    _ = W45 m ρ c (Proc.devRef .tc a) := hostOps0_45_keeps a ha _
    _ = W44 m ρ c (Proc.devRef .tc a) := hostOps0_44_keeps a ha _
    _ = W43 m ρ c (Proc.devRef .tc a) := hostOps0_43_keeps a ha _
    _ = W42 m ρ c (Proc.devRef .tc a) := hostOps0_42_keeps a ha _
    _ = W41 m ρ c (Proc.devRef .tc a) := hostOps0_41_keeps a ha _
    _ = W40 m ρ c (Proc.devRef .tc a) := hostOps0_40_keeps a ha _
    _ = W39 m ρ c (Proc.devRef .tc a) := hostOps0_39_keeps a ha _
    _ = W38 m ρ c (Proc.devRef .tc a) := hostOps0_38_keeps a ha _
    _ = W37 m ρ c (Proc.devRef .tc a) := hostOps0_37_keeps a ha _
    _ = W36 m ρ c (Proc.devRef .tc a) := hostOps0_36_keeps a ha _
    _ = W35 m ρ c (Proc.devRef .tc a) := hostOps0_35_keeps a ha _
    _ = W34 m ρ c (Proc.devRef .tc a) := hostOps0_34_keeps a ha _
    _ = W33 m ρ c (Proc.devRef .tc a) := hostOps0_33_keeps a ha _
    _ = W32 m ρ c (Proc.devRef .tc a) := hostOps0_32_keeps a ha _
    _ = W31 m ρ c (Proc.devRef .tc a) := hostOps0_31_keeps a ha _
    _ = W30 m ρ c (Proc.devRef .tc a) := hostOps0_30_keeps a ha _
    _ = W29 m ρ c (Proc.devRef .tc a) := hostOps0_29_keeps a ha _
    _ = W28 m ρ c (Proc.devRef .tc a) := hostOps0_28_keeps a ha _
    _ = W27 m ρ c (Proc.devRef .tc a) := hostOps0_27_keeps a ha _
    _ = W26 m ρ c (Proc.devRef .tc a) := hostOps0_26_keeps a ha _
    _ = W25 m ρ c (Proc.devRef .tc a) := hostOps0_25_keeps a ha _
    _ = W24 m ρ c (Proc.devRef .tc a) := hostOps0_24_keeps a ha _
    _ = W23 m ρ c (Proc.devRef .tc a) := hostOps0_23_keeps a ha _
    _ = W22 m ρ c (Proc.devRef .tc a) := hostOps0_22_keeps a ha _
    _ = W21 m ρ c (Proc.devRef .tc a) := hostOps0_21_keeps a ha _
    _ = W20 m ρ c (Proc.devRef .tc a) := hostOps0_20_keeps a ha _
    _ = W19 m ρ c (Proc.devRef .tc a) := hostOps0_19_keeps a ha _
    _ = W18 m ρ c (Proc.devRef .tc a) := hostOps0_18_keeps a ha _
    _ = W17 m ρ c (Proc.devRef .tc a) := hostOps0_17_keeps a ha _
    _ = W16 m ρ c (Proc.devRef .tc a) := hostOps0_16_keeps a ha _
    _ = W15 m ρ c (Proc.devRef .tc a) := hostOps0_15_keeps a ha _
    _ = W14 m ρ c (Proc.devRef .tc a) := hostOps0_14_keeps a ha _
    _ = W13 m ρ c (Proc.devRef .tc a) := hostOps0_13_keeps a ha _
    _ = W12 m ρ c (Proc.devRef .tc a) := hostOps0_12_keeps a ha _
    _ = W11 m ρ c (Proc.devRef .tc a) := hostOps0_11_keeps a ha _
    _ = W10 m ρ c (Proc.devRef .tc a) := hostOps0_10_keeps a ha _
    _ = W9 m ρ c (Proc.devRef .tc a) := hostOps0_9_keeps a ha _
    _ = W8 m ρ c (Proc.devRef .tc a) := hostOps0_8_keeps a ha _
    _ = W7 m ρ c (Proc.devRef .tc a) := hostOps0_7_keeps a ha _
    _ = W6 m ρ c (Proc.devRef .tc a) := hostOps0_6_keeps a ha _
    _ = W5 m ρ c (Proc.devRef .tc a) := hostOps0_5_keeps a ha _
    _ = W4 m ρ c (Proc.devRef .tc a) := hostOps0_4_keeps a ha _
    _ = W3 m ρ c (Proc.devRef .tc a) := hostOps0_3_keeps a ha _
    _ = W2 m ρ c (Proc.devRef .tc a) := hostOps0_2_keeps a ha _
    _ = W1 m ρ c (Proc.devRef .tc a) := hostOps0_1_keeps a ha _
    _ = W0 m ρ c (Proc.devRef .tc a) := hostOps0_keeps a ha _
    _ = m ((c : Thread nD τ).loc a) := rfl

end Cert.ReferenceIdeal.Hand

end
-- ==== Proof.ConvEntry.lean ====
/-
  Two of the convolution regions' three entry arrays are the same operations of the arguments in both programs: the input
  transposed to channel-last, padded by four zero rows above and below, and flattened to 512 x 40 x 512; and the sum of the
  four biases tiled over the 32 column positions as one row of 512 lanes.
-/
import proofs.«179230_g2000505885998750_pallasbulk_270_2_alg».proof.Proof.KernelRun
import proofs.«179230_g2000505885998750_pallasbulk_270_2_alg».proof.Proof.RefArgs50
import Idealize.ShloMosaic.PureOps.Ideal

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 2000000 in
/-- The padded, flattened input. -/
theorem xpad_eq
    (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.V53 (F := F) m' ρ' c Cert.ReferenceIdeal.main_v210 = Cert.KernelIdeal.Gen.V3 (F := F) m ρ c Cert.KernelIdeal.main_v216 := by
  show StableHlo.after Cert.ReferenceIdeal.Gen.hostOps0_52 (StableHlo.after Cert.ReferenceIdeal.Gen.hostOps0_51 (StableHlo.after Cert.ReferenceIdeal.Gen.hostOps0_50 (Cert.ReferenceIdeal.Hand.W50 m' ρ' c))) (Proc.devRef .tc Cert.ReferenceIdeal.main_v210)
      = StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v216)
  after_results_simp
  rw [(show Cert.ReferenceIdeal.Hand.W0 (F := F) m' ρ' c (Proc.devRef .tc Cert.ReferenceIdeal.main_arg0) = Cert.KernelIdeal.Gen.W0 (F := F) m ρ c (Proc.devRef .tc Cert.KernelIdeal.main_arg0) from h0)]
  rfl

set_option maxHeartbeats 2000000 in
/-- The bias row. -/
theorem bias_eq
    (m : (ℓ : Loc Cert.KernelIdeal.nD Cert.KernelIdeal.τ Cert.KernelIdeal.sig) → Buf (Elt F) ℓ) (ρ : Dev Cert.KernelIdeal.nD → PrngReg)
    (m' : (ℓ : Loc Cert.ReferenceIdeal.nD Cert.ReferenceIdeal.τ Cert.ReferenceIdeal.sig) → Buf (Elt F) ℓ) (ρ' : Dev Cert.ReferenceIdeal.nD → PrngReg) (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.V53 (F := F) m' ρ' c Cert.ReferenceIdeal.main_v207 = Cert.KernelIdeal.Gen.V3 (F := F) m ρ c Cert.KernelIdeal.main_v213 := by
  show StableHlo.after Cert.ReferenceIdeal.Gen.hostOps0_52 (StableHlo.after Cert.ReferenceIdeal.Gen.hostOps0_51 (StableHlo.after Cert.ReferenceIdeal.Gen.hostOps0_50 (Cert.ReferenceIdeal.Hand.W50 m' ρ' c))) (Proc.devRef .tc Cert.ReferenceIdeal.main_v207)
      = StableHlo.after Cert.KernelIdeal.Gen.hostOps0_2 (StableHlo.after Cert.KernelIdeal.Gen.hostOps0_1 (StableHlo.after Cert.KernelIdeal.Gen.hostOps0 (Cert.KernelIdeal.Gen.W0 m ρ c))) (Proc.devRef .tc Cert.KernelIdeal.main_v213)
  after_results_simp
  rw [(show Cert.ReferenceIdeal.Hand.W0 (F := F) m' ρ' c (Proc.devRef .tc Cert.ReferenceIdeal.main_arg2) = Cert.KernelIdeal.Gen.W0 (F := F) m ρ c (Proc.devRef .tc Cert.KernelIdeal.main_arg2) from h2), (show Cert.ReferenceIdeal.Hand.W0 (F := F) m' ρ' c (Proc.devRef .tc Cert.ReferenceIdeal.main_arg4) = Cert.KernelIdeal.Gen.W0 (F := F) m ρ c (Proc.devRef .tc Cert.KernelIdeal.main_arg4) from h4), (show Cert.ReferenceIdeal.Hand.W0 (F := F) m' ρ' c (Proc.devRef .tc Cert.ReferenceIdeal.main_arg6) = Cert.KernelIdeal.Gen.W0 (F := F) m ρ c (Proc.devRef .tc Cert.KernelIdeal.main_arg6) from h6), (show Cert.ReferenceIdeal.Hand.W0 (F := F) m' ρ' c (Proc.devRef .tc Cert.ReferenceIdeal.main_arg8) = Cert.KernelIdeal.Gen.W0 (F := F) m ρ c (Proc.devRef .tc Cert.KernelIdeal.main_arg8) from h8)]
  rfl

end Cert.Bridge

end
-- ==== Proof.LibMatmulAt.lean ====
/-
  A matrix product into a zero accumulator, read at row `r` and column `c`, is the sum over the contracted axis of the
  row's entries times the column's — the contraction indexed by `Fin K` rather than by the record's own contraction
  shape, so that products of different widths can be compared.
-/
import Idealize.ShloMosaic.PureOps.Ideal.Laws
import Idealize.ShloMosaic.Lib.ValueIdx

noncomputable section

namespace Cert.MatmulAt

open Idealize.ShloMosaic Idealize.ShloMosaic.ValueIdx
open scoped BigOperators

/-- For a product `M x K` by `K x N` whose record reads the left operand at `(row, k)` and the right at `(k, column)`. -/
theorem matmul_zero_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (prec : Option ContractPrecision) (A : FVec Ideal ⟨2, ![M, K]⟩ φ₁) (B : FVec Ideal ⟨2, ![K, N]⟩ φ₂) (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  rw [← Equiv.sum_comp (contrEquiv1 d K hr hs).symm]
  refine Finset.sum_congr rfl fun i _ => ?_
  have ha : d.lhsIdx (ix2 r c) ((contrEquiv1 d K hr hs).symm i) = ix2 r i := by
    funext a; apply Fin.ext
    match a with
    | ⟨0, _⟩ => exact h1 _ _
    | ⟨1, _⟩ => exact (h2 _ _).trans (contrEquiv1_symm_val d K hr hs i)
  have hb : d.rhsIdx (ix2 r c) ((contrEquiv1 d K hr hs).symm i) = ix2 i c := by
    funext a; apply Fin.ext
    match a with
    | ⟨0, _⟩ => exact (h3 _ _).trans (contrEquiv1_symm_val d K hr hs i)
    | ⟨1, _⟩ => exact h4 _ _
  rw [ha, hb]

end Cert.MatmulAt

end
-- ==== Proof.KConvPay.lean ====
/-
  The idealized kernel's convolution body at an index of its feature block.  The body computes the 512 output lanes in four
  tiles of 128; for tile `j` it contracts only the input lanes of the tiles `j - 1, j, j + 1` that exist — lanes
  `[0, 256)`, `[0, 384)`, `[128, 512)`, `[256, 512)` — and concatenates the four accumulators.  For image `q`, row
  `h` and lane `128 j + c` the stored value is
      ((0 + T 0) + T 1 + ... + T 6) + bias[l],   T g = ∑ k over tile j's window, X[q, h + o g, k] * W[g, k, l],
  the input block's windows cast to the narrow format and flattened first — an identity on extended reals.
-/
import proofs.«179230_g2000505885998750_pallasbulk_270_2_alg».proof.Proof.Gen.KernelIdeal.Frame
import proofs.«179230_g2000505885998750_pallasbulk_270_2_alg».proof.Proof.LibMatmulAt
import Idealize.ShloMosaic.Lib.Pipeline.Value
import Idealize.ShloMosaic.Lib.ValueIdx

set_option maxRecDepth 16384

noncomputable section

namespace Cert.KernelIdeal.ConvValue

open Idealize.ShloMosaic Idealize.ShloMosaic.ValueIdx
open Cert.KernelIdeal Cert.KernelIdeal.Gen
open scoped BigOperators

/-- The value the body stores into the feature buffer, of the three input blocks. -/
def featValK (X : Vec Ideal S8x40x512 .f32) (W : Vec Ideal S7x512x512 .bf16) (B : Vec Ideal S1x512 .f32) : FVec Ideal S8x32x512 .f32 :=
  k0_pay22 (k0_pay5 (View.ld X r0_0)) (k0_pay6 (View.ld X r0_0)) (k0_pay7 (View.ld X r0_0)) (k0_pay8 (View.ld X r0_0)) (k0_pay9 (View.ld X r0_0)) (k0_pay12 (k0_pay7 (View.ld X r0_0)) (k0_pay8 (View.ld X r0_0)) (k0_pay9 (View.ld X r0_0)) (k0_pay10 (View.ld X r0_0) (View.ld W r0_1) (View.ld W r0_2) (View.ld W r0_3)) (k0_pay11 (View.ld X r0_0)) (View.ld W r0_4) (View.ld W r0_5) (View.ld W r0_6) (View.ld W r0_7)) (k0_pay15 (k0_pay6 (View.ld X r0_0)) (k0_pay7 (View.ld X r0_0)) (k0_pay8 (View.ld X r0_0)) (k0_pay9 (View.ld X r0_0)) (k0_pay13 (k0_pay3 (View.ld X r0_0)) (k0_pay4 (View.ld X r0_0)) (View.ld W r0_8) (View.ld W r0_9)) (k0_pay14 (k0_pay5 (View.ld X r0_0)) (View.ld W r0_10)) (View.ld W r0_11) (View.ld W r0_12) (View.ld W r0_13) (View.ld W r0_14)) (k0_pay18 (k0_pay6 (View.ld X r0_0)) (k0_pay7 (View.ld X r0_0)) (k0_pay8 (View.ld X r0_0)) (k0_pay9 (View.ld X r0_0)) (k0_pay16 (k0_pay3 (View.ld X r0_0)) (k0_pay4 (View.ld X r0_0)) (View.ld W r0_15) (View.ld W r0_16)) (k0_pay17 (k0_pay5 (View.ld X r0_0))) (View.ld W r0_17) (View.ld W r0_18) (View.ld W r0_19) (View.ld W r0_20) (View.ld W r0_21)) (k0_pay19 (k0_pay3 (View.ld X r0_0)) (View.ld W r0_22)) (k0_pay20 (k0_pay4 (View.ld X r0_0))) (k0_pay21 (View.ld W r0_23)) (constant S256x128 .f32 0x00000000#32) (View.ld W r0_24) (View.ld W r0_25) (View.ld W r0_26) (View.ld W r0_27) (View.ld W r0_28) (View.ld B r0_29)

/-- The feature buffer after the body is that value: its one store covers the buffer. -/
theorem out0_3_eq (X : Vec Ideal S8x40x512 .f32) (W : Vec Ideal S7x512x512 .bf16) (B : Vec Ideal S1x512 .f32) :
    out0_3 (F := Ideal) X W B = View.canon [⟨r0_30, featValK X W B⟩] := rfl

/-- The same value with the body's named intermediate values substituted: four accumulators, each a zero plus seven
    products of a window of the flattened input with a weight tile, side by side, plus the bias row, reshaped. -/
def featNorm (X : Vec Ideal S8x40x512 .f32) (W : Vec Ideal S7x512x512 .bf16) (B : Vec Ideal S1x512 .f32) : FVec Ideal S8x32x512 .f32 :=
  shapeCast S8x32x512 (fun r : S256x512.Idx =>
      concatenate S256x512 1 [⟨S256x128, (fun i : S256x128.Idx => ((((((((broadcast S256x128 (Scalar.ofBits .f32 0x00000000#32 : Ideal .f32)) i
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 0, 0] (shapeCast S8x40x512 (View.ld X r0_0) shapeCasts_S8x40x512_S8x40x512) slices_S8x40x512_o0_0_0_S8x32x512) shapeCasts_S8x32x512_S256x512) bitsLt_bf16_f32 : FVec Ideal S256x512 .bf16) slices_S256x512_o0_0_S256x256)
            (shapeCast S256x128 (View.ld W r0_1) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 2, 0] (shapeCast S8x40x512 (View.ld X r0_0) shapeCasts_S8x40x512_S8x40x512) slices_S8x40x512_o0_2_0_S8x32x512) shapeCasts_S8x32x512_S256x512) bitsLt_bf16_f32 : FVec Ideal S256x512 .bf16) slices_S256x512_o0_0_S256x256)
            (shapeCast S256x128 (View.ld W r0_2) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 3, 0] (shapeCast S8x40x512 (View.ld X r0_0) shapeCasts_S8x40x512_S8x40x512) slices_S8x40x512_o0_3_0_S8x32x512) shapeCasts_S8x32x512_S256x512) bitsLt_bf16_f32 : FVec Ideal S256x512 .bf16) slices_S256x512_o0_0_S256x256)
            (shapeCast S256x128 (View.ld W r0_3) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 4, 0] (shapeCast S8x40x512 (View.ld X r0_0) shapeCasts_S8x40x512_S8x40x512) slices_S8x40x512_o0_4_0_S8x32x512) shapeCasts_S8x32x512_S256x512) bitsLt_bf16_f32 : FVec Ideal S256x512 .bf16) slices_S256x512_o0_0_S256x256)
            (shapeCast S256x128 (View.ld W r0_4) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 5, 0] (shapeCast S8x40x512 (View.ld X r0_0) shapeCasts_S8x40x512_S8x40x512) slices_S8x40x512_o0_5_0_S8x32x512) shapeCasts_S8x32x512_S256x512) bitsLt_bf16_f32 : FVec Ideal S256x512 .bf16) slices_S256x512_o0_0_S256x256)
            (shapeCast S256x128 (View.ld W r0_5) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 6, 0] (shapeCast S8x40x512 (View.ld X r0_0) shapeCasts_S8x40x512_S8x40x512) slices_S8x40x512_o0_6_0_S8x32x512) shapeCasts_S8x32x512_S256x512) bitsLt_bf16_f32 : FVec Ideal S256x512 .bf16) slices_S256x512_o0_0_S256x256)
            (shapeCast S256x128 (View.ld W r0_6) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 0] (truncf .bf16 (shapeCast S256x512 (extractStridedSlice S8x32x512 ![0, 8, 0] (shapeCast S8x40x512 (View.ld X r0_0) shapeCasts_S8x40x512_S8x40x512) slices_S8x40x512_o0_8_0_S8x32x512) shapeCasts_S8x32x512_S256x512) bitsLt_bf16_f32 : FVec Ideal S256x512 .bf16) slices_S256x512_o0_0_S256x256)
            (shapeCast S256x128 (View.ld W r0_7) shapeCasts_S1x256x128_S256x128 : FVec Ideal S256x128 .bf16) (constant S256x128 .f32 0x00000000#32) i))⟩,
        ⟨S256x128, (fun i : S256x128.Idx => ((((((((broadcast S256x128 (Scalar.ofBits .f32 0x00000000#32 : Ideal .f32)) i
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 0, 0] (shapeCast S8x40x512 (View.ld X r0_0) shapeCasts_S8x40x512_S8x40x512) slices_S8x40x512_o0_0_0_S8x32x512) shapeCasts_S8x32x512_S256x512) bitsLt_bf16_f32 : FVec Ideal S256x512 .bf16) slices_S256x512_o0_0_S256x384)
            (shapeCast S384x128 (View.ld W r0_8) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 2, 0] (shapeCast S8x40x512 (View.ld X r0_0) shapeCasts_S8x40x512_S8x40x512) slices_S8x40x512_o0_2_0_S8x32x512) shapeCasts_S8x32x512_S256x512) bitsLt_bf16_f32 : FVec Ideal S256x512 .bf16) slices_S256x512_o0_0_S256x384)
            (shapeCast S384x128 (View.ld W r0_9) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 3, 0] (shapeCast S8x40x512 (View.ld X r0_0) shapeCasts_S8x40x512_S8x40x512) slices_S8x40x512_o0_3_0_S8x32x512) shapeCasts_S8x32x512_S256x512) bitsLt_bf16_f32 : FVec Ideal S256x512 .bf16) slices_S256x512_o0_0_S256x384)
            (shapeCast S384x128 (View.ld W r0_10) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 4, 0] (shapeCast S8x40x512 (View.ld X r0_0) shapeCasts_S8x40x512_S8x40x512) slices_S8x40x512_o0_4_0_S8x32x512) shapeCasts_S8x32x512_S256x512) bitsLt_bf16_f32 : FVec Ideal S256x512 .bf16) slices_S256x512_o0_0_S256x384)
            (shapeCast S384x128 (View.ld W r0_11) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 5, 0] (shapeCast S8x40x512 (View.ld X r0_0) shapeCasts_S8x40x512_S8x40x512) slices_S8x40x512_o0_5_0_S8x32x512) shapeCasts_S8x32x512_S256x512) bitsLt_bf16_f32 : FVec Ideal S256x512 .bf16) slices_S256x512_o0_0_S256x384)
            (shapeCast S384x128 (View.ld W r0_12) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 6, 0] (shapeCast S8x40x512 (View.ld X r0_0) shapeCasts_S8x40x512_S8x40x512) slices_S8x40x512_o0_6_0_S8x32x512) shapeCasts_S8x32x512_S256x512) bitsLt_bf16_f32 : FVec Ideal S256x512 .bf16) slices_S256x512_o0_0_S256x384)
            (shapeCast S384x128 (View.ld W r0_13) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 0] (truncf .bf16 (shapeCast S256x512 (extractStridedSlice S8x32x512 ![0, 8, 0] (shapeCast S8x40x512 (View.ld X r0_0) shapeCasts_S8x40x512_S8x40x512) slices_S8x40x512_o0_8_0_S8x32x512) shapeCasts_S8x32x512_S256x512) bitsLt_bf16_f32 : FVec Ideal S256x512 .bf16) slices_S256x512_o0_0_S256x384)
            (shapeCast S384x128 (View.ld W r0_14) shapeCasts_S1x384x128_S384x128 : FVec Ideal S384x128 .bf16) (constant S256x128 .f32 0x00000000#32) i))⟩,
        ⟨S256x128, (fun i : S256x128.Idx => ((((((((broadcast S256x128 (Scalar.ofBits .f32 0x00000000#32 : Ideal .f32)) i
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 0, 0] (shapeCast S8x40x512 (View.ld X r0_0) shapeCasts_S8x40x512_S8x40x512) slices_S8x40x512_o0_0_0_S8x32x512) shapeCasts_S8x32x512_S256x512) bitsLt_bf16_f32 : FVec Ideal S256x512 .bf16) slices_S256x512_o0_128_S256x384)
            (shapeCast S384x128 (View.ld W r0_15) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 2, 0] (shapeCast S8x40x512 (View.ld X r0_0) shapeCasts_S8x40x512_S8x40x512) slices_S8x40x512_o0_2_0_S8x32x512) shapeCasts_S8x32x512_S256x512) bitsLt_bf16_f32 : FVec Ideal S256x512 .bf16) slices_S256x512_o0_128_S256x384)
            (shapeCast S384x128 (View.ld W r0_16) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 3, 0] (shapeCast S8x40x512 (View.ld X r0_0) shapeCasts_S8x40x512_S8x40x512) slices_S8x40x512_o0_3_0_S8x32x512) shapeCasts_S8x32x512_S256x512) bitsLt_bf16_f32 : FVec Ideal S256x512 .bf16) slices_S256x512_o0_128_S256x384)
            (shapeCast S384x128 (View.ld W r0_17) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 4, 0] (shapeCast S8x40x512 (View.ld X r0_0) shapeCasts_S8x40x512_S8x40x512) slices_S8x40x512_o0_4_0_S8x32x512) shapeCasts_S8x32x512_S256x512) bitsLt_bf16_f32 : FVec Ideal S256x512 .bf16) slices_S256x512_o0_128_S256x384)
            (shapeCast S384x128 (View.ld W r0_18) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 5, 0] (shapeCast S8x40x512 (View.ld X r0_0) shapeCasts_S8x40x512_S8x40x512) slices_S8x40x512_o0_5_0_S8x32x512) shapeCasts_S8x32x512_S256x512) bitsLt_bf16_f32 : FVec Ideal S256x512 .bf16) slices_S256x512_o0_128_S256x384)
            (shapeCast S384x128 (View.ld W r0_19) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 6, 0] (shapeCast S8x40x512 (View.ld X r0_0) shapeCasts_S8x40x512_S8x40x512) slices_S8x40x512_o0_6_0_S8x32x512) shapeCasts_S8x32x512_S256x512) bitsLt_bf16_f32 : FVec Ideal S256x512 .bf16) slices_S256x512_o0_128_S256x384)
            (shapeCast S384x128 (View.ld W r0_20) shapeCasts_S1x384x128_S384x128 : FVec Ideal S384x128 .bf16) (constant S256x128 .f32 0x00000000#32) i)
          + matmul (F := Ideal) (φ₁ := .bf16) (φ₂ := .bf16) dot_S256x384_S384x128_S256x128_1_0_0_1_n_n none
            (extractStridedSlice S256x384 ![0, 128] (truncf .bf16 (shapeCast S256x512 (extractStridedSlice S8x32x512 ![0, 8, 0] (shapeCast S8x40x512 (View.ld X r0_0) shapeCasts_S8x40x512_S8x40x512) slices_S8x40x512_o0_8_0_S8x32x512) shapeCasts_S8x32x512_S256x512) bitsLt_bf16_f32 : FVec Ideal S256x512 .bf16) slices_S256x512_o0_128_S256x384)
            (shapeCast S384x128 (View.ld W r0_21) shapeCasts_S1x384x128_S384x128 : FVec Ideal S384x128 .bf16) (constant S256x128 .f32 0x00000000#32) i))⟩,
        ⟨S256x128, (fun i : S256x128.Idx => ((((((((broadcast S256x128 (Scalar.ofBits .f32 0x00000000#32 : Ideal .f32)) i
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 0, 0] (shapeCast S8x40x512 (View.ld X r0_0) shapeCasts_S8x40x512_S8x40x512) slices_S8x40x512_o0_0_0_S8x32x512) shapeCasts_S8x32x512_S256x512) bitsLt_bf16_f32 : FVec Ideal S256x512 .bf16) slices_S256x512_o0_256_S256x256)
            (shapeCast S256x128 (View.ld W r0_22) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 2, 0] (shapeCast S8x40x512 (View.ld X r0_0) shapeCasts_S8x40x512_S8x40x512) slices_S8x40x512_o0_2_0_S8x32x512) shapeCasts_S8x32x512_S256x512) bitsLt_bf16_f32 : FVec Ideal S256x512 .bf16) slices_S256x512_o0_256_S256x256)
            (shapeCast S256x128 (View.ld W r0_23) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 3, 0] (shapeCast S8x40x512 (View.ld X r0_0) shapeCasts_S8x40x512_S8x40x512) slices_S8x40x512_o0_3_0_S8x32x512) shapeCasts_S8x32x512_S256x512) bitsLt_bf16_f32 : FVec Ideal S256x512 .bf16) slices_S256x512_o0_256_S256x256)
            (shapeCast S256x128 (View.ld W r0_24) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 4, 0] (shapeCast S8x40x512 (View.ld X r0_0) shapeCasts_S8x40x512_S8x40x512) slices_S8x40x512_o0_4_0_S8x32x512) shapeCasts_S8x32x512_S256x512) bitsLt_bf16_f32 : FVec Ideal S256x512 .bf16) slices_S256x512_o0_256_S256x256)
            (shapeCast S256x128 (View.ld W r0_25) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 5, 0] (shapeCast S8x40x512 (View.ld X r0_0) shapeCasts_S8x40x512_S8x40x512) slices_S8x40x512_o0_5_0_S8x32x512) shapeCasts_S8x32x512_S256x512) bitsLt_bf16_f32 : FVec Ideal S256x512 .bf16) slices_S256x512_o0_256_S256x256)
            (shapeCast S256x128 (View.ld W r0_26) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 6, 0] (shapeCast S8x40x512 (View.ld X r0_0) shapeCasts_S8x40x512_S8x40x512) slices_S8x40x512_o0_6_0_S8x32x512) shapeCasts_S8x32x512_S256x512) bitsLt_bf16_f32 : FVec Ideal S256x512 .bf16) slices_S256x512_o0_256_S256x256)
            (shapeCast S256x128 (View.ld W r0_27) shapeCasts_S1x256x128_S256x128 : FVec Ideal S256x128 .bf16) (constant S256x128 .f32 0x00000000#32) i)
          + matmul (F := Ideal) (φ₁ := .bf16) (φ₂ := .bf16) dot_S256x256_S256x128_S256x128_1_0_0_1_n_n none
            (extractStridedSlice S256x256 ![0, 256] (truncf .bf16 (shapeCast S256x512 (extractStridedSlice S8x32x512 ![0, 8, 0] (shapeCast S8x40x512 (View.ld X r0_0) shapeCasts_S8x40x512_S8x40x512) slices_S8x40x512_o0_8_0_S8x32x512) shapeCasts_S8x32x512_S256x512) bitsLt_bf16_f32 : FVec Ideal S256x512 .bf16) slices_S256x512_o0_256_S256x256)
            (shapeCast S256x128 (View.ld W r0_28) shapeCasts_S1x256x128_S256x128 : FVec Ideal S256x128 .bf16) (constant S256x128 .f32 0x00000000#32) i))⟩] concatenates_S256x128_S256x128_S256x128_S256x128_S256x512_d1 r
      + broadcastTo S256x512 (shapeCast S1x512 (View.ld B r0_29) shapeCasts_S1x512_S1x512) broadcasts_S1x512_S256x512 r)
    shapeCasts_S256x512_S8x32x512

theorem featValK_eq (X : Vec Ideal S8x40x512 .f32) (W : Vec Ideal S7x512x512 .bf16) (B : Vec Ideal S1x512 .f32) :
    featValK X W B = featNorm X W B := rfl

/-- A 32-row window of the input block at row offset `o`, flattened to 256 rows and cast, reads the block `o` rows down. -/
theorem win_apply (X : Vec Ideal S8x40x512 .f32) (o : Nat) (sl : S8x40x512.Slices ![0, o, 0] S8x32x512)
    (q : Fin 8) (h : Fin 32) (k : Fin 512) (ho : h.val + o < 40) :
    (truncf .bf16 (shapeCast S256x512 (extractStridedSlice S8x32x512 ![0, o, 0] (shapeCast S8x40x512 (View.ld X r0_0) shapeCasts_S8x40x512_S8x40x512) sl) shapeCasts_S8x32x512_S256x512) bitsLt_bf16_f32 : FVec Ideal S256x512 .bf16)
        (ix2 (n0 := 256) (n1 := 512) ⟨q.val * 32 + h.val, by omega⟩ k)
      = X (ix3 (n0 := 8) (n1 := 40) (n2 := 512) q ⟨h.val + o, ho⟩ k) := by
  show shapeCast S256x512 (extractStridedSlice S8x32x512 ![0, o, 0] (shapeCast S8x40x512 (View.ld X r0_0) shapeCasts_S8x40x512_S8x40x512) sl) shapeCasts_S8x32x512_S256x512
      (ix2 (n0 := 256) (n1 := 512) ⟨q.val * 32 + h.val, by omega⟩ k) = _
  rw [shapeCast_apply _ shapeCasts_S8x32x512_S256x512 (ix2 (n0 := 256) (n1 := 512) ⟨q.val * 32 + h.val, by omega⟩ k)
      (ix3 (n0 := 8) (n1 := 32) (n2 := 512) q h k) (by rw [Shape.rowMajor_val_three, Shape.rowMajor_val_two]; rfl),
    extractStridedSlice_apply ![0, o, 0] _ sl (ix3 (n0 := 8) (n1 := 32) (n2 := 512) q h k)
      (ix3 (n0 := 8) (n1 := 40) (n2 := 512) q ⟨h.val + o, ho⟩ k)
      (fun a => by match a with | ⟨0, _⟩ => show q.val = 0 + q.val; omega | ⟨1, _⟩ => show h.val + o = o + h.val; omega | ⟨2, _⟩ => show k.val = 0 + k.val; omega),
    shapeCast_apply _ shapeCasts_S8x40x512_S8x40x512 (ix3 (n0 := 8) (n1 := 40) (n2 := 512) q ⟨h.val + o, ho⟩ k)
      (ix3 (n0 := 8) (n1 := 40) (n2 := 512) q ⟨h.val + o, ho⟩ k) rfl]
  dsimp only [r0_0]
  rw [View.ld_unit_zero (S := S8x40x512) (funext fun a => by fin_cases a <;> rfl)]

/-- A product of the body over a window of `256` input lanes starting at `lo`: row `r` of the window against column `c` of the weight tile. -/
theorem tile256_apply (xs : FVec Ideal S256x512 .bf16) (wt : FVec Ideal S1x256x128 .bf16) (lo : Nat)
    (sl : S256x512.Slices ![0, lo] S256x256) (hlo : lo + 256 ≤ 512) (r : Fin 256) (c : Fin 128) :
    matmul (F := Ideal) dot_S256x256_S256x128_S256x128_1_0_0_1_n_n none (extractStridedSlice S256x256 ![0, lo] xs sl)
        (shapeCast S256x128 wt shapeCasts_S1x256x128_S256x128) (constant S256x128 .f32 0x00000000#32) (ix2 (n0 := 256) (n1 := 128) r c)
      = ∑ k : Fin 256, xs (ix2 (n0 := 256) (n1 := 512) r ⟨lo + k.val, by omega⟩) * wt (ix3 (n0 := 1) (n1 := 256) (n2 := 128) 0 k c) := by
  refine (Cert.MatmulAt.matmul_zero_at dot_S256x256_S256x128_S256x128_1_0_0_1_n_n rfl rfl (fun _ _ => rfl) (fun _ _ => rfl)
    (fun _ _ => rfl) (fun _ _ => rfl) none _ _ r c).trans ?_
  refine Finset.sum_congr rfl fun k _ => ?_
  rw [extractStridedSlice_apply ![0, lo] xs sl (ix2 (n0 := 256) (n1 := 256) r k) (ix2 (n0 := 256) (n1 := 512) r ⟨lo + k.val, by omega⟩)
      (fun a => by match a with | ⟨0, _⟩ => show r.val = 0 + r.val; omega | ⟨1, _⟩ => rfl),
    shapeCast_apply wt shapeCasts_S1x256x128_S256x128 (ix2 (n0 := 256) (n1 := 128) k c) (ix3 (n0 := 1) (n1 := 256) (n2 := 128) 0 k c) (by
      rw [Shape.rowMajor_val_three, Shape.rowMajor_val_two]
      show (0 * 256 + k.val) * 128 + c.val = k.val * 128 + c.val
      omega)]

/-- A weight tile of `256` input lanes loaded at matrix `g`, input lane `klo`, output lane `clo` reads the stack there. -/
theorem ld_wtile256 (W : Vec Ideal S7x512x512 .bf16) (g klo clo : Nat)
    (inb : ∀ a, (![g, klo, clo] : Fin 3 → Nat) a + S1x256x128.size a ≤ S7x512x512.size a)
    (k : Fin 256) (c : Fin 128) (hg : g < 7) (hk : klo + 256 ≤ 512) (hc : clo + 128 ≤ 512) :
    View.ld W (Rect.unit (s := S7x512x512) ![g, klo, clo] S1x256x128.size inb) (ix3 (n0 := 1) (n1 := 256) (n2 := 128) 0 k c)
      = W (ix3 (n0 := 7) (n1 := 512) (n2 := 512) ⟨g, hg⟩ ⟨klo + k.val, by omega⟩ ⟨clo + c.val, by omega⟩) := by
  show W ((Rect.unit (s := S7x512x512) ![g, klo, clo] S1x256x128.size inb).emb (ix3 (n0 := 1) (n1 := 256) (n2 := 128) 0 k c)) = _
  refine congrArg W (funext fun a => Fin.ext ?_)
  match a with
  | ⟨0, _⟩ => show g + 1 * 0 = g; omega
  | ⟨1, _⟩ => show klo + 1 * k.val = klo + k.val; omega
  | ⟨2, _⟩ => show clo + 1 * c.val = clo + c.val; omega

/-- A product of the body over a window of `384` input lanes starting at `lo`: row `r` of the window against column `c` of the weight tile. -/
theorem tile384_apply (xs : FVec Ideal S256x512 .bf16) (wt : FVec Ideal S1x384x128 .bf16) (lo : Nat)
    (sl : S256x512.Slices ![0, lo] S256x384) (hlo : lo + 384 ≤ 512) (r : Fin 256) (c : Fin 128) :
    matmul (F := Ideal) dot_S256x384_S384x128_S256x128_1_0_0_1_n_n none (extractStridedSlice S256x384 ![0, lo] xs sl)
        (shapeCast S384x128 wt shapeCasts_S1x384x128_S384x128) (constant S256x128 .f32 0x00000000#32) (ix2 (n0 := 256) (n1 := 128) r c)
      = ∑ k : Fin 384, xs (ix2 (n0 := 256) (n1 := 512) r ⟨lo + k.val, by omega⟩) * wt (ix3 (n0 := 1) (n1 := 384) (n2 := 128) 0 k c) := by
  refine (Cert.MatmulAt.matmul_zero_at dot_S256x384_S384x128_S256x128_1_0_0_1_n_n rfl rfl (fun _ _ => rfl) (fun _ _ => rfl)
    (fun _ _ => rfl) (fun _ _ => rfl) none _ _ r c).trans ?_
  refine Finset.sum_congr rfl fun k _ => ?_
  rw [extractStridedSlice_apply ![0, lo] xs sl (ix2 (n0 := 256) (n1 := 384) r k) (ix2 (n0 := 256) (n1 := 512) r ⟨lo + k.val, by omega⟩)
      (fun a => by match a with | ⟨0, _⟩ => show r.val = 0 + r.val; omega | ⟨1, _⟩ => rfl),
    shapeCast_apply wt shapeCasts_S1x384x128_S384x128 (ix2 (n0 := 384) (n1 := 128) k c) (ix3 (n0 := 1) (n1 := 384) (n2 := 128) 0 k c) (by
      rw [Shape.rowMajor_val_three, Shape.rowMajor_val_two]
      show (0 * 384 + k.val) * 128 + c.val = k.val * 128 + c.val
      omega)]

/-- A weight tile of `384` input lanes loaded at matrix `g`, input lane `klo`, output lane `clo` reads the stack there. -/
theorem ld_wtile384 (W : Vec Ideal S7x512x512 .bf16) (g klo clo : Nat)
    (inb : ∀ a, (![g, klo, clo] : Fin 3 → Nat) a + S1x384x128.size a ≤ S7x512x512.size a)
    (k : Fin 384) (c : Fin 128) (hg : g < 7) (hk : klo + 384 ≤ 512) (hc : clo + 128 ≤ 512) :
    View.ld W (Rect.unit (s := S7x512x512) ![g, klo, clo] S1x384x128.size inb) (ix3 (n0 := 1) (n1 := 384) (n2 := 128) 0 k c)
      = W (ix3 (n0 := 7) (n1 := 512) (n2 := 512) ⟨g, hg⟩ ⟨klo + k.val, by omega⟩ ⟨clo + c.val, by omega⟩) := by
  show W ((Rect.unit (s := S7x512x512) ![g, klo, clo] S1x384x128.size inb).emb (ix3 (n0 := 1) (n1 := 384) (n2 := 128) 0 k c)) = _
  refine congrArg W (funext fun a => Fin.ext ?_)
  match a with
  | ⟨0, _⟩ => show g + 1 * 0 = g; omega
  | ⟨1, _⟩ => show klo + 1 * k.val = klo + k.val; omega
  | ⟨2, _⟩ => show clo + 1 * c.val = clo + c.val; omega

/-- The stored features at image `q`, row `h`, lane `0 + c` (output tile 0): the seven products contract input lanes
    `0 ≤ k < 256` only. -/
theorem featValK_tile0 (X : Vec Ideal S8x40x512 .f32) (W : Vec Ideal S7x512x512 .bf16) (B : Vec Ideal S1x512 .f32)
    (q : Fin 8) (h : Fin 32) (c : Fin 128) :
    featValK X W B (ix3 (n0 := 8) (n1 := 32) (n2 := 512) q h ⟨0 + c.val, by omega⟩)
      = ((((((((Scalar.ofBits .f32 0x00000000#32 : Ideal .f32)
        + ∑ k : Fin 256, X (ix3 (n0 := 8) (n1 := 40) (n2 := 512) q ⟨h.val + 0, by omega⟩ ⟨0 + k.val, by omega⟩) * W (ix3 (n0 := 7) (n1 := 512) (n2 := 512) 0 ⟨0 + k.val, by omega⟩ ⟨0 + c.val, by omega⟩))
        + ∑ k : Fin 256, X (ix3 (n0 := 8) (n1 := 40) (n2 := 512) q ⟨h.val + 2, by omega⟩ ⟨0 + k.val, by omega⟩) * W (ix3 (n0 := 7) (n1 := 512) (n2 := 512) 1 ⟨0 + k.val, by omega⟩ ⟨0 + c.val, by omega⟩))
        + ∑ k : Fin 256, X (ix3 (n0 := 8) (n1 := 40) (n2 := 512) q ⟨h.val + 3, by omega⟩ ⟨0 + k.val, by omega⟩) * W (ix3 (n0 := 7) (n1 := 512) (n2 := 512) 2 ⟨0 + k.val, by omega⟩ ⟨0 + c.val, by omega⟩))
        + ∑ k : Fin 256, X (ix3 (n0 := 8) (n1 := 40) (n2 := 512) q ⟨h.val + 4, by omega⟩ ⟨0 + k.val, by omega⟩) * W (ix3 (n0 := 7) (n1 := 512) (n2 := 512) 3 ⟨0 + k.val, by omega⟩ ⟨0 + c.val, by omega⟩))
        + ∑ k : Fin 256, X (ix3 (n0 := 8) (n1 := 40) (n2 := 512) q ⟨h.val + 5, by omega⟩ ⟨0 + k.val, by omega⟩) * W (ix3 (n0 := 7) (n1 := 512) (n2 := 512) 4 ⟨0 + k.val, by omega⟩ ⟨0 + c.val, by omega⟩))
        + ∑ k : Fin 256, X (ix3 (n0 := 8) (n1 := 40) (n2 := 512) q ⟨h.val + 6, by omega⟩ ⟨0 + k.val, by omega⟩) * W (ix3 (n0 := 7) (n1 := 512) (n2 := 512) 5 ⟨0 + k.val, by omega⟩ ⟨0 + c.val, by omega⟩))
        + ∑ k : Fin 256, X (ix3 (n0 := 8) (n1 := 40) (n2 := 512) q ⟨h.val + 8, by omega⟩ ⟨0 + k.val, by omega⟩) * W (ix3 (n0 := 7) (n1 := 512) (n2 := 512) 6 ⟨0 + k.val, by omega⟩ ⟨0 + c.val, by omega⟩))
        + B (ix2 (n0 := 1) (n1 := 512) 0 ⟨0 + c.val, by omega⟩) := by
  rw [featValK_eq]
  unfold featNorm
  rw [shapeCast_apply _ shapeCasts_S256x512_S8x32x512 (ix3 (n0 := 8) (n1 := 32) (n2 := 512) q h ⟨0 + c.val, by omega⟩)
    (ix2 (n0 := 256) (n1 := 512) ⟨q.val * 32 + h.val, by omega⟩ ⟨0 + c.val, by omega⟩) (by rw [Shape.rowMajor_val_three, Shape.rowMajor_val_two]; rfl)]
  rw [concatenate_apply_piece (1 : Fin 2) _ _
    (ix2 (n0 := 256) (n1 := 512) ⟨q.val * 32 + h.val, by omega⟩ ⟨0 + c.val, by omega⟩) 0 (by show 0 < 4; omega) S256x128 _ rfl rfl 0 (by rfl)
    (ix2 (n0 := 256) (n1 := 128) ⟨q.val * 32 + h.val, by omega⟩ c)
    (fun b hb => by match b with | ⟨0, _⟩ => rfl | ⟨1, _⟩ => exact absurd rfl hb) (by rfl)]
  simp only [tile256_apply _ _ 0 _ (by omega), broadcast_apply]
  rw [broadcastTo_apply _ broadcasts_S1x512_S256x512 (ix2 (n0 := 256) (n1 := 512) ⟨q.val * 32 + h.val, by omega⟩ ⟨0 + c.val, by omega⟩)
      (ix2 (n0 := 1) (n1 := 512) 0 ⟨0 + c.val, by omega⟩) (fun a => by match a with | ⟨0, _⟩ => rfl | ⟨1, _⟩ => rfl)]
  rw [shapeCast_apply _ shapeCasts_S1x512_S1x512 (ix2 (n0 := 1) (n1 := 512) 0 ⟨0 + c.val, by omega⟩) (ix2 (n0 := 1) (n1 := 512) 0 ⟨0 + c.val, by omega⟩) rfl]
  simp only [win_apply X 0 _ q h _ (by omega), win_apply X 2 _ q h _ (by omega), win_apply X 3 _ q h _ (by omega), win_apply X 4 _ q h _ (by omega), win_apply X 5 _ q h _ (by omega), win_apply X 6 _ q h _ (by omega), win_apply X 8 _ q h _ (by omega)]
  dsimp only [r0_1, r0_2, r0_3, r0_4, r0_5, r0_6, r0_7, r0_29]
  simp only [ld_wtile256 W 0 0 0 _ _ c (by omega) (by omega) (by omega),
    ld_wtile256 W 1 0 0 _ _ c (by omega) (by omega) (by omega),
    ld_wtile256 W 2 0 0 _ _ c (by omega) (by omega) (by omega),
    ld_wtile256 W 3 0 0 _ _ c (by omega) (by omega) (by omega),
    ld_wtile256 W 4 0 0 _ _ c (by omega) (by omega) (by omega),
    ld_wtile256 W 5 0 0 _ _ c (by omega) (by omega) (by omega),
    ld_wtile256 W 6 0 0 _ _ c (by omega) (by omega) (by omega)]
  rw [View.ld_unit_zero (S := S1x512) (funext fun a => by fin_cases a <;> rfl)]
  rfl

/-- The stored features at image `q`, row `h`, lane `128 + c` (output tile 1): the seven products contract input lanes
    `0 ≤ k < 384` only. -/
theorem featValK_tile1 (X : Vec Ideal S8x40x512 .f32) (W : Vec Ideal S7x512x512 .bf16) (B : Vec Ideal S1x512 .f32)
    (q : Fin 8) (h : Fin 32) (c : Fin 128) :
    featValK X W B (ix3 (n0 := 8) (n1 := 32) (n2 := 512) q h ⟨128 + c.val, by omega⟩)
      = ((((((((Scalar.ofBits .f32 0x00000000#32 : Ideal .f32)
        + ∑ k : Fin 384, X (ix3 (n0 := 8) (n1 := 40) (n2 := 512) q ⟨h.val + 0, by omega⟩ ⟨0 + k.val, by omega⟩) * W (ix3 (n0 := 7) (n1 := 512) (n2 := 512) 0 ⟨0 + k.val, by omega⟩ ⟨128 + c.val, by omega⟩))
        + ∑ k : Fin 384, X (ix3 (n0 := 8) (n1 := 40) (n2 := 512) q ⟨h.val + 2, by omega⟩ ⟨0 + k.val, by omega⟩) * W (ix3 (n0 := 7) (n1 := 512) (n2 := 512) 1 ⟨0 + k.val, by omega⟩ ⟨128 + c.val, by omega⟩))
        + ∑ k : Fin 384, X (ix3 (n0 := 8) (n1 := 40) (n2 := 512) q ⟨h.val + 3, by omega⟩ ⟨0 + k.val, by omega⟩) * W (ix3 (n0 := 7) (n1 := 512) (n2 := 512) 2 ⟨0 + k.val, by omega⟩ ⟨128 + c.val, by omega⟩))
        + ∑ k : Fin 384, X (ix3 (n0 := 8) (n1 := 40) (n2 := 512) q ⟨h.val + 4, by omega⟩ ⟨0 + k.val, by omega⟩) * W (ix3 (n0 := 7) (n1 := 512) (n2 := 512) 3 ⟨0 + k.val, by omega⟩ ⟨128 + c.val, by omega⟩))
        + ∑ k : Fin 384, X (ix3 (n0 := 8) (n1 := 40) (n2 := 512) q ⟨h.val + 5, by omega⟩ ⟨0 + k.val, by omega⟩) * W (ix3 (n0 := 7) (n1 := 512) (n2 := 512) 4 ⟨0 + k.val, by omega⟩ ⟨128 + c.val, by omega⟩))
        + ∑ k : Fin 384, X (ix3 (n0 := 8) (n1 := 40) (n2 := 512) q ⟨h.val + 6, by omega⟩ ⟨0 + k.val, by omega⟩) * W (ix3 (n0 := 7) (n1 := 512) (n2 := 512) 5 ⟨0 + k.val, by omega⟩ ⟨128 + c.val, by omega⟩))
        + ∑ k : Fin 384, X (ix3 (n0 := 8) (n1 := 40) (n2 := 512) q ⟨h.val + 8, by omega⟩ ⟨0 + k.val, by omega⟩) * W (ix3 (n0 := 7) (n1 := 512) (n2 := 512) 6 ⟨0 + k.val, by omega⟩ ⟨128 + c.val, by omega⟩))
        + B (ix2 (n0 := 1) (n1 := 512) 0 ⟨128 + c.val, by omega⟩) := by
  rw [featValK_eq]
  unfold featNorm
  rw [shapeCast_apply _ shapeCasts_S256x512_S8x32x512 (ix3 (n0 := 8) (n1 := 32) (n2 := 512) q h ⟨128 + c.val, by omega⟩)
    (ix2 (n0 := 256) (n1 := 512) ⟨q.val * 32 + h.val, by omega⟩ ⟨128 + c.val, by omega⟩) (by rw [Shape.rowMajor_val_three, Shape.rowMajor_val_two]; rfl)]
  rw [concatenate_apply_piece (1 : Fin 2) _ _
    (ix2 (n0 := 256) (n1 := 512) ⟨q.val * 32 + h.val, by omega⟩ ⟨128 + c.val, by omega⟩) 1 (by show 1 < 4; omega) S256x128 _ rfl rfl 128 (by rfl)
    (ix2 (n0 := 256) (n1 := 128) ⟨q.val * 32 + h.val, by omega⟩ c)
    (fun b hb => by match b with | ⟨0, _⟩ => rfl | ⟨1, _⟩ => exact absurd rfl hb) (by rfl)]
  simp only [tile384_apply _ _ 0 _ (by omega), broadcast_apply]
  rw [broadcastTo_apply _ broadcasts_S1x512_S256x512 (ix2 (n0 := 256) (n1 := 512) ⟨q.val * 32 + h.val, by omega⟩ ⟨128 + c.val, by omega⟩)
      (ix2 (n0 := 1) (n1 := 512) 0 ⟨128 + c.val, by omega⟩) (fun a => by match a with | ⟨0, _⟩ => rfl | ⟨1, _⟩ => rfl)]
  rw [shapeCast_apply _ shapeCasts_S1x512_S1x512 (ix2 (n0 := 1) (n1 := 512) 0 ⟨128 + c.val, by omega⟩) (ix2 (n0 := 1) (n1 := 512) 0 ⟨128 + c.val, by omega⟩) rfl]
  simp only [win_apply X 0 _ q h _ (by omega), win_apply X 2 _ q h _ (by omega), win_apply X 3 _ q h _ (by omega), win_apply X 4 _ q h _ (by omega), win_apply X 5 _ q h _ (by omega), win_apply X 6 _ q h _ (by omega), win_apply X 8 _ q h _ (by omega)]
  dsimp only [r0_8, r0_9, r0_10, r0_11, r0_12, r0_13, r0_14, r0_29]
  simp only [ld_wtile384 W 0 0 128 _ _ c (by omega) (by omega) (by omega),
    ld_wtile384 W 1 0 128 _ _ c (by omega) (by omega) (by omega),
    ld_wtile384 W 2 0 128 _ _ c (by omega) (by omega) (by omega),
    ld_wtile384 W 3 0 128 _ _ c (by omega) (by omega) (by omega),
    ld_wtile384 W 4 0 128 _ _ c (by omega) (by omega) (by omega),
    ld_wtile384 W 5 0 128 _ _ c (by omega) (by omega) (by omega),
    ld_wtile384 W 6 0 128 _ _ c (by omega) (by omega) (by omega)]
  rw [View.ld_unit_zero (S := S1x512) (funext fun a => by fin_cases a <;> rfl)]
  rfl

/-- The stored features at image `q`, row `h`, lane `256 + c` (output tile 2): the seven products contract input lanes
    `128 ≤ k < 512` only. -/
theorem featValK_tile2 (X : Vec Ideal S8x40x512 .f32) (W : Vec Ideal S7x512x512 .bf16) (B : Vec Ideal S1x512 .f32)
    (q : Fin 8) (h : Fin 32) (c : Fin 128) :
    featValK X W B (ix3 (n0 := 8) (n1 := 32) (n2 := 512) q h ⟨256 + c.val, by omega⟩)
      = ((((((((Scalar.ofBits .f32 0x00000000#32 : Ideal .f32)
        + ∑ k : Fin 384, X (ix3 (n0 := 8) (n1 := 40) (n2 := 512) q ⟨h.val + 0, by omega⟩ ⟨128 + k.val, by omega⟩) * W (ix3 (n0 := 7) (n1 := 512) (n2 := 512) 0 ⟨128 + k.val, by omega⟩ ⟨256 + c.val, by omega⟩))
        + ∑ k : Fin 384, X (ix3 (n0 := 8) (n1 := 40) (n2 := 512) q ⟨h.val + 2, by omega⟩ ⟨128 + k.val, by omega⟩) * W (ix3 (n0 := 7) (n1 := 512) (n2 := 512) 1 ⟨128 + k.val, by omega⟩ ⟨256 + c.val, by omega⟩))
        + ∑ k : Fin 384, X (ix3 (n0 := 8) (n1 := 40) (n2 := 512) q ⟨h.val + 3, by omega⟩ ⟨128 + k.val, by omega⟩) * W (ix3 (n0 := 7) (n1 := 512) (n2 := 512) 2 ⟨128 + k.val, by omega⟩ ⟨256 + c.val, by omega⟩))
        + ∑ k : Fin 384, X (ix3 (n0 := 8) (n1 := 40) (n2 := 512) q ⟨h.val + 4, by omega⟩ ⟨128 + k.val, by omega⟩) * W (ix3 (n0 := 7) (n1 := 512) (n2 := 512) 3 ⟨128 + k.val, by omega⟩ ⟨256 + c.val, by omega⟩))
        + ∑ k : Fin 384, X (ix3 (n0 := 8) (n1 := 40) (n2 := 512) q ⟨h.val + 5, by omega⟩ ⟨128 + k.val, by omega⟩) * W (ix3 (n0 := 7) (n1 := 512) (n2 := 512) 4 ⟨128 + k.val, by omega⟩ ⟨256 + c.val, by omega⟩))
        + ∑ k : Fin 384, X (ix3 (n0 := 8) (n1 := 40) (n2 := 512) q ⟨h.val + 6, by omega⟩ ⟨128 + k.val, by omega⟩) * W (ix3 (n0 := 7) (n1 := 512) (n2 := 512) 5 ⟨128 + k.val, by omega⟩ ⟨256 + c.val, by omega⟩))
        + ∑ k : Fin 384, X (ix3 (n0 := 8) (n1 := 40) (n2 := 512) q ⟨h.val + 8, by omega⟩ ⟨128 + k.val, by omega⟩) * W (ix3 (n0 := 7) (n1 := 512) (n2 := 512) 6 ⟨128 + k.val, by omega⟩ ⟨256 + c.val, by omega⟩))
        + B (ix2 (n0 := 1) (n1 := 512) 0 ⟨256 + c.val, by omega⟩) := by
  rw [featValK_eq]
  unfold featNorm
  rw [shapeCast_apply _ shapeCasts_S256x512_S8x32x512 (ix3 (n0 := 8) (n1 := 32) (n2 := 512) q h ⟨256 + c.val, by omega⟩)
    (ix2 (n0 := 256) (n1 := 512) ⟨q.val * 32 + h.val, by omega⟩ ⟨256 + c.val, by omega⟩) (by rw [Shape.rowMajor_val_three, Shape.rowMajor_val_two]; rfl)]
  rw [concatenate_apply_piece (1 : Fin 2) _ _
    (ix2 (n0 := 256) (n1 := 512) ⟨q.val * 32 + h.val, by omega⟩ ⟨256 + c.val, by omega⟩) 2 (by show 2 < 4; omega) S256x128 _ rfl rfl 256 (by rfl)
    (ix2 (n0 := 256) (n1 := 128) ⟨q.val * 32 + h.val, by omega⟩ c)
    (fun b hb => by match b with | ⟨0, _⟩ => rfl | ⟨1, _⟩ => exact absurd rfl hb) (by rfl)]
  simp only [tile384_apply _ _ 128 _ (by omega), broadcast_apply]
  rw [broadcastTo_apply _ broadcasts_S1x512_S256x512 (ix2 (n0 := 256) (n1 := 512) ⟨q.val * 32 + h.val, by omega⟩ ⟨256 + c.val, by omega⟩)
      (ix2 (n0 := 1) (n1 := 512) 0 ⟨256 + c.val, by omega⟩) (fun a => by match a with | ⟨0, _⟩ => rfl | ⟨1, _⟩ => rfl)]
  rw [shapeCast_apply _ shapeCasts_S1x512_S1x512 (ix2 (n0 := 1) (n1 := 512) 0 ⟨256 + c.val, by omega⟩) (ix2 (n0 := 1) (n1 := 512) 0 ⟨256 + c.val, by omega⟩) rfl]
  simp only [win_apply X 0 _ q h _ (by omega), win_apply X 2 _ q h _ (by omega), win_apply X 3 _ q h _ (by omega), win_apply X 4 _ q h _ (by omega), win_apply X 5 _ q h _ (by omega), win_apply X 6 _ q h _ (by omega), win_apply X 8 _ q h _ (by omega)]
  dsimp only [r0_15, r0_16, r0_17, r0_18, r0_19, r0_20, r0_21, r0_29]
  simp only [ld_wtile384 W 0 128 256 _ _ c (by omega) (by omega) (by omega),
    ld_wtile384 W 1 128 256 _ _ c (by omega) (by omega) (by omega),
    ld_wtile384 W 2 128 256 _ _ c (by omega) (by omega) (by omega),
    ld_wtile384 W 3 128 256 _ _ c (by omega) (by omega) (by omega),
    ld_wtile384 W 4 128 256 _ _ c (by omega) (by omega) (by omega),
    ld_wtile384 W 5 128 256 _ _ c (by omega) (by omega) (by omega),
    ld_wtile384 W 6 128 256 _ _ c (by omega) (by omega) (by omega)]
  rw [View.ld_unit_zero (S := S1x512) (funext fun a => by fin_cases a <;> rfl)]
  rfl

/-- The stored features at image `q`, row `h`, lane `384 + c` (output tile 3): the seven products contract input lanes
    `256 ≤ k < 512` only. -/
theorem featValK_tile3 (X : Vec Ideal S8x40x512 .f32) (W : Vec Ideal S7x512x512 .bf16) (B : Vec Ideal S1x512 .f32)
    (q : Fin 8) (h : Fin 32) (c : Fin 128) :
    featValK X W B (ix3 (n0 := 8) (n1 := 32) (n2 := 512) q h ⟨384 + c.val, by omega⟩)
      = ((((((((Scalar.ofBits .f32 0x00000000#32 : Ideal .f32)
        + ∑ k : Fin 256, X (ix3 (n0 := 8) (n1 := 40) (n2 := 512) q ⟨h.val + 0, by omega⟩ ⟨256 + k.val, by omega⟩) * W (ix3 (n0 := 7) (n1 := 512) (n2 := 512) 0 ⟨256 + k.val, by omega⟩ ⟨384 + c.val, by omega⟩))
        + ∑ k : Fin 256, X (ix3 (n0 := 8) (n1 := 40) (n2 := 512) q ⟨h.val + 2, by omega⟩ ⟨256 + k.val, by omega⟩) * W (ix3 (n0 := 7) (n1 := 512) (n2 := 512) 1 ⟨256 + k.val, by omega⟩ ⟨384 + c.val, by omega⟩))
        + ∑ k : Fin 256, X (ix3 (n0 := 8) (n1 := 40) (n2 := 512) q ⟨h.val + 3, by omega⟩ ⟨256 + k.val, by omega⟩) * W (ix3 (n0 := 7) (n1 := 512) (n2 := 512) 2 ⟨256 + k.val, by omega⟩ ⟨384 + c.val, by omega⟩))
        + ∑ k : Fin 256, X (ix3 (n0 := 8) (n1 := 40) (n2 := 512) q ⟨h.val + 4, by omega⟩ ⟨256 + k.val, by omega⟩) * W (ix3 (n0 := 7) (n1 := 512) (n2 := 512) 3 ⟨256 + k.val, by omega⟩ ⟨384 + c.val, by omega⟩))
        + ∑ k : Fin 256, X (ix3 (n0 := 8) (n1 := 40) (n2 := 512) q ⟨h.val + 5, by omega⟩ ⟨256 + k.val, by omega⟩) * W (ix3 (n0 := 7) (n1 := 512) (n2 := 512) 4 ⟨256 + k.val, by omega⟩ ⟨384 + c.val, by omega⟩))
        + ∑ k : Fin 256, X (ix3 (n0 := 8) (n1 := 40) (n2 := 512) q ⟨h.val + 6, by omega⟩ ⟨256 + k.val, by omega⟩) * W (ix3 (n0 := 7) (n1 := 512) (n2 := 512) 5 ⟨256 + k.val, by omega⟩ ⟨384 + c.val, by omega⟩))
        + ∑ k : Fin 256, X (ix3 (n0 := 8) (n1 := 40) (n2 := 512) q ⟨h.val + 8, by omega⟩ ⟨256 + k.val, by omega⟩) * W (ix3 (n0 := 7) (n1 := 512) (n2 := 512) 6 ⟨256 + k.val, by omega⟩ ⟨384 + c.val, by omega⟩))
        + B (ix2 (n0 := 1) (n1 := 512) 0 ⟨384 + c.val, by omega⟩) := by
  rw [featValK_eq]
  unfold featNorm
  rw [shapeCast_apply _ shapeCasts_S256x512_S8x32x512 (ix3 (n0 := 8) (n1 := 32) (n2 := 512) q h ⟨384 + c.val, by omega⟩)
    (ix2 (n0 := 256) (n1 := 512) ⟨q.val * 32 + h.val, by omega⟩ ⟨384 + c.val, by omega⟩) (by rw [Shape.rowMajor_val_three, Shape.rowMajor_val_two]; rfl)]
  rw [concatenate_apply_piece (1 : Fin 2) _ _
    (ix2 (n0 := 256) (n1 := 512) ⟨q.val * 32 + h.val, by omega⟩ ⟨384 + c.val, by omega⟩) 3 (by show 3 < 4; omega) S256x128 _ rfl rfl 384 (by rfl)
    (ix2 (n0 := 256) (n1 := 128) ⟨q.val * 32 + h.val, by omega⟩ c)
    (fun b hb => by match b with | ⟨0, _⟩ => rfl | ⟨1, _⟩ => exact absurd rfl hb) (by rfl)]
  simp only [tile256_apply _ _ 256 _ (by omega), broadcast_apply]
  rw [broadcastTo_apply _ broadcasts_S1x512_S256x512 (ix2 (n0 := 256) (n1 := 512) ⟨q.val * 32 + h.val, by omega⟩ ⟨384 + c.val, by omega⟩)
      (ix2 (n0 := 1) (n1 := 512) 0 ⟨384 + c.val, by omega⟩) (fun a => by match a with | ⟨0, _⟩ => rfl | ⟨1, _⟩ => rfl)]
  rw [shapeCast_apply _ shapeCasts_S1x512_S1x512 (ix2 (n0 := 1) (n1 := 512) 0 ⟨384 + c.val, by omega⟩) (ix2 (n0 := 1) (n1 := 512) 0 ⟨384 + c.val, by omega⟩) rfl]
  simp only [win_apply X 0 _ q h _ (by omega), win_apply X 2 _ q h _ (by omega), win_apply X 3 _ q h _ (by omega), win_apply X 4 _ q h _ (by omega), win_apply X 5 _ q h _ (by omega), win_apply X 6 _ q h _ (by omega), win_apply X 8 _ q h _ (by omega)]
  dsimp only [r0_22, r0_23, r0_24, r0_25, r0_26, r0_27, r0_28, r0_29]
  simp only [ld_wtile256 W 0 256 384 _ _ c (by omega) (by omega) (by omega),
    ld_wtile256 W 1 256 384 _ _ c (by omega) (by omega) (by omega),
    ld_wtile256 W 2 256 384 _ _ c (by omega) (by omega) (by omega),
    ld_wtile256 W 3 256 384 _ _ c (by omega) (by omega) (by omega),
    ld_wtile256 W 4 256 384 _ _ c (by omega) (by omega) (by omega),
    ld_wtile256 W 5 256 384 _ _ c (by omega) (by omega) (by omega),
    ld_wtile256 W 6 256 384 _ _ c (by omega) (by omega) (by omega)]
  rw [View.ld_unit_zero (S := S1x512) (funext fun a => by fin_cases a <;> rfl)]
  rfl

end Cert.KernelIdeal.ConvValue

end
-- ==== Proof.ConvSpec.lean ====
/-
  Arrays of 512 images assembled from their 64 blocks of eight: block `t` of the padded input, and an array given block by
  block.  The convolution regions write their feature and statistics arrays one such block per grid point.
-/
import Idealize.ShloMosaic.Lib.ValueIdx

noncomputable section

namespace Cert.Spec

open Idealize.ShloMosaic Idealize.ShloMosaic.ValueIdx

/-- Images `8 t, …, 8 t + 7` of the padded input. -/
def xblk {α : Type} (xp : (⟨3, ![512, 40, 512]⟩ : Shape).Idx → α) (t : Fin 64) : (⟨3, ![8, 40, 512]⟩ : Shape).Idx → α :=
  fun y => xp (ix3 (n0 := 512) (n1 := 40) (n2 := 512)
    ⟨t.val * 8 + (y 0).val, by have h1 : (y 0).val < 8 := (y 0).isLt; have h2 := t.isLt; omega⟩ (y 1) (y 2))

/-- The array whose block `t` of eight images is `f t`. -/
def ofBlocks {α : Type} {n1 n2 : Nat} (f : Fin 64 → (⟨3, ![8, n1, n2]⟩ : Shape).Idx → α) : (⟨3, ![512, n1, n2]⟩ : Shape).Idx → α :=
  fun i => f ⟨(i 0).val / 8, by have h : (i 0).val < 512 := (i 0).isLt; omega⟩
    (ix3 (n0 := 8) (n1 := n1) (n2 := n2) ⟨(i 0).val % 8, by omega⟩ (i 1) (i 2))

end Cert.Spec

end
-- ==== Proof.KConvArr.lean ====
/-
  The idealized kernel's convolution region as functions of whole arrays.  A grid point takes eight images: its block of the padded input,
  the whole stack of row-shift matrices and the bias row; it writes back the block's stored features and statistics.  So
  the feature array and the statistics array after the region are assembled block by block from the body's stored values
  of the input's blocks, and the 64 blocks tile both arrays.
-/
import proofs.«179230_g2000505885998750_pallasbulk_270_2_alg».proof.Proof.KConvPay
import proofs.«179230_g2000505885998750_pallasbulk_270_2_alg».proof.Proof.ConvSpec
import Idealize.ShloMosaic.Lib.Pipeline.Value
import Idealize.ShloMosaic.Lib.ValueIdx

set_option maxRecDepth 16384

noncomputable section

namespace Cert.KernelIdeal.ConvArr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.ConvValue

variable (V : (c : Dev nD) → (b : Ref sig .tc) → Buf (Elt Ideal) ((c : Thread nD τ).loc b))

theorem hz3 : (![0, 0, 0] : Fin 3 → Nat) = fun _ => 0 := funext fun a => by fin_cases a <;> rfl

/-- The statistics buffer after the body holds the row sums of the stored features and of their squares. -/
theorem out0_4_eq (X : Vec Ideal S8x40x512 .f32) (W : Vec Ideal S7x512x512 .bf16) (B : Vec Ideal S1x512 .f32) :
    out0_4 (F := Ideal) X W B = View.canon [⟨r0_31, k0_pay1 (F := Ideal) (featValK X W B)⟩] := rfl

/-- The printed index maps over the grid: point `t` takes image block `t` of the input, the features and the statistics,
    and the one block of the matrices and of the bias row. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ (win0_1.index t (0 : Fin 3) = 0 ∧ win0_1.index t (1 : Fin 3) = 0 ∧ win0_1.index t (2 : Fin 3) = 0
      ∧ win0_2.index t (0 : Fin 2) = 0 ∧ win0_2.index t (1 : Fin 2) = 0) :=
  (by decide +kernel : ∀ t : Fin grid0.N, _)

/-- The input window's block at point `t` is block `t` of the padded input. -/
theorem iblk_x (c : Dev nD) (t : Fin cfg0.N) :
    iblk0 V c 0 t = Cert.Spec.xblk (V c main_v216) ⟨t.val, by have := t.isLt; have hN : cfg0.N = 64 := N_0; omega⟩ := by
  obtain ⟨e0, e1, e2, -⟩ := idx_facts t
  funext y
  show V c main_v216 (((cfg0.win 0).blk t).view.emb y) = V c main_v216 _
  refine congrArg (V c main_v216) (funext fun a => Fin.ext ?_)
  match a with
  | ⟨0, _⟩ => show win0_0.index t (0 : Fin 3) * 8 + 1 * (y 0).val = t.val * 8 + (y 0).val; omega
  | ⟨1, _⟩ => show win0_0.index t (1 : Fin 3) * 40 + 1 * (y 1).val = (y 1).val; omega
  | ⟨2, _⟩ => show win0_0.index t (2 : Fin 3) * 512 + 1 * (y 2).val = (y 2).val; omega

/-- The matrices' window holds the whole stack at every point. -/
theorem iblk_w (c : Dev nD) (t : Fin cfg0.N) : iblk0 V c 1 t = V c main_v206 := by
  obtain ⟨-, -, -, -, -, -, -, -, -, e0, e1, e2, -⟩ := idx_facts t
  funext y
  show V c main_v206 (((cfg0.win 1).blk t).view.emb y) = V c main_v206 y
  refine congrArg (V c main_v206) (funext fun a => Fin.ext ?_)
  match a with
  | ⟨0, _⟩ => show win0_1.index t (0 : Fin 3) * 7 + 1 * (y 0).val = (y 0).val; omega
  | ⟨1, _⟩ => show win0_1.index t (1 : Fin 3) * 512 + 1 * (y 1).val = (y 1).val; omega
  | ⟨2, _⟩ => show win0_1.index t (2 : Fin 3) * 512 + 1 * (y 2).val = (y 2).val; omega

/-- The bias window holds the whole row at every point. -/
theorem iblk_b (c : Dev nD) (t : Fin cfg0.N) : iblk0 V c 2 t = V c main_v213 := by
  obtain ⟨-, -, -, -, -, -, -, -, -, -, -, -, e0, e1⟩ := idx_facts t
  funext y
  show V c main_v213 (((cfg0.win 2).blk t).view.emb y) = V c main_v213 y
  refine congrArg (V c main_v213) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-! ## Window 3: feature -/

/-- What point `t` writes back is block `t` of the array assembled from the blocks' stored values. -/
theorem flushed3_eq (c : Dev nD) (t : Fin cfg0.N) :
    (dat0 V c).flushed 3 t = ((cfg0.win 3).blk t).view.read (Elt Ideal)
      (Cert.Spec.ofBlocks fun t' => featValK (Cert.Spec.xblk (V c main_v216) t') (V c main_v206) (V c main_v213)) := by
  show (cfg0.win 3).cut (grid0.coords t) ((dat0 V c).after 3 t) = _
  rw [after0_3]
  rw [out0_3_eq]
  rw [View.canon_unit_zero hz3]
  obtain ⟨e0, e1, e2, e3, e4, e5, e6, e7, e8, e9⟩ := idx_facts t
  have hN : cfg0.N = 64 := N_0
  have ht : t.val < 64 := by have := t.isLt; omega
  rw [iblk_x V c t, iblk_w V c t, iblk_b V c t]
  funext j
  show featValK (Cert.Spec.xblk (V c main_v216) ⟨t.val, ht⟩) (V c main_v206) (V c main_v213) j
      = Cert.Spec.ofBlocks (fun t' => featValK (Cert.Spec.xblk (V c main_v216) t') (V c main_v206) (V c main_v213))
          (((cfg0.win 3).blk t).view.emb j)
  unfold Cert.Spec.ofBlocks
  have hj0 : (j 0).val < 8 := (j 0).isLt
  have v0 : ((((cfg0.win 3).blk t).view.emb j) 0).val = t.val * 8 + (j 0).val := by
    show win0_3.index t (0 : Fin 3) * 8 + 1 * (j 0).val = _; omega
  have v1 : ((((cfg0.win 3).blk t).view.emb j) 1).val = (j 1).val := by
    show win0_3.index t (1 : Fin 3) * 32 + 1 * (j 1).val = _; omega
  have v2 : ((((cfg0.win 3).blk t).view.emb j) 2).val = (j 2).val := by
    show win0_3.index t (2 : Fin 3) * 512 + 1 * (j 2).val = _; omega
  have a1 : (⟨((((cfg0.win 3).blk t).view.emb j) 0).val / 8, by have h : ((((cfg0.win 3).blk t).view.emb j) 0).val < 512 := ((((cfg0.win 3).blk t).view.emb j) 0).isLt; omega⟩ : Fin 64) = ⟨t.val, ht⟩ :=
    Fin.ext (by show ((((cfg0.win 3).blk t).view.emb j) 0).val / 8 = t.val; omega)
  have a2 : (ix3 (n0 := 8) (n1 := 32) (n2 := 512) ⟨((((cfg0.win 3).blk t).view.emb j) 0).val % 8, by omega⟩
      ((((cfg0.win 3).blk t).view.emb j) 1) ((((cfg0.win 3).blk t).view.emb j) 2) : S8x32x512.Idx) = j := by
    funext a; apply Fin.ext
    match a with
    | ⟨0, _⟩ => show ((((cfg0.win 3).blk t).view.emb j) 0).val % 8 = (j 0).val; omega
    | ⟨1, _⟩ => exact v1
    | ⟨2, _⟩ => exact v2
  rw [a1, a2]

/-- An index of the array is in point `t`'s block iff each coordinate is in the block's range on its axis. -/
theorem mem_blk3 (t : Fin cfg0.N) (i : S512x32x512.Idx) :
    i ∈ ((cfg0.win 3).blk t).view.set ↔ ∀ a : Fin 3, win0_3.index t a * S8x32x512.size a ≤ (i a).val ∧ (i a).val < win0_3.index t a * S8x32x512.size a + S8x32x512.size a := by
  show i ∈ ((View.whole main_v217_0).slice (win0_3.rect t)).set ↔ _
  rw [View.set_slice_whole, Rect.mem_set_unit]
  exact Iff.rfl

/-- Every index is in the block of the point that takes its image. -/
theorem cover3 (i : S512x32x512.Idx) : ∃ t : Fin cfg0.N, (cfg0.win 3).flush t = true ∧ i ∈ ((cfg0.win 3).blk t).view.set := by
  have hi0 : (i 0).val < 512 := (i 0).isLt
  have hi1 : (i 1).val < 32 := (i 1).isLt
  have hi2 : (i 2).val < 512 := (i 2).isLt
  have hN : cfg0.N = 64 := N_0
  let t : Fin cfg0.N := ⟨(i 0).val / 8, by omega⟩
  obtain ⟨e0, e1, e2, e3, e4, e5, e6, e7, e8, e9⟩ := idx_facts t
  have ht : t.val = (i 0).val / 8 := rfl
  refine ⟨t, flush0_3 t, ?_⟩
  rw [mem_blk3]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 32 ≤ (i 1).val ∧ (i 1).val < win0_3.index t (1 : Fin 3) * 32 + 32; omega
  | ⟨2, _⟩ => show win0_3.index t (2 : Fin 3) * 512 ≤ (i 2).val ∧ (i 2).val < win0_3.index t (2 : Fin 3) * 512 + 512; omega

/-- The feature array after the region. -/
theorem final3 (c : Dev nD) : (dat0 V c).arrAt 3 cfg0.N
    = Cert.Spec.ofBlocks fun t' => featValK (Cert.Spec.xblk (V c main_v216) t') (V c main_v206) (V c main_v213) :=
  (dat0 V c).arrAt_eq_of_cover 3 _ (fun t _ => flushed3_eq V c t) cover3

/-! ## Window 4: statistics -/

/-- What point `t` writes back is block `t` of the array assembled from the blocks' stored values. -/
theorem flushed4_eq (c : Dev nD) (t : Fin cfg0.N) :
    (dat0 V c).flushed 4 t = ((cfg0.win 4).blk t).view.read (Elt Ideal)
      (Cert.Spec.ofBlocks fun t' => k0_pay1 (F := Ideal) (featValK (Cert.Spec.xblk (V c main_v216) t') (V c main_v206) (V c main_v213))) := by
  show (cfg0.win 4).cut (grid0.coords t) ((dat0 V c).after 4 t) = _
  rw [after0_4]
  rw [out0_4_eq]
  rw [View.canon_unit_zero hz3]
  obtain ⟨e0, e1, e2, e3, e4, e5, e6, e7, e8, e9⟩ := idx_facts t
  have hN : cfg0.N = 64 := N_0
  have ht : t.val < 64 := by have := t.isLt; omega
  rw [iblk_x V c t, iblk_w V c t, iblk_b V c t]
  funext j
  show k0_pay1 (F := Ideal) (featValK (Cert.Spec.xblk (V c main_v216) ⟨t.val, ht⟩) (V c main_v206) (V c main_v213)) j
      = Cert.Spec.ofBlocks (fun t' => k0_pay1 (F := Ideal) (featValK (Cert.Spec.xblk (V c main_v216) t') (V c main_v206) (V c main_v213)))
          (((cfg0.win 4).blk t).view.emb j)
  unfold Cert.Spec.ofBlocks
  have hj0 : (j 0).val < 8 := (j 0).isLt
  have v0 : ((((cfg0.win 4).blk t).view.emb j) 0).val = t.val * 8 + (j 0).val := by
    show win0_4.index t (0 : Fin 3) * 8 + 1 * (j 0).val = _; omega
  have v1 : ((((cfg0.win 4).blk t).view.emb j) 1).val = (j 1).val := by
    show win0_4.index t (1 : Fin 3) * 2 + 1 * (j 1).val = _; omega
  have v2 : ((((cfg0.win 4).blk t).view.emb j) 2).val = (j 2).val := by
    show win0_4.index t (2 : Fin 3) * 512 + 1 * (j 2).val = _; omega
  have a1 : (⟨((((cfg0.win 4).blk t).view.emb j) 0).val / 8, by have h : ((((cfg0.win 4).blk t).view.emb j) 0).val < 512 := ((((cfg0.win 4).blk t).view.emb j) 0).isLt; omega⟩ : Fin 64) = ⟨t.val, ht⟩ :=
    Fin.ext (by show ((((cfg0.win 4).blk t).view.emb j) 0).val / 8 = t.val; omega)
  have a2 : (ix3 (n0 := 8) (n1 := 2) (n2 := 512) ⟨((((cfg0.win 4).blk t).view.emb j) 0).val % 8, by omega⟩
      ((((cfg0.win 4).blk t).view.emb j) 1) ((((cfg0.win 4).blk t).view.emb j) 2) : S8x2x512.Idx) = j := by
    funext a; apply Fin.ext
    match a with
    | ⟨0, _⟩ => show ((((cfg0.win 4).blk t).view.emb j) 0).val % 8 = (j 0).val; omega
    | ⟨1, _⟩ => exact v1
    | ⟨2, _⟩ => exact v2
  rw [a1, a2]

/-- An index of the array is in point `t`'s block iff each coordinate is in the block's range on its axis. -/
theorem mem_blk4 (t : Fin cfg0.N) (i : S512x2x512.Idx) :
    i ∈ ((cfg0.win 4).blk t).view.set ↔ ∀ a : Fin 3, win0_4.index t a * S8x2x512.size a ≤ (i a).val ∧ (i a).val < win0_4.index t a * S8x2x512.size a + S8x2x512.size a := by
  show i ∈ ((View.whole main_v217_1).slice (win0_4.rect t)).set ↔ _
  rw [View.set_slice_whole, Rect.mem_set_unit]
  exact Iff.rfl

/-- Every index is in the block of the point that takes its image. -/
theorem cover4 (i : S512x2x512.Idx) : ∃ t : Fin cfg0.N, (cfg0.win 4).flush t = true ∧ i ∈ ((cfg0.win 4).blk t).view.set := by
  have hi0 : (i 0).val < 512 := (i 0).isLt
  have hi1 : (i 1).val < 2 := (i 1).isLt
  have hi2 : (i 2).val < 512 := (i 2).isLt
  have hN : cfg0.N = 64 := N_0
  let t : Fin cfg0.N := ⟨(i 0).val / 8, by omega⟩
  obtain ⟨e0, e1, e2, e3, e4, e5, e6, e7, e8, e9⟩ := idx_facts t
  have ht : t.val = (i 0).val / 8 := rfl
  refine ⟨t, flush0_4 t, ?_⟩
  rw [mem_blk4]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 2 ≤ (i 1).val ∧ (i 1).val < win0_4.index t (1 : Fin 3) * 2 + 2; omega
  | ⟨2, _⟩ => show win0_4.index t (2 : Fin 3) * 512 ≤ (i 2).val ∧ (i 2).val < win0_4.index t (2 : Fin 3) * 512 + 512; omega

/-- The statistics array after the region. -/
theorem final4 (c : Dev nD) : (dat0 V c).arrAt 4 cfg0.N
    = Cert.Spec.ofBlocks fun t' => k0_pay1 (F := Ideal) (featValK (Cert.Spec.xblk (V c main_v216) t') (V c main_v206) (V c main_v213)) :=
  (dat0 V c).arrAt_eq_of_cover 4 _ (fun t _ => flushed4_eq V c t) cover4

end Cert.KernelIdeal.ConvArr

end
-- ==== Proof.RConvPay.lean ====
/-
  The reference's convolution body at an index of its feature block.  For image `q` of the point's eight, row `h` and lane
  `l`, the stored value is
      ((0 + S 0) + S 1 + ... + S 6) + bias[l],     S g = ∑ k : Fin 512, X[q, h + o g, k] * W[g, k, l],
  `X` the 8 x 40 x 512 input block, `W` the stack of seven matrices, `o = 0, 2, 3, 4, 5, 6, 8` the row offsets plus the
  halo of four: each product of the body is a 256 x 512 by 512 x 512 matrix product of a 32-row window of the block,
  flattened, with one matrix of the stack.
-/
import proofs.«179230_g2000505885998750_pallasbulk_270_2_alg».proof.Proof.RefConv
import proofs.«179230_g2000505885998750_pallasbulk_270_2_alg».proof.Proof.LibMatmulAt
import Idealize.ShloMosaic.Lib.Pipeline.Value
import Idealize.ShloMosaic.Lib.ValueIdx

set_option maxRecDepth 16384

noncomputable section

namespace Cert.ReferenceIdeal.ConvValue

open Idealize.ShloMosaic Idealize.ShloMosaic.ValueIdx
open Cert.ReferenceIdeal Cert.ReferenceIdeal.Gen Cert.ReferenceIdeal.Hand
open scoped BigOperators

/-- A 32-row window of the input block loaded at row offset `o` reads the block `o` rows down. -/
theorem ld_rows (X : Vec Ideal S8x40x512 .f32) (o : Nat)
    (inb : ∀ a, (![0, o, 0] : Fin 3 → Nat) a + S8x32x512.size a ≤ S8x40x512.size a)
    (q : Fin 8) (h : Fin 32) (k : Fin 512) (ho : h.val + o < 40) :
    View.ld X (Rect.unit (s := S8x40x512) ![0, o, 0] S8x32x512.size inb) (ix3 (n0 := 8) (n1 := 32) (n2 := 512) q h k)
      = X (ix3 (n0 := 8) (n1 := 40) (n2 := 512) q ⟨h.val + o, ho⟩ k) := by
  show X ((Rect.unit (s := S8x40x512) ![0, o, 0] S8x32x512.size inb).emb (ix3 (n0 := 8) (n1 := 32) (n2 := 512) q h k)) = _
  refine congrArg X (funext fun a => Fin.ext ?_)
  match a with
  | ⟨0, _⟩ => show 0 + 1 * q.val = q.val; omega
  | ⟨1, _⟩ => show o + 1 * h.val = h.val + o; omega
  | ⟨2, _⟩ => show 0 + 1 * k.val = k.val; omega

/-- Matrix `g` of the stack loaded whole reads the stack at `g`. -/
theorem ld_mat (W : Vec Ideal S7x512x512 .f32) (g : Nat)
    (inb : ∀ a, (![g, 0, 0] : Fin 3 → Nat) a + S1x512x512.size a ≤ S7x512x512.size a)
    (k l : Fin 512) (hg : g < 7) :
    View.ld W (Rect.unit (s := S7x512x512) ![g, 0, 0] S1x512x512.size inb) (ix3 (n0 := 1) (n1 := 512) (n2 := 512) 0 k l)
      = W (ix3 (n0 := 7) (n1 := 512) (n2 := 512) ⟨g, hg⟩ k l) := by
  show W ((Rect.unit (s := S7x512x512) ![g, 0, 0] S1x512x512.size inb).emb (ix3 (n0 := 1) (n1 := 512) (n2 := 512) 0 k l)) = _
  refine congrArg W (funext fun a => Fin.ext ?_)
  match a with
  | ⟨0, _⟩ => show g + 1 * 0 = g; omega
  | ⟨1, _⟩ => show 0 + 1 * k.val = k.val; omega
  | ⟨2, _⟩ => show 0 + 1 * l.val = l.val; omega

/-- One product of the body at row `q * 32 + h` and lane `l`: the window's row `(q, h)` against the matrix's column `l`. -/
theorem term_apply (xs : FVec Ideal S8x32x512 .f32) (ws : FVec Ideal S1x512x512 .f32) (q : Fin 8) (h : Fin 32) (l : Fin 512) :
    matmul (F := Ideal) dot_S256x512_S512x512_S256x512_1_0_0_1_n_n (some .fp32)
        (shapeCast S256x512 (shapeCast S8x32x512 xs shapeCasts_S8x32x512_S8x32x512) shapeCasts_S8x32x512_S256x512)
        (shapeCast S512x512 ws shapeCasts_S1x512x512_S512x512) (constant S256x512 .f32 0x00000000#32)
        (ix2 (n0 := 256) (n1 := 512) ⟨q.val * 32 + h.val, by omega⟩ l)
      = ∑ k : Fin 512, xs (ix3 (n0 := 8) (n1 := 32) (n2 := 512) q h k) * ws (ix3 (n0 := 1) (n1 := 512) (n2 := 512) 0 k l) := by
  refine (Cert.MatmulAt.matmul_zero_at dot_S256x512_S512x512_S256x512_1_0_0_1_n_n rfl rfl (fun _ _ => rfl) (fun _ _ => rfl)
    (fun _ _ => rfl) (fun _ _ => rfl) (some .fp32) _ _ ⟨q.val * 32 + h.val, by omega⟩ l).trans ?_
  refine Finset.sum_congr rfl fun k _ => ?_
  simp only [shapeCast_self]
  rw [shapeCast_apply xs shapeCasts_S8x32x512_S256x512 (ix2 (n0 := 256) (n1 := 512) ⟨q.val * 32 + h.val, by omega⟩ k)
      (ix3 (n0 := 8) (n1 := 32) (n2 := 512) q h k) (by rw [Shape.rowMajor_val_three, Shape.rowMajor_val_two]; rfl),
    shapeCast_apply ws shapeCasts_S1x512x512_S512x512 (ix2 (n0 := 512) (n1 := 512) k l)
      (ix3 (n0 := 1) (n1 := 512) (n2 := 512) 0 k l) (by
        rw [Shape.rowMajor_val_three, Shape.rowMajor_val_two]
        show (0 * 512 + k.val) * 512 + l.val = k.val * 512 + l.val
        omega)]

/-- The stored features at `(q, h, l)`. -/
theorem featVal_apply (X : Vec Ideal S8x40x512 .f32) (W : Vec Ideal S7x512x512 .f32) (B : Vec Ideal S1x512 .f32)
    (q : Fin 8) (h : Fin 32) (l : Fin 512) :
    featVal X W B (ix3 (n0 := 8) (n1 := 32) (n2 := 512) q h l)
      = ((((((((Scalar.ofBits .f32 0x00000000#32 : Ideal .f32)
        + ∑ k : Fin 512, X (ix3 (n0 := 8) (n1 := 40) (n2 := 512) q ⟨h.val + 0, by omega⟩ k) * W (ix3 (n0 := 7) (n1 := 512) (n2 := 512) 0 k l))
        + ∑ k : Fin 512, X (ix3 (n0 := 8) (n1 := 40) (n2 := 512) q ⟨h.val + 2, by omega⟩ k) * W (ix3 (n0 := 7) (n1 := 512) (n2 := 512) 1 k l))
        + ∑ k : Fin 512, X (ix3 (n0 := 8) (n1 := 40) (n2 := 512) q ⟨h.val + 3, by omega⟩ k) * W (ix3 (n0 := 7) (n1 := 512) (n2 := 512) 2 k l))
        + ∑ k : Fin 512, X (ix3 (n0 := 8) (n1 := 40) (n2 := 512) q ⟨h.val + 4, by omega⟩ k) * W (ix3 (n0 := 7) (n1 := 512) (n2 := 512) 3 k l))
        + ∑ k : Fin 512, X (ix3 (n0 := 8) (n1 := 40) (n2 := 512) q ⟨h.val + 5, by omega⟩ k) * W (ix3 (n0 := 7) (n1 := 512) (n2 := 512) 4 k l))
        + ∑ k : Fin 512, X (ix3 (n0 := 8) (n1 := 40) (n2 := 512) q ⟨h.val + 6, by omega⟩ k) * W (ix3 (n0 := 7) (n1 := 512) (n2 := 512) 5 k l))
        + ∑ k : Fin 512, X (ix3 (n0 := 8) (n1 := 40) (n2 := 512) q ⟨h.val + 8, by omega⟩ k) * W (ix3 (n0 := 7) (n1 := 512) (n2 := 512) 6 k l))
        + B (ix2 (n0 := 1) (n1 := 512) 0 l) := by
  show shapeCast S8x32x512 (fun r : S256x512.Idx =>
        ((((((((broadcast S256x512 (Scalar.ofBits .f32 0x00000000#32 : Ideal .f32)) r
        + matmul dot_S256x512_S512x512_S256x512_1_0_0_1_n_n (some .fp32)
          (shapeCast S256x512 (shapeCast S8x32x512 (View.ld X rx0) shapeCasts_S8x32x512_S8x32x512) shapeCasts_S8x32x512_S256x512)
          (shapeCast S512x512 (View.ld W rw0) shapeCasts_S1x512x512_S512x512) (constant S256x512 .f32 0x00000000#32) r)
        + matmul dot_S256x512_S512x512_S256x512_1_0_0_1_n_n (some .fp32)
          (shapeCast S256x512 (shapeCast S8x32x512 (View.ld X rx1) shapeCasts_S8x32x512_S8x32x512) shapeCasts_S8x32x512_S256x512)
          (shapeCast S512x512 (View.ld W rw1) shapeCasts_S1x512x512_S512x512) (constant S256x512 .f32 0x00000000#32) r)
        + matmul dot_S256x512_S512x512_S256x512_1_0_0_1_n_n (some .fp32)
          (shapeCast S256x512 (shapeCast S8x32x512 (View.ld X rx2) shapeCasts_S8x32x512_S8x32x512) shapeCasts_S8x32x512_S256x512)
          (shapeCast S512x512 (View.ld W rw2) shapeCasts_S1x512x512_S512x512) (constant S256x512 .f32 0x00000000#32) r)
        + matmul dot_S256x512_S512x512_S256x512_1_0_0_1_n_n (some .fp32)
          (shapeCast S256x512 (shapeCast S8x32x512 (View.ld X rx3) shapeCasts_S8x32x512_S8x32x512) shapeCasts_S8x32x512_S256x512)
          (shapeCast S512x512 (View.ld W rw3) shapeCasts_S1x512x512_S512x512) (constant S256x512 .f32 0x00000000#32) r)
        + matmul dot_S256x512_S512x512_S256x512_1_0_0_1_n_n (some .fp32)
          (shapeCast S256x512 (shapeCast S8x32x512 (View.ld X rx4) shapeCasts_S8x32x512_S8x32x512) shapeCasts_S8x32x512_S256x512)
          (shapeCast S512x512 (View.ld W rw4) shapeCasts_S1x512x512_S512x512) (constant S256x512 .f32 0x00000000#32) r)
        + matmul dot_S256x512_S512x512_S256x512_1_0_0_1_n_n (some .fp32)
          (shapeCast S256x512 (shapeCast S8x32x512 (View.ld X rx5) shapeCasts_S8x32x512_S8x32x512) shapeCasts_S8x32x512_S256x512)
          (shapeCast S512x512 (View.ld W rw5) shapeCasts_S1x512x512_S512x512) (constant S256x512 .f32 0x00000000#32) r)
        + matmul dot_S256x512_S512x512_S256x512_1_0_0_1_n_n (some .fp32)
          (shapeCast S256x512 (shapeCast S8x32x512 (View.ld X rx6) shapeCasts_S8x32x512_S8x32x512) shapeCasts_S8x32x512_S256x512)
          (shapeCast S512x512 (View.ld W rw6) shapeCasts_S1x512x512_S512x512) (constant S256x512 .f32 0x00000000#32) r)
        + broadcastTo S256x512 (shapeCast S1x512 (View.ld B rb) shapeCasts_S1x512_S1x512) broadcasts_S1x512_S256x512 r)
      shapeCasts_S256x512_S8x32x512 (ix3 (n0 := 8) (n1 := 32) (n2 := 512) q h l) = _
  rw [shapeCast_apply _ shapeCasts_S256x512_S8x32x512 (ix3 (n0 := 8) (n1 := 32) (n2 := 512) q h l)
    (ix2 (n0 := 256) (n1 := 512) ⟨q.val * 32 + h.val, by omega⟩ l) (by rw [Shape.rowMajor_val_three, Shape.rowMajor_val_two]; rfl)]
  simp only [term_apply, broadcast_apply]
  rw [broadcastTo_apply _ broadcasts_S1x512_S256x512 (ix2 (n0 := 256) (n1 := 512) ⟨q.val * 32 + h.val, by omega⟩ l)
      (ix2 (n0 := 1) (n1 := 512) 0 l) (fun a => by match a with | ⟨0, _⟩ => rfl | ⟨1, _⟩ => rfl)]
  rw [shapeCast_apply _ shapeCasts_S1x512_S1x512 (ix2 (n0 := 1) (n1 := 512) 0 l) (ix2 (n0 := 1) (n1 := 512) 0 l) rfl]
  dsimp only [rx0, rx1, rx2, rx3, rx4, rx5, rx6, rw0, rw1, rw2, rw3, rw4, rw5, rw6, rb]
  simp only [ld_rows X 0 _ q h _ (by omega),
    ld_rows X 2 _ q h _ (by omega),
    ld_rows X 3 _ q h _ (by omega),
    ld_rows X 4 _ q h _ (by omega),
    ld_rows X 5 _ q h _ (by omega),
    ld_rows X 6 _ q h _ (by omega),
    ld_rows X 8 _ q h _ (by omega),
    ld_mat W 0 _ _ l (by omega),
    ld_mat W 1 _ _ l (by omega),
    ld_mat W 2 _ _ l (by omega),
    ld_mat W 3 _ _ l (by omega),
    ld_mat W 4 _ _ l (by omega),
    ld_mat W 5 _ _ l (by omega),
    ld_mat W 6 _ _ l (by omega)]
  rw [View.ld_unit_zero (S := S1x512) (funext fun a => by fin_cases a <;> rfl)]
  rfl

end Cert.ReferenceIdeal.ConvValue

end
-- ==== Proof.RConvArr.lean ====
/-
  The reference's convolution region as functions of whole arrays.  A grid point takes eight images: its block of the padded input,
  the whole stack of row-shift matrices and the bias row; it writes back the block's stored features and statistics.  So
  the feature array and the statistics array after the region are assembled block by block from the body's stored values
  of the input's blocks, and the 64 blocks tile both arrays.
-/
import proofs.«179230_g2000505885998750_pallasbulk_270_2_alg».proof.Proof.RConvPay
import proofs.«179230_g2000505885998750_pallasbulk_270_2_alg».proof.Proof.ConvSpec
import Idealize.ShloMosaic.Lib.Pipeline.Value
import Idealize.ShloMosaic.Lib.ValueIdx

set_option maxRecDepth 16384

noncomputable section

namespace Cert.ReferenceIdeal.ConvArr

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Hand Cert.ReferenceIdeal.ConvValue

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: point `t` takes image block `t` of the input, the features and the statistics,
    and the one block of the matrices and of the bias row. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ (win0_1.index t (0 : Fin 3) = 0 ∧ win0_1.index t (1 : Fin 3) = 0 ∧ win0_1.index t (2 : Fin 3) = 0
      ∧ win0_2.index t (0 : Fin 2) = 0 ∧ win0_2.index t (1 : Fin 2) = 0) :=
  (by decide +kernel : ∀ t : Fin grid0.N, _)

/-- The input window's block at point `t` is block `t` of the padded input. -/
theorem iblk_x (c : Dev nD) (t : Fin cfg0.N) :
    iblk0 V c 0 t = Cert.Spec.xblk (V c main_v210) ⟨t.val, by have := t.isLt; have hN : cfg0.N = 64 := N_0; omega⟩ := by
  obtain ⟨e0, e1, e2, -⟩ := idx_facts t
  funext y
  show V c main_v210 (((cfg0.win 0).blk t).view.emb y) = V c main_v210 _
  refine congrArg (V c main_v210) (funext fun a => Fin.ext ?_)
  match a with
  | ⟨0, _⟩ => show win0_0.index t (0 : Fin 3) * 8 + 1 * (y 0).val = t.val * 8 + (y 0).val; omega
  | ⟨1, _⟩ => show win0_0.index t (1 : Fin 3) * 40 + 1 * (y 1).val = (y 1).val; omega
  | ⟨2, _⟩ => show win0_0.index t (2 : Fin 3) * 512 + 1 * (y 2).val = (y 2).val; omega

/-- The matrices' window holds the whole stack at every point. -/
theorem iblk_w (c : Dev nD) (t : Fin cfg0.N) : iblk0 V c 1 t = V c main_v200 := by
  obtain ⟨-, -, -, -, -, -, -, -, -, e0, e1, e2, -⟩ := idx_facts t
  funext y
  show V c main_v200 (((cfg0.win 1).blk t).view.emb y) = V c main_v200 y
  refine congrArg (V c main_v200) (funext fun a => Fin.ext ?_)
  match a with
  | ⟨0, _⟩ => show win0_1.index t (0 : Fin 3) * 7 + 1 * (y 0).val = (y 0).val; omega
  | ⟨1, _⟩ => show win0_1.index t (1 : Fin 3) * 512 + 1 * (y 1).val = (y 1).val; omega
  | ⟨2, _⟩ => show win0_1.index t (2 : Fin 3) * 512 + 1 * (y 2).val = (y 2).val; omega

/-- The bias window holds the whole row at every point. -/
theorem iblk_b (c : Dev nD) (t : Fin cfg0.N) : iblk0 V c 2 t = V c main_v207 := by
  obtain ⟨-, -, -, -, -, -, -, -, -, -, -, -, e0, e1⟩ := idx_facts t
  funext y
  show V c main_v207 (((cfg0.win 2).blk t).view.emb y) = V c main_v207 y
  refine congrArg (V c main_v207) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-! ## Window 3: feature -/

/-- What point `t` writes back is block `t` of the array assembled from the blocks' stored values. -/
theorem flushed3_eq (c : Dev nD) (t : Fin cfg0.N) :
    (dat0 V c).flushed 3 t = ((cfg0.win 3).blk t).view.read (Elt Ideal)
      (Cert.Spec.ofBlocks fun t' => featVal (F := Ideal) (Cert.Spec.xblk (V c main_v210) t') (V c main_v200) (V c main_v207)) := by
  show (cfg0.win 3).cut (grid0.coords t) ((dat0 V c).after 3 t) = _
  rw [after0_3]
  unfold feat
  dsimp only [rfeat]
  rw [View.canon_unit_zero hz3]
  obtain ⟨e0, e1, e2, e3, e4, e5, e6, e7, e8, e9⟩ := idx_facts t
  have hN : cfg0.N = 64 := N_0
  have ht : t.val < 64 := by have := t.isLt; omega
  rw [iblk_x V c t, iblk_w V c t, iblk_b V c t]
  funext j
  show featVal (F := Ideal) (Cert.Spec.xblk (V c main_v210) ⟨t.val, ht⟩) (V c main_v200) (V c main_v207) j
      = Cert.Spec.ofBlocks (fun t' => featVal (F := Ideal) (Cert.Spec.xblk (V c main_v210) t') (V c main_v200) (V c main_v207))
          (((cfg0.win 3).blk t).view.emb j)
  unfold Cert.Spec.ofBlocks
  have hj0 : (j 0).val < 8 := (j 0).isLt
  have v0 : ((((cfg0.win 3).blk t).view.emb j) 0).val = t.val * 8 + (j 0).val := by
    show win0_3.index t (0 : Fin 3) * 8 + 1 * (j 0).val = _; omega
  have v1 : ((((cfg0.win 3).blk t).view.emb j) 1).val = (j 1).val := by
    show win0_3.index t (1 : Fin 3) * 32 + 1 * (j 1).val = _; omega
  have v2 : ((((cfg0.win 3).blk t).view.emb j) 2).val = (j 2).val := by
    show win0_3.index t (2 : Fin 3) * 512 + 1 * (j 2).val = _; omega
  have a1 : (⟨((((cfg0.win 3).blk t).view.emb j) 0).val / 8, by have h : ((((cfg0.win 3).blk t).view.emb j) 0).val < 512 := ((((cfg0.win 3).blk t).view.emb j) 0).isLt; omega⟩ : Fin 64) = ⟨t.val, ht⟩ :=
    Fin.ext (by show ((((cfg0.win 3).blk t).view.emb j) 0).val / 8 = t.val; omega)
  have a2 : (ix3 (n0 := 8) (n1 := 32) (n2 := 512) ⟨((((cfg0.win 3).blk t).view.emb j) 0).val % 8, by omega⟩
      ((((cfg0.win 3).blk t).view.emb j) 1) ((((cfg0.win 3).blk t).view.emb j) 2) : S8x32x512.Idx) = j := by
    funext a; apply Fin.ext
    match a with
    | ⟨0, _⟩ => show ((((cfg0.win 3).blk t).view.emb j) 0).val % 8 = (j 0).val; omega
    | ⟨1, _⟩ => exact v1
    | ⟨2, _⟩ => exact v2
  rw [a1, a2]

/-- An index of the array is in point `t`'s block iff each coordinate is in the block's range on its axis. -/
theorem mem_blk3 (t : Fin cfg0.N) (i : S512x32x512.Idx) :
    i ∈ ((cfg0.win 3).blk t).view.set ↔ ∀ a : Fin 3, win0_3.index t a * S8x32x512.size a ≤ (i a).val ∧ (i a).val < win0_3.index t a * S8x32x512.size a + S8x32x512.size a := by
  show i ∈ ((View.whole main_v211_0).slice (win0_3.rect t)).set ↔ _
  rw [View.set_slice_whole, Rect.mem_set_unit]
  exact Iff.rfl

/-- Every index is in the block of the point that takes its image. -/
theorem cover3 (i : S512x32x512.Idx) : ∃ t : Fin cfg0.N, (cfg0.win 3).flush t = true ∧ i ∈ ((cfg0.win 3).blk t).view.set := by
  have hi0 : (i 0).val < 512 := (i 0).isLt
  have hi1 : (i 1).val < 32 := (i 1).isLt
  have hi2 : (i 2).val < 512 := (i 2).isLt
  have hN : cfg0.N = 64 := N_0
  let t : Fin cfg0.N := ⟨(i 0).val / 8, by omega⟩
  obtain ⟨e0, e1, e2, e3, e4, e5, e6, e7, e8, e9⟩ := idx_facts t
  have ht : t.val = (i 0).val / 8 := rfl
  refine ⟨t, flush0_3 t, ?_⟩
  rw [mem_blk3]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 32 ≤ (i 1).val ∧ (i 1).val < win0_3.index t (1 : Fin 3) * 32 + 32; omega
  | ⟨2, _⟩ => show win0_3.index t (2 : Fin 3) * 512 ≤ (i 2).val ∧ (i 2).val < win0_3.index t (2 : Fin 3) * 512 + 512; omega

/-- The feature array after the region. -/
theorem final3 (c : Dev nD) : (dat0 V c).arrAt 3 cfg0.N
    = Cert.Spec.ofBlocks fun t' => featVal (F := Ideal) (Cert.Spec.xblk (V c main_v210) t') (V c main_v200) (V c main_v207) :=
  (dat0 V c).arrAt_eq_of_cover 3 _ (fun t _ => flushed3_eq V c t) cover3

/-! ## Window 4: statistics -/

/-- What point `t` writes back is block `t` of the array assembled from the blocks' stored values. -/
theorem flushed4_eq (c : Dev nD) (t : Fin cfg0.N) :
    (dat0 V c).flushed 4 t = ((cfg0.win 4).blk t).view.read (Elt Ideal)
      (Cert.Spec.ofBlocks fun t' => statsVal (F := Ideal) (Cert.Spec.xblk (V c main_v210) t') (V c main_v200) (V c main_v207)) := by
  show (cfg0.win 4).cut (grid0.coords t) ((dat0 V c).after 4 t) = _
  rw [after0_4]
  unfold stats
  dsimp only [rstat]
  rw [View.canon_unit_zero hz3]
  obtain ⟨e0, e1, e2, e3, e4, e5, e6, e7, e8, e9⟩ := idx_facts t
  have hN : cfg0.N = 64 := N_0
  have ht : t.val < 64 := by have := t.isLt; omega
  rw [iblk_x V c t, iblk_w V c t, iblk_b V c t]
  funext j
  show statsVal (F := Ideal) (Cert.Spec.xblk (V c main_v210) ⟨t.val, ht⟩) (V c main_v200) (V c main_v207) j
      = Cert.Spec.ofBlocks (fun t' => statsVal (F := Ideal) (Cert.Spec.xblk (V c main_v210) t') (V c main_v200) (V c main_v207))
          (((cfg0.win 4).blk t).view.emb j)
  unfold Cert.Spec.ofBlocks
  have hj0 : (j 0).val < 8 := (j 0).isLt
  have v0 : ((((cfg0.win 4).blk t).view.emb j) 0).val = t.val * 8 + (j 0).val := by
    show win0_4.index t (0 : Fin 3) * 8 + 1 * (j 0).val = _; omega
  have v1 : ((((cfg0.win 4).blk t).view.emb j) 1).val = (j 1).val := by
    show win0_4.index t (1 : Fin 3) * 2 + 1 * (j 1).val = _; omega
  have v2 : ((((cfg0.win 4).blk t).view.emb j) 2).val = (j 2).val := by
    show win0_4.index t (2 : Fin 3) * 512 + 1 * (j 2).val = _; omega
  have a1 : (⟨((((cfg0.win 4).blk t).view.emb j) 0).val / 8, by have h : ((((cfg0.win 4).blk t).view.emb j) 0).val < 512 := ((((cfg0.win 4).blk t).view.emb j) 0).isLt; omega⟩ : Fin 64) = ⟨t.val, ht⟩ :=
    Fin.ext (by show ((((cfg0.win 4).blk t).view.emb j) 0).val / 8 = t.val; omega)
  have a2 : (ix3 (n0 := 8) (n1 := 2) (n2 := 512) ⟨((((cfg0.win 4).blk t).view.emb j) 0).val % 8, by omega⟩
      ((((cfg0.win 4).blk t).view.emb j) 1) ((((cfg0.win 4).blk t).view.emb j) 2) : S8x2x512.Idx) = j := by
    funext a; apply Fin.ext
    match a with
    | ⟨0, _⟩ => show ((((cfg0.win 4).blk t).view.emb j) 0).val % 8 = (j 0).val; omega
    | ⟨1, _⟩ => exact v1
    | ⟨2, _⟩ => exact v2
  rw [a1, a2]

/-- An index of the array is in point `t`'s block iff each coordinate is in the block's range on its axis. -/
theorem mem_blk4 (t : Fin cfg0.N) (i : S512x2x512.Idx) :
    i ∈ ((cfg0.win 4).blk t).view.set ↔ ∀ a : Fin 3, win0_4.index t a * S8x2x512.size a ≤ (i a).val ∧ (i a).val < win0_4.index t a * S8x2x512.size a + S8x2x512.size a := by
  show i ∈ ((View.whole main_v211_1).slice (win0_4.rect t)).set ↔ _
  rw [View.set_slice_whole, Rect.mem_set_unit]
  exact Iff.rfl

/-- Every index is in the block of the point that takes its image. -/
theorem cover4 (i : S512x2x512.Idx) : ∃ t : Fin cfg0.N, (cfg0.win 4).flush t = true ∧ i ∈ ((cfg0.win 4).blk t).view.set := by
  have hi0 : (i 0).val < 512 := (i 0).isLt
  have hi1 : (i 1).val < 2 := (i 1).isLt
  have hi2 : (i 2).val < 512 := (i 2).isLt
  have hN : cfg0.N = 64 := N_0
  let t : Fin cfg0.N := ⟨(i 0).val / 8, by omega⟩
  obtain ⟨e0, e1, e2, e3, e4, e5, e6, e7, e8, e9⟩ := idx_facts t
  have ht : t.val = (i 0).val / 8 := rfl
  refine ⟨t, flush0_4 t, ?_⟩
  rw [mem_blk4]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 2 ≤ (i 1).val ∧ (i 1).val < win0_4.index t (1 : Fin 3) * 2 + 2; omega
  | ⟨2, _⟩ => show win0_4.index t (2 : Fin 3) * 512 ≤ (i 2).val ∧ (i 2).val < win0_4.index t (2 : Fin 3) * 512 + 512; omega

/-- The statistics array after the region. -/
theorem final4 (c : Dev nD) : (dat0 V c).arrAt 4 cfg0.N
    = Cert.Spec.ofBlocks fun t' => statsVal (F := Ideal) (Cert.Spec.xblk (V c main_v210) t') (V c main_v200) (V c main_v207) :=
  (dat0 V c).arrAt_eq_of_cover 4 _ (fun t _ => flushed4_eq V c t) cover4

end Cert.ReferenceIdeal.ConvArr

end
-- ==== Proof.BlockEq.lean ====
/-
  On a block of eight images the two convolution bodies store the same features, provided the two stacks of row-shift
  matrices agree entry by entry and the entries outside each output tile's window of input lanes are zero: each of the
  reference's seven sums over all 512 input lanes is then the sum over the window (Cert.SumLaws.sum_mul_window), which is
  what the kernel's body adds up.
-/
import proofs.«179230_g2000505885998750_pallasbulk_270_2_alg».proof.Proof.KConvPay
import proofs.«179230_g2000505885998750_pallasbulk_270_2_alg».proof.Proof.RConvPay
import proofs.«179230_g2000505885998750_pallasbulk_270_2_alg».proof.Proof.LibSumLaws

set_option maxRecDepth 16384

noncomputable section

namespace Cert.Bridge

open Idealize.ShloMosaic Idealize.ShloMosaic.ValueIdx
open scoped BigOperators

/-- The first input lane the kernel contracts for output lane `l`: the start of the tile before `l`'s, if there is one. -/
def bandLo (l : ℕ) : ℕ := if l < 256 then 0 else if l < 384 then 128 else 256
/-- How many input lanes it contracts: three tiles of 128, two at the ends. -/
def bandLen (l : ℕ) : ℕ := if l < 128 then 256 else if l < 384 then 384 else 256

/-- A stack of row-shift matrices whose entries outside the band are zero. -/
def Banded (Wr : (⟨3, ![7, 512, 512]⟩ : Shape).Idx → EReal) : Prop :=
  ∀ (g : Fin 7) (k l : Fin 512), ¬ (bandLo l.val ≤ k.val ∧ k.val < bandLo l.val + bandLen l.val) →
    Wr (ix3 (n0 := 7) (n1 := 512) (n2 := 512) g k l) = 0

set_option maxHeartbeats 1000000 in
/-- The kernel's stored features are the reference's, block by block. -/
theorem block_eq (X : Vec Ideal Cert.KernelIdeal.S8x40x512 .f32) (Wk : Vec Ideal Cert.KernelIdeal.S7x512x512 .bf16) (Wr : Vec Ideal Cert.ReferenceIdeal.S7x512x512 .f32)
    (B : Vec Ideal Cert.KernelIdeal.S1x512 .f32) (hW : ∀ i, Wk i = Wr i) (hband : Banded Wr) :
    Cert.KernelIdeal.ConvValue.featValK X Wk B = Cert.ReferenceIdeal.Hand.featVal X Wr B := by
  funext i
  obtain ⟨q, h, l, rfl⟩ : ∃ (q : Fin 8) (h : Fin 32) (l : Fin 512), i = ix3 (n0 := 8) (n1 := 32) (n2 := 512) q h l :=
    ⟨i 0, i 1, i 2, eq_ix3 i⟩
  by_cases h0 : l.val < 128
  ·
    obtain ⟨c, rfl⟩ : ∃ c : Fin 128, l = ⟨0 + c.val, Nat.lt_of_lt_of_le (Nat.add_lt_add_left c.isLt 0) (by decide)⟩ :=
      ⟨⟨l.val - 0, by omega⟩, Fin.ext (by show l.val = 0 + (l.val - 0); omega)⟩
    have hlo : bandLo (0 + c.val) = 0 := by unfold bandLo; split_ifs <;> omega
    have hlen : bandLen (0 + c.val) = 256 := by unfold bandLen; split_ifs <;> omega
    rw [Cert.KernelIdeal.ConvValue.featValK_tile0, Cert.ReferenceIdeal.ConvValue.featVal_apply]
    simp only [hW]
    have e0 : (∑ k : Fin 512, X (ix3 (n0 := 8) (n1 := 40) (n2 := 512) q ⟨h.val + 0, by omega⟩ k) * Wr (ix3 (n0 := 7) (n1 := 512) (n2 := 512) 0 k ⟨0 + c.val, by omega⟩))
        = ∑ k : Fin 256, X (ix3 (n0 := 8) (n1 := 40) (n2 := 512) q ⟨h.val + 0, by omega⟩ ⟨0 + k.val, by omega⟩) * Wr (ix3 (n0 := 7) (n1 := 512) (n2 := 512) 0 ⟨0 + k.val, by omega⟩ ⟨0 + c.val, by omega⟩) :=
      Cert.SumLaws.sum_mul_window 0 256 (by omega) (fun k => X (ix3 (n0 := 8) (n1 := 40) (n2 := 512) q ⟨h.val + 0, by omega⟩ k))
        (fun k => Wr (ix3 (n0 := 7) (n1 := 512) (n2 := 512) 0 k ⟨0 + c.val, by omega⟩)) (fun k hk => hband 0 k ⟨0 + c.val, by omega⟩ (by rw [hlo, hlen]; exact hk))
    have e1 : (∑ k : Fin 512, X (ix3 (n0 := 8) (n1 := 40) (n2 := 512) q ⟨h.val + 2, by omega⟩ k) * Wr (ix3 (n0 := 7) (n1 := 512) (n2 := 512) 1 k ⟨0 + c.val, by omega⟩))
        = ∑ k : Fin 256, X (ix3 (n0 := 8) (n1 := 40) (n2 := 512) q ⟨h.val + 2, by omega⟩ ⟨0 + k.val, by omega⟩) * Wr (ix3 (n0 := 7) (n1 := 512) (n2 := 512) 1 ⟨0 + k.val, by omega⟩ ⟨0 + c.val, by omega⟩) :=
      Cert.SumLaws.sum_mul_window 0 256 (by omega) (fun k => X (ix3 (n0 := 8) (n1 := 40) (n2 := 512) q ⟨h.val + 2, by omega⟩ k))
        (fun k => Wr (ix3 (n0 := 7) (n1 := 512) (n2 := 512) 1 k ⟨0 + c.val, by omega⟩)) (fun k hk => hband 1 k ⟨0 + c.val, by omega⟩ (by rw [hlo, hlen]; exact hk))
    have e2 : (∑ k : Fin 512, X (ix3 (n0 := 8) (n1 := 40) (n2 := 512) q ⟨h.val + 3, by omega⟩ k) * Wr (ix3 (n0 := 7) (n1 := 512) (n2 := 512) 2 k ⟨0 + c.val, by omega⟩))
        = ∑ k : Fin 256, X (ix3 (n0 := 8) (n1 := 40) (n2 := 512) q ⟨h.val + 3, by omega⟩ ⟨0 + k.val, by omega⟩) * Wr (ix3 (n0 := 7) (n1 := 512) (n2 := 512) 2 ⟨0 + k.val, by omega⟩ ⟨0 + c.val, by omega⟩) :=
      Cert.SumLaws.sum_mul_window 0 256 (by omega) (fun k => X (ix3 (n0 := 8) (n1 := 40) (n2 := 512) q ⟨h.val + 3, by omega⟩ k))
        (fun k => Wr (ix3 (n0 := 7) (n1 := 512) (n2 := 512) 2 k ⟨0 + c.val, by omega⟩)) (fun k hk => hband 2 k ⟨0 + c.val, by omega⟩ (by rw [hlo, hlen]; exact hk))
    have e3 : (∑ k : Fin 512, X (ix3 (n0 := 8) (n1 := 40) (n2 := 512) q ⟨h.val + 4, by omega⟩ k) * Wr (ix3 (n0 := 7) (n1 := 512) (n2 := 512) 3 k ⟨0 + c.val, by omega⟩))
        = ∑ k : Fin 256, X (ix3 (n0 := 8) (n1 := 40) (n2 := 512) q ⟨h.val + 4, by omega⟩ ⟨0 + k.val, by omega⟩) * Wr (ix3 (n0 := 7) (n1 := 512) (n2 := 512) 3 ⟨0 + k.val, by omega⟩ ⟨0 + c.val, by omega⟩) :=
      Cert.SumLaws.sum_mul_window 0 256 (by omega) (fun k => X (ix3 (n0 := 8) (n1 := 40) (n2 := 512) q ⟨h.val + 4, by omega⟩ k))
        (fun k => Wr (ix3 (n0 := 7) (n1 := 512) (n2 := 512) 3 k ⟨0 + c.val, by omega⟩)) (fun k hk => hband 3 k ⟨0 + c.val, by omega⟩ (by rw [hlo, hlen]; exact hk))
    have e4 : (∑ k : Fin 512, X (ix3 (n0 := 8) (n1 := 40) (n2 := 512) q ⟨h.val + 5, by omega⟩ k) * Wr (ix3 (n0 := 7) (n1 := 512) (n2 := 512) 4 k ⟨0 + c.val, by omega⟩))
        = ∑ k : Fin 256, X (ix3 (n0 := 8) (n1 := 40) (n2 := 512) q ⟨h.val + 5, by omega⟩ ⟨0 + k.val, by omega⟩) * Wr (ix3 (n0 := 7) (n1 := 512) (n2 := 512) 4 ⟨0 + k.val, by omega⟩ ⟨0 + c.val, by omega⟩) :=
      Cert.SumLaws.sum_mul_window 0 256 (by omega) (fun k => X (ix3 (n0 := 8) (n1 := 40) (n2 := 512) q ⟨h.val + 5, by omega⟩ k))
        (fun k => Wr (ix3 (n0 := 7) (n1 := 512) (n2 := 512) 4 k ⟨0 + c.val, by omega⟩)) (fun k hk => hband 4 k ⟨0 + c.val, by omega⟩ (by rw [hlo, hlen]; exact hk))
    have e5 : (∑ k : Fin 512, X (ix3 (n0 := 8) (n1 := 40) (n2 := 512) q ⟨h.val + 6, by omega⟩ k) * Wr (ix3 (n0 := 7) (n1 := 512) (n2 := 512) 5 k ⟨0 + c.val, by omega⟩))
        = ∑ k : Fin 256, X (ix3 (n0 := 8) (n1 := 40) (n2 := 512) q ⟨h.val + 6, by omega⟩ ⟨0 + k.val, by omega⟩) * Wr (ix3 (n0 := 7) (n1 := 512) (n2 := 512) 5 ⟨0 + k.val, by omega⟩ ⟨0 + c.val, by omega⟩) :=
      Cert.SumLaws.sum_mul_window 0 256 (by omega) (fun k => X (ix3 (n0 := 8) (n1 := 40) (n2 := 512) q ⟨h.val + 6, by omega⟩ k))
        (fun k => Wr (ix3 (n0 := 7) (n1 := 512) (n2 := 512) 5 k ⟨0 + c.val, by omega⟩)) (fun k hk => hband 5 k ⟨0 + c.val, by omega⟩ (by rw [hlo, hlen]; exact hk))
    have e6 : (∑ k : Fin 512, X (ix3 (n0 := 8) (n1 := 40) (n2 := 512) q ⟨h.val + 8, by omega⟩ k) * Wr (ix3 (n0 := 7) (n1 := 512) (n2 := 512) 6 k ⟨0 + c.val, by omega⟩))
        = ∑ k : Fin 256, X (ix3 (n0 := 8) (n1 := 40) (n2 := 512) q ⟨h.val + 8, by omega⟩ ⟨0 + k.val, by omega⟩) * Wr (ix3 (n0 := 7) (n1 := 512) (n2 := 512) 6 ⟨0 + k.val, by omega⟩ ⟨0 + c.val, by omega⟩) :=
      Cert.SumLaws.sum_mul_window 0 256 (by omega) (fun k => X (ix3 (n0 := 8) (n1 := 40) (n2 := 512) q ⟨h.val + 8, by omega⟩ k))
        (fun k => Wr (ix3 (n0 := 7) (n1 := 512) (n2 := 512) 6 k ⟨0 + c.val, by omega⟩)) (fun k hk => hband 6 k ⟨0 + c.val, by omega⟩ (by rw [hlo, hlen]; exact hk))
    rw [e0, e1, e2, e3, e4, e5, e6]
  by_cases h1 : l.val < 256
  ·
    obtain ⟨c, rfl⟩ : ∃ c : Fin 128, l = ⟨128 + c.val, Nat.lt_of_lt_of_le (Nat.add_lt_add_left c.isLt 128) (by decide)⟩ :=
      ⟨⟨l.val - 128, by omega⟩, Fin.ext (by show l.val = 128 + (l.val - 128); omega)⟩
    have hlo : bandLo (128 + c.val) = 0 := by unfold bandLo; split_ifs <;> omega
    have hlen : bandLen (128 + c.val) = 384 := by unfold bandLen; split_ifs <;> omega
    rw [Cert.KernelIdeal.ConvValue.featValK_tile1, Cert.ReferenceIdeal.ConvValue.featVal_apply]
    simp only [hW]
    have e0 : (∑ k : Fin 512, X (ix3 (n0 := 8) (n1 := 40) (n2 := 512) q ⟨h.val + 0, by omega⟩ k) * Wr (ix3 (n0 := 7) (n1 := 512) (n2 := 512) 0 k ⟨128 + c.val, by omega⟩))
        = ∑ k : Fin 384, X (ix3 (n0 := 8) (n1 := 40) (n2 := 512) q ⟨h.val + 0, by omega⟩ ⟨0 + k.val, by omega⟩) * Wr (ix3 (n0 := 7) (n1 := 512) (n2 := 512) 0 ⟨0 + k.val, by omega⟩ ⟨128 + c.val, by omega⟩) :=
      Cert.SumLaws.sum_mul_window 0 384 (by omega) (fun k => X (ix3 (n0 := 8) (n1 := 40) (n2 := 512) q ⟨h.val + 0, by omega⟩ k))
        (fun k => Wr (ix3 (n0 := 7) (n1 := 512) (n2 := 512) 0 k ⟨128 + c.val, by omega⟩)) (fun k hk => hband 0 k ⟨128 + c.val, by omega⟩ (by rw [hlo, hlen]; exact hk))
    have e1 : (∑ k : Fin 512, X (ix3 (n0 := 8) (n1 := 40) (n2 := 512) q ⟨h.val + 2, by omega⟩ k) * Wr (ix3 (n0 := 7) (n1 := 512) (n2 := 512) 1 k ⟨128 + c.val, by omega⟩))
        = ∑ k : Fin 384, X (ix3 (n0 := 8) (n1 := 40) (n2 := 512) q ⟨h.val + 2, by omega⟩ ⟨0 + k.val, by omega⟩) * Wr (ix3 (n0 := 7) (n1 := 512) (n2 := 512) 1 ⟨0 + k.val, by omega⟩ ⟨128 + c.val, by omega⟩) :=
      Cert.SumLaws.sum_mul_window 0 384 (by omega) (fun k => X (ix3 (n0 := 8) (n1 := 40) (n2 := 512) q ⟨h.val + 2, by omega⟩ k))
        (fun k => Wr (ix3 (n0 := 7) (n1 := 512) (n2 := 512) 1 k ⟨128 + c.val, by omega⟩)) (fun k hk => hband 1 k ⟨128 + c.val, by omega⟩ (by rw [hlo, hlen]; exact hk))
    have e2 : (∑ k : Fin 512, X (ix3 (n0 := 8) (n1 := 40) (n2 := 512) q ⟨h.val + 3, by omega⟩ k) * Wr (ix3 (n0 := 7) (n1 := 512) (n2 := 512) 2 k ⟨128 + c.val, by omega⟩))
        = ∑ k : Fin 384, X (ix3 (n0 := 8) (n1 := 40) (n2 := 512) q ⟨h.val + 3, by omega⟩ ⟨0 + k.val, by omega⟩) * Wr (ix3 (n0 := 7) (n1 := 512) (n2 := 512) 2 ⟨0 + k.val, by omega⟩ ⟨128 + c.val, by omega⟩) :=
      Cert.SumLaws.sum_mul_window 0 384 (by omega) (fun k => X (ix3 (n0 := 8) (n1 := 40) (n2 := 512) q ⟨h.val + 3, by omega⟩ k))
        (fun k => Wr (ix3 (n0 := 7) (n1 := 512) (n2 := 512) 2 k ⟨128 + c.val, by omega⟩)) (fun k hk => hband 2 k ⟨128 + c.val, by omega⟩ (by rw [hlo, hlen]; exact hk))
    have e3 : (∑ k : Fin 512, X (ix3 (n0 := 8) (n1 := 40) (n2 := 512) q ⟨h.val + 4, by omega⟩ k) * Wr (ix3 (n0 := 7) (n1 := 512) (n2 := 512) 3 k ⟨128 + c.val, by omega⟩))
        = ∑ k : Fin 384, X (ix3 (n0 := 8) (n1 := 40) (n2 := 512) q ⟨h.val + 4, by omega⟩ ⟨0 + k.val, by omega⟩) * Wr (ix3 (n0 := 7) (n1 := 512) (n2 := 512) 3 ⟨0 + k.val, by omega⟩ ⟨128 + c.val, by omega⟩) :=
      Cert.SumLaws.sum_mul_window 0 384 (by omega) (fun k => X (ix3 (n0 := 8) (n1 := 40) (n2 := 512) q ⟨h.val + 4, by omega⟩ k))
        (fun k => Wr (ix3 (n0 := 7) (n1 := 512) (n2 := 512) 3 k ⟨128 + c.val, by omega⟩)) (fun k hk => hband 3 k ⟨128 + c.val, by omega⟩ (by rw [hlo, hlen]; exact hk))
    have e4 : (∑ k : Fin 512, X (ix3 (n0 := 8) (n1 := 40) (n2 := 512) q ⟨h.val + 5, by omega⟩ k) * Wr (ix3 (n0 := 7) (n1 := 512) (n2 := 512) 4 k ⟨128 + c.val, by omega⟩))
        = ∑ k : Fin 384, X (ix3 (n0 := 8) (n1 := 40) (n2 := 512) q ⟨h.val + 5, by omega⟩ ⟨0 + k.val, by omega⟩) * Wr (ix3 (n0 := 7) (n1 := 512) (n2 := 512) 4 ⟨0 + k.val, by omega⟩ ⟨128 + c.val, by omega⟩) :=
      Cert.SumLaws.sum_mul_window 0 384 (by omega) (fun k => X (ix3 (n0 := 8) (n1 := 40) (n2 := 512) q ⟨h.val + 5, by omega⟩ k))
        (fun k => Wr (ix3 (n0 := 7) (n1 := 512) (n2 := 512) 4 k ⟨128 + c.val, by omega⟩)) (fun k hk => hband 4 k ⟨128 + c.val, by omega⟩ (by rw [hlo, hlen]; exact hk))
    have e5 : (∑ k : Fin 512, X (ix3 (n0 := 8) (n1 := 40) (n2 := 512) q ⟨h.val + 6, by omega⟩ k) * Wr (ix3 (n0 := 7) (n1 := 512) (n2 := 512) 5 k ⟨128 + c.val, by omega⟩))
        = ∑ k : Fin 384, X (ix3 (n0 := 8) (n1 := 40) (n2 := 512) q ⟨h.val + 6, by omega⟩ ⟨0 + k.val, by omega⟩) * Wr (ix3 (n0 := 7) (n1 := 512) (n2 := 512) 5 ⟨0 + k.val, by omega⟩ ⟨128 + c.val, by omega⟩) :=
      Cert.SumLaws.sum_mul_window 0 384 (by omega) (fun k => X (ix3 (n0 := 8) (n1 := 40) (n2 := 512) q ⟨h.val + 6, by omega⟩ k))
        (fun k => Wr (ix3 (n0 := 7) (n1 := 512) (n2 := 512) 5 k ⟨128 + c.val, by omega⟩)) (fun k hk => hband 5 k ⟨128 + c.val, by omega⟩ (by rw [hlo, hlen]; exact hk))
    have e6 : (∑ k : Fin 512, X (ix3 (n0 := 8) (n1 := 40) (n2 := 512) q ⟨h.val + 8, by omega⟩ k) * Wr (ix3 (n0 := 7) (n1 := 512) (n2 := 512) 6 k ⟨128 + c.val, by omega⟩))
        = ∑ k : Fin 384, X (ix3 (n0 := 8) (n1 := 40) (n2 := 512) q ⟨h.val + 8, by omega⟩ ⟨0 + k.val, by omega⟩) * Wr (ix3 (n0 := 7) (n1 := 512) (n2 := 512) 6 ⟨0 + k.val, by omega⟩ ⟨128 + c.val, by omega⟩) :=
      Cert.SumLaws.sum_mul_window 0 384 (by omega) (fun k => X (ix3 (n0 := 8) (n1 := 40) (n2 := 512) q ⟨h.val + 8, by omega⟩ k))
        (fun k => Wr (ix3 (n0 := 7) (n1 := 512) (n2 := 512) 6 k ⟨128 + c.val, by omega⟩)) (fun k hk => hband 6 k ⟨128 + c.val, by omega⟩ (by rw [hlo, hlen]; exact hk))
    rw [e0, e1, e2, e3, e4, e5, e6]
  by_cases h2 : l.val < 384
  ·
    obtain ⟨c, rfl⟩ : ∃ c : Fin 128, l = ⟨256 + c.val, Nat.lt_of_lt_of_le (Nat.add_lt_add_left c.isLt 256) (by decide)⟩ :=
      ⟨⟨l.val - 256, by omega⟩, Fin.ext (by show l.val = 256 + (l.val - 256); omega)⟩
    have hlo : bandLo (256 + c.val) = 128 := by unfold bandLo; split_ifs <;> omega
    have hlen : bandLen (256 + c.val) = 384 := by unfold bandLen; split_ifs <;> omega
    rw [Cert.KernelIdeal.ConvValue.featValK_tile2, Cert.ReferenceIdeal.ConvValue.featVal_apply]
    simp only [hW]
    have e0 : (∑ k : Fin 512, X (ix3 (n0 := 8) (n1 := 40) (n2 := 512) q ⟨h.val + 0, by omega⟩ k) * Wr (ix3 (n0 := 7) (n1 := 512) (n2 := 512) 0 k ⟨256 + c.val, by omega⟩))
        = ∑ k : Fin 384, X (ix3 (n0 := 8) (n1 := 40) (n2 := 512) q ⟨h.val + 0, by omega⟩ ⟨128 + k.val, by omega⟩) * Wr (ix3 (n0 := 7) (n1 := 512) (n2 := 512) 0 ⟨128 + k.val, by omega⟩ ⟨256 + c.val, by omega⟩) :=
      Cert.SumLaws.sum_mul_window 128 384 (by omega) (fun k => X (ix3 (n0 := 8) (n1 := 40) (n2 := 512) q ⟨h.val + 0, by omega⟩ k))
        (fun k => Wr (ix3 (n0 := 7) (n1 := 512) (n2 := 512) 0 k ⟨256 + c.val, by omega⟩)) (fun k hk => hband 0 k ⟨256 + c.val, by omega⟩ (by rw [hlo, hlen]; exact hk))
    have e1 : (∑ k : Fin 512, X (ix3 (n0 := 8) (n1 := 40) (n2 := 512) q ⟨h.val + 2, by omega⟩ k) * Wr (ix3 (n0 := 7) (n1 := 512) (n2 := 512) 1 k ⟨256 + c.val, by omega⟩))
        = ∑ k : Fin 384, X (ix3 (n0 := 8) (n1 := 40) (n2 := 512) q ⟨h.val + 2, by omega⟩ ⟨128 + k.val, by omega⟩) * Wr (ix3 (n0 := 7) (n1 := 512) (n2 := 512) 1 ⟨128 + k.val, by omega⟩ ⟨256 + c.val, by omega⟩) :=
      Cert.SumLaws.sum_mul_window 128 384 (by omega) (fun k => X (ix3 (n0 := 8) (n1 := 40) (n2 := 512) q ⟨h.val + 2, by omega⟩ k))
        (fun k => Wr (ix3 (n0 := 7) (n1 := 512) (n2 := 512) 1 k ⟨256 + c.val, by omega⟩)) (fun k hk => hband 1 k ⟨256 + c.val, by omega⟩ (by rw [hlo, hlen]; exact hk))
    have e2 : (∑ k : Fin 512, X (ix3 (n0 := 8) (n1 := 40) (n2 := 512) q ⟨h.val + 3, by omega⟩ k) * Wr (ix3 (n0 := 7) (n1 := 512) (n2 := 512) 2 k ⟨256 + c.val, by omega⟩))
        = ∑ k : Fin 384, X (ix3 (n0 := 8) (n1 := 40) (n2 := 512) q ⟨h.val + 3, by omega⟩ ⟨128 + k.val, by omega⟩) * Wr (ix3 (n0 := 7) (n1 := 512) (n2 := 512) 2 ⟨128 + k.val, by omega⟩ ⟨256 + c.val, by omega⟩) :=
      Cert.SumLaws.sum_mul_window 128 384 (by omega) (fun k => X (ix3 (n0 := 8) (n1 := 40) (n2 := 512) q ⟨h.val + 3, by omega⟩ k))
        (fun k => Wr (ix3 (n0 := 7) (n1 := 512) (n2 := 512) 2 k ⟨256 + c.val, by omega⟩)) (fun k hk => hband 2 k ⟨256 + c.val, by omega⟩ (by rw [hlo, hlen]; exact hk))
    have e3 : (∑ k : Fin 512, X (ix3 (n0 := 8) (n1 := 40) (n2 := 512) q ⟨h.val + 4, by omega⟩ k) * Wr (ix3 (n0 := 7) (n1 := 512) (n2 := 512) 3 k ⟨256 + c.val, by omega⟩))
        = ∑ k : Fin 384, X (ix3 (n0 := 8) (n1 := 40) (n2 := 512) q ⟨h.val + 4, by omega⟩ ⟨128 + k.val, by omega⟩) * Wr (ix3 (n0 := 7) (n1 := 512) (n2 := 512) 3 ⟨128 + k.val, by omega⟩ ⟨256 + c.val, by omega⟩) :=
      Cert.SumLaws.sum_mul_window 128 384 (by omega) (fun k => X (ix3 (n0 := 8) (n1 := 40) (n2 := 512) q ⟨h.val + 4, by omega⟩ k))
        (fun k => Wr (ix3 (n0 := 7) (n1 := 512) (n2 := 512) 3 k ⟨256 + c.val, by omega⟩)) (fun k hk => hband 3 k ⟨256 + c.val, by omega⟩ (by rw [hlo, hlen]; exact hk))
    have e4 : (∑ k : Fin 512, X (ix3 (n0 := 8) (n1 := 40) (n2 := 512) q ⟨h.val + 5, by omega⟩ k) * Wr (ix3 (n0 := 7) (n1 := 512) (n2 := 512) 4 k ⟨256 + c.val, by omega⟩))
        = ∑ k : Fin 384, X (ix3 (n0 := 8) (n1 := 40) (n2 := 512) q ⟨h.val + 5, by omega⟩ ⟨128 + k.val, by omega⟩) * Wr (ix3 (n0 := 7) (n1 := 512) (n2 := 512) 4 ⟨128 + k.val, by omega⟩ ⟨256 + c.val, by omega⟩) :=
      Cert.SumLaws.sum_mul_window 128 384 (by omega) (fun k => X (ix3 (n0 := 8) (n1 := 40) (n2 := 512) q ⟨h.val + 5, by omega⟩ k))
        (fun k => Wr (ix3 (n0 := 7) (n1 := 512) (n2 := 512) 4 k ⟨256 + c.val, by omega⟩)) (fun k hk => hband 4 k ⟨256 + c.val, by omega⟩ (by rw [hlo, hlen]; exact hk))
    have e5 : (∑ k : Fin 512, X (ix3 (n0 := 8) (n1 := 40) (n2 := 512) q ⟨h.val + 6, by omega⟩ k) * Wr (ix3 (n0 := 7) (n1 := 512) (n2 := 512) 5 k ⟨256 + c.val, by omega⟩))
        = ∑ k : Fin 384, X (ix3 (n0 := 8) (n1 := 40) (n2 := 512) q ⟨h.val + 6, by omega⟩ ⟨128 + k.val, by omega⟩) * Wr (ix3 (n0 := 7) (n1 := 512) (n2 := 512) 5 ⟨128 + k.val, by omega⟩ ⟨256 + c.val, by omega⟩) :=
      Cert.SumLaws.sum_mul_window 128 384 (by omega) (fun k => X (ix3 (n0 := 8) (n1 := 40) (n2 := 512) q ⟨h.val + 6, by omega⟩ k))
        (fun k => Wr (ix3 (n0 := 7) (n1 := 512) (n2 := 512) 5 k ⟨256 + c.val, by omega⟩)) (fun k hk => hband 5 k ⟨256 + c.val, by omega⟩ (by rw [hlo, hlen]; exact hk))
    have e6 : (∑ k : Fin 512, X (ix3 (n0 := 8) (n1 := 40) (n2 := 512) q ⟨h.val + 8, by omega⟩ k) * Wr (ix3 (n0 := 7) (n1 := 512) (n2 := 512) 6 k ⟨256 + c.val, by omega⟩))
        = ∑ k : Fin 384, X (ix3 (n0 := 8) (n1 := 40) (n2 := 512) q ⟨h.val + 8, by omega⟩ ⟨128 + k.val, by omega⟩) * Wr (ix3 (n0 := 7) (n1 := 512) (n2 := 512) 6 ⟨128 + k.val, by omega⟩ ⟨256 + c.val, by omega⟩) :=
      Cert.SumLaws.sum_mul_window 128 384 (by omega) (fun k => X (ix3 (n0 := 8) (n1 := 40) (n2 := 512) q ⟨h.val + 8, by omega⟩ k))
        (fun k => Wr (ix3 (n0 := 7) (n1 := 512) (n2 := 512) 6 k ⟨256 + c.val, by omega⟩)) (fun k hk => hband 6 k ⟨256 + c.val, by omega⟩ (by rw [hlo, hlen]; exact hk))
    rw [e0, e1, e2, e3, e4, e5, e6]
  ·
    obtain ⟨c, rfl⟩ : ∃ c : Fin 128, l = ⟨384 + c.val, Nat.lt_of_lt_of_le (Nat.add_lt_add_left c.isLt 384) (by decide)⟩ :=
      ⟨⟨l.val - 384, by omega⟩, Fin.ext (by show l.val = 384 + (l.val - 384); omega)⟩
    have hlo : bandLo (384 + c.val) = 256 := by unfold bandLo; split_ifs <;> omega
    have hlen : bandLen (384 + c.val) = 256 := by unfold bandLen; split_ifs <;> omega
    rw [Cert.KernelIdeal.ConvValue.featValK_tile3, Cert.ReferenceIdeal.ConvValue.featVal_apply]
    simp only [hW]
    have e0 : (∑ k : Fin 512, X (ix3 (n0 := 8) (n1 := 40) (n2 := 512) q ⟨h.val + 0, by omega⟩ k) * Wr (ix3 (n0 := 7) (n1 := 512) (n2 := 512) 0 k ⟨384 + c.val, by omega⟩))
        = ∑ k : Fin 256, X (ix3 (n0 := 8) (n1 := 40) (n2 := 512) q ⟨h.val + 0, by omega⟩ ⟨256 + k.val, by omega⟩) * Wr (ix3 (n0 := 7) (n1 := 512) (n2 := 512) 0 ⟨256 + k.val, by omega⟩ ⟨384 + c.val, by omega⟩) :=
      Cert.SumLaws.sum_mul_window 256 256 (by omega) (fun k => X (ix3 (n0 := 8) (n1 := 40) (n2 := 512) q ⟨h.val + 0, by omega⟩ k))
        (fun k => Wr (ix3 (n0 := 7) (n1 := 512) (n2 := 512) 0 k ⟨384 + c.val, by omega⟩)) (fun k hk => hband 0 k ⟨384 + c.val, by omega⟩ (by rw [hlo, hlen]; exact hk))
    have e1 : (∑ k : Fin 512, X (ix3 (n0 := 8) (n1 := 40) (n2 := 512) q ⟨h.val + 2, by omega⟩ k) * Wr (ix3 (n0 := 7) (n1 := 512) (n2 := 512) 1 k ⟨384 + c.val, by omega⟩))
        = ∑ k : Fin 256, X (ix3 (n0 := 8) (n1 := 40) (n2 := 512) q ⟨h.val + 2, by omega⟩ ⟨256 + k.val, by omega⟩) * Wr (ix3 (n0 := 7) (n1 := 512) (n2 := 512) 1 ⟨256 + k.val, by omega⟩ ⟨384 + c.val, by omega⟩) :=
      Cert.SumLaws.sum_mul_window 256 256 (by omega) (fun k => X (ix3 (n0 := 8) (n1 := 40) (n2 := 512) q ⟨h.val + 2, by omega⟩ k))
        (fun k => Wr (ix3 (n0 := 7) (n1 := 512) (n2 := 512) 1 k ⟨384 + c.val, by omega⟩)) (fun k hk => hband 1 k ⟨384 + c.val, by omega⟩ (by rw [hlo, hlen]; exact hk))
    have e2 : (∑ k : Fin 512, X (ix3 (n0 := 8) (n1 := 40) (n2 := 512) q ⟨h.val + 3, by omega⟩ k) * Wr (ix3 (n0 := 7) (n1 := 512) (n2 := 512) 2 k ⟨384 + c.val, by omega⟩))
        = ∑ k : Fin 256, X (ix3 (n0 := 8) (n1 := 40) (n2 := 512) q ⟨h.val + 3, by omega⟩ ⟨256 + k.val, by omega⟩) * Wr (ix3 (n0 := 7) (n1 := 512) (n2 := 512) 2 ⟨256 + k.val, by omega⟩ ⟨384 + c.val, by omega⟩) :=
      Cert.SumLaws.sum_mul_window 256 256 (by omega) (fun k => X (ix3 (n0 := 8) (n1 := 40) (n2 := 512) q ⟨h.val + 3, by omega⟩ k))
        (fun k => Wr (ix3 (n0 := 7) (n1 := 512) (n2 := 512) 2 k ⟨384 + c.val, by omega⟩)) (fun k hk => hband 2 k ⟨384 + c.val, by omega⟩ (by rw [hlo, hlen]; exact hk))
    have e3 : (∑ k : Fin 512, X (ix3 (n0 := 8) (n1 := 40) (n2 := 512) q ⟨h.val + 4, by omega⟩ k) * Wr (ix3 (n0 := 7) (n1 := 512) (n2 := 512) 3 k ⟨384 + c.val, by omega⟩))
        = ∑ k : Fin 256, X (ix3 (n0 := 8) (n1 := 40) (n2 := 512) q ⟨h.val + 4, by omega⟩ ⟨256 + k.val, by omega⟩) * Wr (ix3 (n0 := 7) (n1 := 512) (n2 := 512) 3 ⟨256 + k.val, by omega⟩ ⟨384 + c.val, by omega⟩) :=
      Cert.SumLaws.sum_mul_window 256 256 (by omega) (fun k => X (ix3 (n0 := 8) (n1 := 40) (n2 := 512) q ⟨h.val + 4, by omega⟩ k))
        (fun k => Wr (ix3 (n0 := 7) (n1 := 512) (n2 := 512) 3 k ⟨384 + c.val, by omega⟩)) (fun k hk => hband 3 k ⟨384 + c.val, by omega⟩ (by rw [hlo, hlen]; exact hk))
    have e4 : (∑ k : Fin 512, X (ix3 (n0 := 8) (n1 := 40) (n2 := 512) q ⟨h.val + 5, by omega⟩ k) * Wr (ix3 (n0 := 7) (n1 := 512) (n2 := 512) 4 k ⟨384 + c.val, by omega⟩))
        = ∑ k : Fin 256, X (ix3 (n0 := 8) (n1 := 40) (n2 := 512) q ⟨h.val + 5, by omega⟩ ⟨256 + k.val, by omega⟩) * Wr (ix3 (n0 := 7) (n1 := 512) (n2 := 512) 4 ⟨256 + k.val, by omega⟩ ⟨384 + c.val, by omega⟩) :=
      Cert.SumLaws.sum_mul_window 256 256 (by omega) (fun k => X (ix3 (n0 := 8) (n1 := 40) (n2 := 512) q ⟨h.val + 5, by omega⟩ k))
        (fun k => Wr (ix3 (n0 := 7) (n1 := 512) (n2 := 512) 4 k ⟨384 + c.val, by omega⟩)) (fun k hk => hband 4 k ⟨384 + c.val, by omega⟩ (by rw [hlo, hlen]; exact hk))
    have e5 : (∑ k : Fin 512, X (ix3 (n0 := 8) (n1 := 40) (n2 := 512) q ⟨h.val + 6, by omega⟩ k) * Wr (ix3 (n0 := 7) (n1 := 512) (n2 := 512) 5 k ⟨384 + c.val, by omega⟩))
        = ∑ k : Fin 256, X (ix3 (n0 := 8) (n1 := 40) (n2 := 512) q ⟨h.val + 6, by omega⟩ ⟨256 + k.val, by omega⟩) * Wr (ix3 (n0 := 7) (n1 := 512) (n2 := 512) 5 ⟨256 + k.val, by omega⟩ ⟨384 + c.val, by omega⟩) :=
      Cert.SumLaws.sum_mul_window 256 256 (by omega) (fun k => X (ix3 (n0 := 8) (n1 := 40) (n2 := 512) q ⟨h.val + 6, by omega⟩ k))
        (fun k => Wr (ix3 (n0 := 7) (n1 := 512) (n2 := 512) 5 k ⟨384 + c.val, by omega⟩)) (fun k hk => hband 5 k ⟨384 + c.val, by omega⟩ (by rw [hlo, hlen]; exact hk))
    have e6 : (∑ k : Fin 512, X (ix3 (n0 := 8) (n1 := 40) (n2 := 512) q ⟨h.val + 8, by omega⟩ k) * Wr (ix3 (n0 := 7) (n1 := 512) (n2 := 512) 6 k ⟨384 + c.val, by omega⟩))
        = ∑ k : Fin 256, X (ix3 (n0 := 8) (n1 := 40) (n2 := 512) q ⟨h.val + 8, by omega⟩ ⟨256 + k.val, by omega⟩) * Wr (ix3 (n0 := 7) (n1 := 512) (n2 := 512) 6 ⟨256 + k.val, by omega⟩ ⟨384 + c.val, by omega⟩) :=
      Cert.SumLaws.sum_mul_window 256 256 (by omega) (fun k => X (ix3 (n0 := 8) (n1 := 40) (n2 := 512) q ⟨h.val + 8, by omega⟩ k))
        (fun k => Wr (ix3 (n0 := 7) (n1 := 512) (n2 := 512) 6 k ⟨384 + c.val, by omega⟩)) (fun k hk => hband 6 k ⟨384 + c.val, by omega⟩ (by rw [hlo, hlen]; exact hk))
    rw [e0, e1, e2, e3, e4, e5, e6]

end Cert.Bridge

end
-- ==== Proof.LibKronAt.lean ====
/-
  A Kronecker product of a 32 x 32 matrix `s` with a 16 x 16 matrix `t`, computed as the reference does — both broadcast
  to 32 x 16 x 32 x 16, multiplied, and flattened to 512 x 512 — read at row `wi * 16 + ci` and column `wo * 16 + co`:
  `s[wi, wo] * t[ci, co]`.
-/
import Idealize.ShloMosaic.PureOps.Ideal
import Idealize.ShloMosaic.Lib.Pipeline.Value
import Idealize.ShloMosaic.Lib.ValueIdx

noncomputable section

namespace Cert.KronAt

open Idealize.ShloMosaic Idealize.ShloMosaic.ValueIdx

theorem kron_apply (s : FVec Ideal ⟨2, ![32, 32]⟩ .f32) (t : FVec Ideal ⟨2, ![16, 16]⟩ .f32)
    (h1 : (⟨2, ![32, 32]⟩ : Shape).BroadcastsInDim ⟨4, ![32, 1, 32, 1]⟩ ![0, 2])
    (h2 : (⟨2, ![16, 16]⟩ : Shape).BroadcastsInDim ⟨4, ![1, 16, 1, 16]⟩ ![1, 3])
    (h3 : (⟨4, ![32, 1, 32, 1]⟩ : Shape).BroadcastsInDim ⟨4, ![32, 16, 32, 16]⟩ ![0, 1, 2, 3])
    (h4 : (⟨4, ![1, 16, 1, 16]⟩ : Shape).BroadcastsInDim ⟨4, ![32, 16, 32, 16]⟩ ![0, 1, 2, 3])
    (h5 : (⟨4, ![32, 16, 32, 16]⟩ : Shape).ShapeCasts ⟨2, ![512, 512]⟩)
    (wi wo : Fin 32) (ci co : Fin 16) :
    shapeCast ⟨2, ![512, 512]⟩
        (mulf (F := Ideal) (φ := .f32)
          (broadcastInDim ⟨4, ![32, 16, 32, 16]⟩ ![0, 1, 2, 3] h3 (broadcastInDim ⟨4, ![32, 1, 32, 1]⟩ ![0, 2] h1 s))
          (broadcastInDim ⟨4, ![32, 16, 32, 16]⟩ ![0, 1, 2, 3] h4 (broadcastInDim ⟨4, ![1, 16, 1, 16]⟩ ![1, 3] h2 t))) h5
        (ix2 (n0 := 512) (n1 := 512) ⟨wi.val * 16 + ci.val, by omega⟩ ⟨wo.val * 16 + co.val, by omega⟩)
      = s (ix2 wi wo) * t (ix2 ci co) := by
  rw [shapeCast_apply _ h5 (ix2 (n0 := 512) (n1 := 512) ⟨wi.val * 16 + ci.val, by omega⟩ ⟨wo.val * 16 + co.val, by omega⟩)
    (ix4 (n0 := 32) (n1 := 16) (n2 := 32) (n3 := 16) wi ci wo co) (by
      rw [Shape.rowMajor_val_four, Shape.rowMajor_val_two]
      show ((wi.val * 16 + ci.val) * 32 + wo.val) * 16 + co.val = (wi.val * 16 + ci.val) * 512 + (wo.val * 16 + co.val)
      omega)]
  show broadcastInDim ⟨4, ![32, 16, 32, 16]⟩ ![0, 1, 2, 3] h3 (broadcastInDim ⟨4, ![32, 1, 32, 1]⟩ ![0, 2] h1 s) (ix4 wi ci wo co)
      * broadcastInDim ⟨4, ![32, 16, 32, 16]⟩ ![0, 1, 2, 3] h4 (broadcastInDim ⟨4, ![1, 16, 1, 16]⟩ ![1, 3] h2 t) (ix4 wi ci wo co) = _
  rw [broadcastInDim_apply ![0, 1, 2, 3] h3 _ (ix4 wi ci wo co) (ix4 (n0 := 32) (n1 := 1) (n2 := 32) (n3 := 1) wi 0 wo 0)
      (fun a => by match a with | ⟨0, _⟩ => rfl | ⟨1, _⟩ => rfl | ⟨2, _⟩ => rfl | ⟨3, _⟩ => rfl),
    broadcastInDim_apply ![0, 2] h1 s (ix4 (n0 := 32) (n1 := 1) (n2 := 32) (n3 := 1) wi 0 wo 0) (ix2 wi wo)
      (fun a => by match a with | ⟨0, _⟩ => rfl | ⟨1, _⟩ => rfl),
    broadcastInDim_apply ![0, 1, 2, 3] h4 _ (ix4 wi ci wo co) (ix4 (n0 := 1) (n1 := 16) (n2 := 1) (n3 := 16) 0 ci 0 co)
      (fun a => by match a with | ⟨0, _⟩ => rfl | ⟨1, _⟩ => rfl | ⟨2, _⟩ => rfl | ⟨3, _⟩ => rfl),
    broadcastInDim_apply ![1, 3] h2 t (ix4 (n0 := 1) (n1 := 16) (n2 := 1) (n3 := 16) 0 ci 0 co) (ix2 ci co)
      (fun a => by match a with | ⟨0, _⟩ => rfl | ⟨1, _⟩ => rfl)]

end Cert.KronAt

end
-- ==== Proof.Lits.lean ====
/-
  The reference's 25 column-shift matrices are 0/1 matrices with ones on one diagonal at most four columns off the main
  one.  Here: every entry more than four columns off the diagonal is the zero word, hence the extended real 0 — what makes
  the row-shift matrices banded.
-/
import proofs.«179230_g2000505885998750_pallasbulk_270_2_alg».proof.ReferenceIdeal
import Idealize.ShloMosaic.PureOps.Ideal
import Idealize.ShloMosaic.PureOps.Ideal.Laws
import Idealize.ShloMosaic.Lib.ValueIdx

set_option maxRecDepth 65536

noncomputable section

namespace Cert.ReferenceIdeal.Lits

open Idealize.ShloMosaic Idealize.ShloMosaic.ValueIdx
open Cert.ReferenceIdeal

/-- A dense 32 x 32 literal whose words are zero off the band reads 0 there at the extended reals. -/
theorem far_zero (lit : Fin 1024 → BitVec 32)
    (hlit : ∀ n : Fin 1024, (n.val / 32 + 4 < n.val % 32 ∨ n.val % 32 + 4 < n.val / 32) → lit n = 0#32)
    (wi wo : Fin 32) (h : wi.val + 4 < wo.val ∨ wo.val + 4 < wi.val) :
    (FloatOps.ofBits .f32 (lit (S32x32.rowMajor (ix2 (n0 := 32) (n1 := 32) wi wo))) : Ideal .f32) = 0 := by
  have hv : (S32x32.rowMajor (ix2 (n0 := 32) (n1 := 32) wi wo)).val = wi.val * 32 + wo.val := by
    rw [Shape.rowMajor_val_two]; rfl
  have hz : lit (S32x32.rowMajor (ix2 (n0 := 32) (n1 := 32) wi wo)) = 0#32 := by
    apply hlit
    rw [hv]
    have h1 := wi.isLt; have h2 := wo.isLt
    omega
  rw [hz]
  exact Ideal.ofBits_zero_f32

theorem lit0_band : ∀ n : Fin 1024, (n.val / 32 + 4 < n.val % 32 ∨ n.val % 32 + 4 < n.val / 32) → lit0 n = 0#32 := by
  decide +kernel
/-- Shift matrix 0 is zero more than four columns off the diagonal. -/
theorem shift0_zero (wi wo : Fin 32) (h : wi.val + 4 < wo.val ∨ wo.val + 4 < wi.val) :
    (fun i : S32x32.Idx => (FloatOps.ofBits .f32 (lit0 (S32x32.rowMajor i)) : Ideal .f32)) (ix2 (n0 := 32) (n1 := 32) wi wo) = 0 :=
  far_zero lit0 lit0_band wi wo h
theorem lit1_band : ∀ n : Fin 1024, (n.val / 32 + 4 < n.val % 32 ∨ n.val % 32 + 4 < n.val / 32) → lit1 n = 0#32 := by
  decide +kernel
/-- Shift matrix 1 is zero more than four columns off the diagonal. -/
theorem shift1_zero (wi wo : Fin 32) (h : wi.val + 4 < wo.val ∨ wo.val + 4 < wi.val) :
    (fun i : S32x32.Idx => (FloatOps.ofBits .f32 (lit1 (S32x32.rowMajor i)) : Ideal .f32)) (ix2 (n0 := 32) (n1 := 32) wi wo) = 0 :=
  far_zero lit1 lit1_band wi wo h
theorem lit2_band : ∀ n : Fin 1024, (n.val / 32 + 4 < n.val % 32 ∨ n.val % 32 + 4 < n.val / 32) → lit2 n = 0#32 := by
  decide +kernel
/-- Shift matrix 2 is zero more than four columns off the diagonal. -/
theorem shift2_zero (wi wo : Fin 32) (h : wi.val + 4 < wo.val ∨ wo.val + 4 < wi.val) :
    (fun i : S32x32.Idx => (FloatOps.ofBits .f32 (lit2 (S32x32.rowMajor i)) : Ideal .f32)) (ix2 (n0 := 32) (n1 := 32) wi wo) = 0 :=
  far_zero lit2 lit2_band wi wo h
theorem lit3_band : ∀ n : Fin 1024, (n.val / 32 + 4 < n.val % 32 ∨ n.val % 32 + 4 < n.val / 32) → lit3 n = 0#32 := by
  decide +kernel
/-- Shift matrix 3 is zero more than four columns off the diagonal. -/
theorem shift3_zero (wi wo : Fin 32) (h : wi.val + 4 < wo.val ∨ wo.val + 4 < wi.val) :
    (fun i : S32x32.Idx => (FloatOps.ofBits .f32 (lit3 (S32x32.rowMajor i)) : Ideal .f32)) (ix2 (n0 := 32) (n1 := 32) wi wo) = 0 :=
  far_zero lit3 lit3_band wi wo h
theorem lit4_band : ∀ n : Fin 1024, (n.val / 32 + 4 < n.val % 32 ∨ n.val % 32 + 4 < n.val / 32) → lit4 n = 0#32 := by
  decide +kernel
/-- Shift matrix 4 is zero more than four columns off the diagonal. -/
theorem shift4_zero (wi wo : Fin 32) (h : wi.val + 4 < wo.val ∨ wo.val + 4 < wi.val) :
    (fun i : S32x32.Idx => (FloatOps.ofBits .f32 (lit4 (S32x32.rowMajor i)) : Ideal .f32)) (ix2 (n0 := 32) (n1 := 32) wi wo) = 0 :=
  far_zero lit4 lit4_band wi wo h
theorem lit5_band : ∀ n : Fin 1024, (n.val / 32 + 4 < n.val % 32 ∨ n.val % 32 + 4 < n.val / 32) → lit5 n = 0#32 := by
  decide +kernel
/-- Shift matrix 5 is zero more than four columns off the diagonal. -/
theorem shift5_zero (wi wo : Fin 32) (h : wi.val + 4 < wo.val ∨ wo.val + 4 < wi.val) :
    (fun i : S32x32.Idx => (FloatOps.ofBits .f32 (lit5 (S32x32.rowMajor i)) : Ideal .f32)) (ix2 (n0 := 32) (n1 := 32) wi wo) = 0 :=
  far_zero lit5 lit5_band wi wo h
theorem lit6_band : ∀ n : Fin 1024, (n.val / 32 + 4 < n.val % 32 ∨ n.val % 32 + 4 < n.val / 32) → lit6 n = 0#32 := by
  decide +kernel
/-- Shift matrix 6 is zero more than four columns off the diagonal. -/
theorem shift6_zero (wi wo : Fin 32) (h : wi.val + 4 < wo.val ∨ wo.val + 4 < wi.val) :
    (fun i : S32x32.Idx => (FloatOps.ofBits .f32 (lit6 (S32x32.rowMajor i)) : Ideal .f32)) (ix2 (n0 := 32) (n1 := 32) wi wo) = 0 :=
  far_zero lit6 lit6_band wi wo h
theorem lit7_band : ∀ n : Fin 1024, (n.val / 32 + 4 < n.val % 32 ∨ n.val % 32 + 4 < n.val / 32) → lit7 n = 0#32 := by
  decide +kernel
/-- Shift matrix 7 is zero more than four columns off the diagonal. -/
theorem shift7_zero (wi wo : Fin 32) (h : wi.val + 4 < wo.val ∨ wo.val + 4 < wi.val) :
    (fun i : S32x32.Idx => (FloatOps.ofBits .f32 (lit7 (S32x32.rowMajor i)) : Ideal .f32)) (ix2 (n0 := 32) (n1 := 32) wi wo) = 0 :=
  far_zero lit7 lit7_band wi wo h
theorem lit8_band : ∀ n : Fin 1024, (n.val / 32 + 4 < n.val % 32 ∨ n.val % 32 + 4 < n.val / 32) → lit8 n = 0#32 := by
  decide +kernel
/-- Shift matrix 8 is zero more than four columns off the diagonal. -/
theorem shift8_zero (wi wo : Fin 32) (h : wi.val + 4 < wo.val ∨ wo.val + 4 < wi.val) :
    (fun i : S32x32.Idx => (FloatOps.ofBits .f32 (lit8 (S32x32.rowMajor i)) : Ideal .f32)) (ix2 (n0 := 32) (n1 := 32) wi wo) = 0 :=
  far_zero lit8 lit8_band wi wo h
theorem lit9_band : ∀ n : Fin 1024, (n.val / 32 + 4 < n.val % 32 ∨ n.val % 32 + 4 < n.val / 32) → lit9 n = 0#32 := by
  decide +kernel
/-- Shift matrix 9 is zero more than four columns off the diagonal. -/
theorem shift9_zero (wi wo : Fin 32) (h : wi.val + 4 < wo.val ∨ wo.val + 4 < wi.val) :
    (fun i : S32x32.Idx => (FloatOps.ofBits .f32 (lit9 (S32x32.rowMajor i)) : Ideal .f32)) (ix2 (n0 := 32) (n1 := 32) wi wo) = 0 :=
  far_zero lit9 lit9_band wi wo h
theorem lit10_band : ∀ n : Fin 1024, (n.val / 32 + 4 < n.val % 32 ∨ n.val % 32 + 4 < n.val / 32) → lit10 n = 0#32 := by
  decide +kernel
/-- Shift matrix 10 is zero more than four columns off the diagonal. -/
theorem shift10_zero (wi wo : Fin 32) (h : wi.val + 4 < wo.val ∨ wo.val + 4 < wi.val) :
    (fun i : S32x32.Idx => (FloatOps.ofBits .f32 (lit10 (S32x32.rowMajor i)) : Ideal .f32)) (ix2 (n0 := 32) (n1 := 32) wi wo) = 0 :=
  far_zero lit10 lit10_band wi wo h
theorem lit11_band : ∀ n : Fin 1024, (n.val / 32 + 4 < n.val % 32 ∨ n.val % 32 + 4 < n.val / 32) → lit11 n = 0#32 := by
  decide +kernel
/-- Shift matrix 11 is zero more than four columns off the diagonal. -/
theorem shift11_zero (wi wo : Fin 32) (h : wi.val + 4 < wo.val ∨ wo.val + 4 < wi.val) :
    (fun i : S32x32.Idx => (FloatOps.ofBits .f32 (lit11 (S32x32.rowMajor i)) : Ideal .f32)) (ix2 (n0 := 32) (n1 := 32) wi wo) = 0 :=
  far_zero lit11 lit11_band wi wo h
theorem lit12_band : ∀ n : Fin 1024, (n.val / 32 + 4 < n.val % 32 ∨ n.val % 32 + 4 < n.val / 32) → lit12 n = 0#32 := by
  decide +kernel
/-- Shift matrix 12 is zero more than four columns off the diagonal. -/
theorem shift12_zero (wi wo : Fin 32) (h : wi.val + 4 < wo.val ∨ wo.val + 4 < wi.val) :
    (fun i : S32x32.Idx => (FloatOps.ofBits .f32 (lit12 (S32x32.rowMajor i)) : Ideal .f32)) (ix2 (n0 := 32) (n1 := 32) wi wo) = 0 :=
  far_zero lit12 lit12_band wi wo h
theorem lit13_band : ∀ n : Fin 1024, (n.val / 32 + 4 < n.val % 32 ∨ n.val % 32 + 4 < n.val / 32) → lit13 n = 0#32 := by
  decide +kernel
/-- Shift matrix 13 is zero more than four columns off the diagonal. -/
theorem shift13_zero (wi wo : Fin 32) (h : wi.val + 4 < wo.val ∨ wo.val + 4 < wi.val) :
    (fun i : S32x32.Idx => (FloatOps.ofBits .f32 (lit13 (S32x32.rowMajor i)) : Ideal .f32)) (ix2 (n0 := 32) (n1 := 32) wi wo) = 0 :=
  far_zero lit13 lit13_band wi wo h
theorem lit14_band : ∀ n : Fin 1024, (n.val / 32 + 4 < n.val % 32 ∨ n.val % 32 + 4 < n.val / 32) → lit14 n = 0#32 := by
  decide +kernel
/-- Shift matrix 14 is zero more than four columns off the diagonal. -/
theorem shift14_zero (wi wo : Fin 32) (h : wi.val + 4 < wo.val ∨ wo.val + 4 < wi.val) :
    (fun i : S32x32.Idx => (FloatOps.ofBits .f32 (lit14 (S32x32.rowMajor i)) : Ideal .f32)) (ix2 (n0 := 32) (n1 := 32) wi wo) = 0 :=
  far_zero lit14 lit14_band wi wo h
theorem lit15_band : ∀ n : Fin 1024, (n.val / 32 + 4 < n.val % 32 ∨ n.val % 32 + 4 < n.val / 32) → lit15 n = 0#32 := by
  decide +kernel
/-- Shift matrix 15 is zero more than four columns off the diagonal. -/
theorem shift15_zero (wi wo : Fin 32) (h : wi.val + 4 < wo.val ∨ wo.val + 4 < wi.val) :
    (fun i : S32x32.Idx => (FloatOps.ofBits .f32 (lit15 (S32x32.rowMajor i)) : Ideal .f32)) (ix2 (n0 := 32) (n1 := 32) wi wo) = 0 :=
  far_zero lit15 lit15_band wi wo h
theorem lit16_band : ∀ n : Fin 1024, (n.val / 32 + 4 < n.val % 32 ∨ n.val % 32 + 4 < n.val / 32) → lit16 n = 0#32 := by
  decide +kernel
/-- Shift matrix 16 is zero more than four columns off the diagonal. -/
theorem shift16_zero (wi wo : Fin 32) (h : wi.val + 4 < wo.val ∨ wo.val + 4 < wi.val) :
    (fun i : S32x32.Idx => (FloatOps.ofBits .f32 (lit16 (S32x32.rowMajor i)) : Ideal .f32)) (ix2 (n0 := 32) (n1 := 32) wi wo) = 0 :=
  far_zero lit16 lit16_band wi wo h
theorem lit17_band : ∀ n : Fin 1024, (n.val / 32 + 4 < n.val % 32 ∨ n.val % 32 + 4 < n.val / 32) → lit17 n = 0#32 := by
  decide +kernel
/-- Shift matrix 17 is zero more than four columns off the diagonal. -/
theorem shift17_zero (wi wo : Fin 32) (h : wi.val + 4 < wo.val ∨ wo.val + 4 < wi.val) :
    (fun i : S32x32.Idx => (FloatOps.ofBits .f32 (lit17 (S32x32.rowMajor i)) : Ideal .f32)) (ix2 (n0 := 32) (n1 := 32) wi wo) = 0 :=
  far_zero lit17 lit17_band wi wo h
theorem lit18_band : ∀ n : Fin 1024, (n.val / 32 + 4 < n.val % 32 ∨ n.val % 32 + 4 < n.val / 32) → lit18 n = 0#32 := by
  decide +kernel
/-- Shift matrix 18 is zero more than four columns off the diagonal. -/
theorem shift18_zero (wi wo : Fin 32) (h : wi.val + 4 < wo.val ∨ wo.val + 4 < wi.val) :
    (fun i : S32x32.Idx => (FloatOps.ofBits .f32 (lit18 (S32x32.rowMajor i)) : Ideal .f32)) (ix2 (n0 := 32) (n1 := 32) wi wo) = 0 :=
  far_zero lit18 lit18_band wi wo h
theorem lit19_band : ∀ n : Fin 1024, (n.val / 32 + 4 < n.val % 32 ∨ n.val % 32 + 4 < n.val / 32) → lit19 n = 0#32 := by
  decide +kernel
/-- Shift matrix 19 is zero more than four columns off the diagonal. -/
theorem shift19_zero (wi wo : Fin 32) (h : wi.val + 4 < wo.val ∨ wo.val + 4 < wi.val) :
    (fun i : S32x32.Idx => (FloatOps.ofBits .f32 (lit19 (S32x32.rowMajor i)) : Ideal .f32)) (ix2 (n0 := 32) (n1 := 32) wi wo) = 0 :=
  far_zero lit19 lit19_band wi wo h
theorem lit20_band : ∀ n : Fin 1024, (n.val / 32 + 4 < n.val % 32 ∨ n.val % 32 + 4 < n.val / 32) → lit20 n = 0#32 := by
  decide +kernel
/-- Shift matrix 20 is zero more than four columns off the diagonal. -/
theorem shift20_zero (wi wo : Fin 32) (h : wi.val + 4 < wo.val ∨ wo.val + 4 < wi.val) :
    (fun i : S32x32.Idx => (FloatOps.ofBits .f32 (lit20 (S32x32.rowMajor i)) : Ideal .f32)) (ix2 (n0 := 32) (n1 := 32) wi wo) = 0 :=
  far_zero lit20 lit20_band wi wo h
theorem lit21_band : ∀ n : Fin 1024, (n.val / 32 + 4 < n.val % 32 ∨ n.val % 32 + 4 < n.val / 32) → lit21 n = 0#32 := by
  decide +kernel
/-- Shift matrix 21 is zero more than four columns off the diagonal. -/
theorem shift21_zero (wi wo : Fin 32) (h : wi.val + 4 < wo.val ∨ wo.val + 4 < wi.val) :
    (fun i : S32x32.Idx => (FloatOps.ofBits .f32 (lit21 (S32x32.rowMajor i)) : Ideal .f32)) (ix2 (n0 := 32) (n1 := 32) wi wo) = 0 :=
  far_zero lit21 lit21_band wi wo h
theorem lit22_band : ∀ n : Fin 1024, (n.val / 32 + 4 < n.val % 32 ∨ n.val % 32 + 4 < n.val / 32) → lit22 n = 0#32 := by
  decide +kernel
/-- Shift matrix 22 is zero more than four columns off the diagonal. -/
theorem shift22_zero (wi wo : Fin 32) (h : wi.val + 4 < wo.val ∨ wo.val + 4 < wi.val) :
    (fun i : S32x32.Idx => (FloatOps.ofBits .f32 (lit22 (S32x32.rowMajor i)) : Ideal .f32)) (ix2 (n0 := 32) (n1 := 32) wi wo) = 0 :=
  far_zero lit22 lit22_band wi wo h
theorem lit23_band : ∀ n : Fin 1024, (n.val / 32 + 4 < n.val % 32 ∨ n.val % 32 + 4 < n.val / 32) → lit23 n = 0#32 := by
  decide +kernel
/-- Shift matrix 23 is zero more than four columns off the diagonal. -/
theorem shift23_zero (wi wo : Fin 32) (h : wi.val + 4 < wo.val ∨ wo.val + 4 < wi.val) :
    (fun i : S32x32.Idx => (FloatOps.ofBits .f32 (lit23 (S32x32.rowMajor i)) : Ideal .f32)) (ix2 (n0 := 32) (n1 := 32) wi wo) = 0 :=
  far_zero lit23 lit23_band wi wo h
theorem lit24_band : ∀ n : Fin 1024, (n.val / 32 + 4 < n.val % 32 ∨ n.val % 32 + 4 < n.val / 32) → lit24 n = 0#32 := by
  decide +kernel
/-- Shift matrix 24 is zero more than four columns off the diagonal. -/
theorem shift24_zero (wi wo : Fin 32) (h : wi.val + 4 < wo.val ∨ wo.val + 4 < wi.val) :
    (fun i : S32x32.Idx => (FloatOps.ofBits .f32 (lit24 (S32x32.rowMajor i)) : Ideal .f32)) (ix2 (n0 := 32) (n1 := 32) wi wo) = 0 :=
  far_zero lit24 lit24_band wi wo h

end Cert.ReferenceIdeal.Lits

end
-- ==== Proof.RefBand.lean ====
/-
  The reference's stack of row-shift matrices is zero outside the band.

  Matrix `g` of the stack is a zero matrix plus Kronecker products `shift ⊗ tap` of a 0/1 column-shift matrix with a
  16 x 16 tap (three products, seven for the middle row offset).  At input lane `w_in * 16 + c_in` and output lane
  `w_out * 16 + c_out` such a product is `shift[w_in, w_out] * tap[c_in, c_out]` (Cert.KronAt.kron_apply), and every shift
  matrix is zero when `w_in` and `w_out` are more than four apart (Lits).  An input lane outside the window of the output
  lane's tile is at least nine columns away, so every term is `0 * tap = 0` — on the extended reals whatever the tap.
-/
import proofs.«179230_g2000505885998750_pallasbulk_270_2_alg».proof.Proof.RefFold
import proofs.«179230_g2000505885998750_pallasbulk_270_2_alg».proof.Proof.LibKronAt
import proofs.«179230_g2000505885998750_pallasbulk_270_2_alg».proof.Proof.Lits
import proofs.«179230_g2000505885998750_pallasbulk_270_2_alg».proof.Proof.BlockEq
import Idealize.ShloMosaic.PureOps.Ideal

set_option maxRecDepth 16384

noncomputable section

namespace Cert.ReferenceIdeal.Band

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Hand

theorem add4_zero {a b c d : EReal} (ha : a = 0) (hb : b = 0) (hc : c = 0) (hd : d = 0) : a + b + c + d = 0 := by
  rw [ha, hb, hc, hd]; simp

theorem add8_zero {a b c d e f g h : EReal} (ha : a = 0) (hb : b = 0) (hc : c = 0) (hd : d = 0) (he : e = 0) (hf : f = 0)
    (hg : g = 0) (hh : h = 0) : a + b + c + d + e + f + g + h = 0 := by
  rw [ha, hb, hc, hd, he, hf, hg, hh]; simp

/-- A Kronecker term whose shift factor vanishes at the index vanishes there. -/
theorem kron_zero (s : FVec Ideal ⟨2, ![32, 32]⟩ .f32) (t : FVec Ideal ⟨2, ![16, 16]⟩ .f32)
    (h1 h2 h3 h4 h5) (wi wo : Fin 32) (ci co : Fin 16) (hs : s (ix2 wi wo) = 0) :
    shapeCast ⟨2, ![512, 512]⟩
        (mulf (F := Ideal) (φ := .f32)
          (broadcastInDim ⟨4, ![32, 16, 32, 16]⟩ ![0, 1, 2, 3] h3 (broadcastInDim ⟨4, ![32, 1, 32, 1]⟩ ![0, 2] h1 s))
          (broadcastInDim ⟨4, ![32, 16, 32, 16]⟩ ![0, 1, 2, 3] h4 (broadcastInDim ⟨4, ![1, 16, 1, 16]⟩ ![1, 3] h2 t))) h5
        (ix2 (n0 := 512) (n1 := 512) ⟨wi.val * 16 + ci.val, by omega⟩ ⟨wo.val * 16 + co.val, by omega⟩) = 0 := by
  rw [Cert.KronAt.kron_apply, hs, zero_mul]

set_option maxHeartbeats 40000000 in
/-- The reference's stack is zero outside the band. -/
theorem weights_banded
    (m' : (ℓ : Loc nD τ sig) → Buf (Elt Ideal) ℓ) (ρ' : Dev nD → PrngReg) (c : Dev nD) :
    Cert.Bridge.Banded (V53 (F := Ideal) m' ρ' c main_v200) := by
  intro g k l hk
  obtain ⟨wi, ci, rfl⟩ : ∃ (wi : Fin 32) (ci : Fin 16), k = ⟨wi.val * 16 + ci.val, Nat.lt_of_lt_of_le (Nat.add_lt_add_left ci.isLt _) (by have := wi.isLt; omega)⟩ :=
    ⟨⟨k.val / 16, by have := k.isLt; omega⟩, ⟨k.val % 16, Nat.mod_lt _ (by decide)⟩, Fin.ext (by show k.val = k.val / 16 * 16 + k.val % 16; omega)⟩
  obtain ⟨wo, co, rfl⟩ : ∃ (wo : Fin 32) (co : Fin 16), l = ⟨wo.val * 16 + co.val, Nat.lt_of_lt_of_le (Nat.add_lt_add_left co.isLt _) (by have := wo.isLt; omega)⟩ :=
    ⟨⟨l.val / 16, by have := l.isLt; omega⟩, ⟨l.val % 16, Nat.mod_lt _ (by decide)⟩, Fin.ext (by show l.val = l.val / 16 * 16 + l.val % 16; omega)⟩
  have hfar : wi.val + 4 < wo.val ∨ wo.val + 4 < wi.val := by
    have h1 := ci.isLt; have h2 := co.isLt; have h3 := wi.isLt; have h4 := wo.isLt
    unfold Cert.Bridge.bandLo Cert.Bridge.bandLen at hk
    dsimp only at hk
    split_ifs at hk <;> omega
  show (StableHlo.after hostOps0_52 (W52 m' ρ' c) (Proc.devRef .tc main_v200) : FVec Ideal S7x512x512 .f32)
      (ix3 (n0 := 7) (n1 := 512) (n2 := 512) g ⟨wi.val * 16 + ci.val, _⟩ ⟨wo.val * 16 + co.val, _⟩) = (0 : EReal)
  after_results_simp
  fin_cases g
  · -- matrix 0: a zero matrix plus 3 Kronecker terms
    rw [concatenate_apply_piece (0 : Fin 3) _ _
      (ix3 (n0 := 7) (n1 := 512) (n2 := 512) ⟨0, by omega⟩ ⟨wi.val * 16 + ci.val, by omega⟩ ⟨wo.val * 16 + co.val, by omega⟩)
      0 (by show 0 < 7; omega) S1x512x512 _ rfl rfl 0 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add4_zero ?_ ?_ ?_ ?_
    · exact Ideal.ofBits_zero_f32
    · refine kron_zero _ _ _ _ _ _ _ wi wo ci co ?_
      exact Lits.shift0_zero wi wo hfar
    · refine kron_zero _ _ _ _ _ _ _ wi wo ci co ?_
      exact Lits.shift1_zero wi wo hfar
    · refine kron_zero _ _ _ _ _ _ _ wi wo ci co ?_
      exact Lits.shift2_zero wi wo hfar
  · -- matrix 1: a zero matrix plus 3 Kronecker terms
    rw [concatenate_apply_piece (0 : Fin 3) _ _
      (ix3 (n0 := 7) (n1 := 512) (n2 := 512) ⟨1, by omega⟩ ⟨wi.val * 16 + ci.val, by omega⟩ ⟨wo.val * 16 + co.val, by omega⟩)
      1 (by show 1 < 7; omega) S1x512x512 _ rfl rfl 1 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add4_zero ?_ ?_ ?_ ?_
    · exact Ideal.ofBits_zero_f32
    · refine kron_zero _ _ _ _ _ _ _ wi wo ci co ?_
      exact Lits.shift3_zero wi wo hfar
    · refine kron_zero _ _ _ _ _ _ _ wi wo ci co ?_
      exact Lits.shift4_zero wi wo hfar
    · refine kron_zero _ _ _ _ _ _ _ wi wo ci co ?_
      exact Lits.shift5_zero wi wo hfar
  · -- matrix 2: a zero matrix plus 3 Kronecker terms
    rw [concatenate_apply_piece (0 : Fin 3) _ _
      (ix3 (n0 := 7) (n1 := 512) (n2 := 512) ⟨2, by omega⟩ ⟨wi.val * 16 + ci.val, by omega⟩ ⟨wo.val * 16 + co.val, by omega⟩)
      2 (by show 2 < 7; omega) S1x512x512 _ rfl rfl 2 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add4_zero ?_ ?_ ?_ ?_
    · exact Ideal.ofBits_zero_f32
    · refine kron_zero _ _ _ _ _ _ _ wi wo ci co ?_
      exact Lits.shift6_zero wi wo hfar
    · refine kron_zero _ _ _ _ _ _ _ wi wo ci co ?_
      exact Lits.shift7_zero wi wo hfar
    · refine kron_zero _ _ _ _ _ _ _ wi wo ci co ?_
      exact Lits.shift8_zero wi wo hfar
  · -- matrix 3: a zero matrix plus 7 Kronecker terms
    rw [concatenate_apply_piece (0 : Fin 3) _ _
      (ix3 (n0 := 7) (n1 := 512) (n2 := 512) ⟨3, by omega⟩ ⟨wi.val * 16 + ci.val, by omega⟩ ⟨wo.val * 16 + co.val, by omega⟩)
      3 (by show 3 < 7; omega) S1x512x512 _ rfl rfl 3 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add8_zero ?_ ?_ ?_ ?_ ?_ ?_ ?_ ?_
    · exact Ideal.ofBits_zero_f32
    · refine kron_zero _ _ _ _ _ _ _ wi wo ci co ?_
      exact Lits.shift9_zero wi wo hfar
    · refine kron_zero _ _ _ _ _ _ _ wi wo ci co ?_
      exact Lits.shift10_zero wi wo hfar
    · refine kron_zero _ _ _ _ _ _ _ wi wo ci co ?_
      exact Lits.shift11_zero wi wo hfar
    · refine kron_zero _ _ _ _ _ _ _ wi wo ci co ?_
      exact Lits.shift12_zero wi wo hfar
    · refine kron_zero _ _ _ _ _ _ _ wi wo ci co ?_
      exact Lits.shift13_zero wi wo hfar
    · refine kron_zero _ _ _ _ _ _ _ wi wo ci co ?_
      exact Lits.shift14_zero wi wo hfar
    · refine kron_zero _ _ _ _ _ _ _ wi wo ci co ?_
      exact Lits.shift15_zero wi wo hfar
  · -- matrix 4: a zero matrix plus 3 Kronecker terms
    rw [concatenate_apply_piece (0 : Fin 3) _ _
      (ix3 (n0 := 7) (n1 := 512) (n2 := 512) ⟨4, by omega⟩ ⟨wi.val * 16 + ci.val, by omega⟩ ⟨wo.val * 16 + co.val, by omega⟩)
      4 (by show 4 < 7; omega) S1x512x512 _ rfl rfl 4 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add4_zero ?_ ?_ ?_ ?_
    · exact Ideal.ofBits_zero_f32
    · refine kron_zero _ _ _ _ _ _ _ wi wo ci co ?_
      exact Lits.shift16_zero wi wo hfar
    · refine kron_zero _ _ _ _ _ _ _ wi wo ci co ?_
      exact Lits.shift17_zero wi wo hfar
    · refine kron_zero _ _ _ _ _ _ _ wi wo ci co ?_
      exact Lits.shift18_zero wi wo hfar
  · -- matrix 5: a zero matrix plus 3 Kronecker terms
    rw [concatenate_apply_piece (0 : Fin 3) _ _
      (ix3 (n0 := 7) (n1 := 512) (n2 := 512) ⟨5, by omega⟩ ⟨wi.val * 16 + ci.val, by omega⟩ ⟨wo.val * 16 + co.val, by omega⟩)
      5 (by show 5 < 7; omega) S1x512x512 _ rfl rfl 5 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add4_zero ?_ ?_ ?_ ?_
    · exact Ideal.ofBits_zero_f32
    · refine kron_zero _ _ _ _ _ _ _ wi wo ci co ?_
      exact Lits.shift19_zero wi wo hfar
    · refine kron_zero _ _ _ _ _ _ _ wi wo ci co ?_
      exact Lits.shift20_zero wi wo hfar
    · refine kron_zero _ _ _ _ _ _ _ wi wo ci co ?_
      exact Lits.shift21_zero wi wo hfar
  · -- matrix 6: a zero matrix plus 3 Kronecker terms
    rw [concatenate_apply_piece (0 : Fin 3) _ _
      (ix3 (n0 := 7) (n1 := 512) (n2 := 512) ⟨6, by omega⟩ ⟨wi.val * 16 + ci.val, by omega⟩ ⟨wo.val * 16 + co.val, by omega⟩)
      6 (by show 6 < 7; omega) S1x512x512 _ rfl rfl 6 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine add4_zero ?_ ?_ ?_ ?_
    · exact Ideal.ofBits_zero_f32
    · refine kron_zero _ _ _ _ _ _ _ wi wo ci co ?_
      exact Lits.shift22_zero wi wo hfar
    · refine kron_zero _ _ _ _ _ _ _ wi wo ci co ?_
      exact Lits.shift23_zero wi wo hfar
    · refine kron_zero _ _ _ _ _ _ _ wi wo ci co ?_
      exact Lits.shift24_zero wi wo hfar

end Cert.ReferenceIdeal.Band

end
-- ==== Proof.LibScatterAt.lean ====
/-
  A host `scatter` read at an index.

  `Host.scatter` is a left fold over the update positions in row-major order: each position that lands inside the operand
  replaces the element there by the body `f` applied to it and to the update.  When every update position lands inside
  the operand and no two land on the same element (`ι` total and injective: a window written at one start index, a
  permutation), the fold's order does not matter and each element meets at most one update:
    * the element where update position `j₀` lands ends as `f (x ·) (upd j₀)` (`scatter_apply_hit`);
    * an element where none lands keeps the operand's value (`scatter_apply_miss`).
-/
import Idealize.ShloMosaic.PureOps.ShapeOps
import Idealize.ShloMosaic.PureOps.Dims

noncomputable section

namespace Cert.LibScatterAt

open Idealize.ShloMosaic

variable {α : Type} {s si u : Shape} {w : Nat}

/-- One step of the fold: update position `n` applied to the running result. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- A step whose position lands at `ι n`. -/
theorem step_of_some (d : ScatterDims s si u) (f : α → α → α) (idx : IVec si w) (upd : u.Idx → α) (r : s.Idx → α)
    (n : Fin u.numel) (i : s.Idx) (h : d.resultIdx? (u.rowMajor.symm n) idx = some i) (i' : s.Idx) :
    step d f idx upd r n i' = if i' = i then f (r i) (upd (u.rowMajor.symm n)) else r i' := by
  unfold step; rw [h]

/-- The fold over a list of distinct positions, all landing inside the operand at pairwise distinct elements: an element
    no listed position lands on is untouched, and the element position `n₀` of the list lands on meets exactly that update. -/
theorem foldl_apply (d : ScatterDims s si u) (f : α → α → α) (idx : IVec si w) (upd : u.Idx → α)
    (ι : u.Idx → s.Idx) (hι : ∀ j, d.resultIdx? j idx = some (ι j)) (hinj : Function.Injective ι) :
    ∀ (L : List (Fin u.numel)) (_ : L.Nodup) (x : s.Idx → α) (i' : s.Idx),
      ((∀ n ∈ L, ι (u.rowMajor.symm n) ≠ i') → L.foldl (step d f idx upd) x i' = x i')
      ∧ (∀ n₀ ∈ L, ι (u.rowMajor.symm n₀) = i' → L.foldl (step d f idx upd) x i' = f (x i') (upd (u.rowMajor.symm n₀)))
  | [], _, _, _ => ⟨fun _ => rfl, fun _ h => absurd h (List.not_mem_nil)⟩
  | n :: L, hL, x, i' => by
    have hLn : L.Nodup := (List.nodup_cons.mp hL).2
    have hn : n ∉ L := (List.nodup_cons.mp hL).1
    have ih := foldl_apply d f idx upd ι hι hinj L hLn (step d f idx upd x n) i'
    have hstep : ∀ i'', step d f idx upd x n i'' = if i'' = ι (u.rowMajor.symm n) then f (x (ι (u.rowMajor.symm n))) (upd (u.rowMajor.symm n)) else x i'' :=
      fun i'' => step_of_some d f idx upd x n _ (hι _) i''
    rw [List.foldl_cons]
    constructor
    · intro hmiss
      rw [ih.1 (fun m hm => hmiss m (List.mem_cons_of_mem _ hm)), hstep, if_neg (fun e => hmiss n List.mem_cons_self e.symm)]
    · intro n₀ hn₀ hland
      rcases List.mem_cons.mp hn₀ with rfl | hmem
      · -- the head lands here: no later position does
        have hmiss : ∀ m ∈ L, ι (u.rowMajor.symm m) ≠ i' := fun m hm e =>
          hn (by
            have : u.rowMajor.symm m = u.rowMajor.symm n₀ := hinj (e.trans hland.symm)
            have : m = n₀ := u.rowMajor.symm.injective this
            exact this ▸ hm)
        rw [ih.1 hmiss, hstep, if_pos hland.symm, hland]
      · -- a later position lands here: the head does not
        have hne : i' ≠ ι (u.rowMajor.symm n) := fun e => hn (by
          have : u.rowMajor.symm n = u.rowMajor.symm n₀ := hinj (e.symm.trans hland.symm)
          have : n = n₀ := u.rowMajor.symm.injective this
          exact this ▸ hmem)
        rw [ih.2 n₀ hmem hland, hstep, if_neg hne]

/-- The element where update position `j₀` lands: the body applied once, to the operand's element and that update. -/
theorem scatter_apply_hit (d : ScatterDims s si u) (f : α → α → α) (x : s.Idx → α) (idx : IVec si w) (upd : u.Idx → α)
    (ι : u.Idx → s.Idx) (hι : ∀ j, d.resultIdx? j idx = some (ι j)) (hinj : Function.Injective ι) (j₀ : u.Idx) :
    Host.scatter d f x idx upd (ι j₀) = f (x (ι j₀)) (upd j₀) := by
  rw [scatter_eq_foldl]
  have h := (foldl_apply d f idx upd ι hι hinj (List.finRange u.numel) (List.nodup_finRange _) x (ι j₀)).2
    (u.rowMajor j₀) (List.mem_finRange _) (by rw [Equiv.symm_apply_apply])
  rw [h, Equiv.symm_apply_apply]

/-- An element no update position lands on keeps the operand's value. -/
theorem scatter_apply_miss (d : ScatterDims s si u) (f : α → α → α) (x : s.Idx → α) (idx : IVec si w) (upd : u.Idx → α)
    (ι : u.Idx → s.Idx) (hι : ∀ j, d.resultIdx? j idx = some (ι j)) (hinj : Function.Injective ι) (i' : s.Idx)
    (hmiss : ∀ j, ι j ≠ i') :
    Host.scatter d f x idx upd i' = x i' := by
  rw [scatter_eq_foldl]
  exact (foldl_apply d f idx upd ι hι hinj (List.finRange u.numel) (List.nodup_finRange _) x i').1 (fun n _ => hmiss _)

end Cert.LibScatterAt

end
-- ==== Proof.KScatter.lean ====
/-
  One scatter-add of the kernel's weight fold, read at an index.  The 7 x 9 table of 16 x 16 tap sums is built by adding
  each tap (a 16 x 16 matrix) at a start index `(g, j)`: update position `(p, q)` lands at `(g, j, p, q)`, all sixteen by
  sixteen positions inside the table and pairwise distinct.  So the table after the step is the table before with the
  tap added on slice `(g, j)` and unchanged elsewhere.
-/
import proofs.«179230_g2000505885998750_pallasbulk_270_2_alg».proof.Proof.Gen.KernelIdeal
import proofs.«179230_g2000505885998750_pallasbulk_270_2_alg».proof.Proof.LibScatterAt
import Idealize.ShloMosaic.Lib.ValueIdx
import Idealize.ShloMosaic.PureOps.Ideal

set_option maxRecDepth 16384

noncomputable section

namespace Cert.KernelIdeal.TabScatter

open Idealize.ShloMosaic Idealize.ShloMosaic.ValueIdx
open Cert.KernelIdeal

/-- Where update position `(p, q)` lands when the start index is `(g, j)`. -/
theorem lands (idx : IVec S2 32) (g : Fin 7) (j : Fin 9)
    (h0 : (idx (ix1 (n := 2) 0)).toInt = (g.val : Int)) (h1 : (idx (ix1 (n := 2) 1)).toInt = (j.val : Int)) (y : S16x16.Idx) :
    scatter_S7x9x16x16_S2_S16x16_01_01_01_0.resultIdx? y idx
      = some (ix4 (n0 := 7) (n1 := 9) (n2 := 16) (n3 := 16) g j (y 0) (y 1)) := by
  have s0 : scatter_S7x9x16x16_S2_S16x16_01_01_01_0.start y idx 0 = (g.val : Int) := by
    have e : scatter_S7x9x16x16_S2_S16x16_01_01_01_0.start y idx 0 = (idx (scatter_S7x9x16x16_S2_S16x16_01_01_01_0.siIdx y ⟨0, by decide⟩)).toInt := rfl
    rw [e, show scatter_S7x9x16x16_S2_S16x16_01_01_01_0.siIdx y ⟨0, by decide⟩ = ix1 (n := 2) 0 from
      funext fun b => by match b with | ⟨0, _⟩ => rfl, h0]
  have s1 : scatter_S7x9x16x16_S2_S16x16_01_01_01_0.start y idx 1 = (j.val : Int) := by
    have e : scatter_S7x9x16x16_S2_S16x16_01_01_01_0.start y idx 1 = (idx (scatter_S7x9x16x16_S2_S16x16_01_01_01_0.siIdx y ⟨1, by decide⟩)).toInt := rfl
    rw [e, show scatter_S7x9x16x16_S2_S16x16_01_01_01_0.siIdx y ⟨1, by decide⟩ = ix1 (n := 2) 1 from
      funext fun b => by match b with | ⟨0, _⟩ => rfl, h1]
  have s2 : scatter_S7x9x16x16_S2_S16x16_01_01_01_0.start y idx 2 = 0 := rfl
  have s3 : scatter_S7x9x16x16_S2_S16x16_01_01_01_0.start y idx 3 = 0 := rfl
  have w0 : scatter_S7x9x16x16_S2_S16x16_01_01_01_0.window y 0 = 0 := rfl
  have w1 : scatter_S7x9x16x16_S2_S16x16_01_01_01_0.window y 1 = 0 := rfl
  have w2 : scatter_S7x9x16x16_S2_S16x16_01_01_01_0.window y 2 = (y 0).val := rfl
  have w3 : scatter_S7x9x16x16_S2_S16x16_01_01_01_0.window y 3 = (y 1).val := rfl
  have hg := g.isLt; have hj := j.isLt; have hp : (y 0).val < 16 := (y 0).isLt; have hq : (y 1).val < 16 := (y 1).isLt
  unfold ScatterDims.resultIdx?
  rw [dif_pos (by
    intro a
    match a with
    | ⟨0, _⟩ =>
      show (0 : Int) ≤ scatter_S7x9x16x16_S2_S16x16_01_01_01_0.start y idx 0 + (scatter_S7x9x16x16_S2_S16x16_01_01_01_0.window y 0 : Int)
        ∧ scatter_S7x9x16x16_S2_S16x16_01_01_01_0.start y idx 0 + (scatter_S7x9x16x16_S2_S16x16_01_01_01_0.window y 0 : Int) < ((7 : Nat) : Int)
      rw [s0, w0]; omega
    | ⟨1, _⟩ =>
      show (0 : Int) ≤ scatter_S7x9x16x16_S2_S16x16_01_01_01_0.start y idx 1 + (scatter_S7x9x16x16_S2_S16x16_01_01_01_0.window y 1 : Int)
        ∧ scatter_S7x9x16x16_S2_S16x16_01_01_01_0.start y idx 1 + (scatter_S7x9x16x16_S2_S16x16_01_01_01_0.window y 1 : Int) < ((9 : Nat) : Int)
      rw [s1, w1]; omega
    | ⟨2, _⟩ =>
      show (0 : Int) ≤ scatter_S7x9x16x16_S2_S16x16_01_01_01_0.start y idx 2 + (scatter_S7x9x16x16_S2_S16x16_01_01_01_0.window y 2 : Int)
        ∧ scatter_S7x9x16x16_S2_S16x16_01_01_01_0.start y idx 2 + (scatter_S7x9x16x16_S2_S16x16_01_01_01_0.window y 2 : Int) < ((16 : Nat) : Int)
      rw [s2, w2]; omega
    | ⟨3, _⟩ =>
      show (0 : Int) ≤ scatter_S7x9x16x16_S2_S16x16_01_01_01_0.start y idx 3 + (scatter_S7x9x16x16_S2_S16x16_01_01_01_0.window y 3 : Int)
        ∧ scatter_S7x9x16x16_S2_S16x16_01_01_01_0.start y idx 3 + (scatter_S7x9x16x16_S2_S16x16_01_01_01_0.window y 3 : Int) < ((16 : Nat) : Int)
      rw [s3, w3]; omega)]
  refine congrArg some (funext fun a => Fin.ext ?_)
  match a with
  | ⟨0, _⟩ =>
    show (scatter_S7x9x16x16_S2_S16x16_01_01_01_0.start y idx 0 + (scatter_S7x9x16x16_S2_S16x16_01_01_01_0.window y 0 : Int)).toNat = g.val
    rw [s0, w0]; omega
  | ⟨1, _⟩ =>
    show (scatter_S7x9x16x16_S2_S16x16_01_01_01_0.start y idx 1 + (scatter_S7x9x16x16_S2_S16x16_01_01_01_0.window y 1 : Int)).toNat = j.val
    rw [s1, w1]; omega
  | ⟨2, _⟩ =>
    show (scatter_S7x9x16x16_S2_S16x16_01_01_01_0.start y idx 2 + (scatter_S7x9x16x16_S2_S16x16_01_01_01_0.window y 2 : Int)).toNat = (y 0).val
    rw [s2, w2]; omega
  | ⟨3, _⟩ =>
    show (scatter_S7x9x16x16_S2_S16x16_01_01_01_0.start y idx 3 + (scatter_S7x9x16x16_S2_S16x16_01_01_01_0.window y 3 : Int)).toNat = (y 1).val
    rw [s3, w3]; omega

/-- The landing map is injective: the last two coordinates are the update position's. -/
theorem lands_inj (g : Fin 7) (j : Fin 9) :
    Function.Injective fun y : S16x16.Idx => ix4 (n0 := 7) (n1 := 9) (n2 := 16) (n3 := 16) g j (y 0) (y 1) := by
  intro y y' h
  funext a
  match a with
  | ⟨0, _⟩ => exact congrFun h (2 : Fin 4)
  | ⟨1, _⟩ => exact congrFun h (3 : Fin 4)

/-- One step of the table: the tap `upd` added on slice `(g, j)`, every other slice unchanged. -/
theorem tab_step (x : FVec Ideal S7x9x16x16 .f32) (idx : IVec S2 32) (upd : FVec Ideal S16x16 .f32) (g : Fin 7) (j : Fin 9)
    (h0 : (idx (ix1 (n := 2) 0)).toInt = (g.val : Int)) (h1 : (idx (ix1 (n := 2) 1)).toInt = (j.val : Int))
    (i : S7x9x16x16.Idx) :
    Host.scatter scatter_S7x9x16x16_S2_S16x16_01_01_01_0 (FloatOps.addf (F := Ideal) (φ := .f32)) x idx upd i
      = if (i 0).val = g.val ∧ (i 1).val = j.val then x i + upd (ix2 (n0 := 16) (n1 := 16) (i 2) (i 3)) else x i := by
  by_cases h : (i 0).val = g.val ∧ (i 1).val = j.val
  · rw [if_pos h]
    have hi : i = ix4 (n0 := 7) (n1 := 9) (n2 := 16) (n3 := 16) g j ((ix2 (n0 := 16) (n1 := 16) (i 2) (i 3)) 0) ((ix2 (n0 := 16) (n1 := 16) (i 2) (i 3)) 1) := by
      funext a
      match a with
      | ⟨0, _⟩ => exact Fin.ext h.1
      | ⟨1, _⟩ => exact Fin.ext h.2
      | ⟨2, _⟩ => rfl
      | ⟨3, _⟩ => rfl
    have key := Cert.LibScatterAt.scatter_apply_hit scatter_S7x9x16x16_S2_S16x16_01_01_01_0 (FloatOps.addf (F := Ideal) (φ := .f32)) x idx upd
      (fun y => ix4 (n0 := 7) (n1 := 9) (n2 := 16) (n3 := 16) g j (y 0) (y 1)) (lands idx g j h0 h1) (lands_inj g j)
      (ix2 (n0 := 16) (n1 := 16) (i 2) (i 3))
    rw [← hi] at key
    exact key
  · rw [if_neg h]
    refine Cert.LibScatterAt.scatter_apply_miss scatter_S7x9x16x16_S2_S16x16_01_01_01_0 _ x idx upd
      (fun y => ix4 (n0 := 7) (n1 := 9) (n2 := 16) (n3 := 16) g j (y 0) (y 1)) (lands idx g j h0 h1) (lands_inj g j) i ?_
    intro y e
    exact h ⟨(congrArg Fin.val (congrFun e (0 : Fin 4))).symm, (congrArg Fin.val (congrFun e (1 : Fin 4))).symm⟩

end Cert.KernelIdeal.TabScatter

end
-- ==== Proof.KTab.lean ====
/-
  The kernel's table of tap sums in closed form.  Starting from zeros, the fold adds, one after the other, the transposed
  1x1 kernel on slice (3, 4) — row offset 0, column offset 0 — and each of the 27 taps `(ky, kx)` of the three dilated 3x3
  kernels (dilation `d = 1, 2, 4`) on the slice of row offset `(ky - 1) d` and column offset `(kx - 1) d`, i.e. slice
  (index of the row offset among -4, -2, -1, 0, 1, 2, 4; column offset + 4).  Each step is `addAt`: the tap added on its
  slice, every other slice unchanged (TabScatter.tab_step).
-/
import proofs.«179230_g2000505885998750_pallasbulk_270_2_alg».proof.Proof.KernelRun
import proofs.«179230_g2000505885998750_pallasbulk_270_2_alg».proof.Proof.KScatter
import Idealize.ShloMosaic.Lib.Pipeline.Value

set_option maxRecDepth 16384

noncomputable section

namespace Cert.KernelIdeal.Tab

open Idealize.ShloMosaic Idealize.ShloMosaic.TcCoe Idealize.SL.Sem Idealize.ShloMosaic.StableHlo Idealize.ShloMosaic.ValueIdx
open Cert.KernelIdeal Cert.KernelIdeal.Gen

/-- A start index from its two components. -/
def idx2 (a b : IVec S1 32) : IVec S2 32 := concatenate S2 0 [⟨S1, a⟩, ⟨S1, b⟩] concatenates_S1_S1_S2_d0

theorem concat_eq_idx2 (a b : IVec S1 32) :
    concatenate S2 0 [⟨S1, a⟩, ⟨S1, b⟩] concatenates_S1_S1_S2_d0 = idx2 a b := rfl

theorem idx2_fst (a b : IVec S1 32) : idx2 a b (ix1 (n := 2) 0) = a (ix1 (n := 1) 0) := by
  unfold idx2
  exact concatenate_pair_apply_left (0 : Fin 1) a b concatenates_S1_S1_S2_d0 (ix1 (n := 2) 0) rfl (ix1 (n := 1) 0)
    (fun b' => by match b' with | ⟨0, _⟩ => rfl)

theorem idx2_snd (a b : IVec S1 32) : idx2 a b (ix1 (n := 2) 1) = b (ix1 (n := 1) 0) := by
  unfold idx2
  exact concatenate_pair_apply_right (0 : Fin 1) a b concatenates_S1_S1_S2_d0 (ix1 (n := 2) 1) rfl rfl (ix1 (n := 1) 0)
    (fun b' hb => by match b' with | ⟨0, _⟩ => exact absurd rfl hb) (by rfl)

/-- A tap added on slice `(g, j)` of the table. -/
def addAt (x : FVec Ideal S7x9x16x16 .f32) (g j : Nat) (T : FVec Ideal S16x16 .f32) : FVec Ideal S7x9x16x16 .f32 :=
  fun i => if (i 0).val = g ∧ (i 1).val = j then x i + T (ix2 (n0 := 16) (n1 := 16) (i 2) (i 3)) else x i

/-- A scatter-add whose start index is the two constant words `a`, `b` is `addAt` on the slice they name. -/
theorem scatter_const (x : FVec Ideal S7x9x16x16 .f32) (T : FVec Ideal S16x16 .f32) (a b : BitVec 32) (g : Fin 7) (j : Fin 9)
    (ha : a.toInt = (g.val : Int)) (hb : b.toInt = (j.val : Int)) :
    Host.scatter scatter_S7x9x16x16_S2_S16x16_01_01_01_0 (FloatOps.addf (F := Ideal) (φ := .f32)) x
        (idx2 (broadcastInDim S1 ![] bcast_S_S1 (constantI S_ 32 a)) (broadcastInDim S1 ![] bcast_S_S1 (constantI S_ 32 b))) T
      = addAt x g.val j.val T := by
  funext i
  exact TabScatter.tab_step x _ T g j (by rw [idx2_fst]; exact ha) (by rw [idx2_snd]; exact hb) i

set_option maxHeartbeats 16000000 in
/-- The table after the 28 steps. -/
theorem tab_eq (m : (ℓ : Loc nD τ sig) → Buf (Elt Ideal) ℓ) (ρ : Dev nD → PrngReg) (c : Dev nD) :
    (W1 (F := Ideal) m ρ c (Proc.devRef .tc main_v196) : FVec Ideal S7x9x16x16 .f32)
      = (addAt (addAt (addAt (addAt (addAt (addAt (addAt (addAt (addAt (addAt (addAt (addAt (addAt (addAt (addAt (addAt (addAt (addAt (addAt (addAt (addAt (addAt (addAt (addAt (addAt (addAt (addAt (addAt (broadcastInDim S7x9x16x16 ![] bcast_S_S7x9x16x16 (constant (F := Ideal) S_ .f32 0x00000000#32))
      3 4 (transpose S16x16 [1, 0] (shapeCast S16x16 (W0 m ρ c (Proc.devRef .tc main_arg1)) shapeCasts_S16x16x1x1_S16x16) transposes_S16x16_S16x16_1_0))
      2 3 (transpose S16x16 [1, 0] (shapeCast S16x16 (extractStridedSlice S16x16x1x1 ![0, 0, 0, 0] (W0 m ρ c (Proc.devRef .tc main_arg3)) slices_S16x16x3x3_S16x16x1x1_0_0_0_0) shapeCasts_S16x16x1x1_S16x16) transposes_S16x16_S16x16_1_0))
      2 4 (transpose S16x16 [1, 0] (shapeCast S16x16 (extractStridedSlice S16x16x1x1 ![0, 0, 0, 1] (W0 m ρ c (Proc.devRef .tc main_arg3)) slices_S16x16x3x3_S16x16x1x1_0_0_0_1) shapeCasts_S16x16x1x1_S16x16) transposes_S16x16_S16x16_1_0))
      2 5 (transpose S16x16 [1, 0] (shapeCast S16x16 (extractStridedSlice S16x16x1x1 ![0, 0, 0, 2] (W0 m ρ c (Proc.devRef .tc main_arg3)) slices_S16x16x3x3_S16x16x1x1_0_0_0_2) shapeCasts_S16x16x1x1_S16x16) transposes_S16x16_S16x16_1_0))
      3 3 (transpose S16x16 [1, 0] (shapeCast S16x16 (extractStridedSlice S16x16x1x1 ![0, 0, 1, 0] (W0 m ρ c (Proc.devRef .tc main_arg3)) slices_S16x16x3x3_S16x16x1x1_0_0_1_0) shapeCasts_S16x16x1x1_S16x16) transposes_S16x16_S16x16_1_0))
      3 4 (transpose S16x16 [1, 0] (shapeCast S16x16 (extractStridedSlice S16x16x1x1 ![0, 0, 1, 1] (W0 m ρ c (Proc.devRef .tc main_arg3)) slices_S16x16x3x3_S16x16x1x1_0_0_1_1) shapeCasts_S16x16x1x1_S16x16) transposes_S16x16_S16x16_1_0))
      3 5 (transpose S16x16 [1, 0] (shapeCast S16x16 (extractStridedSlice S16x16x1x1 ![0, 0, 1, 2] (W0 m ρ c (Proc.devRef .tc main_arg3)) slices_S16x16x3x3_S16x16x1x1_0_0_1_2) shapeCasts_S16x16x1x1_S16x16) transposes_S16x16_S16x16_1_0))
      4 3 (transpose S16x16 [1, 0] (shapeCast S16x16 (extractStridedSlice S16x16x1x1 ![0, 0, 2, 0] (W0 m ρ c (Proc.devRef .tc main_arg3)) slices_S16x16x3x3_S16x16x1x1_0_0_2_0) shapeCasts_S16x16x1x1_S16x16) transposes_S16x16_S16x16_1_0))
      4 4 (transpose S16x16 [1, 0] (shapeCast S16x16 (extractStridedSlice S16x16x1x1 ![0, 0, 2, 1] (W0 m ρ c (Proc.devRef .tc main_arg3)) slices_S16x16x3x3_S16x16x1x1_0_0_2_1) shapeCasts_S16x16x1x1_S16x16) transposes_S16x16_S16x16_1_0))
      4 5 (transpose S16x16 [1, 0] (shapeCast S16x16 (extractStridedSlice S16x16x1x1 ![0, 0, 2, 2] (W0 m ρ c (Proc.devRef .tc main_arg3)) slices_S16x16x3x3_S16x16x1x1_0_0_2_2) shapeCasts_S16x16x1x1_S16x16) transposes_S16x16_S16x16_1_0))
      1 2 (transpose S16x16 [1, 0] (shapeCast S16x16 (extractStridedSlice S16x16x1x1 ![0, 0, 0, 0] (W0 m ρ c (Proc.devRef .tc main_arg5)) slices_S16x16x3x3_S16x16x1x1_0_0_0_0) shapeCasts_S16x16x1x1_S16x16) transposes_S16x16_S16x16_1_0))
      1 4 (transpose S16x16 [1, 0] (shapeCast S16x16 (extractStridedSlice S16x16x1x1 ![0, 0, 0, 1] (W0 m ρ c (Proc.devRef .tc main_arg5)) slices_S16x16x3x3_S16x16x1x1_0_0_0_1) shapeCasts_S16x16x1x1_S16x16) transposes_S16x16_S16x16_1_0))
      1 6 (transpose S16x16 [1, 0] (shapeCast S16x16 (extractStridedSlice S16x16x1x1 ![0, 0, 0, 2] (W0 m ρ c (Proc.devRef .tc main_arg5)) slices_S16x16x3x3_S16x16x1x1_0_0_0_2) shapeCasts_S16x16x1x1_S16x16) transposes_S16x16_S16x16_1_0))
      3 2 (transpose S16x16 [1, 0] (shapeCast S16x16 (extractStridedSlice S16x16x1x1 ![0, 0, 1, 0] (W0 m ρ c (Proc.devRef .tc main_arg5)) slices_S16x16x3x3_S16x16x1x1_0_0_1_0) shapeCasts_S16x16x1x1_S16x16) transposes_S16x16_S16x16_1_0))
      3 4 (transpose S16x16 [1, 0] (shapeCast S16x16 (extractStridedSlice S16x16x1x1 ![0, 0, 1, 1] (W0 m ρ c (Proc.devRef .tc main_arg5)) slices_S16x16x3x3_S16x16x1x1_0_0_1_1) shapeCasts_S16x16x1x1_S16x16) transposes_S16x16_S16x16_1_0))
      3 6 (transpose S16x16 [1, 0] (shapeCast S16x16 (extractStridedSlice S16x16x1x1 ![0, 0, 1, 2] (W0 m ρ c (Proc.devRef .tc main_arg5)) slices_S16x16x3x3_S16x16x1x1_0_0_1_2) shapeCasts_S16x16x1x1_S16x16) transposes_S16x16_S16x16_1_0))
      5 2 (transpose S16x16 [1, 0] (shapeCast S16x16 (extractStridedSlice S16x16x1x1 ![0, 0, 2, 0] (W0 m ρ c (Proc.devRef .tc main_arg5)) slices_S16x16x3x3_S16x16x1x1_0_0_2_0) shapeCasts_S16x16x1x1_S16x16) transposes_S16x16_S16x16_1_0))
      5 4 (transpose S16x16 [1, 0] (shapeCast S16x16 (extractStridedSlice S16x16x1x1 ![0, 0, 2, 1] (W0 m ρ c (Proc.devRef .tc main_arg5)) slices_S16x16x3x3_S16x16x1x1_0_0_2_1) shapeCasts_S16x16x1x1_S16x16) transposes_S16x16_S16x16_1_0))
      5 6 (transpose S16x16 [1, 0] (shapeCast S16x16 (extractStridedSlice S16x16x1x1 ![0, 0, 2, 2] (W0 m ρ c (Proc.devRef .tc main_arg5)) slices_S16x16x3x3_S16x16x1x1_0_0_2_2) shapeCasts_S16x16x1x1_S16x16) transposes_S16x16_S16x16_1_0))
      0 0 (transpose S16x16 [1, 0] (shapeCast S16x16 (extractStridedSlice S16x16x1x1 ![0, 0, 0, 0] (W0 m ρ c (Proc.devRef .tc main_arg7)) slices_S16x16x3x3_S16x16x1x1_0_0_0_0) shapeCasts_S16x16x1x1_S16x16) transposes_S16x16_S16x16_1_0))
      0 4 (transpose S16x16 [1, 0] (shapeCast S16x16 (extractStridedSlice S16x16x1x1 ![0, 0, 0, 1] (W0 m ρ c (Proc.devRef .tc main_arg7)) slices_S16x16x3x3_S16x16x1x1_0_0_0_1) shapeCasts_S16x16x1x1_S16x16) transposes_S16x16_S16x16_1_0))
      0 8 (transpose S16x16 [1, 0] (shapeCast S16x16 (extractStridedSlice S16x16x1x1 ![0, 0, 0, 2] (W0 m ρ c (Proc.devRef .tc main_arg7)) slices_S16x16x3x3_S16x16x1x1_0_0_0_2) shapeCasts_S16x16x1x1_S16x16) transposes_S16x16_S16x16_1_0))
      3 0 (transpose S16x16 [1, 0] (shapeCast S16x16 (extractStridedSlice S16x16x1x1 ![0, 0, 1, 0] (W0 m ρ c (Proc.devRef .tc main_arg7)) slices_S16x16x3x3_S16x16x1x1_0_0_1_0) shapeCasts_S16x16x1x1_S16x16) transposes_S16x16_S16x16_1_0))
      3 4 (transpose S16x16 [1, 0] (shapeCast S16x16 (extractStridedSlice S16x16x1x1 ![0, 0, 1, 1] (W0 m ρ c (Proc.devRef .tc main_arg7)) slices_S16x16x3x3_S16x16x1x1_0_0_1_1) shapeCasts_S16x16x1x1_S16x16) transposes_S16x16_S16x16_1_0))
      3 8 (transpose S16x16 [1, 0] (shapeCast S16x16 (extractStridedSlice S16x16x1x1 ![0, 0, 1, 2] (W0 m ρ c (Proc.devRef .tc main_arg7)) slices_S16x16x3x3_S16x16x1x1_0_0_1_2) shapeCasts_S16x16x1x1_S16x16) transposes_S16x16_S16x16_1_0))
      6 0 (transpose S16x16 [1, 0] (shapeCast S16x16 (extractStridedSlice S16x16x1x1 ![0, 0, 2, 0] (W0 m ρ c (Proc.devRef .tc main_arg7)) slices_S16x16x3x3_S16x16x1x1_0_0_2_0) shapeCasts_S16x16x1x1_S16x16) transposes_S16x16_S16x16_1_0))
      6 4 (transpose S16x16 [1, 0] (shapeCast S16x16 (extractStridedSlice S16x16x1x1 ![0, 0, 2, 1] (W0 m ρ c (Proc.devRef .tc main_arg7)) slices_S16x16x3x3_S16x16x1x1_0_0_2_1) shapeCasts_S16x16x1x1_S16x16) transposes_S16x16_S16x16_1_0))
      6 8 (transpose S16x16 [1, 0] (shapeCast S16x16 (extractStridedSlice S16x16x1x1 ![0, 0, 2, 2] (W0 m ρ c (Proc.devRef .tc main_arg7)) slices_S16x16x3x3_S16x16x1x1_0_0_2_2) shapeCasts_S16x16x1x1_S16x16) transposes_S16x16_S16x16_1_0)) := by
  show StableHlo.after hostOps0 (W0 m ρ c) (Proc.devRef .tc main_v196) = _
  after_results_simp
  simp only [concat_eq_idx2]
  after_results_simp
  simp only [scatter_const _ _ 3#32 4#32 ⟨3, by omega⟩ ⟨4, by omega⟩ (by decide) (by decide),
    scatter_const _ _ 2#32 3#32 ⟨2, by omega⟩ ⟨3, by omega⟩ (by decide) (by decide),
    scatter_const _ _ 2#32 4#32 ⟨2, by omega⟩ ⟨4, by omega⟩ (by decide) (by decide),
    scatter_const _ _ 2#32 5#32 ⟨2, by omega⟩ ⟨5, by omega⟩ (by decide) (by decide),
    scatter_const _ _ 3#32 3#32 ⟨3, by omega⟩ ⟨3, by omega⟩ (by decide) (by decide),
    scatter_const _ _ 3#32 5#32 ⟨3, by omega⟩ ⟨5, by omega⟩ (by decide) (by decide),
    scatter_const _ _ 4#32 3#32 ⟨4, by omega⟩ ⟨3, by omega⟩ (by decide) (by decide),
    scatter_const _ _ 4#32 4#32 ⟨4, by omega⟩ ⟨4, by omega⟩ (by decide) (by decide),
    scatter_const _ _ 4#32 5#32 ⟨4, by omega⟩ ⟨5, by omega⟩ (by decide) (by decide),
    scatter_const _ _ 1#32 2#32 ⟨1, by omega⟩ ⟨2, by omega⟩ (by decide) (by decide),
    scatter_const _ _ 1#32 4#32 ⟨1, by omega⟩ ⟨4, by omega⟩ (by decide) (by decide),
    scatter_const _ _ 1#32 6#32 ⟨1, by omega⟩ ⟨6, by omega⟩ (by decide) (by decide),
    scatter_const _ _ 3#32 2#32 ⟨3, by omega⟩ ⟨2, by omega⟩ (by decide) (by decide),
    scatter_const _ _ 3#32 6#32 ⟨3, by omega⟩ ⟨6, by omega⟩ (by decide) (by decide),
    scatter_const _ _ 5#32 2#32 ⟨5, by omega⟩ ⟨2, by omega⟩ (by decide) (by decide),
    scatter_const _ _ 5#32 4#32 ⟨5, by omega⟩ ⟨4, by omega⟩ (by decide) (by decide),
    scatter_const _ _ 5#32 6#32 ⟨5, by omega⟩ ⟨6, by omega⟩ (by decide) (by decide),
    scatter_const _ _ 0#32 0#32 ⟨0, by omega⟩ ⟨0, by omega⟩ (by decide) (by decide),
    scatter_const _ _ 0#32 4#32 ⟨0, by omega⟩ ⟨4, by omega⟩ (by decide) (by decide),
    scatter_const _ _ 0#32 8#32 ⟨0, by omega⟩ ⟨8, by omega⟩ (by decide) (by decide),
    scatter_const _ _ 3#32 0#32 ⟨3, by omega⟩ ⟨0, by omega⟩ (by decide) (by decide),
    scatter_const _ _ 3#32 8#32 ⟨3, by omega⟩ ⟨8, by omega⟩ (by decide) (by decide),
    scatter_const _ _ 6#32 0#32 ⟨6, by omega⟩ ⟨0, by omega⟩ (by decide) (by decide),
    scatter_const _ _ 6#32 4#32 ⟨6, by omega⟩ ⟨4, by omega⟩ (by decide) (by decide),
    scatter_const _ _ 6#32 8#32 ⟨6, by omega⟩ ⟨8, by omega⟩ (by decide) (by decide)]
  rfl

end Cert.KernelIdeal.Tab

end
-- ==== Proof.KGather.lean ====
/-
  The gather of the kernel's weight fold, read at an index.  The 7 x 9 table of tap sums is gathered along its second axis
  by a 32 x 32 array of column-offset indices: entry `(g, w_in, w_out, c_in, c_out)` of the result is the table at
  `(g, J, c_in, c_out)` with `J` the index stored at `(w_in, w_out)`, read as a signed word and clamped to `[0, 8]`.
-/
import proofs.«179230_g2000505885998750_pallasbulk_270_2_alg».proof.Proof.Gen.KernelIdeal
import Idealize.ShloMosaic.Lib.ValueIdx
import Idealize.ShloMosaic.PureOps.Ideal

set_option maxRecDepth 16384

noncomputable section

namespace Cert.KernelIdeal.TabGather

open Idealize.ShloMosaic Idealize.ShloMosaic.ValueIdx
open Cert.KernelIdeal

/-- The start-indices position the result index `(g, w_in, w_out, c_in, c_out)` reads: `(w_in, w_out, 0)`. -/
theorem si_at (g : Fin 7) (wi wo : Fin 32) (ci co : Fin 16) :
    gather_S7x9x16x16_S32x32x1_S7x32x32x16x16_034_1_n_n_1_2_711616.siIdx (ix5 (n0 := 7) (n1 := 32) (n2 := 32) (n3 := 16) (n4 := 16) g wi wo ci co) ⟨0, by decide⟩
      = ix3 (n0 := 32) (n1 := 32) (n2 := 1) wi wo 0 := by
  funext b
  match b with
  | ⟨0, _⟩ => rfl
  | ⟨1, _⟩ => rfl
  | ⟨2, _⟩ => rfl

/-- The gathered table at an index. -/
theorem gather_apply {α : Type} (x : S7x9x16x16.Idx → α) (idx : IVec S32x32x1 32) (g : Fin 7) (wi wo : Fin 32) (ci co : Fin 16) :
    Host.gather gather_S7x9x16x16_S32x32x1_S7x32x32x16x16_034_1_n_n_1_2_711616 x idx (ix5 (n0 := 7) (n1 := 32) (n2 := 32) (n3 := 16) (n4 := 16) g wi wo ci co)
      = x (ix4 (n0 := 7) (n1 := 9) (n2 := 16) (n3 := 16) g
            ⟨min (idx (ix3 (n0 := 32) (n1 := 32) (n2 := 1) wi wo 0)).toInt.toNat 8, by omega⟩ ci co) := by
  show x (gather_S7x9x16x16_S32x32x1_S7x32x32x16x16_034_1_n_n_1_2_711616.operandIdx (ix5 (n0 := 7) (n1 := 32) (n2 := 32) (n3 := 16) (n4 := 16) g wi wo ci co) idx) = _
  refine congrArg x (funext fun a => Fin.ext ?_)
  have e1 : gather_S7x9x16x16_S32x32x1_S7x32x32x16x16_034_1_n_n_1_2_711616.start (ix5 (n0 := 7) (n1 := 32) (n2 := 32) (n3 := 16) (n4 := 16) g wi wo ci co) idx 1
      = min (idx (gather_S7x9x16x16_S32x32x1_S7x32x32x16x16_034_1_n_n_1_2_711616.siIdx (ix5 (n0 := 7) (n1 := 32) (n2 := 32) (n3 := 16) (n4 := 16) g wi wo ci co) ⟨0, by decide⟩)).toInt.toNat 8 := rfl
  match a with
  | ⟨0, _⟩ =>
    show gather_S7x9x16x16_S32x32x1_S7x32x32x16x16_034_1_n_n_1_2_711616.start (ix5 (n0 := 7) (n1 := 32) (n2 := 32) (n3 := 16) (n4 := 16) g wi wo ci co) idx 0 + gather_S7x9x16x16_S32x32x1_S7x32x32x16x16_034_1_n_n_1_2_711616.batchCoord (ix5 (n0 := 7) (n1 := 32) (n2 := 32) (n3 := 16) (n4 := 16) g wi wo ci co) 0 + gather_S7x9x16x16_S32x32x1_S7x32x32x16x16_034_1_n_n_1_2_711616.offCoord (ix5 (n0 := 7) (n1 := 32) (n2 := 32) (n3 := 16) (n4 := 16) g wi wo ci co) 0 = g.val
    have h1 : gather_S7x9x16x16_S32x32x1_S7x32x32x16x16_034_1_n_n_1_2_711616.start (ix5 (n0 := 7) (n1 := 32) (n2 := 32) (n3 := 16) (n4 := 16) g wi wo ci co) idx 0 = 0 := rfl
    have h2 : gather_S7x9x16x16_S32x32x1_S7x32x32x16x16_034_1_n_n_1_2_711616.batchCoord (ix5 (n0 := 7) (n1 := 32) (n2 := 32) (n3 := 16) (n4 := 16) g wi wo ci co) 0 = 0 := rfl
    have h3 : gather_S7x9x16x16_S32x32x1_S7x32x32x16x16_034_1_n_n_1_2_711616.offCoord (ix5 (n0 := 7) (n1 := 32) (n2 := 32) (n3 := 16) (n4 := 16) g wi wo ci co) 0 = g.val := rfl
    omega
  | ⟨1, _⟩ =>
    show gather_S7x9x16x16_S32x32x1_S7x32x32x16x16_034_1_n_n_1_2_711616.start (ix5 (n0 := 7) (n1 := 32) (n2 := 32) (n3 := 16) (n4 := 16) g wi wo ci co) idx 1
        + gather_S7x9x16x16_S32x32x1_S7x32x32x16x16_034_1_n_n_1_2_711616.batchCoord (ix5 (n0 := 7) (n1 := 32) (n2 := 32) (n3 := 16) (n4 := 16) g wi wo ci co) 1
        + gather_S7x9x16x16_S32x32x1_S7x32x32x16x16_034_1_n_n_1_2_711616.offCoord (ix5 (n0 := 7) (n1 := 32) (n2 := 32) (n3 := 16) (n4 := 16) g wi wo ci co) 1
      = min (idx (ix3 (n0 := 32) (n1 := 32) (n2 := 1) wi wo 0)).toInt.toNat 8
    rw [e1, si_at]
    rfl
  | ⟨2, _⟩ =>
    show gather_S7x9x16x16_S32x32x1_S7x32x32x16x16_034_1_n_n_1_2_711616.start (ix5 (n0 := 7) (n1 := 32) (n2 := 32) (n3 := 16) (n4 := 16) g wi wo ci co) idx 2 + gather_S7x9x16x16_S32x32x1_S7x32x32x16x16_034_1_n_n_1_2_711616.batchCoord (ix5 (n0 := 7) (n1 := 32) (n2 := 32) (n3 := 16) (n4 := 16) g wi wo ci co) 2 + gather_S7x9x16x16_S32x32x1_S7x32x32x16x16_034_1_n_n_1_2_711616.offCoord (ix5 (n0 := 7) (n1 := 32) (n2 := 32) (n3 := 16) (n4 := 16) g wi wo ci co) 2 = ci.val
    have h1 : gather_S7x9x16x16_S32x32x1_S7x32x32x16x16_034_1_n_n_1_2_711616.start (ix5 (n0 := 7) (n1 := 32) (n2 := 32) (n3 := 16) (n4 := 16) g wi wo ci co) idx 2 = 0 := rfl
    have h2 : gather_S7x9x16x16_S32x32x1_S7x32x32x16x16_034_1_n_n_1_2_711616.batchCoord (ix5 (n0 := 7) (n1 := 32) (n2 := 32) (n3 := 16) (n4 := 16) g wi wo ci co) 2 = 0 := rfl
    have h3 : gather_S7x9x16x16_S32x32x1_S7x32x32x16x16_034_1_n_n_1_2_711616.offCoord (ix5 (n0 := 7) (n1 := 32) (n2 := 32) (n3 := 16) (n4 := 16) g wi wo ci co) 2 = ci.val := rfl
    omega
  | ⟨3, _⟩ =>
    show gather_S7x9x16x16_S32x32x1_S7x32x32x16x16_034_1_n_n_1_2_711616.start (ix5 (n0 := 7) (n1 := 32) (n2 := 32) (n3 := 16) (n4 := 16) g wi wo ci co) idx 3 + gather_S7x9x16x16_S32x32x1_S7x32x32x16x16_034_1_n_n_1_2_711616.batchCoord (ix5 (n0 := 7) (n1 := 32) (n2 := 32) (n3 := 16) (n4 := 16) g wi wo ci co) 3 + gather_S7x9x16x16_S32x32x1_S7x32x32x16x16_034_1_n_n_1_2_711616.offCoord (ix5 (n0 := 7) (n1 := 32) (n2 := 32) (n3 := 16) (n4 := 16) g wi wo ci co) 3 = co.val
    have h1 : gather_S7x9x16x16_S32x32x1_S7x32x32x16x16_034_1_n_n_1_2_711616.start (ix5 (n0 := 7) (n1 := 32) (n2 := 32) (n3 := 16) (n4 := 16) g wi wo ci co) idx 3 = 0 := rfl
    have h2 : gather_S7x9x16x16_S32x32x1_S7x32x32x16x16_034_1_n_n_1_2_711616.batchCoord (ix5 (n0 := 7) (n1 := 32) (n2 := 32) (n3 := 16) (n4 := 16) g wi wo ci co) 3 = 0 := rfl
    have h3 : gather_S7x9x16x16_S32x32x1_S7x32x32x16x16_034_1_n_n_1_2_711616.offCoord (ix5 (n0 := 7) (n1 := 32) (n2 := 32) (n3 := 16) (n4 := 16) g wi wo ci co) 3 = co.val := rfl
    omega

end Cert.KernelIdeal.TabGather

end
-- ==== Proof.KStack.lean ====
/-
  The kernel's stack of row-shift matrices from its table of tap sums.  Entry `(g, w_in * 16 + c_in, w_out * 16 + c_out)`
  is the table at `(g, J, c_in, c_out)` times the band mask at `(w_in, w_out)`, where `J` is the gather's index at
  `(w_in, w_out)` clamped to `[0, 8]`: the gather along the table's column-offset axis, the mask broadcast over row
  offsets and channels, the transpose that brings `c_in` next to `w_in`, the flattening to lanes `w * 16 + c`, and a cast
  that is the identity on extended reals.
-/
import proofs.«179230_g2000505885998750_pallasbulk_270_2_alg».proof.Proof.KTab
import proofs.«179230_g2000505885998750_pallasbulk_270_2_alg».proof.Proof.KGather
import Idealize.ShloMosaic.Lib.Pipeline.Value
import Idealize.ShloMosaic.Lib.ValueIdx

set_option maxRecDepth 16384

noncomputable section

namespace Cert.KernelIdeal.Stack

open Idealize.ShloMosaic Idealize.ShloMosaic.TcCoe Idealize.SL.Sem Idealize.ShloMosaic.StableHlo Idealize.ShloMosaic.ValueIdx
open Cert.KernelIdeal Cert.KernelIdeal.Gen Cert.KernelIdeal.Tab

/-- The table of tap sums in closed form (Tab.tab_eq). -/
def tabClosed (m : (ℓ : Loc nD τ sig) → Buf (Elt Ideal) ℓ) (ρ : Dev nD → PrngReg) (c : Dev nD) : FVec Ideal S7x9x16x16 .f32 :=
  (addAt (addAt (addAt (addAt (addAt (addAt (addAt (addAt (addAt (addAt (addAt (addAt (addAt (addAt (addAt (addAt (addAt (addAt (addAt (addAt (addAt (addAt (addAt (addAt (addAt (addAt (addAt (addAt (broadcastInDim S7x9x16x16 ![] bcast_S_S7x9x16x16 (constant (F := Ideal) S_ .f32 0x00000000#32))
      3 4 (transpose S16x16 [1, 0] (shapeCast S16x16 (W0 m ρ c (Proc.devRef .tc main_arg1)) shapeCasts_S16x16x1x1_S16x16) transposes_S16x16_S16x16_1_0))
      2 3 (transpose S16x16 [1, 0] (shapeCast S16x16 (extractStridedSlice S16x16x1x1 ![0, 0, 0, 0] (W0 m ρ c (Proc.devRef .tc main_arg3)) slices_S16x16x3x3_S16x16x1x1_0_0_0_0) shapeCasts_S16x16x1x1_S16x16) transposes_S16x16_S16x16_1_0))
      2 4 (transpose S16x16 [1, 0] (shapeCast S16x16 (extractStridedSlice S16x16x1x1 ![0, 0, 0, 1] (W0 m ρ c (Proc.devRef .tc main_arg3)) slices_S16x16x3x3_S16x16x1x1_0_0_0_1) shapeCasts_S16x16x1x1_S16x16) transposes_S16x16_S16x16_1_0))
      2 5 (transpose S16x16 [1, 0] (shapeCast S16x16 (extractStridedSlice S16x16x1x1 ![0, 0, 0, 2] (W0 m ρ c (Proc.devRef .tc main_arg3)) slices_S16x16x3x3_S16x16x1x1_0_0_0_2) shapeCasts_S16x16x1x1_S16x16) transposes_S16x16_S16x16_1_0))
      3 3 (transpose S16x16 [1, 0] (shapeCast S16x16 (extractStridedSlice S16x16x1x1 ![0, 0, 1, 0] (W0 m ρ c (Proc.devRef .tc main_arg3)) slices_S16x16x3x3_S16x16x1x1_0_0_1_0) shapeCasts_S16x16x1x1_S16x16) transposes_S16x16_S16x16_1_0))
      3 4 (transpose S16x16 [1, 0] (shapeCast S16x16 (extractStridedSlice S16x16x1x1 ![0, 0, 1, 1] (W0 m ρ c (Proc.devRef .tc main_arg3)) slices_S16x16x3x3_S16x16x1x1_0_0_1_1) shapeCasts_S16x16x1x1_S16x16) transposes_S16x16_S16x16_1_0))
      3 5 (transpose S16x16 [1, 0] (shapeCast S16x16 (extractStridedSlice S16x16x1x1 ![0, 0, 1, 2] (W0 m ρ c (Proc.devRef .tc main_arg3)) slices_S16x16x3x3_S16x16x1x1_0_0_1_2) shapeCasts_S16x16x1x1_S16x16) transposes_S16x16_S16x16_1_0))
      4 3 (transpose S16x16 [1, 0] (shapeCast S16x16 (extractStridedSlice S16x16x1x1 ![0, 0, 2, 0] (W0 m ρ c (Proc.devRef .tc main_arg3)) slices_S16x16x3x3_S16x16x1x1_0_0_2_0) shapeCasts_S16x16x1x1_S16x16) transposes_S16x16_S16x16_1_0))
      4 4 (transpose S16x16 [1, 0] (shapeCast S16x16 (extractStridedSlice S16x16x1x1 ![0, 0, 2, 1] (W0 m ρ c (Proc.devRef .tc main_arg3)) slices_S16x16x3x3_S16x16x1x1_0_0_2_1) shapeCasts_S16x16x1x1_S16x16) transposes_S16x16_S16x16_1_0))
      4 5 (transpose S16x16 [1, 0] (shapeCast S16x16 (extractStridedSlice S16x16x1x1 ![0, 0, 2, 2] (W0 m ρ c (Proc.devRef .tc main_arg3)) slices_S16x16x3x3_S16x16x1x1_0_0_2_2) shapeCasts_S16x16x1x1_S16x16) transposes_S16x16_S16x16_1_0))
      1 2 (transpose S16x16 [1, 0] (shapeCast S16x16 (extractStridedSlice S16x16x1x1 ![0, 0, 0, 0] (W0 m ρ c (Proc.devRef .tc main_arg5)) slices_S16x16x3x3_S16x16x1x1_0_0_0_0) shapeCasts_S16x16x1x1_S16x16) transposes_S16x16_S16x16_1_0))
      1 4 (transpose S16x16 [1, 0] (shapeCast S16x16 (extractStridedSlice S16x16x1x1 ![0, 0, 0, 1] (W0 m ρ c (Proc.devRef .tc main_arg5)) slices_S16x16x3x3_S16x16x1x1_0_0_0_1) shapeCasts_S16x16x1x1_S16x16) transposes_S16x16_S16x16_1_0))
      1 6 (transpose S16x16 [1, 0] (shapeCast S16x16 (extractStridedSlice S16x16x1x1 ![0, 0, 0, 2] (W0 m ρ c (Proc.devRef .tc main_arg5)) slices_S16x16x3x3_S16x16x1x1_0_0_0_2) shapeCasts_S16x16x1x1_S16x16) transposes_S16x16_S16x16_1_0))
      3 2 (transpose S16x16 [1, 0] (shapeCast S16x16 (extractStridedSlice S16x16x1x1 ![0, 0, 1, 0] (W0 m ρ c (Proc.devRef .tc main_arg5)) slices_S16x16x3x3_S16x16x1x1_0_0_1_0) shapeCasts_S16x16x1x1_S16x16) transposes_S16x16_S16x16_1_0))
      3 4 (transpose S16x16 [1, 0] (shapeCast S16x16 (extractStridedSlice S16x16x1x1 ![0, 0, 1, 1] (W0 m ρ c (Proc.devRef .tc main_arg5)) slices_S16x16x3x3_S16x16x1x1_0_0_1_1) shapeCasts_S16x16x1x1_S16x16) transposes_S16x16_S16x16_1_0))
      3 6 (transpose S16x16 [1, 0] (shapeCast S16x16 (extractStridedSlice S16x16x1x1 ![0, 0, 1, 2] (W0 m ρ c (Proc.devRef .tc main_arg5)) slices_S16x16x3x3_S16x16x1x1_0_0_1_2) shapeCasts_S16x16x1x1_S16x16) transposes_S16x16_S16x16_1_0))
      5 2 (transpose S16x16 [1, 0] (shapeCast S16x16 (extractStridedSlice S16x16x1x1 ![0, 0, 2, 0] (W0 m ρ c (Proc.devRef .tc main_arg5)) slices_S16x16x3x3_S16x16x1x1_0_0_2_0) shapeCasts_S16x16x1x1_S16x16) transposes_S16x16_S16x16_1_0))
      5 4 (transpose S16x16 [1, 0] (shapeCast S16x16 (extractStridedSlice S16x16x1x1 ![0, 0, 2, 1] (W0 m ρ c (Proc.devRef .tc main_arg5)) slices_S16x16x3x3_S16x16x1x1_0_0_2_1) shapeCasts_S16x16x1x1_S16x16) transposes_S16x16_S16x16_1_0))
      5 6 (transpose S16x16 [1, 0] (shapeCast S16x16 (extractStridedSlice S16x16x1x1 ![0, 0, 2, 2] (W0 m ρ c (Proc.devRef .tc main_arg5)) slices_S16x16x3x3_S16x16x1x1_0_0_2_2) shapeCasts_S16x16x1x1_S16x16) transposes_S16x16_S16x16_1_0))
      0 0 (transpose S16x16 [1, 0] (shapeCast S16x16 (extractStridedSlice S16x16x1x1 ![0, 0, 0, 0] (W0 m ρ c (Proc.devRef .tc main_arg7)) slices_S16x16x3x3_S16x16x1x1_0_0_0_0) shapeCasts_S16x16x1x1_S16x16) transposes_S16x16_S16x16_1_0))
      0 4 (transpose S16x16 [1, 0] (shapeCast S16x16 (extractStridedSlice S16x16x1x1 ![0, 0, 0, 1] (W0 m ρ c (Proc.devRef .tc main_arg7)) slices_S16x16x3x3_S16x16x1x1_0_0_0_1) shapeCasts_S16x16x1x1_S16x16) transposes_S16x16_S16x16_1_0))
      0 8 (transpose S16x16 [1, 0] (shapeCast S16x16 (extractStridedSlice S16x16x1x1 ![0, 0, 0, 2] (W0 m ρ c (Proc.devRef .tc main_arg7)) slices_S16x16x3x3_S16x16x1x1_0_0_0_2) shapeCasts_S16x16x1x1_S16x16) transposes_S16x16_S16x16_1_0))
      3 0 (transpose S16x16 [1, 0] (shapeCast S16x16 (extractStridedSlice S16x16x1x1 ![0, 0, 1, 0] (W0 m ρ c (Proc.devRef .tc main_arg7)) slices_S16x16x3x3_S16x16x1x1_0_0_1_0) shapeCasts_S16x16x1x1_S16x16) transposes_S16x16_S16x16_1_0))
      3 4 (transpose S16x16 [1, 0] (shapeCast S16x16 (extractStridedSlice S16x16x1x1 ![0, 0, 1, 1] (W0 m ρ c (Proc.devRef .tc main_arg7)) slices_S16x16x3x3_S16x16x1x1_0_0_1_1) shapeCasts_S16x16x1x1_S16x16) transposes_S16x16_S16x16_1_0))
      3 8 (transpose S16x16 [1, 0] (shapeCast S16x16 (extractStridedSlice S16x16x1x1 ![0, 0, 1, 2] (W0 m ρ c (Proc.devRef .tc main_arg7)) slices_S16x16x3x3_S16x16x1x1_0_0_1_2) shapeCasts_S16x16x1x1_S16x16) transposes_S16x16_S16x16_1_0))
      6 0 (transpose S16x16 [1, 0] (shapeCast S16x16 (extractStridedSlice S16x16x1x1 ![0, 0, 2, 0] (W0 m ρ c (Proc.devRef .tc main_arg7)) slices_S16x16x3x3_S16x16x1x1_0_0_2_0) shapeCasts_S16x16x1x1_S16x16) transposes_S16x16_S16x16_1_0))
      6 4 (transpose S16x16 [1, 0] (shapeCast S16x16 (extractStridedSlice S16x16x1x1 ![0, 0, 2, 1] (W0 m ρ c (Proc.devRef .tc main_arg7)) slices_S16x16x3x3_S16x16x1x1_0_0_2_1) shapeCasts_S16x16x1x1_S16x16) transposes_S16x16_S16x16_1_0))
      6 8 (transpose S16x16 [1, 0] (shapeCast S16x16 (extractStridedSlice S16x16x1x1 ![0, 0, 2, 2] (W0 m ρ c (Proc.devRef .tc main_arg7)) slices_S16x16x3x3_S16x16x1x1_0_0_2_2) shapeCasts_S16x16x1x1_S16x16) transposes_S16x16_S16x16_1_0))

/-- The gather's index array: the dense literal, behind a select whose condition is false everywhere. -/
def gatherIdx : IVec S32x32x1 32 :=
  broadcastInDim S32x32x1 ![0, 1] bcast_S32x32_S32x32x1_0_1
    (select (constantI S32x32 1 0#1)
      (addi (fun i => lit0 (S32x32.rowMajor i)) (broadcastInDim S32x32 ![] bcast_S_S32x32 (constantI S_ 32 9#32)))
      (fun i => lit0 (S32x32.rowMajor i)))

/-- The band mask broadcast over row offsets and channels. -/
def mask5 : FVec Ideal S7x32x32x16x16 .f32 :=
  broadcastInDim S7x32x32x16x16 ![0, 1, 2, 3, 4] bcast_S1x32x32x1x1_S7x32x32x16x16_0_1_2_3_4
    (broadcastInDim S1x32x32x1x1 ![1, 2] bcast_S32x32_S1x32x32x1x1_1_2
      (fun i => (FloatOps.ofBits .f32 (lit1 (S32x32.rowMajor i)) : Ideal .f32)))

set_option maxHeartbeats 16000000 in
/-- The stack at an index. -/
theorem stack_apply (m : (ℓ : Loc nD τ sig) → Buf (Elt Ideal) ℓ) (ρ : Dev nD → PrngReg) (c : Dev nD)
    (g : Fin 7) (wi wo : Fin 32) (ci co : Fin 16) :
    (V3 (F := Ideal) m ρ c main_v206 : FVec Ideal S7x512x512 .bf16) (ix3 (n0 := 7) (n1 := 512) (n2 := 512) g ⟨wi.val * 16 + ci.val, by omega⟩ ⟨wo.val * 16 + co.val, by omega⟩)
      = tabClosed m ρ c (ix4 (n0 := 7) (n1 := 9) (n2 := 16) (n3 := 16) g
            ⟨min (lit0 (S32x32.rowMajor (ix2 (n0 := 32) (n1 := 32) wi wo))).toInt.toNat 8, by omega⟩ ci co)
          * (FloatOps.ofBits .f32 (lit1 (S32x32.rowMajor (ix2 (n0 := 32) (n1 := 32) wi wo))) : Ideal .f32) := by
  show (StableHlo.after hostOps0_2 (StableHlo.after hostOps0_1 (StableHlo.after hostOps0 (W0 m ρ c))) (Proc.devRef .tc main_v206)
      : FVec Ideal S7x512x512 .bf16) (ix3 (n0 := 7) (n1 := 512) (n2 := 512) g ⟨wi.val * 16 + ci.val, by omega⟩ ⟨wo.val * 16 + co.val, by omega⟩) = _
  after_results_simp
  simp only [concat_eq_idx2]
  after_results_simp
  simp only [scatter_const _ _ 3#32 4#32 ⟨3, by omega⟩ ⟨4, by omega⟩ (by decide) (by decide),
    scatter_const _ _ 2#32 3#32 ⟨2, by omega⟩ ⟨3, by omega⟩ (by decide) (by decide),
    scatter_const _ _ 2#32 4#32 ⟨2, by omega⟩ ⟨4, by omega⟩ (by decide) (by decide),
    scatter_const _ _ 2#32 5#32 ⟨2, by omega⟩ ⟨5, by omega⟩ (by decide) (by decide),
    scatter_const _ _ 3#32 3#32 ⟨3, by omega⟩ ⟨3, by omega⟩ (by decide) (by decide),
    scatter_const _ _ 3#32 5#32 ⟨3, by omega⟩ ⟨5, by omega⟩ (by decide) (by decide),
    scatter_const _ _ 4#32 3#32 ⟨4, by omega⟩ ⟨3, by omega⟩ (by decide) (by decide),
    scatter_const _ _ 4#32 4#32 ⟨4, by omega⟩ ⟨4, by omega⟩ (by decide) (by decide),
    scatter_const _ _ 4#32 5#32 ⟨4, by omega⟩ ⟨5, by omega⟩ (by decide) (by decide),
    scatter_const _ _ 1#32 2#32 ⟨1, by omega⟩ ⟨2, by omega⟩ (by decide) (by decide),
    scatter_const _ _ 1#32 4#32 ⟨1, by omega⟩ ⟨4, by omega⟩ (by decide) (by decide),
    scatter_const _ _ 1#32 6#32 ⟨1, by omega⟩ ⟨6, by omega⟩ (by decide) (by decide),
    scatter_const _ _ 3#32 2#32 ⟨3, by omega⟩ ⟨2, by omega⟩ (by decide) (by decide),
    scatter_const _ _ 3#32 6#32 ⟨3, by omega⟩ ⟨6, by omega⟩ (by decide) (by decide),
    scatter_const _ _ 5#32 2#32 ⟨5, by omega⟩ ⟨2, by omega⟩ (by decide) (by decide),
    scatter_const _ _ 5#32 4#32 ⟨5, by omega⟩ ⟨4, by omega⟩ (by decide) (by decide),
    scatter_const _ _ 5#32 6#32 ⟨5, by omega⟩ ⟨6, by omega⟩ (by decide) (by decide),
    scatter_const _ _ 0#32 0#32 ⟨0, by omega⟩ ⟨0, by omega⟩ (by decide) (by decide),
    scatter_const _ _ 0#32 4#32 ⟨0, by omega⟩ ⟨4, by omega⟩ (by decide) (by decide),
    scatter_const _ _ 0#32 8#32 ⟨0, by omega⟩ ⟨8, by omega⟩ (by decide) (by decide),
    scatter_const _ _ 3#32 0#32 ⟨3, by omega⟩ ⟨0, by omega⟩ (by decide) (by decide),
    scatter_const _ _ 3#32 8#32 ⟨3, by omega⟩ ⟨8, by omega⟩ (by decide) (by decide),
    scatter_const _ _ 6#32 0#32 ⟨6, by omega⟩ ⟨0, by omega⟩ (by decide) (by decide),
    scatter_const _ _ 6#32 4#32 ⟨6, by omega⟩ ⟨4, by omega⟩ (by decide) (by decide),
    scatter_const _ _ 6#32 8#32 ⟨6, by omega⟩ ⟨8, by omega⟩ (by decide) (by decide)]
  show (shapeCast S7x512x512
        (transpose S7x32x16x32x16 [0, 1, 3, 2, 4]
          (mulf (F := Ideal) (φ := .f32) (Host.gather gather_S7x9x16x16_S32x32x1_S7x32x32x16x16_034_1_n_n_1_2_711616 (tabClosed m ρ c) gatherIdx) mask5)
          transposes_S7x32x32x16x16_S7x32x16x32x16_0_1_3_2_4)
        shapeCasts_S7x32x16x32x16_S7x512x512 : FVec Ideal S7x512x512 .f32) (ix3 (n0 := 7) (n1 := 512) (n2 := 512) g ⟨wi.val * 16 + ci.val, by omega⟩ ⟨wo.val * 16 + co.val, by omega⟩) = _
  rw [shapeCast_apply _ shapeCasts_S7x32x16x32x16_S7x512x512 (ix3 (n0 := 7) (n1 := 512) (n2 := 512) g ⟨wi.val * 16 + ci.val, by omega⟩ ⟨wo.val * 16 + co.val, by omega⟩)
      (ix5 (n0 := 7) (n1 := 32) (n2 := 16) (n3 := 32) (n4 := 16) g wi ci wo co) (by
        rw [Shape.rowMajor_val_five, Shape.rowMajor_val_three]
        show (((g.val * 32 + wi.val) * 16 + ci.val) * 32 + wo.val) * 16 + co.val = (g.val * 512 + (wi.val * 16 + ci.val)) * 512 + (wo.val * 16 + co.val)
        omega),
    transpose_apply [0, 1, 3, 2, 4] _ transposes_S7x32x32x16x16_S7x32x16x32x16_0_1_3_2_4
      (ix5 (n0 := 7) (n1 := 32) (n2 := 16) (n3 := 32) (n4 := 16) g wi ci wo co) (ix5 (n0 := 7) (n1 := 32) (n2 := 32) (n3 := 16) (n4 := 16) g wi wo ci co)
      (fun b => by match b with | ⟨0, _⟩ => rfl | ⟨1, _⟩ => rfl | ⟨2, _⟩ => rfl | ⟨3, _⟩ => rfl | ⟨4, _⟩ => rfl)]
  show Host.gather gather_S7x9x16x16_S32x32x1_S7x32x32x16x16_034_1_n_n_1_2_711616 (tabClosed m ρ c) gatherIdx (ix5 (n0 := 7) (n1 := 32) (n2 := 32) (n3 := 16) (n4 := 16) g wi wo ci co) * mask5 (ix5 (n0 := 7) (n1 := 32) (n2 := 32) (n3 := 16) (n4 := 16) g wi wo ci co) = _
  rw [TabGather.gather_apply]
  unfold mask5
  rw [broadcastInDim_apply ![0, 1, 2, 3, 4] bcast_S1x32x32x1x1_S7x32x32x16x16_0_1_2_3_4 _ (ix5 (n0 := 7) (n1 := 32) (n2 := 32) (n3 := 16) (n4 := 16) g wi wo ci co)
      (ix5 (n0 := 1) (n1 := 32) (n2 := 32) (n3 := 1) (n4 := 1) 0 wi wo 0 0)
      (fun a => by match a with | ⟨0, _⟩ => rfl | ⟨1, _⟩ => rfl | ⟨2, _⟩ => rfl | ⟨3, _⟩ => rfl | ⟨4, _⟩ => rfl),
    broadcastInDim_apply ![1, 2] bcast_S32x32_S1x32x32x1x1_1_2 _ (ix5 (n0 := 1) (n1 := 32) (n2 := 32) (n3 := 1) (n4 := 1) 0 wi wo 0 0)
      (ix2 (n0 := 32) (n1 := 32) wi wo) (fun a => by match a with | ⟨0, _⟩ => rfl | ⟨1, _⟩ => rfl)]
  have hidx : gatherIdx (ix3 (n0 := 32) (n1 := 32) (n2 := 1) wi wo 0) = lit0 (S32x32.rowMajor (ix2 (n0 := 32) (n1 := 32) wi wo)) := by
    unfold gatherIdx
    rw [broadcastInDim_apply ![0, 1] bcast_S32x32_S32x32x1_0_1 _ (ix3 (n0 := 32) (n1 := 32) (n2 := 1) wi wo 0)
      (ix2 (n0 := 32) (n1 := 32) wi wo) (fun a => by match a with | ⟨0, _⟩ => rfl | ⟨1, _⟩ => rfl)]
    rfl
  refine congrArg (fun z : Fin 9 => tabClosed m ρ c (ix4 (n0 := 7) (n1 := 9) (n2 := 16) (n3 := 16) g z ci co)
      * (FloatOps.ofBits .f32 (lit1 (S32x32.rowMajor (ix2 (n0 := 32) (n1 := 32) wi wo))) : Ideal .f32)) (Fin.ext ?_)
  show min (gatherIdx (ix3 (n0 := 32) (n1 := 32) (n2 := 1) wi wo 0)).toInt.toNat 8
      = min (lit0 (S32x32.rowMajor (ix2 (n0 := 32) (n1 := 32) wi wo))).toInt.toNat 8
  rw [hidx]

end Cert.KernelIdeal.Stack

end
-- ==== Proof.RefStack.lean ====
/-
  The reference's stack of row-shift matrices in closed form.  Matrix `g` at input lane `w_in * 16 + c_in` and output lane
  `w_out * 16 + c_out` is a zero plus, for each Kronecker term of that row offset, the column-shift literal at
  `(w_in, w_out)` times the tap matrix at `(c_in, c_out)` (Cert.KronAt.kron_apply) — three terms, seven for row offset 0,
  whose first tap is the sum of the 1x1 kernel and the three centre taps.  The tap matrices are a zero plus the
  transposed weight slice.
-/
import proofs.«179230_g2000505885998750_pallasbulk_270_2_alg».proof.Proof.RefFold
import proofs.«179230_g2000505885998750_pallasbulk_270_2_alg».proof.Proof.LibKronAt
import Idealize.ShloMosaic.PureOps.Ideal

set_option maxRecDepth 16384

noncomputable section

namespace Cert.ReferenceIdeal.Stack

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Hand

set_option maxHeartbeats 60000000 in
/-- The seven matrices of the stack, each at an index. -/
theorem stack_apply (m' : (ℓ : Loc nD τ sig) → Buf (Elt Ideal) ℓ) (ρ' : Dev nD → PrngReg) (c : Dev nD)
    (wi wo : Fin 32) (ci co : Fin 16) :
    ((V53 (F := Ideal) m' ρ' c main_v200 : FVec Ideal S7x512x512 .f32) (ix3 (n0 := 7) (n1 := 512) (n2 := 512) ⟨0, by omega⟩ ⟨wi.val * 16 + ci.val, by omega⟩ ⟨wo.val * 16 + co.val, by omega⟩)
      = ((((FloatOps.ofBits .f32 0x00000000#32 : Ideal .f32)
        + (FloatOps.ofBits .f32 (lit0 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 0] (W0 m' ρ' c (Proc.devRef .tc main_arg7)) slices_S16x16x3x3_S16x16x1x1_0_0_0_0) shapeCasts_S16x16x1x1_S16x16) transposes_S16x16_S16x16_1_0)) (ix2 (n0 := 16) (n1 := 16) ci co))
        + (FloatOps.ofBits .f32 (lit1 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 1] (W0 m' ρ' c (Proc.devRef .tc main_arg7)) slices_S16x16x3x3_S16x16x1x1_0_0_0_1) shapeCasts_S16x16x1x1_S16x16) transposes_S16x16_S16x16_1_0)) (ix2 (n0 := 16) (n1 := 16) ci co))
        + (FloatOps.ofBits .f32 (lit2 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 2] (W0 m' ρ' c (Proc.devRef .tc main_arg7)) slices_S16x16x3x3_S16x16x1x1_0_0_0_2) shapeCasts_S16x16x1x1_S16x16) transposes_S16x16_S16x16_1_0)) (ix2 (n0 := 16) (n1 := 16) ci co)))
    ∧ ((V53 (F := Ideal) m' ρ' c main_v200 : FVec Ideal S7x512x512 .f32) (ix3 (n0 := 7) (n1 := 512) (n2 := 512) ⟨1, by omega⟩ ⟨wi.val * 16 + ci.val, by omega⟩ ⟨wo.val * 16 + co.val, by omega⟩)
      = ((((FloatOps.ofBits .f32 0x00000000#32 : Ideal .f32)
        + (FloatOps.ofBits .f32 (lit3 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 0] (W0 m' ρ' c (Proc.devRef .tc main_arg5)) slices_S16x16x3x3_S16x16x1x1_0_0_0_0) shapeCasts_S16x16x1x1_S16x16) transposes_S16x16_S16x16_1_0)) (ix2 (n0 := 16) (n1 := 16) ci co))
        + (FloatOps.ofBits .f32 (lit4 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 1] (W0 m' ρ' c (Proc.devRef .tc main_arg5)) slices_S16x16x3x3_S16x16x1x1_0_0_0_1) shapeCasts_S16x16x1x1_S16x16) transposes_S16x16_S16x16_1_0)) (ix2 (n0 := 16) (n1 := 16) ci co))
        + (FloatOps.ofBits .f32 (lit5 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 2] (W0 m' ρ' c (Proc.devRef .tc main_arg5)) slices_S16x16x3x3_S16x16x1x1_0_0_0_2) shapeCasts_S16x16x1x1_S16x16) transposes_S16x16_S16x16_1_0)) (ix2 (n0 := 16) (n1 := 16) ci co)))
    ∧ ((V53 (F := Ideal) m' ρ' c main_v200 : FVec Ideal S7x512x512 .f32) (ix3 (n0 := 7) (n1 := 512) (n2 := 512) ⟨2, by omega⟩ ⟨wi.val * 16 + ci.val, by omega⟩ ⟨wo.val * 16 + co.val, by omega⟩)
      = ((((FloatOps.ofBits .f32 0x00000000#32 : Ideal .f32)
        + (FloatOps.ofBits .f32 (lit6 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 0] (W0 m' ρ' c (Proc.devRef .tc main_arg3)) slices_S16x16x3x3_S16x16x1x1_0_0_0_0) shapeCasts_S16x16x1x1_S16x16) transposes_S16x16_S16x16_1_0)) (ix2 (n0 := 16) (n1 := 16) ci co))
        + (FloatOps.ofBits .f32 (lit7 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 1] (W0 m' ρ' c (Proc.devRef .tc main_arg3)) slices_S16x16x3x3_S16x16x1x1_0_0_0_1) shapeCasts_S16x16x1x1_S16x16) transposes_S16x16_S16x16_1_0)) (ix2 (n0 := 16) (n1 := 16) ci co))
        + (FloatOps.ofBits .f32 (lit8 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 0, 2] (W0 m' ρ' c (Proc.devRef .tc main_arg3)) slices_S16x16x3x3_S16x16x1x1_0_0_0_2) shapeCasts_S16x16x1x1_S16x16) transposes_S16x16_S16x16_1_0)) (ix2 (n0 := 16) (n1 := 16) ci co)))
    ∧ ((V53 (F := Ideal) m' ρ' c main_v200 : FVec Ideal S7x512x512 .f32) (ix3 (n0 := 7) (n1 := 512) (n2 := 512) ⟨3, by omega⟩ ⟨wi.val * 16 + ci.val, by omega⟩ ⟨wo.val * 16 + co.val, by omega⟩)
      = ((((((((FloatOps.ofBits .f32 0x00000000#32 : Ideal .f32)
        + (FloatOps.ofBits .f32 (lit9 (S32x32.rowMajor (ix2 (n0 := 32) (n1 := 32) wi wo))) : Ideal .f32) * (addf (F := Ideal) (φ := .f32) (addf (addf (addf (broadcastInDim S16x16 ![] bcast_S_S16x16 (constant (F := Ideal) S_ .f32 0x00000000#32)) (transpose S16x16 [1, 0] (shapeCast S16x16 (W0 m' ρ' c (Proc.devRef .tc main_arg1)) shapeCasts_S16x16x1x1_S16x16) transposes_S16x16_S16x16_1_0)) (transpose S16x16 [1, 0] (shapeCast S16x16 (extractStridedSlice S16x16x1x1 ![0, 0, 1, 1] (W0 m' ρ' c (Proc.devRef .tc main_arg3)) slices_S16x16x3x3_S16x16x1x1_0_0_1_1) shapeCasts_S16x16x1x1_S16x16) transposes_S16x16_S16x16_1_0)) (transpose S16x16 [1, 0] (shapeCast S16x16 (extractStridedSlice S16x16x1x1 ![0, 0, 1, 1] (W0 m' ρ' c (Proc.devRef .tc main_arg5)) slices_S16x16x3x3_S16x16x1x1_0_0_1_1) shapeCasts_S16x16x1x1_S16x16) transposes_S16x16_S16x16_1_0)) (transpose S16x16 [1, 0] (shapeCast S16x16 (extractStridedSlice S16x16x1x1 ![0, 0, 1, 1] (W0 m' ρ' c (Proc.devRef .tc main_arg7)) slices_S16x16x3x3_S16x16x1x1_0_0_1_1) shapeCasts_S16x16x1x1_S16x16) transposes_S16x16_S16x16_1_0)) (ix2 (n0 := 16) (n1 := 16) ci co))
        + (FloatOps.ofBits .f32 (lit10 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 1, 0] (W0 m' ρ' c (Proc.devRef .tc main_arg3)) slices_S16x16x3x3_S16x16x1x1_0_0_1_0) shapeCasts_S16x16x1x1_S16x16) transposes_S16x16_S16x16_1_0)) (ix2 (n0 := 16) (n1 := 16) ci co))
        + (FloatOps.ofBits .f32 (lit11 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 1, 2] (W0 m' ρ' c (Proc.devRef .tc main_arg3)) slices_S16x16x3x3_S16x16x1x1_0_0_1_2) shapeCasts_S16x16x1x1_S16x16) transposes_S16x16_S16x16_1_0)) (ix2 (n0 := 16) (n1 := 16) ci co))
        + (FloatOps.ofBits .f32 (lit12 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 1, 0] (W0 m' ρ' c (Proc.devRef .tc main_arg5)) slices_S16x16x3x3_S16x16x1x1_0_0_1_0) shapeCasts_S16x16x1x1_S16x16) transposes_S16x16_S16x16_1_0)) (ix2 (n0 := 16) (n1 := 16) ci co))
        + (FloatOps.ofBits .f32 (lit13 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 1, 2] (W0 m' ρ' c (Proc.devRef .tc main_arg5)) slices_S16x16x3x3_S16x16x1x1_0_0_1_2) shapeCasts_S16x16x1x1_S16x16) transposes_S16x16_S16x16_1_0)) (ix2 (n0 := 16) (n1 := 16) ci co))
        + (FloatOps.ofBits .f32 (lit14 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 1, 0] (W0 m' ρ' c (Proc.devRef .tc main_arg7)) slices_S16x16x3x3_S16x16x1x1_0_0_1_0) shapeCasts_S16x16x1x1_S16x16) transposes_S16x16_S16x16_1_0)) (ix2 (n0 := 16) (n1 := 16) ci co))
        + (FloatOps.ofBits .f32 (lit15 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 1, 2] (W0 m' ρ' c (Proc.devRef .tc main_arg7)) slices_S16x16x3x3_S16x16x1x1_0_0_1_2) shapeCasts_S16x16x1x1_S16x16) transposes_S16x16_S16x16_1_0)) (ix2 (n0 := 16) (n1 := 16) ci co)))
    ∧ ((V53 (F := Ideal) m' ρ' c main_v200 : FVec Ideal S7x512x512 .f32) (ix3 (n0 := 7) (n1 := 512) (n2 := 512) ⟨4, by omega⟩ ⟨wi.val * 16 + ci.val, by omega⟩ ⟨wo.val * 16 + co.val, by omega⟩)
      = ((((FloatOps.ofBits .f32 0x00000000#32 : Ideal .f32)
        + (FloatOps.ofBits .f32 (lit16 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 0] (W0 m' ρ' c (Proc.devRef .tc main_arg3)) slices_S16x16x3x3_S16x16x1x1_0_0_2_0) shapeCasts_S16x16x1x1_S16x16) transposes_S16x16_S16x16_1_0)) (ix2 (n0 := 16) (n1 := 16) ci co))
        + (FloatOps.ofBits .f32 (lit17 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 1] (W0 m' ρ' c (Proc.devRef .tc main_arg3)) slices_S16x16x3x3_S16x16x1x1_0_0_2_1) shapeCasts_S16x16x1x1_S16x16) transposes_S16x16_S16x16_1_0)) (ix2 (n0 := 16) (n1 := 16) ci co))
        + (FloatOps.ofBits .f32 (lit18 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 2] (W0 m' ρ' c (Proc.devRef .tc main_arg3)) slices_S16x16x3x3_S16x16x1x1_0_0_2_2) shapeCasts_S16x16x1x1_S16x16) transposes_S16x16_S16x16_1_0)) (ix2 (n0 := 16) (n1 := 16) ci co)))
    ∧ ((V53 (F := Ideal) m' ρ' c main_v200 : FVec Ideal S7x512x512 .f32) (ix3 (n0 := 7) (n1 := 512) (n2 := 512) ⟨5, by omega⟩ ⟨wi.val * 16 + ci.val, by omega⟩ ⟨wo.val * 16 + co.val, by omega⟩)
      = ((((FloatOps.ofBits .f32 0x00000000#32 : Ideal .f32)
        + (FloatOps.ofBits .f32 (lit19 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 0] (W0 m' ρ' c (Proc.devRef .tc main_arg5)) slices_S16x16x3x3_S16x16x1x1_0_0_2_0) shapeCasts_S16x16x1x1_S16x16) transposes_S16x16_S16x16_1_0)) (ix2 (n0 := 16) (n1 := 16) ci co))
        + (FloatOps.ofBits .f32 (lit20 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 1] (W0 m' ρ' c (Proc.devRef .tc main_arg5)) slices_S16x16x3x3_S16x16x1x1_0_0_2_1) shapeCasts_S16x16x1x1_S16x16) transposes_S16x16_S16x16_1_0)) (ix2 (n0 := 16) (n1 := 16) ci co))
        + (FloatOps.ofBits .f32 (lit21 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 2] (W0 m' ρ' c (Proc.devRef .tc main_arg5)) slices_S16x16x3x3_S16x16x1x1_0_0_2_2) shapeCasts_S16x16x1x1_S16x16) transposes_S16x16_S16x16_1_0)) (ix2 (n0 := 16) (n1 := 16) ci co)))
    ∧ ((V53 (F := Ideal) m' ρ' c main_v200 : FVec Ideal S7x512x512 .f32) (ix3 (n0 := 7) (n1 := 512) (n2 := 512) ⟨6, by omega⟩ ⟨wi.val * 16 + ci.val, by omega⟩ ⟨wo.val * 16 + co.val, by omega⟩)
      = ((((FloatOps.ofBits .f32 0x00000000#32 : Ideal .f32)
        + (FloatOps.ofBits .f32 (lit22 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 0] (W0 m' ρ' c (Proc.devRef .tc main_arg7)) slices_S16x16x3x3_S16x16x1x1_0_0_2_0) shapeCasts_S16x16x1x1_S16x16) transposes_S16x16_S16x16_1_0)) (ix2 (n0 := 16) (n1 := 16) ci co))
        + (FloatOps.ofBits .f32 (lit23 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 1] (W0 m' ρ' c (Proc.devRef .tc main_arg7)) slices_S16x16x3x3_S16x16x1x1_0_0_2_1) shapeCasts_S16x16x1x1_S16x16) transposes_S16x16_S16x16_1_0)) (ix2 (n0 := 16) (n1 := 16) ci co))
        + (FloatOps.ofBits .f32 (lit24 (S32x32.rowMajor (ix2 (n0 := 32) (n1 := 32) wi wo))) : Ideal .f32) * (addf (F := Ideal) (φ := .f32) (broadcastInDim S16x16 ![] bcast_S_S16x16 (constant (F := Ideal) S_ .f32 0x00000000#32)) (transpose S16x16 [1, 0] (shapeCast S16x16 (extractStridedSlice S16x16x1x1 ![0, 0, 2, 2] (W0 m' ρ' c (Proc.devRef .tc main_arg7)) slices_S16x16x3x3_S16x16x1x1_0_0_2_2) shapeCasts_S16x16x1x1_S16x16) transposes_S16x16_S16x16_1_0)) (ix2 (n0 := 16) (n1 := 16) ci co))) := by
  show ((StableHlo.after hostOps0_52 (W52 m' ρ' c) (Proc.devRef .tc main_v200) : FVec Ideal S7x512x512 .f32) (ix3 (n0 := 7) (n1 := 512) (n2 := 512) ⟨0, by omega⟩ ⟨wi.val * 16 + ci.val, by omega⟩ ⟨wo.val * 16 + co.val, by omega⟩) = _)
    ∧ ((StableHlo.after hostOps0_52 (W52 m' ρ' c) (Proc.devRef .tc main_v200) : FVec Ideal S7x512x512 .f32) (ix3 (n0 := 7) (n1 := 512) (n2 := 512) ⟨1, by omega⟩ ⟨wi.val * 16 + ci.val, by omega⟩ ⟨wo.val * 16 + co.val, by omega⟩) = _)
    ∧ ((StableHlo.after hostOps0_52 (W52 m' ρ' c) (Proc.devRef .tc main_v200) : FVec Ideal S7x512x512 .f32) (ix3 (n0 := 7) (n1 := 512) (n2 := 512) ⟨2, by omega⟩ ⟨wi.val * 16 + ci.val, by omega⟩ ⟨wo.val * 16 + co.val, by omega⟩) = _)
    ∧ ((StableHlo.after hostOps0_52 (W52 m' ρ' c) (Proc.devRef .tc main_v200) : FVec Ideal S7x512x512 .f32) (ix3 (n0 := 7) (n1 := 512) (n2 := 512) ⟨3, by omega⟩ ⟨wi.val * 16 + ci.val, by omega⟩ ⟨wo.val * 16 + co.val, by omega⟩) = _)
    ∧ ((StableHlo.after hostOps0_52 (W52 m' ρ' c) (Proc.devRef .tc main_v200) : FVec Ideal S7x512x512 .f32) (ix3 (n0 := 7) (n1 := 512) (n2 := 512) ⟨4, by omega⟩ ⟨wi.val * 16 + ci.val, by omega⟩ ⟨wo.val * 16 + co.val, by omega⟩) = _)
    ∧ ((StableHlo.after hostOps0_52 (W52 m' ρ' c) (Proc.devRef .tc main_v200) : FVec Ideal S7x512x512 .f32) (ix3 (n0 := 7) (n1 := 512) (n2 := 512) ⟨5, by omega⟩ ⟨wi.val * 16 + ci.val, by omega⟩ ⟨wo.val * 16 + co.val, by omega⟩) = _)
    ∧ ((StableHlo.after hostOps0_52 (W52 m' ρ' c) (Proc.devRef .tc main_v200) : FVec Ideal S7x512x512 .f32) (ix3 (n0 := 7) (n1 := 512) (n2 := 512) ⟨6, by omega⟩ ⟨wi.val * 16 + ci.val, by omega⟩ ⟨wo.val * 16 + co.val, by omega⟩) = _)
  after_results_simp
  refine ⟨?_, ?_, ?_, ?_, ?_, ?_, ?_⟩
  · -- matrix 0
    rw [concatenate_apply_piece (0 : Fin 3) _ _ (ix3 (n0 := 7) (n1 := 512) (n2 := 512) ⟨0, by omega⟩ ⟨wi.val * 16 + ci.val, by omega⟩ ⟨wo.val * 16 + co.val, by omega⟩)
      0 (by show 0 < 7; omega) S1x512x512 _ rfl rfl 0 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) ?z ?k0) ?k1) ?k2)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co
  · -- matrix 1
    rw [concatenate_apply_piece (0 : Fin 3) _ _ (ix3 (n0 := 7) (n1 := 512) (n2 := 512) ⟨1, by omega⟩ ⟨wi.val * 16 + ci.val, by omega⟩ ⟨wo.val * 16 + co.val, by omega⟩)
      1 (by show 1 < 7; omega) S1x512x512 _ rfl rfl 1 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) ?z ?k0) ?k1) ?k2)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co
  · -- matrix 2
    rw [concatenate_apply_piece (0 : Fin 3) _ _ (ix3 (n0 := 7) (n1 := 512) (n2 := 512) ⟨2, by omega⟩ ⟨wi.val * 16 + ci.val, by omega⟩ ⟨wo.val * 16 + co.val, by omega⟩)
      2 (by show 2 < 7; omega) S1x512x512 _ rfl rfl 2 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) ?z ?k0) ?k1) ?k2)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co
  · -- matrix 3
    rw [concatenate_apply_piece (0 : Fin 3) _ _ (ix3 (n0 := 7) (n1 := 512) (n2 := 512) ⟨3, by omega⟩ ⟨wi.val * 16 + ci.val, by omega⟩ ⟨wo.val * 16 + co.val, by omega⟩)
      3 (by show 3 < 7; omega) S1x512x512 _ rfl rfl 3 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) (congrArg₂ (· + ·) (congrArg₂ (· + ·) (congrArg₂ (· + ·) (congrArg₂ (· + ·) ?z ?k0) ?k1) ?k2) ?k3) ?k4) ?k5) ?k6)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co
    case k3 => exact Cert.KronAt.kron_apply _ _ _ _ _ _ _ wi wo ci co
    case k4 => exact Cert.KronAt.kron_apply _ _ _ _ _ _ _ wi wo ci co
    case k5 => exact Cert.KronAt.kron_apply _ _ _ _ _ _ _ wi wo ci co
    case k6 => exact Cert.KronAt.kron_apply _ _ _ _ _ _ _ wi wo ci co
  · -- matrix 4
    rw [concatenate_apply_piece (0 : Fin 3) _ _ (ix3 (n0 := 7) (n1 := 512) (n2 := 512) ⟨4, by omega⟩ ⟨wi.val * 16 + ci.val, by omega⟩ ⟨wo.val * 16 + co.val, by omega⟩)
      4 (by show 4 < 7; omega) S1x512x512 _ rfl rfl 4 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) ?z ?k0) ?k1) ?k2)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co
  · -- matrix 5
    rw [concatenate_apply_piece (0 : Fin 3) _ _ (ix3 (n0 := 7) (n1 := 512) (n2 := 512) ⟨5, by omega⟩ ⟨wi.val * 16 + ci.val, by omega⟩ ⟨wo.val * 16 + co.val, by omega⟩)
      5 (by show 5 < 7; omega) S1x512x512 _ rfl rfl 5 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) ?z ?k0) ?k1) ?k2)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co
  · -- matrix 6
    rw [concatenate_apply_piece (0 : Fin 3) _ _ (ix3 (n0 := 7) (n1 := 512) (n2 := 512) ⟨6, by omega⟩ ⟨wi.val * 16 + ci.val, by omega⟩ ⟨wo.val * 16 + co.val, by omega⟩)
      6 (by show 6 < 7; omega) S1x512x512 _ rfl rfl 6 (by rfl)
      (ix3 (n0 := 1) (n1 := 512) (n2 := 512) 0 ⟨wi.val * 16 + ci.val, by omega⟩ ⟨wo.val * 16 + co.val, by omega⟩)
      (fun b hb => by match b with | ⟨0, _⟩ => exact absurd rfl hb | ⟨1, _⟩ => rfl | ⟨2, _⟩ => rfl) (by rfl)]
    dsimp only [Matrix.cons_val]
    after_results_simp
    simp only [StableHlo.TRef.toBuf, StableHlo.TRef.ofBuf, StableHlo.TRef.of, cast_eq]
    rw [broadcastInDim_apply ![1, 2] _ _ (ix3 (n0 := 1) (n1 := 512) (n2 := 512) 0 ⟨wi.val * 16 + ci.val, by omega⟩ ⟨wo.val * 16 + co.val, by omega⟩)
      (ix2 (n0 := 512) (n1 := 512) ⟨wi.val * 16 + ci.val, by omega⟩ ⟨wo.val * 16 + co.val, by omega⟩)
      (fun a => by match a with | ⟨0, _⟩ => rfl | ⟨1, _⟩ => rfl)]
    refine (congrArg₂ (· + ·) (congrArg₂ (· + ·) (congrArg₂ (· + ·) ?z ?k0) ?k1) ?k2)
    case z => rfl
    case k0 => exact Cert.KronAt.kron_apply _ _ _ _ _ _ _ wi wo ci co
    case k1 => exact Cert.KronAt.kron_apply _ _ _ _ _ _ _ wi wo ci co
    case k2 => exact Cert.KronAt.kron_apply _ _ _ _ _ _ _ wi wo ci co

end Cert.ReferenceIdeal.Stack

end
-- ==== Proof.KLits.lean ====
/-
  The kernel's two dense 32 x 32 literals, entry by entry: the gather's column-offset index at `(w_in, w_out)` is
  `w_in - w_out + 4` clipped to `[0, 8]`, and the band mask is the word of 1.0 where `|w_in - w_out| ≤ 4` and the zero word
  elsewhere.
-/
import proofs.«179230_g2000505885998750_pallasbulk_270_2_alg».proof.KernelIdeal

set_option maxRecDepth 65536

namespace Cert.KernelIdeal.Lits

open Cert.KernelIdeal

/-- The column-offset index: `clip (w_in - w_out + 4) 0 8`. -/
theorem lit0_index : ∀ n : Fin 1024, lit0 n = BitVec.ofNat 32 (min (n.val / 32 + 4 - n.val % 32) 8) := by
  decide +kernel

/-- The band mask: ones within four columns of the diagonal. -/
theorem lit1_mask : ∀ n : Fin 1024,
    lit1 n = if n.val / 32 ≤ n.val % 32 + 4 ∧ n.val % 32 ≤ n.val / 32 + 4 then 0x3F800000#32 else 0#32 := by
  decide +kernel

end Cert.KernelIdeal.Lits
-- ==== Proof.LitsFull.lean ====
/-
  The reference's 25 column-shift matrices, entry by entry: matrix `n` has the word of 1.0 where the input column equals the
  output column plus its shift `dx` and the zero word elsewhere.  The shifts, in the order the matrices are used: for row
  offsets -4, -2, -1: `(-d, 0, d)` with `d = 4, 2, 1`; for row offset 0: `0, -1, 1, -2, 2, -4, 4`; for 1, 2, 4:
  `(-d, 0, d)` with `d = 1, 2, 4`.
-/
import proofs.«179230_g2000505885998750_pallasbulk_270_2_alg».proof.ReferenceIdeal

set_option maxRecDepth 65536

namespace Cert.ReferenceIdeal.Lits

open Cert.ReferenceIdeal

/-- Shift matrix 0: ones where the input column is the output column minus 4. -/
theorem lit0_shift : ∀ n : Fin 1024, lit0 n = if n.val / 32 + 4 = n.val % 32 then 0x3F800000#32 else 0#32 := by
  decide +kernel
/-- Shift matrix 1: ones where the input column is the output column plus 0. -/
theorem lit1_shift : ∀ n : Fin 1024, lit1 n = if n.val / 32 = n.val % 32 + 0 then 0x3F800000#32 else 0#32 := by
  decide +kernel
/-- Shift matrix 2: ones where the input column is the output column plus 4. -/
theorem lit2_shift : ∀ n : Fin 1024, lit2 n = if n.val / 32 = n.val % 32 + 4 then 0x3F800000#32 else 0#32 := by
  decide +kernel
/-- Shift matrix 3: ones where the input column is the output column minus 2. -/
theorem lit3_shift : ∀ n : Fin 1024, lit3 n = if n.val / 32 + 2 = n.val % 32 then 0x3F800000#32 else 0#32 := by
  decide +kernel
/-- Shift matrix 4: ones where the input column is the output column plus 0. -/
theorem lit4_shift : ∀ n : Fin 1024, lit4 n = if n.val / 32 = n.val % 32 + 0 then 0x3F800000#32 else 0#32 := by
  decide +kernel
/-- Shift matrix 5: ones where the input column is the output column plus 2. -/
theorem lit5_shift : ∀ n : Fin 1024, lit5 n = if n.val / 32 = n.val % 32 + 2 then 0x3F800000#32 else 0#32 := by
  decide +kernel
/-- Shift matrix 6: ones where the input column is the output column minus 1. -/
theorem lit6_shift : ∀ n : Fin 1024, lit6 n = if n.val / 32 + 1 = n.val % 32 then 0x3F800000#32 else 0#32 := by
  decide +kernel
/-- Shift matrix 7: ones where the input column is the output column plus 0. -/
theorem lit7_shift : ∀ n : Fin 1024, lit7 n = if n.val / 32 = n.val % 32 + 0 then 0x3F800000#32 else 0#32 := by
  decide +kernel
/-- Shift matrix 8: ones where the input column is the output column plus 1. -/
theorem lit8_shift : ∀ n : Fin 1024, lit8 n = if n.val / 32 = n.val % 32 + 1 then 0x3F800000#32 else 0#32 := by
  decide +kernel
/-- Shift matrix 9: ones where the input column is the output column plus 0. -/
theorem lit9_shift : ∀ n : Fin 1024, lit9 n = if n.val / 32 = n.val % 32 + 0 then 0x3F800000#32 else 0#32 := by
  decide +kernel
/-- Shift matrix 10: ones where the input column is the output column minus 1. -/
theorem lit10_shift : ∀ n : Fin 1024, lit10 n = if n.val / 32 + 1 = n.val % 32 then 0x3F800000#32 else 0#32 := by
  decide +kernel
/-- Shift matrix 11: ones where the input column is the output column plus 1. -/
theorem lit11_shift : ∀ n : Fin 1024, lit11 n = if n.val / 32 = n.val % 32 + 1 then 0x3F800000#32 else 0#32 := by
  decide +kernel
/-- Shift matrix 12: ones where the input column is the output column minus 2. -/
theorem lit12_shift : ∀ n : Fin 1024, lit12 n = if n.val / 32 + 2 = n.val % 32 then 0x3F800000#32 else 0#32 := by
  decide +kernel
/-- Shift matrix 13: ones where the input column is the output column plus 2. -/
theorem lit13_shift : ∀ n : Fin 1024, lit13 n = if n.val / 32 = n.val % 32 + 2 then 0x3F800000#32 else 0#32 := by
  decide +kernel
/-- Shift matrix 14: ones where the input column is the output column minus 4. -/
theorem lit14_shift : ∀ n : Fin 1024, lit14 n = if n.val / 32 + 4 = n.val % 32 then 0x3F800000#32 else 0#32 := by
  decide +kernel
/-- Shift matrix 15: ones where the input column is the output column plus 4. -/
theorem lit15_shift : ∀ n : Fin 1024, lit15 n = if n.val / 32 = n.val % 32 + 4 then 0x3F800000#32 else 0#32 := by
  decide +kernel
/-- Shift matrix 16: ones where the input column is the output column minus 1. -/
theorem lit16_shift : ∀ n : Fin 1024, lit16 n = if n.val / 32 + 1 = n.val % 32 then 0x3F800000#32 else 0#32 := by
  decide +kernel
/-- Shift matrix 17: ones where the input column is the output column plus 0. -/
theorem lit17_shift : ∀ n : Fin 1024, lit17 n = if n.val / 32 = n.val % 32 + 0 then 0x3F800000#32 else 0#32 := by
  decide +kernel
/-- Shift matrix 18: ones where the input column is the output column plus 1. -/
theorem lit18_shift : ∀ n : Fin 1024, lit18 n = if n.val / 32 = n.val % 32 + 1 then 0x3F800000#32 else 0#32 := by
  decide +kernel
/-- Shift matrix 19: ones where the input column is the output column minus 2. -/
theorem lit19_shift : ∀ n : Fin 1024, lit19 n = if n.val / 32 + 2 = n.val % 32 then 0x3F800000#32 else 0#32 := by
  decide +kernel
/-- Shift matrix 20: ones where the input column is the output column plus 0. -/
theorem lit20_shift : ∀ n : Fin 1024, lit20 n = if n.val / 32 = n.val % 32 + 0 then 0x3F800000#32 else 0#32 := by
  decide +kernel
/-- Shift matrix 21: ones where the input column is the output column plus 2. -/
theorem lit21_shift : ∀ n : Fin 1024, lit21 n = if n.val / 32 = n.val % 32 + 2 then 0x3F800000#32 else 0#32 := by
  decide +kernel
/-- Shift matrix 22: ones where the input column is the output column minus 4. -/
theorem lit22_shift : ∀ n : Fin 1024, lit22 n = if n.val / 32 + 4 = n.val % 32 then 0x3F800000#32 else 0#32 := by
  decide +kernel
/-- Shift matrix 23: ones where the input column is the output column plus 0. -/
theorem lit23_shift : ∀ n : Fin 1024, lit23 n = if n.val / 32 = n.val % 32 + 0 then 0x3F800000#32 else 0#32 := by
  decide +kernel
/-- Shift matrix 24: ones where the input column is the output column plus 4. -/
theorem lit24_shift : ∀ n : Fin 1024, lit24 n = if n.val / 32 = n.val % 32 + 4 then 0x3F800000#32 else 0#32 := by
  decide +kernel

end Cert.ReferenceIdeal.Lits
-- ==== Proof.StackMatch.lean ====
/-
  The two stacks of row-shift matrices agree entry by entry.

  At row offset `g`, input lane `w_in * 16 + c_in` and output lane `w_out * 16 + c_out`, the kernel's entry is its table of
  tap sums at `(g, clip (w_in - w_out + 4), c_in, c_out)` times the band mask (KStack), and the reference's is a zero plus
  shift literal times tap matrix per Kronecker term (RefStack).  The literals are known entry by entry (KLits, LitsFull):
  the gather index is `min (w_in + 4 - w_out) 8`, the mask and each shift matrix are 0/1 indicators.  Outside the band the
  mask and every shift are 0 and both sides are 0.  Inside it, with `d = w_in + 4 - w_out` one of 0, …, 8, the table's 28
  nested additions keep exactly the taps whose slice is `(g, d)`, the reference's indicators keep the Kronecker term of
  column offset `d - 4` if the row offset has one, and both are the same sum in the same order: a zero plus the transposed
  weight slice, and for the centre the 1x1 kernel plus the three centre taps.  All arithmetic is `0 * x = 0`, `x * 1 = x`,
  `0 + x = x` on the extended reals.
-/
import proofs.«179230_g2000505885998750_pallasbulk_270_2_alg».proof.Proof.KStack
import proofs.«179230_g2000505885998750_pallasbulk_270_2_alg».proof.Proof.RefStack
import proofs.«179230_g2000505885998750_pallasbulk_270_2_alg».proof.Proof.KLits
import proofs.«179230_g2000505885998750_pallasbulk_270_2_alg».proof.Proof.LitsFull
import Idealize.ShloMosaic.PureOps.Ideal
import Idealize.ShloMosaic.PureOps.Ideal.Laws
import Idealize.ShloMosaic.Lib.ValueIdx

set_option maxRecDepth 16384
noncomputable section
namespace Cert.Bridge
open Idealize.ShloMosaic Idealize.ShloMosaic.TcCoe Idealize.SL.Sem Idealize.ShloMosaic.ValueIdx

theorem ofBits_one : Ideal.ofBits .f32 0x3F800000#32 = 1 := by
  simp [Ideal.ofBits, Ideal.ieee, -EReal.coe_mul]; norm_num
theorem ofBits0 : (FloatOps.ofBits .f32 0x00000000#32 : Ideal .f32) = 0 := Ideal.ofBits_zero_f32
theorem small_toNat : ∀ x : Fin 9, (BitVec.ofNat 32 x.val).toInt.toNat = x.val := by decide
theorem rm_val (wi wo : Fin 32) : (Cert.KernelIdeal.S32x32.rowMajor (ix2 (n0 := 32) (n1 := 32) wi wo)).val = wi.val * 32 + wo.val := by
  rw [Shape.rowMajor_val_two]; rfl
theorem rmR_val (wi wo : Fin 32) : (Cert.ReferenceIdeal.S32x32.rowMajor (ix2 (n0 := 32) (n1 := 32) wi wo)).val = wi.val * 32 + wo.val := by
  rw [Shape.rowMajor_val_two]; rfl
/-- The kernel's gather index at (w_in, w_out), clamped: min (w_in + 4 - w_out) 8. -/
theorem kJ (wi wo : Fin 32) :
    min (Cert.KernelIdeal.lit0 (Cert.KernelIdeal.S32x32.rowMajor (ix2 (n0 := 32) (n1 := 32) wi wo))).toInt.toNat 8 = min (wi.val + 4 - wo.val) 8 := by
  have h1 := wi.isLt; have h2 := wo.isLt
  have e0 := Cert.KernelIdeal.Lits.lit0_index (Cert.KernelIdeal.S32x32.rowMajor (ix2 (n0 := 32) (n1 := 32) wi wo))
  have hv := rm_val wi wo
  have e3 : min ((Cert.KernelIdeal.S32x32.rowMajor (ix2 (n0 := 32) (n1 := 32) wi wo)).val / 32 + 4
      - (Cert.KernelIdeal.S32x32.rowMajor (ix2 (n0 := 32) (n1 := 32) wi wo)).val % 32) 8 = min (wi.val + 4 - wo.val) 8 := by
    rw [hv]; omega
  have hx : min (wi.val + 4 - wo.val) 8 < 9 := by omega
  have s : (BitVec.ofNat 32 (min (wi.val + 4 - wo.val) 8)).toInt.toNat = min (wi.val + 4 - wo.val) 8 :=
    small_toNat ⟨_, hx⟩
  rw [e0, e3, s]
  omega

/-- The kernel's mask at (w_in, w_out). -/
theorem kMask (wi wo : Fin 32) :
    (FloatOps.ofBits .f32 (Cert.KernelIdeal.lit1 (Cert.KernelIdeal.S32x32.rowMajor (ix2 (n0 := 32) (n1 := 32) wi wo))) : Ideal .f32)
      = if wi.val ≤ wo.val + 4 ∧ wo.val ≤ wi.val + 4 then 1 else 0 := by
  have h1 := wi.isLt; have h2 := wo.isLt
  have e0 := Cert.KernelIdeal.Lits.lit1_mask (Cert.KernelIdeal.S32x32.rowMajor (ix2 (n0 := 32) (n1 := 32) wi wo))
  have hv := rm_val wi wo
  rw [e0]
  have hc : ((Cert.KernelIdeal.S32x32.rowMajor (ix2 (n0 := 32) (n1 := 32) wi wo)).val / 32 ≤ (Cert.KernelIdeal.S32x32.rowMajor (ix2 (n0 := 32) (n1 := 32) wi wo)).val % 32 + 4
      ∧ (Cert.KernelIdeal.S32x32.rowMajor (ix2 (n0 := 32) (n1 := 32) wi wo)).val % 32 ≤ (Cert.KernelIdeal.S32x32.rowMajor (ix2 (n0 := 32) (n1 := 32) wi wo)).val / 32 + 4)
      ↔ (wi.val ≤ wo.val + 4 ∧ wo.val ≤ wi.val + 4) := by rw [hv]; omega
  by_cases hb : wi.val ≤ wo.val + 4 ∧ wo.val ≤ wi.val + 4
  · rw [if_pos (hc.mpr hb), if_pos hb]; exact ofBits_one
  · rw [if_neg (fun h => hb (hc.mp h)), if_neg hb]; exact Ideal.ofBits_zero_f32

theorem rS0 (wi wo : Fin 32) :
    (FloatOps.ofBits .f32 (Cert.ReferenceIdeal.lit0 (Cert.ReferenceIdeal.S32x32.rowMajor (ix2 (n0 := 32) (n1 := 32) wi wo))) : Ideal .f32)
      = if wi.val + 4 = wo.val then 1 else 0 := by
  have h1 := wi.isLt; have h2 := wo.isLt
  have e0 := Cert.ReferenceIdeal.Lits.lit0_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 4 = (Cert.ReferenceIdeal.S32x32.rowMajor (ix2 (n0 := 32) (n1 := 32) wi wo)).val % 32)
      ↔ (wi.val + 4 = wo.val) := by rw [hv]; omega
  by_cases hb : wi.val + 4 = wo.val
  · rw [if_pos (hc.mpr hb), if_pos hb]; exact ofBits_one
  · rw [if_neg (fun h => hb (hc.mp h)), if_neg hb]; exact Ideal.ofBits_zero_f32
theorem rS1 (wi wo : Fin 32) :
    (FloatOps.ofBits .f32 (Cert.ReferenceIdeal.lit1 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit1_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS2 (wi wo : Fin 32) :
    (FloatOps.ofBits .f32 (Cert.ReferenceIdeal.lit2 (Cert.ReferenceIdeal.S32x32.rowMajor (ix2 (n0 := 32) (n1 := 32) wi wo))) : Ideal .f32)
      = if wi.val = wo.val + 4 then 1 else 0 := by
  have h1 := wi.isLt; have h2 := wo.isLt
  have e0 := Cert.ReferenceIdeal.Lits.lit2_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 4)
      ↔ (wi.val = wo.val + 4) := by rw [hv]; omega
  by_cases hb : wi.val = wo.val + 4
  · rw [if_pos (hc.mpr hb), if_pos hb]; exact ofBits_one
  · rw [if_neg (fun h => hb (hc.mp h)), if_neg hb]; exact Ideal.ofBits_zero_f32
theorem rS3 (wi wo : Fin 32) :
    (FloatOps.ofBits .f32 (Cert.ReferenceIdeal.lit3 (Cert.ReferenceIdeal.S32x32.rowMajor (ix2 (n0 := 32) (n1 := 32) wi wo))) : Ideal .f32)
      = if wi.val + 2 = wo.val then 1 else 0 := by
  have h1 := wi.isLt; have h2 := wo.isLt
  have e0 := Cert.ReferenceIdeal.Lits.lit3_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 2 = (Cert.ReferenceIdeal.S32x32.rowMajor (ix2 (n0 := 32) (n1 := 32) wi wo)).val % 32)
      ↔ (wi.val + 2 = wo.val) := by rw [hv]; omega
  by_cases hb : wi.val + 2 = wo.val
  · rw [if_pos (hc.mpr hb), if_pos hb]; exact ofBits_one
  · rw [if_neg (fun h => hb (hc.mp h)), if_neg hb]; exact Ideal.ofBits_zero_f32
theorem rS4 (wi wo : Fin 32) :
    (FloatOps.ofBits .f32 (Cert.ReferenceIdeal.lit4 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit4_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS5 (wi wo : Fin 32) :
    (FloatOps.ofBits .f32 (Cert.ReferenceIdeal.lit5 (Cert.ReferenceIdeal.S32x32.rowMajor (ix2 (n0 := 32) (n1 := 32) wi wo))) : Ideal .f32)
      = if wi.val = wo.val + 2 then 1 else 0 := by
  have h1 := wi.isLt; have h2 := wo.isLt
  have e0 := Cert.ReferenceIdeal.Lits.lit5_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 2)
      ↔ (wi.val = wo.val + 2) := by rw [hv]; omega
  by_cases hb : wi.val = wo.val + 2
  · rw [if_pos (hc.mpr hb), if_pos hb]; exact ofBits_one
  · rw [if_neg (fun h => hb (hc.mp h)), if_neg hb]; exact Ideal.ofBits_zero_f32
theorem rS6 (wi wo : Fin 32) :
    (FloatOps.ofBits .f32 (Cert.ReferenceIdeal.lit6 (Cert.ReferenceIdeal.S32x32.rowMajor (ix2 (n0 := 32) (n1 := 32) wi wo))) : Ideal .f32)
      = if wi.val + 1 = wo.val then 1 else 0 := by
  have h1 := wi.isLt; have h2 := wo.isLt
  have e0 := Cert.ReferenceIdeal.Lits.lit6_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 1 = (Cert.ReferenceIdeal.S32x32.rowMajor (ix2 (n0 := 32) (n1 := 32) wi wo)).val % 32)
      ↔ (wi.val + 1 = wo.val) := by rw [hv]; omega
  by_cases hb : wi.val + 1 = wo.val
  · rw [if_pos (hc.mpr hb), if_pos hb]; exact ofBits_one
  · rw [if_neg (fun h => hb (hc.mp h)), if_neg hb]; exact Ideal.ofBits_zero_f32
theorem rS7 (wi wo : Fin 32) :
    (FloatOps.ofBits .f32 (Cert.ReferenceIdeal.lit7 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit7_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS8 (wi wo : Fin 32) :
    (FloatOps.ofBits .f32 (Cert.ReferenceIdeal.lit8 (Cert.ReferenceIdeal.S32x32.rowMajor (ix2 (n0 := 32) (n1 := 32) wi wo))) : Ideal .f32)
      = if wi.val = wo.val + 1 then 1 else 0 := by
  have h1 := wi.isLt; have h2 := wo.isLt
  have e0 := Cert.ReferenceIdeal.Lits.lit8_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 1)
      ↔ (wi.val = wo.val + 1) := by rw [hv]; omega
  by_cases hb : wi.val = wo.val + 1
  · rw [if_pos (hc.mpr hb), if_pos hb]; exact ofBits_one
  · rw [if_neg (fun h => hb (hc.mp h)), if_neg hb]; exact Ideal.ofBits_zero_f32
theorem rS9 (wi wo : Fin 32) :
    (FloatOps.ofBits .f32 (Cert.ReferenceIdeal.lit9 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit9_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS10 (wi wo : Fin 32) :
    (FloatOps.ofBits .f32 (Cert.ReferenceIdeal.lit10 (Cert.ReferenceIdeal.S32x32.rowMajor (ix2 (n0 := 32) (n1 := 32) wi wo))) : Ideal .f32)
      = if wi.val + 1 = wo.val then 1 else 0 := by
  have h1 := wi.isLt; have h2 := wo.isLt
  have e0 := Cert.ReferenceIdeal.Lits.lit10_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 1 = (Cert.ReferenceIdeal.S32x32.rowMajor (ix2 (n0 := 32) (n1 := 32) wi wo)).val % 32)
      ↔ (wi.val + 1 = wo.val) := by rw [hv]; omega
  by_cases hb : wi.val + 1 = wo.val
  · rw [if_pos (hc.mpr hb), if_pos hb]; exact ofBits_one
  · rw [if_neg (fun h => hb (hc.mp h)), if_neg hb]; exact Ideal.ofBits_zero_f32
theorem rS11 (wi wo : Fin 32) :
    (FloatOps.ofBits .f32 (Cert.ReferenceIdeal.lit11 (Cert.ReferenceIdeal.S32x32.rowMajor (ix2 (n0 := 32) (n1 := 32) wi wo))) : Ideal .f32)
      = if wi.val = wo.val + 1 then 1 else 0 := by
  have h1 := wi.isLt; have h2 := wo.isLt
  have e0 := Cert.ReferenceIdeal.Lits.lit11_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 1)
      ↔ (wi.val = wo.val + 1) := by rw [hv]; omega
  by_cases hb : wi.val = wo.val + 1
  · rw [if_pos (hc.mpr hb), if_pos hb]; exact ofBits_one
  · rw [if_neg (fun h => hb (hc.mp h)), if_neg hb]; exact Ideal.ofBits_zero_f32
theorem rS12 (wi wo : Fin 32) :
    (FloatOps.ofBits .f32 (Cert.ReferenceIdeal.lit12 (Cert.ReferenceIdeal.S32x32.rowMajor (ix2 (n0 := 32) (n1 := 32) wi wo))) : Ideal .f32)
      = if wi.val + 2 = wo.val then 1 else 0 := by
  have h1 := wi.isLt; have h2 := wo.isLt
  have e0 := Cert.ReferenceIdeal.Lits.lit12_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 2 = (Cert.ReferenceIdeal.S32x32.rowMajor (ix2 (n0 := 32) (n1 := 32) wi wo)).val % 32)
      ↔ (wi.val + 2 = wo.val) := by rw [hv]; omega
  by_cases hb : wi.val + 2 = wo.val
  · rw [if_pos (hc.mpr hb), if_pos hb]; exact ofBits_one
  · rw [if_neg (fun h => hb (hc.mp h)), if_neg hb]; exact Ideal.ofBits_zero_f32
theorem rS13 (wi wo : Fin 32) :
    (FloatOps.ofBits .f32 (Cert.ReferenceIdeal.lit13 (Cert.ReferenceIdeal.S32x32.rowMajor (ix2 (n0 := 32) (n1 := 32) wi wo))) : Ideal .f32)
      = if wi.val = wo.val + 2 then 1 else 0 := by
  have h1 := wi.isLt; have h2 := wo.isLt
  have e0 := Cert.ReferenceIdeal.Lits.lit13_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 2)
      ↔ (wi.val = wo.val + 2) := by rw [hv]; omega
  by_cases hb : wi.val = wo.val + 2
  · rw [if_pos (hc.mpr hb), if_pos hb]; exact ofBits_one
  · rw [if_neg (fun h => hb (hc.mp h)), if_neg hb]; exact Ideal.ofBits_zero_f32
theorem rS14 (wi wo : Fin 32) :
    (FloatOps.ofBits .f32 (Cert.ReferenceIdeal.lit14 (Cert.ReferenceIdeal.S32x32.rowMajor (ix2 (n0 := 32) (n1 := 32) wi wo))) : Ideal .f32)
      = if wi.val + 4 = wo.val then 1 else 0 := by
  have h1 := wi.isLt; have h2 := wo.isLt
  have e0 := Cert.ReferenceIdeal.Lits.lit14_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 4 = (Cert.ReferenceIdeal.S32x32.rowMajor (ix2 (n0 := 32) (n1 := 32) wi wo)).val % 32)
      ↔ (wi.val + 4 = wo.val) := by rw [hv]; omega
  by_cases hb : wi.val + 4 = wo.val
  · rw [if_pos (hc.mpr hb), if_pos hb]; exact ofBits_one
  · rw [if_neg (fun h => hb (hc.mp h)), if_neg hb]; exact Ideal.ofBits_zero_f32
theorem rS15 (wi wo : Fin 32) :
    (FloatOps.ofBits .f32 (Cert.ReferenceIdeal.lit15 (Cert.ReferenceIdeal.S32x32.rowMajor (ix2 (n0 := 32) (n1 := 32) wi wo))) : Ideal .f32)
      = if wi.val = wo.val + 4 then 1 else 0 := by
  have h1 := wi.isLt; have h2 := wo.isLt
  have e0 := Cert.ReferenceIdeal.Lits.lit15_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 4)
      ↔ (wi.val = wo.val + 4) := by rw [hv]; omega
  by_cases hb : wi.val = wo.val + 4
  · rw [if_pos (hc.mpr hb), if_pos hb]; exact ofBits_one
  · rw [if_neg (fun h => hb (hc.mp h)), if_neg hb]; exact Ideal.ofBits_zero_f32
theorem rS16 (wi wo : Fin 32) :
    (FloatOps.ofBits .f32 (Cert.ReferenceIdeal.lit16 (Cert.ReferenceIdeal.S32x32.rowMajor (ix2 (n0 := 32) (n1 := 32) wi wo))) : Ideal .f32)
      = if wi.val + 1 = wo.val then 1 else 0 := by
  have h1 := wi.isLt; have h2 := wo.isLt
  have e0 := Cert.ReferenceIdeal.Lits.lit16_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 1 = (Cert.ReferenceIdeal.S32x32.rowMajor (ix2 (n0 := 32) (n1 := 32) wi wo)).val % 32)
      ↔ (wi.val + 1 = wo.val) := by rw [hv]; omega
  by_cases hb : wi.val + 1 = wo.val
  · rw [if_pos (hc.mpr hb), if_pos hb]; exact ofBits_one
  · rw [if_neg (fun h => hb (hc.mp h)), if_neg hb]; exact Ideal.ofBits_zero_f32
theorem rS17 (wi wo : Fin 32) :
    (FloatOps.ofBits .f32 (Cert.ReferenceIdeal.lit17 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit17_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS18 (wi wo : Fin 32) :
    (FloatOps.ofBits .f32 (Cert.ReferenceIdeal.lit18 (Cert.ReferenceIdeal.S32x32.rowMajor (ix2 (n0 := 32) (n1 := 32) wi wo))) : Ideal .f32)
      = if wi.val = wo.val + 1 then 1 else 0 := by
  have h1 := wi.isLt; have h2 := wo.isLt
  have e0 := Cert.ReferenceIdeal.Lits.lit18_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 1)
      ↔ (wi.val = wo.val + 1) := by rw [hv]; omega
  by_cases hb : wi.val = wo.val + 1
  · rw [if_pos (hc.mpr hb), if_pos hb]; exact ofBits_one
  · rw [if_neg (fun h => hb (hc.mp h)), if_neg hb]; exact Ideal.ofBits_zero_f32
theorem rS19 (wi wo : Fin 32) :
    (FloatOps.ofBits .f32 (Cert.ReferenceIdeal.lit19 (Cert.ReferenceIdeal.S32x32.rowMajor (ix2 (n0 := 32) (n1 := 32) wi wo))) : Ideal .f32)
      = if wi.val + 2 = wo.val then 1 else 0 := by
  have h1 := wi.isLt; have h2 := wo.isLt
  have e0 := Cert.ReferenceIdeal.Lits.lit19_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 2 = (Cert.ReferenceIdeal.S32x32.rowMajor (ix2 (n0 := 32) (n1 := 32) wi wo)).val % 32)
      ↔ (wi.val + 2 = wo.val) := by rw [hv]; omega
  by_cases hb : wi.val + 2 = wo.val
  · rw [if_pos (hc.mpr hb), if_pos hb]; exact ofBits_one
  · rw [if_neg (fun h => hb (hc.mp h)), if_neg hb]; exact Ideal.ofBits_zero_f32
theorem rS20 (wi wo : Fin 32) :
    (FloatOps.ofBits .f32 (Cert.ReferenceIdeal.lit20 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit20_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS21 (wi wo : Fin 32) :
    (FloatOps.ofBits .f32 (Cert.ReferenceIdeal.lit21 (Cert.ReferenceIdeal.S32x32.rowMajor (ix2 (n0 := 32) (n1 := 32) wi wo))) : Ideal .f32)
      = if wi.val = wo.val + 2 then 1 else 0 := by
  have h1 := wi.isLt; have h2 := wo.isLt
  have e0 := Cert.ReferenceIdeal.Lits.lit21_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 2)
      ↔ (wi.val = wo.val + 2) := by rw [hv]; omega
  by_cases hb : wi.val = wo.val + 2
  · rw [if_pos (hc.mpr hb), if_pos hb]; exact ofBits_one
  · rw [if_neg (fun h => hb (hc.mp h)), if_neg hb]; exact Ideal.ofBits_zero_f32
theorem rS22 (wi wo : Fin 32) :
    (FloatOps.ofBits .f32 (Cert.ReferenceIdeal.lit22 (Cert.ReferenceIdeal.S32x32.rowMajor (ix2 (n0 := 32) (n1 := 32) wi wo))) : Ideal .f32)
      = if wi.val + 4 = wo.val then 1 else 0 := by
  have h1 := wi.isLt; have h2 := wo.isLt
  have e0 := Cert.ReferenceIdeal.Lits.lit22_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 + 4 = (Cert.ReferenceIdeal.S32x32.rowMajor (ix2 (n0 := 32) (n1 := 32) wi wo)).val % 32)
      ↔ (wi.val + 4 = wo.val) := by rw [hv]; omega
  by_cases hb : wi.val + 4 = wo.val
  · rw [if_pos (hc.mpr hb), if_pos hb]; exact ofBits_one
  · rw [if_neg (fun h => hb (hc.mp h)), if_neg hb]; exact Ideal.ofBits_zero_f32
theorem rS23 (wi wo : Fin 32) :
    (FloatOps.ofBits .f32 (Cert.ReferenceIdeal.lit23 (Cert.ReferenceIdeal.S32x32.rowMajor (ix2 (n0 := 32) (n1 := 32) wi wo))) : Ideal .f32)
      = if wi.val = wo.val then 1 else 0 := by
  have h1 := wi.isLt; have h2 := wo.isLt
  have e0 := Cert.ReferenceIdeal.Lits.lit23_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 0)
      ↔ (wi.val = wo.val) := by rw [hv]; omega
  by_cases hb : wi.val = wo.val
  · rw [if_pos (hc.mpr hb), if_pos hb]; exact ofBits_one
  · rw [if_neg (fun h => hb (hc.mp h)), if_neg hb]; exact Ideal.ofBits_zero_f32
theorem rS24 (wi wo : Fin 32) :
    (FloatOps.ofBits .f32 (Cert.ReferenceIdeal.lit24 (Cert.ReferenceIdeal.S32x32.rowMajor (ix2 (n0 := 32) (n1 := 32) wi wo))) : Ideal .f32)
      = if wi.val = wo.val + 4 then 1 else 0 := by
  have h1 := wi.isLt; have h2 := wo.isLt
  have e0 := Cert.ReferenceIdeal.Lits.lit24_shift (Cert.ReferenceIdeal.S32x32.rowMajor (ix2 (n0 := 32) (n1 := 32) wi wo))
  have hv := rmR_val wi wo
  rw [e0]
  have hc : ((Cert.ReferenceIdeal.S32x32.rowMajor (ix2 (n0 := 32) (n1 := 32) wi wo)).val / 32 = (Cert.ReferenceIdeal.S32x32.rowMajor (ix2 (n0 := 32) (n1 := 32) wi wo)).val % 32 + 4)
      ↔ (wi.val = wo.val + 4) := by rw [hv]; omega
  by_cases hb : wi.val = wo.val + 4
  · rw [if_pos (hc.mpr hb), if_pos hb]; exact ofBits_one
  · rw [if_neg (fun h => hb (hc.mp h)), if_neg hb]; exact Ideal.ofBits_zero_f32

theorem zeroKfun : (broadcastInDim Cert.KernelIdeal.S7x9x16x16 ![] Cert.KernelIdeal.Gen.bcast_S_S7x9x16x16 (constant (F := Ideal) Cert.KernelIdeal.S_ .f32 0x00000000#32))
    = fun _ => (0 : EReal) := funext fun _ => Ideal.ofBits_zero_f32
theorem zero16fun : (broadcastInDim Cert.ReferenceIdeal.S16x16 ![] Cert.ReferenceIdeal.Gen.bcast_S_S16x16 (constant (F := Ideal) Cert.ReferenceIdeal.S_ .f32 0x00000000#32))
    = fun _ => (0 : EReal) := funext fun _ => Ideal.ofBits_zero_f32

set_option maxHeartbeats 100000000 in
/-- The kernel's stack is the reference's, entry by entry. -/
theorem stacks_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    ∀ i, (Cert.KernelIdeal.Gen.V3 (F := Ideal) m ρ c Cert.KernelIdeal.main_v206 : Vec Ideal Cert.KernelIdeal.S7x512x512 .bf16) i
      = (Cert.ReferenceIdeal.Hand.V53 (F := Ideal) m' ρ' c Cert.ReferenceIdeal.main_v200 : Vec Ideal Cert.ReferenceIdeal.S7x512x512 .f32) i := by
  intro i
  obtain ⟨g, k, l, rfl⟩ : ∃ (g : Fin 7) (k l : Fin 512), i = ix3 (n0 := 7) (n1 := 512) (n2 := 512) g k l := ⟨i 0, i 1, i 2, eq_ix3 i⟩
  obtain ⟨wi, ci, rfl⟩ : ∃ (wi : Fin 32) (ci : Fin 16), k = ⟨wi.val * 16 + ci.val, Nat.lt_of_lt_of_le (Nat.add_lt_add_left ci.isLt _) (by have := wi.isLt; omega)⟩ :=
    ⟨⟨k.val / 16, by have := k.isLt; omega⟩, ⟨k.val % 16, Nat.mod_lt _ (by decide)⟩, Fin.ext (by show k.val = k.val / 16 * 16 + k.val % 16; omega)⟩
  obtain ⟨wo, co, rfl⟩ : ∃ (wo : Fin 32) (co : Fin 16), l = ⟨wo.val * 16 + co.val, Nat.lt_of_lt_of_le (Nat.add_lt_add_left co.isLt _) (by have := wo.isLt; omega)⟩ :=
    ⟨⟨l.val / 16, by have := l.isLt; omega⟩, ⟨l.val % 16, Nat.mod_lt _ (by decide)⟩, Fin.ext (by show l.val = l.val / 16 * 16 + l.val % 16; omega)⟩
  have h1w := wi.isLt; have h2w := wo.isLt
  have hK := Cert.KernelIdeal.Stack.stack_apply m ρ c g wi wo ci co
  have hR := Cert.ReferenceIdeal.Stack.stack_apply m' ρ' c wi wo ci co
  rw [(show Cert.ReferenceIdeal.Hand.W0 (F := Ideal) m' ρ' c (Proc.devRef .tc Cert.ReferenceIdeal.main_arg1) = Cert.KernelIdeal.Gen.W0 (F := Ideal) m ρ c (Proc.devRef .tc Cert.KernelIdeal.main_arg1) from h1),
    (show Cert.ReferenceIdeal.Hand.W0 (F := Ideal) m' ρ' c (Proc.devRef .tc Cert.ReferenceIdeal.main_arg3) = Cert.KernelIdeal.Gen.W0 (F := Ideal) m ρ c (Proc.devRef .tc Cert.KernelIdeal.main_arg3) from h3),
    (show Cert.ReferenceIdeal.Hand.W0 (F := Ideal) m' ρ' c (Proc.devRef .tc Cert.ReferenceIdeal.main_arg5) = Cert.KernelIdeal.Gen.W0 (F := Ideal) m ρ c (Proc.devRef .tc Cert.KernelIdeal.main_arg5) from h5),
    (show Cert.ReferenceIdeal.Hand.W0 (F := Ideal) m' ρ' c (Proc.devRef .tc Cert.ReferenceIdeal.main_arg7) = Cert.KernelIdeal.Gen.W0 (F := Ideal) m ρ c (Proc.devRef .tc Cert.KernelIdeal.main_arg7) from h7)] at hR
  have hJeq : (⟨min (Cert.KernelIdeal.lit0 (Cert.KernelIdeal.S32x32.rowMajor (ix2 (n0 := 32) (n1 := 32) wi wo))).toInt.toNat 8, by omega⟩ : Fin 9)
      = ⟨min (wi.val + 4 - wo.val) 8, by omega⟩ := Fin.ext (kJ wi wo)
  fin_cases g
  · -- row offset index 0
    refine hK.trans (Eq.trans ?_ hR.1.symm)
    rw [kMask wi wo, hJeq]
    simp only [rS0 wi wo, rS1 wi wo, rS2 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c0 : (wi.val + 4 = wo.val) ↔ d = 0 := by omega
      have c1 : (wi.val = wo.val) ↔ d = 4 := by omega
      have c2 : (wi.val = wo.val + 4) ↔ d = 8 := by omega
      simp only [c0, c1, c2]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n0 : ¬ (wi.val + 4 = wo.val) := by omega
      have n1 : ¬ (wi.val = wo.val) := by omega
      have n2 : ¬ (wi.val = wo.val + 4) := by omega
      simp only [if_neg n0, if_neg n1, if_neg n2, ofBits0, mul_zero, zero_mul, add_zero, zero_add]
  · -- row offset index 1
    refine hK.trans (Eq.trans ?_ hR.2.1.symm)
    rw [kMask wi wo, hJeq]
    simp only [rS3 wi wo, rS4 wi wo, rS5 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c3 : (wi.val + 2 = wo.val) ↔ d = 2 := by omega
      have c4 : (wi.val = wo.val) ↔ d = 4 := by omega
      have c5 : (wi.val = wo.val + 2) ↔ d = 6 := by omega
      simp only [c3, c4, c5]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n3 : ¬ (wi.val + 2 = wo.val) := by omega
      have n4 : ¬ (wi.val = wo.val) := by omega
      have n5 : ¬ (wi.val = wo.val + 2) := by omega
      simp only [if_neg n3, if_neg n4, if_neg n5, ofBits0, mul_zero, zero_mul, add_zero, zero_add]
  · -- row offset index 2
    refine hK.trans (Eq.trans ?_ hR.2.2.1.symm)
    rw [kMask wi wo, hJeq]
    simp only [rS6 wi wo, rS7 wi wo, rS8 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c6 : (wi.val + 1 = wo.val) ↔ d = 3 := by omega
      have c7 : (wi.val = wo.val) ↔ d = 4 := by omega
      have c8 : (wi.val = wo.val + 1) ↔ d = 5 := by omega
      simp only [c6, c7, c8]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n6 : ¬ (wi.val + 1 = wo.val) := by omega
      have n7 : ¬ (wi.val = wo.val) := by omega
      have n8 : ¬ (wi.val = wo.val + 1) := by omega
      simp only [if_neg n6, if_neg n7, if_neg n8, ofBits0, mul_zero, zero_mul, add_zero, zero_add]
  · -- row offset index 3
    refine hK.trans (Eq.trans ?_ hR.2.2.2.1.symm)
    rw [kMask wi wo, hJeq]
    simp only [rS9 wi wo, rS10 wi wo, rS11 wi wo, rS12 wi wo, rS13 wi wo, rS14 wi wo, rS15 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c9 : (wi.val = wo.val) ↔ d = 4 := by omega
      have c10 : (wi.val + 1 = wo.val) ↔ d = 3 := by omega
      have c11 : (wi.val = wo.val + 1) ↔ d = 5 := by omega
      have c12 : (wi.val + 2 = wo.val) ↔ d = 2 := by omega
      have c13 : (wi.val = wo.val + 2) ↔ d = 6 := by omega
      have c14 : (wi.val + 4 = wo.val) ↔ d = 0 := by omega
      have c15 : (wi.val = wo.val + 4) ↔ d = 8 := by omega
      simp only [c9, c10, c11, c12, c13, c14, c15]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n9 : ¬ (wi.val = wo.val) := by omega
      have n10 : ¬ (wi.val + 1 = wo.val) := by omega
      have n11 : ¬ (wi.val = wo.val + 1) := by omega
      have n12 : ¬ (wi.val + 2 = wo.val) := by omega
      have n13 : ¬ (wi.val = wo.val + 2) := by omega
      have n14 : ¬ (wi.val + 4 = wo.val) := by omega
      have n15 : ¬ (wi.val = wo.val + 4) := by omega
      simp only [if_neg n9, if_neg n10, if_neg n11, if_neg n12, if_neg n13, if_neg n14, if_neg n15, ofBits0, mul_zero, zero_mul, add_zero, zero_add]
  · -- row offset index 4
    refine hK.trans (Eq.trans ?_ hR.2.2.2.2.1.symm)
    rw [kMask wi wo, hJeq]
    simp only [rS16 wi wo, rS17 wi wo, rS18 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c16 : (wi.val + 1 = wo.val) ↔ d = 3 := by omega
      have c17 : (wi.val = wo.val) ↔ d = 4 := by omega
      have c18 : (wi.val = wo.val + 1) ↔ d = 5 := by omega
      simp only [c16, c17, c18]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n16 : ¬ (wi.val + 1 = wo.val) := by omega
      have n17 : ¬ (wi.val = wo.val) := by omega
      have n18 : ¬ (wi.val = wo.val + 1) := by omega
      simp only [if_neg n16, if_neg n17, if_neg n18, ofBits0, mul_zero, zero_mul, add_zero, zero_add]
  · -- row offset index 5
    refine hK.trans (Eq.trans ?_ hR.2.2.2.2.2.1.symm)
    rw [kMask wi wo, hJeq]
    simp only [rS19 wi wo, rS20 wi wo, rS21 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c19 : (wi.val + 2 = wo.val) ↔ d = 2 := by omega
      have c20 : (wi.val = wo.val) ↔ d = 4 := by omega
      have c21 : (wi.val = wo.val + 2) ↔ d = 6 := by omega
      simp only [c19, c20, c21]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n19 : ¬ (wi.val + 2 = wo.val) := by omega
      have n20 : ¬ (wi.val = wo.val) := by omega
      have n21 : ¬ (wi.val = wo.val + 2) := by omega
      simp only [if_neg n19, if_neg n20, if_neg n21, ofBits0, mul_zero, zero_mul, add_zero, zero_add]
  · -- row offset index 6
    refine hK.trans (Eq.trans ?_ hR.2.2.2.2.2.2.symm)
    rw [kMask wi wo, hJeq]
    simp only [rS22 wi wo, rS23 wi wo, rS24 wi wo]
    by_cases hb : wi.val ≤ wo.val + 4 ∧ wo.val ≤ wi.val + 4
    · obtain ⟨d, hd8, hd⟩ : ∃ d, d ≤ 8 ∧ wi.val + 4 = wo.val + d := ⟨wi.val + 4 - wo.val, by omega, by omega⟩
      have hJd : (⟨min (wi.val + 4 - wo.val) 8, by omega⟩ : Fin 9) = ⟨d, by omega⟩ := Fin.ext (by show min _ 8 = d; omega)
      rw [hJd, if_pos hb]
      have c22 : (wi.val + 4 = wo.val) ↔ d = 0 := by omega
      have c23 : (wi.val = wo.val) ↔ d = 4 := by omega
      have c24 : (wi.val = wo.val + 4) ↔ d = 8 := by omega
      simp only [c22, c23, c24]
      interval_cases d <;>
        (unfold Cert.KernelIdeal.Stack.tabClosed
         simp (decide := true) only [Cert.KernelIdeal.Tab.addAt, zeroKfun, zero16fun, ofBits0, addf, Ideal.addf_def, if_true, if_false, ite_true, ite_false,
           mul_one, one_mul, zero_mul, mul_zero, add_zero, zero_add]
         first | rfl | exact Ideal.ofBits_zero_f32 | skip)
    · rw [if_neg hb]
      have n22 : ¬ (wi.val + 4 = wo.val) := by omega
      have n23 : ¬ (wi.val = wo.val) := by omega
      have n24 : ¬ (wi.val = wo.val + 4) := by omega
      simp only [if_neg n22, if_neg n23, if_neg n24, ofBits0, mul_zero, zero_mul, add_zero, zero_add]

end Cert.Bridge
end
-- ==== Proof.Weights.lean ====
/-
  The two facts about the weight folds.

  From memories agreeing on the four convolutions' weights, the stack of seven 512 x 512 row-shift matrices the idealized
  kernel's convolution region is entered with is, entry by entry, the reference's (`weights_eq`: StackMatch), and the
  reference's entries outside the band — input lane more than one 128-lane tile away from the output lane — are zero
  (`weights_banded`: RefBand).

  The kernel builds the stack from a 7 x 9 table of 16 x 16 tap sums — zeros, then 28 scatter-adds, one per tap, at (row
  offset, column offset + 4) — gathered at `clip (w_in - w_out + 4)`, multiplied by the 0/1 mask `|w_in - w_out| ≤ 4`,
  transposed to lanes `w * 16 + c` and cast; the reference, per row offset, from a zero matrix plus the Kronecker products
  of the 0/1 column-shift matrices with the (summed) taps.  In both, entry `(w_in * 16 + c_in, w_out * 16 + c_out)` of the
  matrix of row offset `dy` is the sum of the taps `w[c_out, c_in, ky, kx]` with that row offset and column offset
  `w_in - w_out`, every other tap multiplied by a zero; and the band holds because `|w_in - w_out| ≤ 4` keeps
  `|w_in / 8 - w_out / 8| ≤ 1`.
-/
import proofs.«179230_g2000505885998750_pallasbulk_270_2_alg».proof.Proof.KernelRun
import proofs.«179230_g2000505885998750_pallasbulk_270_2_alg».proof.Proof.RefFold
import proofs.«179230_g2000505885998750_pallasbulk_270_2_alg».proof.Proof.BlockEq
import proofs.«179230_g2000505885998750_pallasbulk_270_2_alg».proof.Proof.RefBand
import proofs.«179230_g2000505885998750_pallasbulk_270_2_alg».proof.Proof.StackMatch
import Idealize.ShloMosaic.PureOps.Ideal

set_option maxRecDepth 16384

noncomputable section

namespace Cert.Bridge

open Idealize.ShloMosaic Idealize.ShloMosaic.TcCoe Idealize.SL.Sem

/-- The two stacks of row-shift matrices agree entry by entry. -/
theorem weights_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    ∀ i, (Cert.KernelIdeal.Gen.V3 (F := Ideal) m ρ c Cert.KernelIdeal.main_v206 : Vec Ideal Cert.KernelIdeal.S7x512x512 .bf16) i
      = (Cert.ReferenceIdeal.Hand.V53 (F := Ideal) m' ρ' c Cert.ReferenceIdeal.main_v200 : Vec Ideal Cert.ReferenceIdeal.S7x512x512 .f32) i :=
  stacks_agree m ρ m' ρ' c h1 h3 h5 h7

/-- The reference's stack is zero outside the band. -/
theorem weights_banded
    (m' : (ℓ : Loc Cert.ReferenceIdeal.nD Cert.ReferenceIdeal.τ Cert.ReferenceIdeal.sig) → Buf (Elt Ideal) ℓ) (ρ' : Dev Cert.ReferenceIdeal.nD → PrngReg) (c : Dev Cert.ReferenceIdeal.nD) :
    Banded (Cert.ReferenceIdeal.Hand.V53 (F := Ideal) m' ρ' c Cert.ReferenceIdeal.main_v200) :=
  Cert.ReferenceIdeal.Band.weights_banded m' ρ' c

end Cert.Bridge

end
-- ==== Proof.ConvEq.lean ====
/-
  The two convolution regions leave equal feature arrays and equal statistics arrays.

  Each region's feature array is assembled from the stored features of the padded input's 64 blocks of eight images, and
  its statistics array from their row sums and row sums of squares (KConvArr, RConvArr).  The padded input and the bias
  row are the same operations of the arguments on both sides (ConvEntry); on equal blocks the two bodies store the same
  features when the weight stacks agree and vanish outside the band (BlockEq), and the statistics are one function of the
  features.  The two facts about the weight stacks are Weights' `weights_eq` (StackMatch) and `weights_banded` (RefBand).
-/
import proofs.«179230_g2000505885998750_pallasbulk_270_2_alg».proof.Proof.ConvEntry
import proofs.«179230_g2000505885998750_pallasbulk_270_2_alg».proof.Proof.KConvArr
import proofs.«179230_g2000505885998750_pallasbulk_270_2_alg».proof.Proof.RConvArr
import proofs.«179230_g2000505885998750_pallasbulk_270_2_alg».proof.Proof.BlockEq
import proofs.«179230_g2000505885998750_pallasbulk_270_2_alg».proof.Proof.Weights

set_option maxRecDepth 16384

noncomputable section

namespace Cert.Bridge

open Idealize.ShloMosaic Idealize.ShloMosaic.TcCoe Idealize.SL.Sem

/-- The reference's statistics of a block are the kernel's row sums of the reference's features. -/
theorem stats_of_feat (X : Vec Ideal Cert.ReferenceIdeal.S8x40x512 .f32) (W : Vec Ideal Cert.ReferenceIdeal.S7x512x512 .f32) (B : Vec Ideal Cert.ReferenceIdeal.S1x512 .f32) :
    Cert.ReferenceIdeal.Hand.statsVal (F := Ideal) X W B = Cert.KernelIdeal.Gen.k0_pay1 (F := Ideal) (Cert.ReferenceIdeal.Hand.featVal (F := Ideal) X W B) := rfl

/-- The two convolution regions leave equal feature arrays and equal statistics arrays. -/
theorem conv_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.W54 (F := Ideal) m' ρ' c (Proc.devRef .tc Cert.ReferenceIdeal.main_v211_0)
        = Cert.KernelIdeal.Gen.W4 (F := Ideal) m ρ c (Proc.devRef .tc Cert.KernelIdeal.main_v217_0)
      ∧ Cert.ReferenceIdeal.Hand.W54 (F := Ideal) m' ρ' c (Proc.devRef .tc Cert.ReferenceIdeal.main_v211_1)
        = Cert.KernelIdeal.Gen.W4 (F := Ideal) m ρ c (Proc.devRef .tc Cert.KernelIdeal.main_v217_1) := by
  have hx := xpad_eq (F := Ideal) m ρ m' ρ' c h0
  have hb := bias_eq (F := Ideal) m ρ m' ρ' c h2 h4 h6 h8
  have hW := weights_eq m ρ m' ρ' c h1 h3 h5 h7
  have hband := weights_banded m' ρ' c
  have hblk : ∀ t : Fin 64,
      Cert.KernelIdeal.ConvValue.featValK (Cert.Spec.xblk (Cert.KernelIdeal.Gen.V3 m ρ c Cert.KernelIdeal.main_v216) t) (Cert.KernelIdeal.Gen.V3 m ρ c Cert.KernelIdeal.main_v206) (Cert.KernelIdeal.Gen.V3 m ρ c Cert.KernelIdeal.main_v213)
        = Cert.ReferenceIdeal.Hand.featVal (F := Ideal) (Cert.Spec.xblk (Cert.KernelIdeal.Gen.V3 m ρ c Cert.KernelIdeal.main_v216) t) (Cert.ReferenceIdeal.Hand.V53 m' ρ' c Cert.ReferenceIdeal.main_v200) (Cert.KernelIdeal.Gen.V3 m ρ c Cert.KernelIdeal.main_v213) :=
    fun t => block_eq _ _ _ _ hW hband
  constructor
  · rw [show Cert.ReferenceIdeal.Hand.W54 (F := Ideal) m' ρ' c (Proc.devRef .tc Cert.ReferenceIdeal.main_v211_0) = _ from
        (Cert.ReferenceIdeal.Hand.W54_arr m' ρ' c 3).trans (Cert.ReferenceIdeal.ConvArr.final3 (Cert.ReferenceIdeal.Hand.V53 m' ρ') c),
      show Cert.KernelIdeal.Gen.W4 (F := Ideal) m ρ c (Proc.devRef .tc Cert.KernelIdeal.main_v217_0) = _ from
        (Cert.KernelIdeal.Gen.W4_arr m ρ c 3).trans (Cert.KernelIdeal.ConvArr.final3 (Cert.KernelIdeal.Gen.V3 m ρ) c)]
    rw [hx, hb]
    exact congrArg Cert.Spec.ofBlocks (funext fun t => (hblk t).symm)
  · rw [show Cert.ReferenceIdeal.Hand.W54 (F := Ideal) m' ρ' c (Proc.devRef .tc Cert.ReferenceIdeal.main_v211_1) = _ from
        (Cert.ReferenceIdeal.Hand.W54_arr m' ρ' c 4).trans (Cert.ReferenceIdeal.ConvArr.final4 (Cert.ReferenceIdeal.Hand.V53 m' ρ') c),
      show Cert.KernelIdeal.Gen.W4 (F := Ideal) m ρ c (Proc.devRef .tc Cert.KernelIdeal.main_v217_1) = _ from
        (Cert.KernelIdeal.Gen.W4_arr m ρ c 4).trans (Cert.KernelIdeal.ConvArr.final4 (Cert.KernelIdeal.Gen.V3 m ρ) c)]
    rw [hx, hb]
    refine congrArg Cert.Spec.ofBlocks (funext fun t => ?_)
    rw [stats_of_feat, hblk t]

end Cert.Bridge

end
-- ==== Proof.ResultEq.lean ====
/-
  The one equation the two programs' equality comes down to: from memories agreeing on the arguments, what the reference's
  fold leaves in its result buffer is what the idealized kernel's fold leaves in its own.

  The chain, from the end of the programs backwards: the closing reshape and transpose are the same on both sides
  (Closing); the two second regions compute one pointwise function of their entry arrays (KTail, RTail, OutEq); the
  operations between the regions are the same on both sides but for the gate's first layer, where a division by 1024 sits
  on the other operand (Glue, GateLaw); no segment before that writes an argument (KArgs, RefArgs); and the two
  convolution regions leave equal feature and statistics arrays (ConvEq, from the two facts about the weight folds in Weights).  The precondition is not used: no
  step needs a finite value.
-/
import proofs.«179230_g2000505885998750_pallasbulk_270_2_alg».proof.Defs
import proofs.«179230_g2000505885998750_pallasbulk_270_2_alg».proof.Proof.Closing
import proofs.«179230_g2000505885998750_pallasbulk_270_2_alg».proof.Proof.Glue
import proofs.«179230_g2000505885998750_pallasbulk_270_2_alg».proof.Proof.KArgs
import proofs.«179230_g2000505885998750_pallasbulk_270_2_alg».proof.Proof.RefArgs
import proofs.«179230_g2000505885998750_pallasbulk_270_2_alg».proof.Proof.ConvEq
import proofs.«179230_g2000505885998750_pallasbulk_270_2_alg».proof.Proof.Gen.Pre_finite_inputs

set_option maxRecDepth 16384

noncomputable section

namespace Cert.Bridge

open Idealize.ShloMosaic Idealize.ShloMosaic.TcCoe Idealize.SL.Sem

/-- The reference's result array is the idealized kernel's. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Hand.W59 (F := Ideal) m' ρ' c (Proc.devRef .tc Cert.ReferenceIdeal.main_v271)
      = Cert.KernelIdeal.Gen.W9 (F := Ideal) m ρ c (Proc.devRef .tc Cert.KernelIdeal.main_v277) := by
  obtain ⟨hfeat, hst⟩ := conv_eq m ρ m' ρ' c h0 h1 h2 h3 h4 h5 h6 h7 h8
  have a9 := ((Cert.ReferenceIdeal.Hand.W54_arg m' ρ' Cert.ReferenceIdeal.main_arg9 (by decide) c).trans (h9.trans (Cert.KernelIdeal.Args.W4_arg m ρ Cert.KernelIdeal.main_arg9 (by decide) c).symm))
  have a10 := ((Cert.ReferenceIdeal.Hand.W54_arg m' ρ' Cert.ReferenceIdeal.main_arg10 (by decide) c).trans (h10.trans (Cert.KernelIdeal.Args.W4_arg m ρ Cert.KernelIdeal.main_arg10 (by decide) c).symm))
  have a11 := ((Cert.ReferenceIdeal.Hand.W54_arg m' ρ' Cert.ReferenceIdeal.main_arg11 (by decide) c).trans (h11.trans (Cert.KernelIdeal.Args.W4_arg m ρ Cert.KernelIdeal.main_arg11 (by decide) c).symm))
  have a12 := ((Cert.ReferenceIdeal.Hand.W54_arg m' ρ' Cert.ReferenceIdeal.main_arg12 (by decide) c).trans (h12.trans (Cert.KernelIdeal.Args.W4_arg m ρ Cert.KernelIdeal.main_arg12 (by decide) c).symm))
  have a13 := ((Cert.ReferenceIdeal.Hand.W54_arg m' ρ' Cert.ReferenceIdeal.main_arg13 (by decide) c).trans (h13.trans (Cert.KernelIdeal.Args.W4_arg m ρ Cert.KernelIdeal.main_arg13 (by decide) c).symm))
  have a14 := ((Cert.ReferenceIdeal.Hand.W54_arg m' ρ' Cert.ReferenceIdeal.main_arg14 (by decide) c).trans (h14.trans (Cert.KernelIdeal.Args.W4_arg m ρ Cert.KernelIdeal.main_arg14 (by decide) c).symm))
  exact result_of_out m ρ m' ρ' c
    (out_of_entry m ρ m' ρ' c
      (feat_entry m ρ m' ρ' c hfeat)
      (scale_entry m ρ m' ρ' c hst a9 a10 a11 a12 a13)
      (shift_entry m ρ m' ρ' c hst a9 a10 a11 a12 a13 a14))

end Cert.Bridge

end
-- ==== Proof.lean ====
/-
  Both programs compute one function of the arguments.  Fold the 1x1 convolution and the three dilated 3x3 convolutions
  into seven row-shift matrices `Wf g` (one per row offset -4, -2, -1, 0, 1, 2, 4), of size 512 x 512 over lanes
  `w * 16 + c`: the block `(w_in, w_out)` of `Wf g` is the sum of the taps with that row offset and column offset
  `w_in - w_out`, and is zero when `|w_in - w_out| > 4`.  With the input laid out as rows of 512 lanes and padded by
  four zero rows above and below,
      feat[b, h, l] = bias[l] + ∑ g, ∑ k, xpad[b, h + 4 + dy g, k] * Wf g [k, l],
  its per-image lane sums and sums of squares feed a two-layer gate `cw = sigmoid(relu(avg · wfc1ᵀ + bfc1) · wfc2ᵀ + bfc2)`,
  the batch statistics `mu`, `var` of `feat * cw`, and the result is `relu(feat * (cw * inv) + (beta - mu * inv))`
  with `inv = gamma * rsqrt(var + eps)`, transposed back to channel-major.

  The two programs differ in three places, none of which changes an extended real:
    * the kernel builds `Wf` by a gather from a table of summed taps times a 0/1 band mask, the reference by summing
      Kronecker products of 0/1 shift matrices with the taps — in both, an entry is the one tap sum whose column offset
      is `w_in - w_out`, the others multiplied by `0`;
    * the kernel contracts, for each tile of 128 output lanes, only the three tiles of input lanes around it, the
      reference all four: the weights left out have `|w_in - w_out| ≥ 9` and are `0` (SumLaws.sum_mul_window);
    * the kernel divides the gate's first-layer weights by `H * W`, the reference the lane sums
      (SumLaws.sum_scale_left_right).
  The kernel's matrix operands are cast to bf16 and its second pass uses blocks of 16 images where the reference's uses
  32: at the extended reals a format change is the identity, and a pointwise pass does not depend on its tiling.

  The proof: the three frames (the reference's in Proof/RefConv, RefTail, RefFold, RefRun: its two regions' bodies, its
  buffer contents at every boundary of @main, and its run), that the idealization rewrote nothing, both programs' runs
  with their result arrays named (Proof/KernelRun, Proof/RefRun), and the equality of the two results (Proof/ResultEq and
  what it imports): the closing reshape and transpose, the second regions, the gate, the padded input and the bias row, the
  convolution regions with the band argument, and the two stacks of row-shift matrices — equal entry by entry
  (Proof/StackMatch) and zero outside the band (Proof/RefBand).
-/
import proofs.«179230_g2000505885998750_pallasbulk_270_2_alg».proof.Defs
import proofs.«179230_g2000505885998750_pallasbulk_270_2_alg».proof.Proof.Gen.Kernel
import proofs.«179230_g2000505885998750_pallasbulk_270_2_alg».proof.Proof.Gen.Kernel.Skeleton
import proofs.«179230_g2000505885998750_pallasbulk_270_2_alg».proof.Proof.Gen.Kernel.Launch
import proofs.«179230_g2000505885998750_pallasbulk_270_2_alg».proof.Proof.Gen.Kernel.Points
import proofs.«179230_g2000505885998750_pallasbulk_270_2_alg».proof.Proof.Gen.Kernel.Frame
import proofs.«179230_g2000505885998750_pallasbulk_270_2_alg».proof.Proof.Gen.KernelIdeal
import proofs.«179230_g2000505885998750_pallasbulk_270_2_alg».proof.Proof.Gen.KernelIdeal.Skeleton
import proofs.«179230_g2000505885998750_pallasbulk_270_2_alg».proof.Proof.Gen.KernelIdeal.Launch
import proofs.«179230_g2000505885998750_pallasbulk_270_2_alg».proof.Proof.Gen.KernelIdeal.Points
import proofs.«179230_g2000505885998750_pallasbulk_270_2_alg».proof.Proof.Gen.KernelIdeal.Frame
import proofs.«179230_g2000505885998750_pallasbulk_270_2_alg».proof.Proof.Gen.ReferenceIdeal
import proofs.«179230_g2000505885998750_pallasbulk_270_2_alg».proof.Proof.Gen.ReferenceIdeal.Skeleton
import proofs.«179230_g2000505885998750_pallasbulk_270_2_alg».proof.Proof.Gen.ReferenceIdeal.Launch
import proofs.«179230_g2000505885998750_pallasbulk_270_2_alg».proof.Proof.Gen.ReferenceIdeal.Regions
import proofs.«179230_g2000505885998750_pallasbulk_270_2_alg».proof.Proof.Gen.ReferenceIdeal.Points
import proofs.«179230_g2000505885998750_pallasbulk_270_2_alg».proof.Proof.Gen.Pre_finite_inputs
import proofs.«179230_g2000505885998750_pallasbulk_270_2_alg».proof.Proof.KernelRun
import proofs.«179230_g2000505885998750_pallasbulk_270_2_alg».proof.Proof.LibSumLaws
import proofs.«179230_g2000505885998750_pallasbulk_270_2_alg».proof.Proof.RefRun
import proofs.«179230_g2000505885998750_pallasbulk_270_2_alg».proof.Proof.ResultEq
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched. -/
theorem frame_ri : Cert.frame_ReferenceIdeal := fun m ρ _ => Cert.ReferenceIdeal.Hand.frame m ρ

/-- The ideal pass rewrote no operation of the kernel. -/
theorem preserves : Cert.preserves_Kernel_KernelIdeal := trivial

/-- From memories agreeing on the arguments, the idealized kernel and the idealized reference end with equal results. -/
theorem algebraic : Cert.algebraic_KernelIdeal_ReferenceIdeal := by
  intro m ρ m' ρ' hpre hagree
  refine ⟨fun c => Cert.KernelIdeal.Gen.W9 m ρ c (Proc.devRef .tc Cert.KernelIdeal.main_v277), ?_, ?_⟩
  · exact Cert.KernelIdeal.Named.run_named (F := Ideal) m ρ
  · exact (θ_run Cert.ReferenceIdeal.defs _ _).mono
      (fun r h c => ⟨(h c).1.trans (Cert.Bridge.result_eq m ρ m' ρ' hpre c
          (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2), (h c).2⟩)
      (Cert.ReferenceIdeal.Hand.run_named (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
